-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S512x40 : Shape := ⟨2, ![512, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S512x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x40 .f32 := Host.absf main_arg10
  let main_cst_16 : FVec F S_ .f32 := constant S_ .f32 0x7F800000#32
  let main_v45 : FVec F S512x40 .f32 := broadcastInDim S512x40 ![] bcast_S_S512x40 main_cst_16
  let main_v46 : IVec S512x40 1 := cmpf .olt main_v44 main_v45
  let main_c_17 : IVec S_ 1 := constantI S_ 1 1#1
  let main_v47 : IVec S_ 1 := (fun x v => Host.reduce IntOp.andi x v reducesTo_S512x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S512x40 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S512x40 .f32) (main_arg11 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S512x40 : Shape := ⟨2, ![512, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S100000x512 : Shape := ⟨2, ![100000, 512]⟩
abbrev S1x40 : Shape := ⟨2, ![1, 40]⟩
abbrev S100000x40 : Shape := ⟨2, ![100000, 40]⟩
abbrev S4000x512 : Shape := ⟨2, ![4000, 512]⟩
abbrev S4000x40 : Shape := ⟨2, ![4000, 40]⟩

abbrev nBuf : Space → Nat
  | .hbm => 142
  | .vmem => 50
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S512x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .f32⟩
  | 56 => ⟨S1x128, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S_, .f32⟩
  | 77 => ⟨S1x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S_, .f32⟩
  | 98 => ⟨S1x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x1, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S_, .f32⟩
  | 119 => ⟨S1x128, .f32⟩
  | 120 => ⟨S100000x128, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x256, .f32⟩

abbrev hbmTy0_1 (i : Nat) : BufTy := match i % 128 with
  | 0 => ⟨S1700000x1, .i32⟩
  | 1 => ⟨S1700000x128, .f32⟩
  | 2 => ⟨S1700000x1, .f32⟩
  | 3 => ⟨S1700000x128, .f32⟩
  | 4 => ⟨S1700000x128, .f32⟩
  | 5 => ⟨S_, .f32⟩
  | 6 => ⟨S100000x128, .f32⟩
  | 7 => ⟨S1700000x1, .i32⟩
  | 8 => ⟨S100000x128, .f32⟩
  | 9 => ⟨S1x128, .f32⟩
  | 10 => ⟨S100000x128, .f32⟩
  | 11 => ⟨S100000x512, .f32⟩
  | 12 => ⟨S1x40, .f32⟩
  | 13 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S4000x512, .f32⟩
  | .local _ .vmem, ⟨45, _⟩ => ⟨S4000x512, .f32⟩
  | .local _ .vmem, ⟨46, _⟩ => ⟨S512x40, .f32⟩
  | .local _ .vmem, ⟨47, _⟩ => ⟨S1x40, .f32⟩
  | .local _ .vmem, ⟨48, _⟩ => ⟨S4000x40, .f32⟩
  | .local _ .vmem, ⟨49, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_c_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem3_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1x128 : S_.BroadcastsInDim S1x128 (![] : Fin 0 → Fin S1x128.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  concatenates_S100000x128_S100000x128_S100000x128_S100000x128_S100000x512_d1 : Shape.Concatenates [S100000x128, S100000x128, S100000x128, S100000x128] S100000x512 1
  shapeCasts_S40_S1x40 : S40.ShapeCasts S1x40
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S512x40_S512x40_0_0 : ∀ a, (![0, 0] : Fin 2 → Nat) a + S512x40.size a ≤ S512x40.size a
  h_S512x40 : 0 < S512x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S4000x512_S512x40_S4000x40_1_0_0_1_n_n_wf : DotDims.WF S4000x512 S512x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x512.size a ≤ S100000x512.size a
  hwx8_0 : ∀ i : grid8.Coords, EltTy.bits .f32 = 32 ∨ (Rect.block (s := S100000x512) S4000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x40.size a ≤ S512x40.size a
  hwx8_1 : ∀ i : grid8.Coords, EltTy.bits .f32 = 32 ∨ (Rect.block (s := S512x40) S512x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x40.size a ≤ S100000x40.size a
  hwx8_3 : ∀ i : grid8.Coords, EltTy.bits .f32 = 32 ∨ (Rect.block (s := S100000x40) S4000x40.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x512_S512x40_S4000x40_1_0_0_1_n_n : DotDims S4000x512 S512x40 S4000x40 where
  lhsContracting := [1]
  rhsContracting := [0]
  lhsNonContracting := [0]
  rhsNonContracting := [1]
  lhsBatch := []
  rhsBatch := []
  wf := dot_S4000x512_S512x40_S4000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v97) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v100) S4000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S512x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v101) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S4000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S512x40 : Shape := ⟨2, ![512, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x512 : Shape := ⟨2, ![100000, 512]⟩
abbrev S100000x40 : Shape := ⟨2, ![100000, 40]⟩
abbrev S1x40 : Shape := ⟨2, ![1, 40]⟩

abbrev nBuf : Space → Nat
  | .hbm => 152
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S512x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .i32⟩
  | 126 => ⟨S1700000, .i32⟩
  | 127 => ⟨S1700000, .i1⟩
  | _ => ⟨S100000x256, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x512, .f32⟩
  | 20 => ⟨S100000x40, .f32⟩
  | 21 => ⟨S1x40, .f32⟩
  | 22 => ⟨S100000x40, .f32⟩
  | 23 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x512_S512x40_S100000x40_1_0_0_1_n_n_wf : DotDims.WF S100000x512 S512x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x512_S512x40_S100000x40_1_0_0_1_n_n : DotDims S100000x512 S512x40 S100000x40 where
  lhsContracting := [1]
  rhsContracting := [0]
  lhsNonContracting := [0]
  rhsNonContracting := [1]
  lhsBatch := []
  rhsBatch := []
  wf := dot_S100000x512_S512x40_S100000x40_1_0_0_1_n_n_wf

class Facts : Prop extends Facts₀ where

variable [Facts]
-- ==== Proof.KB.Body0.lean ====
/-
  Region 0 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point's block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's block index has not moved since the last fetch, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's block index has not moved since the last fetch, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its whole block. -/
abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output's staging buffer after the body: the one whole-block store of the body's value of the input blocks. -/
def out0_3 (x0 : Vec F S5000x256 .f32) (x1 : Vec F S256x128 .f32) (x2 : Vec F S1x128 .f32) : Vec F S5000x128 .f32 :=
  View.canon [⟨r0_3, k0_pay1 (View.ld x0 r0_0) (View.ld x1 r0_1) (View.ld x2 r0_2)⟩]

/-- The one store covers the whole block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' holding `x` and the output's anything, ends with the inputs' unchanged
    and the output's holding the stored value. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Body1.lean ====
/-
  Region 1 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point's block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its whole block. -/
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output's staging buffer after the body: the one whole-block store of the body's value of the input blocks. -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the whole block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging buffers, the inputs' holding `x` and the output's anything, ends with the inputs' unchanged
    and the output's holding the stored value. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input's
    buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Body2.lean ====
/-
  Region 2 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point's block index has not moved since the last fetch, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point's block index has not moved since the last fetch, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point's block index has not moved since the last fetch, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its whole block. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-- The output's staging buffer after the body: the one whole-block store of the body's value of the input blocks. -/
def out2_3 (x0 : Vec F S5000x128 .f32) (x1 : Vec F S128x128 .f32) (x2 : Vec F S1x128 .f32) : Vec F S5000x128 .f32 :=
  View.canon [⟨r2_3, k2_pay1 (View.ld x0 r2_0) (View.ld x1 r2_1) (View.ld x2 r2_2)⟩]

/-- The one store covers the whole block. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

set_option maxHeartbeats 1000000 in
/-- The body on whole staging buffers, the inputs' holding `x` and the output's anything, ends with the inputs' unchanged
    and the output's holding the stored value. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Body3.lean ====
/-
  Region 3 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched
    point's block index has not moved since the last fetch, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched
    point's block index has not moved since the last fetch, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each is its whole block. -/
abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

/-- The output's staging buffer after the body: the one whole-block store of the body's value of the input blocks. -/
def out3_2 (x0 : Vec F S5000x128 .f32) (x1 : Vec F S1x128 .f32) : Vec F S5000x128 .f32 :=
  View.canon [⟨r3_2, k3_pay1 (View.ld x0 r3_0) (View.ld x1 r3_1)⟩]

/-- The one store covers the whole block. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging buffers, the inputs' holding `x` and the output's anything, ends with the inputs' unchanged
    and the output's holding the stored value. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Body4.lean ====
/-
  Region 4 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    point's block index has not moved since the last fetch, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    point's block index has not moved since the last fetch, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    point's block index has not moved since the last fetch, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each is its whole block. -/
abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S5000x128 := Rect.unit (s := S5000x128) ![0, 0] S5000x128.size inb_S5000x128_S5000x128_0_0

/-- The output's staging buffer after the body: the one whole-block store of the body's value of the input blocks. -/
def out4_3 (x0 : Vec F S5000x128 .f32) (x1 : Vec F S128x128 .f32) (x2 : Vec F S1x128 .f32) : Vec F S5000x128 .f32 :=
  View.canon [⟨r4_3, k4_pay1 (View.ld x0 r4_0) (View.ld x1 r4_1) (View.ld x2 r4_2)⟩]

/-- The one store covers the whole block. -/
theorem cover4_3 (p0 : Vec F S5000x128 .f32) (y : S5000x128.Idx) :
    ∃ pc ∈ ([⟨r4_3, p0⟩] : List (View.Piece (Elt F) S5000x128 .f32)), y ∈ pc.1.set :=
  View.cover_of_tiled [⟨r4_3, p0⟩] S5000x128.size (by rfl) y

set_option maxHeartbeats 1000000 in
/-- The body on whole staging buffers, the inputs' holding `x` and the output's anything, ends with the inputs' unchanged
    and the output's holding the stored value. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_kernel i arg1 harg1 arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's
    buffer at its block and the output's at the body's value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Body5.lean ====
/-
  Region 5 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched
    point's block index has not moved since the last fetch, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched
    point's block index has not moved since the last fetch, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each is its whole block. -/
abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S5000x128 := Rect.unit (s := S5000x128) ![0, 0] S5000x128.size inb_S5000x128_S5000x128_0_0

/-- The output's staging buffer after the body: the one whole-block store of the body's value of the input blocks. -/
def out5_2 (x0 : Vec F S5000x128 .f32) (x1 : Vec F S1x128 .f32) : Vec F S5000x128 .f32 :=
  View.canon [⟨r5_2, k5_pay1 (View.ld x0 r5_0) (View.ld x1 r5_1)⟩]

/-- The one store covers the whole block. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

set_option maxHeartbeats 1000000 in
/-- The body on whole staging buffers, the inputs' holding `x` and the output's anything, ends with the inputs' unchanged
    and the output's holding the stored value. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each input's
    buffer at its block and the output's at the body's value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Body6.lean ====
/-
  Region 6 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: an unfetched
    point's block index has not moved since the last fetch, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: an unfetched
    point's block index has not moved since the last fetch, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: an unfetched
    point's block index has not moved since the last fetch, and the body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each is its whole block. -/
abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S5000x128 := Rect.unit (s := S5000x128) ![0, 0] S5000x128.size inb_S5000x128_S5000x128_0_0

/-- The output's staging buffer after the body: the one whole-block store of the body's value of the input blocks. -/
def out6_3 (x0 : Vec F S5000x128 .f32) (x1 : Vec F S128x128 .f32) (x2 : Vec F S1x128 .f32) : Vec F S5000x128 .f32 :=
  View.canon [⟨r6_3, k6_pay1 (View.ld x0 r6_0) (View.ld x1 r6_1) (View.ld x2 r6_2)⟩]

/-- The one store covers the whole block. -/
theorem cover6_3 (p0 : Vec F S5000x128 .f32) (y : S5000x128.Idx) :
    ∃ pc ∈ ([⟨r6_3, p0⟩] : List (View.Piece (Elt F) S5000x128 .f32)), y ∈ pc.1.set :=
  View.cover_of_tiled [⟨r6_3, p0⟩] S5000x128.size (by rfl) y

set_option maxHeartbeats 1000000 in
/-- The body on whole staging buffers, the inputs' holding `x` and the output's anything, ends with the inputs' unchanged
    and the output's holding the stored value. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each input's
    buffer at its block and the output's at the body's value of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Body7.lean ====
/-
  Region 7 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: an unfetched
    point's block index has not moved since the last fetch, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: an unfetched
    point's block index has not moved since the last fetch, and the body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each is its whole block. -/
abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S5000x128 := Rect.unit (s := S5000x128) ![0, 0] S5000x128.size inb_S5000x128_S5000x128_0_0

/-- The output's staging buffer after the body: the one whole-block store of the body's value of the input blocks. -/
def out7_2 (x0 : Vec F S5000x128 .f32) (x1 : Vec F S1x128 .f32) : Vec F S5000x128 .f32 :=
  View.canon [⟨r7_2, k7_pay1 (View.ld x0 r7_0) (View.ld x1 r7_1)⟩]

/-- The one store covers the whole block. -/
theorem cover7_2 (p0 : Vec F S5000x128 .f32) (y : S5000x128.Idx) :
    ∃ pc ∈ ([⟨r7_2, p0⟩] : List (View.Piece (Elt F) S5000x128 .f32)), y ∈ pc.1.set :=
  View.cover_of_tiled [⟨r7_2, p0⟩] S5000x128.size (by rfl) y

set_option maxHeartbeats 1000000 in
/-- The body on whole staging buffers, the inputs' holding `x` and the output's anything, ends with the inputs' unchanged
    and the output's holding the stored value. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_relu_kernel i arg1 harg1 arg2 harg2 arg3 harg3) K := by
  simp only [cc7__bias_relu_kernel_eq_skeleton]; unfold cc7__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each input's
    buffer at its block and the output's at the body's value of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.Body8.lean ====
/-
  Region 8 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.Kernel.Launch
import proofs.«152695_j35802847379839_1_alg».proof.Proof.Gen.Kernel.Skeleton
import proofs.«152695_j35802847379839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: an unfetched
    point's block index has not moved since the last fetch, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: an unfetched
    point's block index has not moved since the last fetch, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: an unfetched
    point's block index has not moved since the last fetch, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body reads and writes: each is its whole block. -/
abbrev r8_0 : Rect S4000x512 := Rect.unit (s := S4000x512) ![0, 0] S4000x512.size inb_S4000x512_S4000x512_0_0
abbrev r8_1 : Rect S512x40 := Rect.unit (s := S512x40) ![0, 0] S512x40.size inb_S512x40_S512x40_0_0
abbrev r8_2 : Rect S1x40 := Rect.unit (s := S1x40) ![0, 0] S1x40.size inb_S1x40_S1x40_0_0
abbrev r8_3 : Rect S4000x40 := Rect.unit (s := S4000x40) ![0, 0] S4000x40.size inb_S4000x40_S4000x40_0_0

/-- The output's staging buffer after the body: the one whole-block store of the body's value of the input blocks. -/
def out8_3 (x0 : Vec F S4000x512 .f32) (x1 : Vec F S512x40 .f32) (x2 : Vec F S1x40 .f32) : Vec F S4000x40 .f32 :=
  View.canon [⟨r8_3, k8_pay1 (View.ld x0 r8_0) (View.ld x1 r8_1) (View.ld x2 r8_2)⟩]

/-- The one store covers the whole block. -/
theorem cover8_3 (p0 : Vec F S4000x40 .f32) (y : S4000x40.Idx) :
    ∃ pc ∈ ([⟨r8_3, p0⟩] : List (View.Piece (Elt F) S4000x40 .f32)), y ∈ pc.1.set :=
  View.cover_of_tiled [⟨r8_3, p0⟩] S4000x40.size (by rfl) y

set_option maxHeartbeats 1000000 in
/-- The body on whole staging buffers, the inputs' holding `x` and the output's anything, ends with the inputs' unchanged
    and the output's holding the stored value. -/
theorem sound_kernel8 (c : Dev nD) (E : Set ℕ) (i : grid8.Coords) (arg1 : Memref sig .tc .vmem S4000x512 .f32) (harg1 : arg1.IsWhole) (arg2 : Memref sig .tc .vmem S512x40 .f32) (harg2 : arg2.IsWhole) (arg3 : Memref sig .tc .vmem S1x40 .f32) (harg3 : arg3.IsWhole) (arg4 : Memref sig .tc .vmem S4000x40 .f32) (harg4 : arg4.IsWhole)
    (x0 : Vec F S4000x512 .f32) (x1 : Vec F S512x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_kernel i arg1 harg1 arg2 harg2 arg3 harg3 arg4 harg4) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's
    buffer at its block and the output's at the body's value of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KB.Run.lean ====
/-
  The run of the whole program: @main is twenty items in a row — eleven stretches of host operations and nine
  kernel regions.  The buffer contents at each boundary between items are a fold from the launch memory: a host
  stretch applies its operations; a region leaves each of its arrays at what its pipeline's write-backs leave
  (an input array as entered, the output array at the blocks the grid points wrote) and every other buffer as entered.
  Each region is entered from "every unscoped buffer at the boundary's contents, the generator register at some
  state, nothing owed" and left in the same form at the next boundary, so the items chain, and every weakly fair
  execution terminates with every unscoped buffer at the last boundary's contents.  Holds at any float instance.
-/
import proofs.«152695_j35802847379839_1_alg».proof.Proof.KB.Body0
import proofs.«152695_j35802847379839_1_alg».proof.Proof.KB.Body1
import proofs.«152695_j35802847379839_1_alg».proof.Proof.KB.Body2
import proofs.«152695_j35802847379839_1_alg».proof.Proof.KB.Body3
import proofs.«152695_j35802847379839_1_alg».proof.Proof.KB.Body4
import proofs.«152695_j35802847379839_1_alg».proof.Proof.KB.Body5
import proofs.«152695_j35802847379839_1_alg».proof.Proof.KB.Body6
import proofs.«152695_j35802847379839_1_alg».proof.Proof.KB.Body7
import proofs.«152695_j35802847379839_1_alg».proof.Proof.KB.Body8

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- The same read at the TensorCore's references. -/
abbrev E0 : (c : Dev nD) → (b : Ref sig .tc) → Buf (Elt F) ((c : Thread nD τ).loc b) := fun c b => B0 m c b
/-- After `hostOps0`. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After `hostOps0_1`. -/
abbrev B2 : Dev nD → Valuation τ sig (Elt F) := fun c => StableHlo.after hostOps0_1 (B1 m c)
abbrev E2 : (c : Dev nD) → (b : Ref sig .tc) → Buf (Elt F) ((c : Thread nD τ).loc b) := fun c b => B2 m c b
/-- After `hostOps0_2`. -/
abbrev B3 : Dev nD → Valuation τ sig (Elt F) := fun c => StableHlo.after hostOps0_2 (B2 m c)
abbrev E3 : (c : Dev nD) → (b : Ref sig .tc) → Buf (Elt F) ((c : Thread nD τ).loc b) := fun c b => B3 m c b
/-- At region 0's exit: its arrays at what the pipeline leaves, every other buffer as entered. -/
def B4 (c : Dev nD) : Valuation τ sig (Elt F) :=
  Pipeline.withArrays spec0 c (B3 m c) fun w => (dat0 (E3 m) c).arrAt w cfg0.N
theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem hF0 (c : Dev nD) (w : Fin cfg0.W) : (dat0 (E3 m) c).arrAt w cfg0.N = E4 m c (Pipeline.arrRef spec0 w) :=
  (B4_arr m c w).symm
theorem hrest0 (c : Dev nD) : ∀ b, b ∉ Finset.univ.image (Pipeline.arrRef spec0) → E4 m c b = E3 m c b :=
  fun b hb => B4_of_ne m c b fun w e => hb (Finset.mem_image.mpr ⟨w, Finset.mem_univ _, e⟩)
/-- After `hostOps1`. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b
/-- At region 1's exit: its arrays at what the pipeline leaves, every other buffer as entered. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem hF1 (c : Dev nD) (w : Fin cfg1.W) : (dat1 (E5 m) c).arrAt w cfg1.N = E6 m c (Pipeline.arrRef spec1 w) :=
  (B6_arr m c w).symm
theorem hrest1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After `hostOps2`. -/
abbrev B7 : Dev nD → Valuation τ sig (Elt F) := fun c => StableHlo.after hostOps2 (B6 m c)
abbrev E7 : (c : Dev nD) → (b : Ref sig .tc) → Buf (Elt F) ((c : Thread nD τ).loc b) := fun c b => B7 m c b
/-- At region 2's exit: its arrays at what the pipeline leaves, every other buffer as entered. -/
def B8 (c : Dev nD) : Valuation τ sig (Elt F) :=
  Pipeline.withArrays spec2 c (B7 m c) fun w => (dat2 (E7 m) c).arrAt w cfg2.N
theorem B8_arr (c : Dev nD) (w : Fin cfg2.W) :
    B8 m c (Proc.devRef .tc (Pipeline.arrRef spec2 w)) = (dat2 (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem hF2 (c : Dev nD) (w : Fin cfg2.W) : (dat2 (E7 m) c).arrAt w cfg2.N = E8 m c (Pipeline.arrRef spec2 w) :=
  (B8_arr m c w).symm
theorem hrest2 (c : Dev nD) : ∀ b, b ∉ Finset.univ.image (Pipeline.arrRef spec2) → E8 m c b = E7 m c b :=
  fun b hb => B8_of_ne m c b fun w e => hb (Finset.mem_image.mpr ⟨w, Finset.mem_univ _, e⟩)
/-- After `hostOps3`. -/
abbrev B9 : Dev nD → Valuation τ sig (Elt F) := fun c => StableHlo.after hostOps3 (B8 m c)
abbrev E9 : (c : Dev nD) → (b : Ref sig .tc) → Buf (Elt F) ((c : Thread nD τ).loc b) := fun c b => B9 m c b
/-- At region 3's exit: its arrays at what the pipeline leaves, every other buffer as entered. -/
def B10 (c : Dev nD) : Valuation τ sig (Elt F) :=
  Pipeline.withArrays spec3 c (B9 m c) fun w => (dat3 (E9 m) c).arrAt w cfg3.N
theorem B10_arr (c : Dev nD) (w : Fin cfg3.W) :
    B10 m c (Proc.devRef .tc (Pipeline.arrRef spec3 w)) = (dat3 (E9 m) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m c (Proc.devRef .tc b) = B9 m c (Proc.devRef .tc b) := by
  unfold B10; exact Pipeline.withArrays_of_ne spec3 c _ _ b hb
abbrev E10 : (c : Dev nD) → (b : Ref sig .tc) → Buf (Elt F) ((c : Thread nD τ).loc b) := fun c b => B10 m c b
theorem hF3 (c : Dev nD) (w : Fin cfg3.W) : (dat3 (E9 m) c).arrAt w cfg3.N = E10 m c (Pipeline.arrRef spec3 w) :=
  (B10_arr m c w).symm
theorem hrest3 (c : Dev nD) : ∀ b, b ∉ Finset.univ.image (Pipeline.arrRef spec3) → E10 m c b = E9 m c b :=
  fun b hb => B10_of_ne m c b fun w e => hb (Finset.mem_image.mpr ⟨w, Finset.mem_univ _, e⟩)
/-- After `hostOps4`. -/
abbrev B11 : Dev nD → Valuation τ sig (Elt F) := fun c => StableHlo.after hostOps4 (B10 m c)
abbrev E11 : (c : Dev nD) → (b : Ref sig .tc) → Buf (Elt F) ((c : Thread nD τ).loc b) := fun c b => B11 m c b
/-- At region 4's exit: its arrays at what the pipeline leaves, every other buffer as entered. -/
def B12 (c : Dev nD) : Valuation τ sig (Elt F) :=
  Pipeline.withArrays spec4 c (B11 m c) fun w => (dat4 (E11 m) c).arrAt w cfg4.N
theorem B12_arr (c : Dev nD) (w : Fin cfg4.W) :
    B12 m c (Proc.devRef .tc (Pipeline.arrRef spec4 w)) = (dat4 (E11 m) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m c (Proc.devRef .tc b) = B11 m c (Proc.devRef .tc b) := by
  unfold B12; exact Pipeline.withArrays_of_ne spec4 c _ _ b hb
abbrev E12 : (c : Dev nD) → (b : Ref sig .tc) → Buf (Elt F) ((c : Thread nD τ).loc b) := fun c b => B12 m c b
theorem hF4 (c : Dev nD) (w : Fin cfg4.W) : (dat4 (E11 m) c).arrAt w cfg4.N = E12 m c (Pipeline.arrRef spec4 w) :=
  (B12_arr m c w).symm
theorem hrest4 (c : Dev nD) : ∀ b, b ∉ Finset.univ.image (Pipeline.arrRef spec4) → E12 m c b = E11 m c b :=
  fun b hb => B12_of_ne m c b fun w e => hb (Finset.mem_image.mpr ⟨w, Finset.mem_univ _, e⟩)
/-- After `hostOps5`. -/
abbrev B13 : Dev nD → Valuation τ sig (Elt F) := fun c => StableHlo.after hostOps5 (B12 m c)
abbrev E13 : (c : Dev nD) → (b : Ref sig .tc) → Buf (Elt F) ((c : Thread nD τ).loc b) := fun c b => B13 m c b
/-- At region 5's exit: its arrays at what the pipeline leaves, every other buffer as entered. -/
def B14 (c : Dev nD) : Valuation τ sig (Elt F) :=
  Pipeline.withArrays spec5 c (B13 m c) fun w => (dat5 (E13 m) c).arrAt w cfg5.N
theorem B14_arr (c : Dev nD) (w : Fin cfg5.W) :
    B14 m c (Proc.devRef .tc (Pipeline.arrRef spec5 w)) = (dat5 (E13 m) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m c (Proc.devRef .tc b) = B13 m c (Proc.devRef .tc b) := by
  unfold B14; exact Pipeline.withArrays_of_ne spec5 c _ _ b hb
abbrev E14 : (c : Dev nD) → (b : Ref sig .tc) → Buf (Elt F) ((c : Thread nD τ).loc b) := fun c b => B14 m c b
theorem hF5 (c : Dev nD) (w : Fin cfg5.W) : (dat5 (E13 m) c).arrAt w cfg5.N = E14 m c (Pipeline.arrRef spec5 w) :=
  (B14_arr m c w).symm
theorem hrest5 (c : Dev nD) : ∀ b, b ∉ Finset.univ.image (Pipeline.arrRef spec5) → E14 m c b = E13 m c b :=
  fun b hb => B14_of_ne m c b fun w e => hb (Finset.mem_image.mpr ⟨w, Finset.mem_univ _, e⟩)
/-- After `hostOps6`. -/
abbrev B15 : Dev nD → Valuation τ sig (Elt F) := fun c => StableHlo.after hostOps6 (B14 m c)
abbrev E15 : (c : Dev nD) → (b : Ref sig .tc) → Buf (Elt F) ((c : Thread nD τ).loc b) := fun c b => B15 m c b
/-- At region 6's exit: its arrays at what the pipeline leaves, every other buffer as entered. -/
def B16 (c : Dev nD) : Valuation τ sig (Elt F) :=
  Pipeline.withArrays spec6 c (B15 m c) fun w => (dat6 (E15 m) c).arrAt w cfg6.N
theorem B16_arr (c : Dev nD) (w : Fin cfg6.W) :
    B16 m c (Proc.devRef .tc (Pipeline.arrRef spec6 w)) = (dat6 (E15 m) c).arrAt w cfg6.N := by
  unfold B16; exact Pipeline.withArrays_arr spec6 launch6.win.arr_inj c _ _ w
theorem B16_of_ne (c : Dev nD) (b : Ref sig .tc) (hb : ∀ w, Pipeline.arrRef spec6 w ≠ b) :
    B16 m c (Proc.devRef .tc b) = B15 m c (Proc.devRef .tc b) := by
  unfold B16; exact Pipeline.withArrays_of_ne spec6 c _ _ b hb
abbrev E16 : (c : Dev nD) → (b : Ref sig .tc) → Buf (Elt F) ((c : Thread nD τ).loc b) := fun c b => B16 m c b
theorem hF6 (c : Dev nD) (w : Fin cfg6.W) : (dat6 (E15 m) c).arrAt w cfg6.N = E16 m c (Pipeline.arrRef spec6 w) :=
  (B16_arr m c w).symm
theorem hrest6 (c : Dev nD) : ∀ b, b ∉ Finset.univ.image (Pipeline.arrRef spec6) → E16 m c b = E15 m c b :=
  fun b hb => B16_of_ne m c b fun w e => hb (Finset.mem_image.mpr ⟨w, Finset.mem_univ _, e⟩)
/-- After `hostOps7`. -/
abbrev B17 : Dev nD → Valuation τ sig (Elt F) := fun c => StableHlo.after hostOps7 (B16 m c)
abbrev E17 : (c : Dev nD) → (b : Ref sig .tc) → Buf (Elt F) ((c : Thread nD τ).loc b) := fun c b => B17 m c b
/-- At region 7's exit: its arrays at what the pipeline leaves, every other buffer as entered. -/
def B18 (c : Dev nD) : Valuation τ sig (Elt F) :=
  Pipeline.withArrays spec7 c (B17 m c) fun w => (dat7 (E17 m) c).arrAt w cfg7.N
theorem B18_arr (c : Dev nD) (w : Fin cfg7.W) :
    B18 m c (Proc.devRef .tc (Pipeline.arrRef spec7 w)) = (dat7 (E17 m) c).arrAt w cfg7.N := by
  unfold B18; exact Pipeline.withArrays_arr spec7 launch7.win.arr_inj c _ _ w
theorem B18_of_ne (c : Dev nD) (b : Ref sig .tc) (hb : ∀ w, Pipeline.arrRef spec7 w ≠ b) :
    B18 m c (Proc.devRef .tc b) = B17 m c (Proc.devRef .tc b) := by
  unfold B18; exact Pipeline.withArrays_of_ne spec7 c _ _ b hb
abbrev E18 : (c : Dev nD) → (b : Ref sig .tc) → Buf (Elt F) ((c : Thread nD τ).loc b) := fun c b => B18 m c b
theorem hF7 (c : Dev nD) (w : Fin cfg7.W) : (dat7 (E17 m) c).arrAt w cfg7.N = E18 m c (Pipeline.arrRef spec7 w) :=
  (B18_arr m c w).symm
theorem hrest7 (c : Dev nD) : ∀ b, b ∉ Finset.univ.image (Pipeline.arrRef spec7) → E18 m c b = E17 m c b :=
  fun b hb => B18_of_ne m c b fun w e => hb (Finset.mem_image.mpr ⟨w, Finset.mem_univ _, e⟩)
/-- After `hostOps8`. -/
abbrev B19 : Dev nD → Valuation τ sig (Elt F) := fun c => StableHlo.after hostOps8 (B18 m c)
abbrev E19 : (c : Dev nD) → (b : Ref sig .tc) → Buf (Elt F) ((c : Thread nD τ).loc b) := fun c b => B19 m c b
/-- At region 8's exit: its arrays at what the pipeline leaves, every other buffer as entered. -/
def B20 (c : Dev nD) : Valuation τ sig (Elt F) :=
  Pipeline.withArrays spec8 c (B19 m c) fun w => (dat8 (E19 m) c).arrAt w cfg8.N
theorem B20_arr (c : Dev nD) (w : Fin cfg8.W) :
    B20 m c (Proc.devRef .tc (Pipeline.arrRef spec8 w)) = (dat8 (E19 m) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m c (Proc.devRef .tc b) = B19 m c (Proc.devRef .tc b) := by
  unfold B20; exact Pipeline.withArrays_of_ne spec8 c _ _ b hb
abbrev E20 : (c : Dev nD) → (b : Ref sig .tc) → Buf (Elt F) ((c : Thread nD τ).loc b) := fun c b => B20 m c b
theorem hF8 (c : Dev nD) (w : Fin cfg8.W) : (dat8 (E19 m) c).arrAt w cfg8.N = E20 m c (Pipeline.arrRef spec8 w) :=
  (B20_arr m c w).symm
theorem hrest8 (c : Dev nD) : ∀ b, b ∉ Finset.univ.image (Pipeline.arrRef spec8) → E20 m c b = E19 m c b :=
  fun b hb => B20_of_ne m c b fun w e => hb (Finset.mem_image.mpr ⟨w, Finset.mem_univ _, e⟩)

/-! ## The proof data family and the thread state -/

/-- No pipeline has a prefetched table. -/
abbrev admF : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) admF p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c
  | ⟨7, _⟩ => fun c => dat7 (E17 m) c
  | ⟨8, _⟩ => fun c => dat8 (E19 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_nofresh : (hostOps0 : List (HloOp τ sig (Elt F))).Forall fun op => op.fresh = ∅ := by
  simp only [List.Forall]; repeat' constructor
/-- No operation of `hostOps0_1` allocates a buffer. -/
theorem hostOps0_1_nofresh : (hostOps0_1 : List (HloOp τ sig (Elt F))).Forall fun op => op.fresh = ∅ := by
  simp only [List.Forall]; repeat' constructor
/-- No operation of `hostOps0_2` allocates a buffer. -/
theorem hostOps0_2_nofresh : (hostOps0_2 : List (HloOp τ sig (Elt F))).Forall fun op => op.fresh = ∅ := by
  simp only [List.Forall]; repeat' constructor
/-- No operation of `hostOps1` allocates a buffer. -/
theorem hostOps1_nofresh : (hostOps1 : List (HloOp τ sig (Elt F))).Forall fun op => op.fresh = ∅ := by
  simp only [List.Forall]; repeat' constructor
/-- No operation of `hostOps2` allocates a buffer. -/
theorem hostOps2_nofresh : (hostOps2 : List (HloOp τ sig (Elt F))).Forall fun op => op.fresh = ∅ := by
  simp only [List.Forall]; repeat' constructor
/-- No operation of `hostOps3` allocates a buffer. -/
theorem hostOps3_nofresh : (hostOps3 : List (HloOp τ sig (Elt F))).Forall fun op => op.fresh = ∅ := by
  simp only [List.Forall]; repeat' constructor
/-- No operation of `hostOps4` allocates a buffer. -/
theorem hostOps4_nofresh : (hostOps4 : List (HloOp τ sig (Elt F))).Forall fun op => op.fresh = ∅ := by
  simp only [List.Forall]; repeat' constructor
/-- No operation of `hostOps5` allocates a buffer. -/
theorem hostOps5_nofresh : (hostOps5 : List (HloOp τ sig (Elt F))).Forall fun op => op.fresh = ∅ := by
  simp only [List.Forall]; repeat' constructor
/-- No operation of `hostOps6` allocates a buffer. -/
theorem hostOps6_nofresh : (hostOps6 : List (HloOp τ sig (Elt F))).Forall fun op => op.fresh = ∅ := by
  simp only [List.Forall]; repeat' constructor
/-- No operation of `hostOps7` allocates a buffer. -/
theorem hostOps7_nofresh : (hostOps7 : List (HloOp τ sig (Elt F))).Forall fun op => op.fresh = ∅ := by
  simp only [List.Forall]; repeat' constructor
/-- No operation of `hostOps8` allocates a buffer. -/
theorem hostOps8_nofresh : (hostOps8 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (B20 m c) ∗ ∃ r, prngReg c r)

/-! ## The regions as segments -/

set_option backward.isDefEq.respectTransparency.types false in
/-- Region 0: entered from every unscoped buffer at boundary 3's contents, left at boundary 4's. Its arrays are
    split out of the unscoped buffers and put back at the exit contents; the generator register goes into the
    pipeline's invariant and comes out; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 5's contents, left at boundary 6's. Its arrays are
    split out of the unscoped buffers and put back at the exit contents; the generator register goes into the
    pipeline's invariant and comes out; nothing is owed; the kernel has no semaphore of its own. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at boundary 7's contents, left at boundary 8's. Its arrays are
    split out of the unscoped buffers and put back at the exit contents; the generator register goes into the
    pipeline's invariant and comes out; nothing is owed; the kernel has no semaphore of its own. -/
def reg2 : Pipeline.RegionSeg (pcfgs (F := F)) admF (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) admF (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 9's contents, left at boundary 10's. Its arrays are
    split out of the unscoped buffers and put back at the exit contents; the generator register goes into the
    pipeline's invariant and comes out; nothing is owed; the kernel has no semaphore of its own. -/
def reg3 : Pipeline.RegionSeg (pcfgs (F := F)) admF (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) admF (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 11's contents, left at boundary 12's. Its arrays are
    split out of the unscoped buffers and put back at the exit contents; the generator register goes into the
    pipeline's invariant and comes out; nothing is owed; the kernel has no semaphore of its own. -/
def reg4 : Pipeline.RegionSeg (pcfgs (F := F)) admF (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E11 m) c).loose
  hwaits := Pipeline.hwaits_of_owed_zero _ _ _ _ L lv 4 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec4 c (E11 m c)
  hentry c := by
    rw [Pipeline.ownSems0_none]
    have hsplit := Pipeline.arrays_of_unscopedBufs (p := 4) (pcfgs (F := F)) admF (pdats m) launch4.win launch4.arr_whole c
      ((pdats m 4 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdats m) ((pdats m 4 c).share_full fun _ => rfl)
      (E11 m c) (E12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 13's contents, left at boundary 14's. Its arrays are
    split out of the unscoped buffers and put back at the exit contents; the generator register goes into the
    pipeline's invariant and comes out; nothing is owed; the kernel has no semaphore of its own. -/
def reg5 : Pipeline.RegionSeg (pcfgs (F := F)) admF (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E13 m) c).loose
  hwaits := Pipeline.hwaits_of_owed_zero _ _ _ _ L lv 5 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec5 c (E13 m c)
  hentry c := by
    rw [Pipeline.ownSems0_none]
    have hsplit := Pipeline.arrays_of_unscopedBufs (p := 5) (pcfgs (F := F)) admF (pdats m) launch5.win launch5.arr_whole c
      ((pdats m 5 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdats m) ((pdats m 5 c).share_full fun _ => rfl)
      (E13 m c) (E14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 15's contents, left at boundary 16's. Its arrays are
    split out of the unscoped buffers and put back at the exit contents; the generator register goes into the
    pipeline's invariant and comes out; nothing is owed; the kernel has no semaphore of its own. -/
def reg6 : Pipeline.RegionSeg (pcfgs (F := F)) admF (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E15 m) c).loose
  hwaits := Pipeline.hwaits_of_owed_zero _ _ _ _ L lv 6 fun _ _ => rfl
  pre c := iprop(StableHlo.held (c : Thread nD τ) (Pipeline.ucRefs τ sig) (B15 m c) ∗ R c)
  post c := iprop(StableHlo.held (c : Thread nD τ) (Pipeline.ucRefs τ sig) (B16 m c) ∗ R c)
  X c := iprop(∃ r, prngReg c r)
  Y c := iprop(∃ r, prngReg c r)
  Z c := Pipeline.unscopedRest (Ix := Unit) (Name := ℕ) (U := UR sig nD τ) (Lvl := ℕ) spec6 c (E15 m c)
  hentry c := by
    rw [Pipeline.ownSems0_none]
    have hsplit := Pipeline.arrays_of_unscopedBufs (p := 6) (pcfgs (F := F)) admF (pdats m) launch6.win launch6.arr_whole c
      ((pdats m 6 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdats m) ((pdats m 6 c).share_full fun _ => rfl)
      (E15 m c) (E16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 17's contents, left at boundary 18's. Its arrays are
    split out of the unscoped buffers and put back at the exit contents; the generator register goes into the
    pipeline's invariant and comes out; nothing is owed; the kernel has no semaphore of its own. -/
def reg7 : Pipeline.RegionSeg (pcfgs (F := F)) admF (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E17 m) c).loose
  hwaits := Pipeline.hwaits_of_owed_zero _ _ _ _ L lv 7 fun _ _ => rfl
  pre c := iprop(StableHlo.held (c : Thread nD τ) (Pipeline.ucRefs τ sig) (B17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec7 c (E17 m c)
  hentry c := by
    rw [Pipeline.ownSems0_none]
    have hsplit := Pipeline.arrays_of_unscopedBufs (p := 7) (pcfgs (F := F)) admF (pdats m) launch7.win launch7.arr_whole c
      ((pdats m 7 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdats m) ((pdats m 7 c).share_full fun _ => rfl)
      (E17 m c) (E18 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 19's contents, left at boundary 20's. Its arrays are
    split out of the unscoped buffers and put back at the exit contents; the generator register goes into the
    pipeline's invariant and comes out; nothing is owed; the kernel has no semaphore of its own. -/
def reg8 : Pipeline.RegionSeg (pcfgs (F := F)) admF (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E19 m) c).loose
  hwaits := Pipeline.hwaits_of_owed_zero _ _ _ _ L lv 8 fun _ _ => rfl
  pre c := iprop(StableHlo.held (c : Thread nD τ) (Pipeline.ucRefs τ sig) (B19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E19 m c)
  hentry c := by
    rw [Pipeline.ownSems0_none]
    have hsplit := Pipeline.arrays_of_unscopedBufs (p := 8) (pcfgs (F := F)) admF (pdats m) launch8.win launch8.arr_whole c
      ((pdats m 8 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admF (Ix := Unit) (Name := ℕ) (U := UR sig nD τ) (Lvl := ℕ)
      launch8.win launch8.arr_whole c (pdats m) ((pdats m 8 c).share_full fun _ => rfl)
      (E19 m c) (E20 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twenty segments in order. -/
abbrev segsF : List (Pipeline.Seg (pcfgs (F := F)) admF (pdats m) () defs₀ 𝒱₀ L lv) :=
  [
    .host (hseg hostOps0 hostOps0_sub hostOps0_nofresh (B0 m)),
    .host (hseg hostOps0_1 hostOps0_1_sub hostOps0_1_nofresh (B1 m)),
    .host (hseg hostOps0_2 hostOps0_2_sub hostOps0_2_nofresh (B2 m)),
    .region (reg0 m),
    .host (hseg hostOps1 hostOps1_sub hostOps1_nofresh (B4 m)),
    .region (reg1 m),
    .host (hseg hostOps2 hostOps2_sub hostOps2_nofresh (B6 m)),
    .region (reg2 m),
    .host (hseg hostOps3 hostOps3_sub hostOps3_nofresh (B8 m)),
    .region (reg3 m),
    .host (hseg hostOps4 hostOps4_sub hostOps4_nofresh (B10 m)),
    .region (reg4 m),
    .host (hseg hostOps5 hostOps5_sub hostOps5_nofresh (B12 m)),
    .region (reg5 m),
    .host (hseg hostOps6 hostOps6_sub hostOps6_nofresh (B14 m)),
    .region (reg6 m),
    .host (hseg hostOps7 hostOps7_sub hostOps7_nofresh (B16 m)),
    .region (reg7 m),
    .host (hseg hostOps8 hostOps8_sub hostOps8_nofresh (B18 m)),
    .region (reg8 m) ]

set_option backward.isDefEq.respectTransparency.types false in
/-- Every weakly fair execution of @main from memory `m` with zero counters terminates, nothing faulting, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B20 m c b) :=
  Pipeline.θ_run_regions_kit (pcfgs (F := F)) admF (pdats m) () cellOf_inj emb₁ defs₀ 𝒱₀ L lv m ρ main (segsF m)
    (fun c Q => by
      rewrite [main_chain c, Pipeline.Seg.run_eq_chain,
        show (segsF m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B20 m c b)
    (hfin := fun c s' => by
      iintro ⟨⟨Hh, -⟩, HSI⟩
      unfold StableHlo.held
      imodintro
      iapply (pointsTo_read_all (Pipeline.ucRefs τ sig) (fun b => (((c : Thread nD τ)).1, b)) (B20 m c) s')
      isplitl [Hh] <;> iassumption)
    (hQ := fun s h c => h c)

end Cert.Kernel.Fr

end
-- ==== Proof.KB.Frame.lean ====
/-
  Which buffers the items of @main leave alone, and the frame.  A host stretch changes only the buffers its
  operations write; a region changes only its output array (an input array ends as it was entered, every buffer that
  is no array of the region is untouched).  Followed item by item, an argument array is never changed, so the last
  boundary holds it as launched: that is the frame.
-/
import proofs.«152695_j35802847379839_1_alg».proof.Proof.KB.Run
import proofs.«152695_j35802847379839_1_alg».proof.Proof.Gen.Kernel.Regions

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem keep_main_arg0_0_20 (c : Dev nD) : B20 m c (Proc.devRef .tc main_arg0) = B0 m c (Proc.devRef .tc main_arg0) :=
  (B20_of_ne m c main_arg0 (by decide) : B20 m c (Proc.devRef .tc main_arg0) = B19 m c (Proc.devRef .tc main_arg0)).trans <|
    (StableHlo.after_of_writes_sub hostOps8 _ hostOps8_writes (by decide) : B19 m c (Proc.devRef .tc main_arg0) = B18 m c (Proc.devRef .tc main_arg0)).trans <|
    (B18_of_ne m c main_arg0 (by decide) : B18 m c (Proc.devRef .tc main_arg0) = B17 m c (Proc.devRef .tc main_arg0)).trans <|
    (StableHlo.after_of_writes_sub hostOps7 _ hostOps7_writes (by decide) : B17 m c (Proc.devRef .tc main_arg0) = B16 m c (Proc.devRef .tc main_arg0)).trans <|
    (B16_of_ne m c main_arg0 (by decide) : B16 m c (Proc.devRef .tc main_arg0) = B15 m c (Proc.devRef .tc main_arg0)).trans <|
    (StableHlo.after_of_writes_sub hostOps6 _ hostOps6_writes (by decide) : B15 m c (Proc.devRef .tc main_arg0) = B14 m c (Proc.devRef .tc main_arg0)).trans <|
    (B14_of_ne m c main_arg0 (by decide) : B14 m c (Proc.devRef .tc main_arg0) = B13 m c (Proc.devRef .tc main_arg0)).trans <|
    (StableHlo.after_of_writes_sub hostOps5 _ hostOps5_writes (by decide) : B13 m c (Proc.devRef .tc main_arg0) = B12 m c (Proc.devRef .tc main_arg0)).trans <|
    (B12_of_ne m c main_arg0 (by decide) : B12 m c (Proc.devRef .tc main_arg0) = B11 m c (Proc.devRef .tc main_arg0)).trans <|
    (StableHlo.after_of_writes_sub hostOps4 _ hostOps4_writes (by decide) : B11 m c (Proc.devRef .tc main_arg0) = B10 m c (Proc.devRef .tc main_arg0)).trans <|
    (B10_of_ne m c main_arg0 (by decide) : B10 m c (Proc.devRef .tc main_arg0) = B9 m c (Proc.devRef .tc main_arg0)).trans <|
    (StableHlo.after_of_writes_sub hostOps3 _ hostOps3_writes (by decide) : B9 m c (Proc.devRef .tc main_arg0) = B8 m c (Proc.devRef .tc main_arg0)).trans <|
    (B8_of_ne m c main_arg0 (by decide) : B8 m c (Proc.devRef .tc main_arg0) = B7 m c (Proc.devRef .tc main_arg0)).trans <|
    (StableHlo.after_of_writes_sub hostOps2 _ hostOps2_writes (by decide) : B7 m c (Proc.devRef .tc main_arg0) = B6 m c (Proc.devRef .tc main_arg0)).trans <|
    (B6_of_ne m c main_arg0 (by decide) : B6 m c (Proc.devRef .tc main_arg0) = B5 m c (Proc.devRef .tc main_arg0)).trans <|
    (StableHlo.after_of_writes_sub hostOps1 _ hostOps1_writes (by decide) : B5 m c (Proc.devRef .tc main_arg0) = B4 m c (Proc.devRef .tc main_arg0)).trans <|
    ((B4_arr m c 0).trans (((dat0 (E3 m) c).arrAt_in 0 rfl _).trans (A_eq0 (E3 m) c 0)) : B4 m c (Proc.devRef .tc main_arg0) = B3 m c (Proc.devRef .tc main_arg0)).trans <|
    (StableHlo.after_of_writes_sub hostOps0_2 _ hostOps0_2_writes (by decide) : B3 m c (Proc.devRef .tc main_arg0) = B2 m c (Proc.devRef .tc main_arg0)).trans <|
    (StableHlo.after_of_writes_sub hostOps0_1 _ hostOps0_1_writes (by decide) : B2 m c (Proc.devRef .tc main_arg0) = B1 m c (Proc.devRef .tc main_arg0)).trans <|
    (StableHlo.after_of_writes_sub hostOps0 _ hostOps0_writes (by decide) : B1 m c (Proc.devRef .tc main_arg0) = B0 m c (Proc.devRef .tc main_arg0))
theorem keep_main_arg1_0_20 (c : Dev nD) : B20 m c (Proc.devRef .tc main_arg1) = B0 m c (Proc.devRef .tc main_arg1) :=
  (B20_of_ne m c main_arg1 (by decide) : B20 m c (Proc.devRef .tc main_arg1) = B19 m c (Proc.devRef .tc main_arg1)).trans <|
    (StableHlo.after_of_writes_sub hostOps8 _ hostOps8_writes (by decide) : B19 m c (Proc.devRef .tc main_arg1) = B18 m c (Proc.devRef .tc main_arg1)).trans <|
    (B18_of_ne m c main_arg1 (by decide) : B18 m c (Proc.devRef .tc main_arg1) = B17 m c (Proc.devRef .tc main_arg1)).trans <|
    (StableHlo.after_of_writes_sub hostOps7 _ hostOps7_writes (by decide) : B17 m c (Proc.devRef .tc main_arg1) = B16 m c (Proc.devRef .tc main_arg1)).trans <|
    (B16_of_ne m c main_arg1 (by decide) : B16 m c (Proc.devRef .tc main_arg1) = B15 m c (Proc.devRef .tc main_arg1)).trans <|
    (StableHlo.after_of_writes_sub hostOps6 _ hostOps6_writes (by decide) : B15 m c (Proc.devRef .tc main_arg1) = B14 m c (Proc.devRef .tc main_arg1)).trans <|
    (B14_of_ne m c main_arg1 (by decide) : B14 m c (Proc.devRef .tc main_arg1) = B13 m c (Proc.devRef .tc main_arg1)).trans <|
    (StableHlo.after_of_writes_sub hostOps5 _ hostOps5_writes (by decide) : B13 m c (Proc.devRef .tc main_arg1) = B12 m c (Proc.devRef .tc main_arg1)).trans <|
    (B12_of_ne m c main_arg1 (by decide) : B12 m c (Proc.devRef .tc main_arg1) = B11 m c (Proc.devRef .tc main_arg1)).trans <|
    (StableHlo.after_of_writes_sub hostOps4 _ hostOps4_writes (by decide) : B11 m c (Proc.devRef .tc main_arg1) = B10 m c (Proc.devRef .tc main_arg1)).trans <|
    (B10_of_ne m c main_arg1 (by decide) : B10 m c (Proc.devRef .tc main_arg1) = B9 m c (Proc.devRef .tc main_arg1)).trans <|
    (StableHlo.after_of_writes_sub hostOps3 _ hostOps3_writes (by decide) : B9 m c (Proc.devRef .tc main_arg1) = B8 m c (Proc.devRef .tc main_arg1)).trans <|
    (B8_of_ne m c main_arg1 (by decide) : B8 m c (Proc.devRef .tc main_arg1) = B7 m c (Proc.devRef .tc main_arg1)).trans <|
    (StableHlo.after_of_writes_sub hostOps2 _ hostOps2_writes (by decide) : B7 m c (Proc.devRef .tc main_arg1) = B6 m c (Proc.devRef .tc main_arg1)).trans <|
    (B6_of_ne m c main_arg1 (by decide) : B6 m c (Proc.devRef .tc main_arg1) = B5 m c (Proc.devRef .tc main_arg1)).trans <|
    (StableHlo.after_of_writes_sub hostOps1 _ hostOps1_writes (by decide) : B5 m c (Proc.devRef .tc main_arg1) = B4 m c (Proc.devRef .tc main_arg1)).trans <|
    (B4_of_ne m c main_arg1 (by decide) : B4 m c (Proc.devRef .tc main_arg1) = B3 m c (Proc.devRef .tc main_arg1)).trans <|
    (StableHlo.after_of_writes_sub hostOps0_2 _ hostOps0_2_writes (by decide) : B3 m c (Proc.devRef .tc main_arg1) = B2 m c (Proc.devRef .tc main_arg1)).trans <|
    (StableHlo.after_of_writes_sub hostOps0_1 _ hostOps0_1_writes (by decide) : B2 m c (Proc.devRef .tc main_arg1) = B1 m c (Proc.devRef .tc main_arg1)).trans <|
    (StableHlo.after_of_writes_sub hostOps0 _ hostOps0_writes (by decide) : B1 m c (Proc.devRef .tc main_arg1) = B0 m c (Proc.devRef .tc main_arg1))
theorem keep_main_arg2_0_20 (c : Dev nD) : B20 m c (Proc.devRef .tc main_arg2) = B0 m c (Proc.devRef .tc main_arg2) :=
  (B20_of_ne m c main_arg2 (by decide) : B20 m c (Proc.devRef .tc main_arg2) = B19 m c (Proc.devRef .tc main_arg2)).trans <|
    (StableHlo.after_of_writes_sub hostOps8 _ hostOps8_writes (by decide) : B19 m c (Proc.devRef .tc main_arg2) = B18 m c (Proc.devRef .tc main_arg2)).trans <|
    (B18_of_ne m c main_arg2 (by decide) : B18 m c (Proc.devRef .tc main_arg2) = B17 m c (Proc.devRef .tc main_arg2)).trans <|
    (StableHlo.after_of_writes_sub hostOps7 _ hostOps7_writes (by decide) : B17 m c (Proc.devRef .tc main_arg2) = B16 m c (Proc.devRef .tc main_arg2)).trans <|
    (B16_of_ne m c main_arg2 (by decide) : B16 m c (Proc.devRef .tc main_arg2) = B15 m c (Proc.devRef .tc main_arg2)).trans <|
    (StableHlo.after_of_writes_sub hostOps6 _ hostOps6_writes (by decide) : B15 m c (Proc.devRef .tc main_arg2) = B14 m c (Proc.devRef .tc main_arg2)).trans <|
    (B14_of_ne m c main_arg2 (by decide) : B14 m c (Proc.devRef .tc main_arg2) = B13 m c (Proc.devRef .tc main_arg2)).trans <|
    (StableHlo.after_of_writes_sub hostOps5 _ hostOps5_writes (by decide) : B13 m c (Proc.devRef .tc main_arg2) = B12 m c (Proc.devRef .tc main_arg2)).trans <|
    (B12_of_ne m c main_arg2 (by decide) : B12 m c (Proc.devRef .tc main_arg2) = B11 m c (Proc.devRef .tc main_arg2)).trans <|
    (StableHlo.after_of_writes_sub hostOps4 _ hostOps4_writes (by decide) : B11 m c (Proc.devRef .tc main_arg2) = B10 m c (Proc.devRef .tc main_arg2)).trans <|
    (B10_of_ne m c main_arg2 (by decide) : B10 m c (Proc.devRef .tc main_arg2) = B9 m c (Proc.devRef .tc main_arg2)).trans <|
    (StableHlo.after_of_writes_sub hostOps3 _ hostOps3_writes (by decide) : B9 m c (Proc.devRef .tc main_arg2) = B8 m c (Proc.devRef .tc main_arg2)).trans <|
    (B8_of_ne m c main_arg2 (by decide) : B8 m c (Proc.devRef .tc main_arg2) = B7 m c (Proc.devRef .tc main_arg2)).trans <|
    (StableHlo.after_of_writes_sub hostOps2 _ hostOps2_writes (by decide) : B7 m c (Proc.devRef .tc main_arg2) = B6 m c (Proc.devRef .tc main_arg2)).trans <|
    (B6_of_ne m c main_arg2 (by decide) : B6 m c (Proc.devRef .tc main_arg2) = B5 m c (Proc.devRef .tc main_arg2)).trans <|
    (StableHlo.after_of_writes_sub hostOps1 _ hostOps1_writes (by decide) : B5 m c (Proc.devRef .tc main_arg2) = B4 m c (Proc.devRef .tc main_arg2)).trans <|
    ((B4_arr m c 1).trans (((dat0 (E3 m) c).arrAt_in 1 rfl _).trans (A_eq0 (E3 m) c 1)) : B4 m c (Proc.devRef .tc main_arg2) = B3 m c (Proc.devRef .tc main_arg2)).trans <|
    (StableHlo.after_of_writes_sub hostOps0_2 _ hostOps0_2_writes (by decide) : B3 m c (Proc.devRef .tc main_arg2) = B2 m c (Proc.devRef .tc main_arg2)).trans <|
    (StableHlo.after_of_writes_sub hostOps0_1 _ hostOps0_1_writes (by decide) : B2 m c (Proc.devRef .tc main_arg2) = B1 m c (Proc.devRef .tc main_arg2)).trans <|
    (StableHlo.after_of_writes_sub hostOps0 _ hostOps0_writes (by decide) : B1 m c (Proc.devRef .tc main_arg2) = B0 m c (Proc.devRef .tc main_arg2))
theorem keep_main_arg3_0_20 (c : Dev nD) : B20 m c (Proc.devRef .tc main_arg3) = B0 m c (Proc.devRef .tc main_arg3) :=
  (B20_of_ne m c main_arg3 (by decide) : B20 m c (Proc.devRef .tc main_arg3) = B19 m c (Proc.devRef .tc main_arg3)).trans <|
    (StableHlo.after_of_writes_sub hostOps8 _ hostOps8_writes (by decide) : B19 m c (Proc.devRef .tc main_arg3) = B18 m c (Proc.devRef .tc main_arg3)).trans <|
    (B18_of_ne m c main_arg3 (by decide) : B18 m c (Proc.devRef .tc main_arg3) = B17 m c (Proc.devRef .tc main_arg3)).trans <|
    (StableHlo.after_of_writes_sub hostOps7 _ hostOps7_writes (by decide) : B17 m c (Proc.devRef .tc main_arg3) = B16 m c (Proc.devRef .tc main_arg3)).trans <|
    (B16_of_ne m c main_arg3 (by decide) : B16 m c (Proc.devRef .tc main_arg3) = B15 m c (Proc.devRef .tc main_arg3)).trans <|
    (StableHlo.after_of_writes_sub hostOps6 _ hostOps6_writes (by decide) : B15 m c (Proc.devRef .tc main_arg3) = B14 m c (Proc.devRef .tc main_arg3)).trans <|
    (B14_of_ne m c main_arg3 (by decide) : B14 m c (Proc.devRef .tc main_arg3) = B13 m c (Proc.devRef .tc main_arg3)).trans <|
    (StableHlo.after_of_writes_sub hostOps5 _ hostOps5_writes (by decide) : B13 m c (Proc.devRef .tc main_arg3) = B12 m c (Proc.devRef .tc main_arg3)).trans <|
    (B12_of_ne m c main_arg3 (by decide) : B12 m c (Proc.devRef .tc main_arg3) = B11 m c (Proc.devRef .tc main_arg3)).trans <|
    (StableHlo.after_of_writes_sub hostOps4 _ hostOps4_writes (by decide) : B11 m c (Proc.devRef .tc main_arg3) = B10 m c (Proc.devRef .tc main_arg3)).trans <|
    (B10_of_ne m c main_arg3 (by decide) : B10 m c (Proc.devRef .tc main_arg3) = B9 m c (Proc.devRef .tc main_arg3)).trans <|
    (StableHlo.after_of_writes_sub hostOps3 _ hostOps3_writes (by decide) : B9 m c (Proc.devRef .tc main_arg3) = B8 m c (Proc.devRef .tc main_arg3)).trans <|
    (B8_of_ne m c main_arg3 (by decide) : B8 m c (Proc.devRef .tc main_arg3) = B7 m c (Proc.devRef .tc main_arg3)).trans <|
    (StableHlo.after_of_writes_sub hostOps2 _ hostOps2_writes (by decide) : B7 m c (Proc.devRef .tc main_arg3) = B6 m c (Proc.devRef .tc main_arg3)).trans <|
    (B6_of_ne m c main_arg3 (by decide) : B6 m c (Proc.devRef .tc main_arg3) = B5 m c (Proc.devRef .tc main_arg3)).trans <|
    (StableHlo.after_of_writes_sub hostOps1 _ hostOps1_writes (by decide) : B5 m c (Proc.devRef .tc main_arg3) = B4 m c (Proc.devRef .tc main_arg3)).trans <|
    (B4_of_ne m c main_arg3 (by decide) : B4 m c (Proc.devRef .tc main_arg3) = B3 m c (Proc.devRef .tc main_arg3)).trans <|
    (StableHlo.after_of_writes_sub hostOps0_2 _ hostOps0_2_writes (by decide) : B3 m c (Proc.devRef .tc main_arg3) = B2 m c (Proc.devRef .tc main_arg3)).trans <|
    (StableHlo.after_of_writes_sub hostOps0_1 _ hostOps0_1_writes (by decide) : B2 m c (Proc.devRef .tc main_arg3) = B1 m c (Proc.devRef .tc main_arg3)).trans <|
    (StableHlo.after_of_writes_sub hostOps0 _ hostOps0_writes (by decide) : B1 m c (Proc.devRef .tc main_arg3) = B0 m c (Proc.devRef .tc main_arg3))
theorem keep_main_arg4_0_20 (c : Dev nD) : B20 m c (Proc.devRef .tc main_arg4) = B0 m c (Proc.devRef .tc main_arg4) :=
  (B20_of_ne m c main_arg4 (by decide) : B20 m c (Proc.devRef .tc main_arg4) = B19 m c (Proc.devRef .tc main_arg4)).trans <|
    (StableHlo.after_of_writes_sub hostOps8 _ hostOps8_writes (by decide) : B19 m c (Proc.devRef .tc main_arg4) = B18 m c (Proc.devRef .tc main_arg4)).trans <|
    (B18_of_ne m c main_arg4 (by decide) : B18 m c (Proc.devRef .tc main_arg4) = B17 m c (Proc.devRef .tc main_arg4)).trans <|
    (StableHlo.after_of_writes_sub hostOps7 _ hostOps7_writes (by decide) : B17 m c (Proc.devRef .tc main_arg4) = B16 m c (Proc.devRef .tc main_arg4)).trans <|
    (B16_of_ne m c main_arg4 (by decide) : B16 m c (Proc.devRef .tc main_arg4) = B15 m c (Proc.devRef .tc main_arg4)).trans <|
    (StableHlo.after_of_writes_sub hostOps6 _ hostOps6_writes (by decide) : B15 m c (Proc.devRef .tc main_arg4) = B14 m c (Proc.devRef .tc main_arg4)).trans <|
    (B14_of_ne m c main_arg4 (by decide) : B14 m c (Proc.devRef .tc main_arg4) = B13 m c (Proc.devRef .tc main_arg4)).trans <|
    (StableHlo.after_of_writes_sub hostOps5 _ hostOps5_writes (by decide) : B13 m c (Proc.devRef .tc main_arg4) = B12 m c (Proc.devRef .tc main_arg4)).trans <|
    (B12_of_ne m c main_arg4 (by decide) : B12 m c (Proc.devRef .tc main_arg4) = B11 m c (Proc.devRef .tc main_arg4)).trans <|
    (StableHlo.after_of_writes_sub hostOps4 _ hostOps4_writes (by decide) : B11 m c (Proc.devRef .tc main_arg4) = B10 m c (Proc.devRef .tc main_arg4)).trans <|
    (B10_of_ne m c main_arg4 (by decide) : B10 m c (Proc.devRef .tc main_arg4) = B9 m c (Proc.devRef .tc main_arg4)).trans <|
    (StableHlo.after_of_writes_sub hostOps3 _ hostOps3_writes (by decide) : B9 m c (Proc.devRef .tc main_arg4) = B8 m c (Proc.devRef .tc main_arg4)).trans <|
    ((B8_arr m c 1).trans (((dat2 (E7 m) c).arrAt_in 1 rfl _).trans (A_eq2 (E7 m) c 1)) : B8 m c (Proc.devRef .tc main_arg4) = B7 m c (Proc.devRef .tc main_arg4)).trans <|
    (StableHlo.after_of_writes_sub hostOps2 _ hostOps2_writes (by decide) : B7 m c (Proc.devRef .tc main_arg4) = B6 m c (Proc.devRef .tc main_arg4)).trans <|
    (B6_of_ne m c main_arg4 (by decide) : B6 m c (Proc.devRef .tc main_arg4) = B5 m c (Proc.devRef .tc main_arg4)).trans <|
    (StableHlo.after_of_writes_sub hostOps1 _ hostOps1_writes (by decide) : B5 m c (Proc.devRef .tc main_arg4) = B4 m c (Proc.devRef .tc main_arg4)).trans <|
    (B4_of_ne m c main_arg4 (by decide) : B4 m c (Proc.devRef .tc main_arg4) = B3 m c (Proc.devRef .tc main_arg4)).trans <|
    (StableHlo.after_of_writes_sub hostOps0_2 _ hostOps0_2_writes (by decide) : B3 m c (Proc.devRef .tc main_arg4) = B2 m c (Proc.devRef .tc main_arg4)).trans <|
    (StableHlo.after_of_writes_sub hostOps0_1 _ hostOps0_1_writes (by decide) : B2 m c (Proc.devRef .tc main_arg4) = B1 m c (Proc.devRef .tc main_arg4)).trans <|
    (StableHlo.after_of_writes_sub hostOps0 _ hostOps0_writes (by decide) : B1 m c (Proc.devRef .tc main_arg4) = B0 m c (Proc.devRef .tc main_arg4))
theorem keep_main_arg5_0_20 (c : Dev nD) : B20 m c (Proc.devRef .tc main_arg5) = B0 m c (Proc.devRef .tc main_arg5) :=
  (B20_of_ne m c main_arg5 (by decide) : B20 m c (Proc.devRef .tc main_arg5) = B19 m c (Proc.devRef .tc main_arg5)).trans <|
    (StableHlo.after_of_writes_sub hostOps8 _ hostOps8_writes (by decide) : B19 m c (Proc.devRef .tc main_arg5) = B18 m c (Proc.devRef .tc main_arg5)).trans <|
    (B18_of_ne m c main_arg5 (by decide) : B18 m c (Proc.devRef .tc main_arg5) = B17 m c (Proc.devRef .tc main_arg5)).trans <|
    (StableHlo.after_of_writes_sub hostOps7 _ hostOps7_writes (by decide) : B17 m c (Proc.devRef .tc main_arg5) = B16 m c (Proc.devRef .tc main_arg5)).trans <|
    (B16_of_ne m c main_arg5 (by decide) : B16 m c (Proc.devRef .tc main_arg5) = B15 m c (Proc.devRef .tc main_arg5)).trans <|
    (StableHlo.after_of_writes_sub hostOps6 _ hostOps6_writes (by decide) : B15 m c (Proc.devRef .tc main_arg5) = B14 m c (Proc.devRef .tc main_arg5)).trans <|
    (B14_of_ne m c main_arg5 (by decide) : B14 m c (Proc.devRef .tc main_arg5) = B13 m c (Proc.devRef .tc main_arg5)).trans <|
    (StableHlo.after_of_writes_sub hostOps5 _ hostOps5_writes (by decide) : B13 m c (Proc.devRef .tc main_arg5) = B12 m c (Proc.devRef .tc main_arg5)).trans <|
    (B12_of_ne m c main_arg5 (by decide) : B12 m c (Proc.devRef .tc main_arg5) = B11 m c (Proc.devRef .tc main_arg5)).trans <|
    (StableHlo.after_of_writes_sub hostOps4 _ hostOps4_writes (by decide) : B11 m c (Proc.devRef .tc main_arg5) = B10 m c (Proc.devRef .tc main_arg5)).trans <|
    (B10_of_ne m c main_arg5 (by decide) : B10 m c (Proc.devRef .tc main_arg5) = B9 m c (Proc.devRef .tc main_arg5)).trans <|
    (StableHlo.after_of_writes_sub hostOps3 _ hostOps3_writes (by decide) : B9 m c (Proc.devRef .tc main_arg5) = B8 m c (Proc.devRef .tc main_arg5)).trans <|
    (B8_of_ne m c main_arg5 (by decide) : B8 m c (Proc.devRef .tc main_arg5) = B7 m c (Proc.devRef .tc main_arg5)).trans <|
    (StableHlo.after_of_writes_sub hostOps2 _ hostOps2_writes (by decide) : B7 m c (Proc.devRef .tc main_arg5) = B6 m c (Proc.devRef .tc main_arg5)).trans <|
    (B6_of_ne m c main_arg5 (by decide) : B6 m c (Proc.devRef .tc main_arg5) = B5 m c (Proc.devRef .tc main_arg5)).trans <|
    (StableHlo.after_of_writes_sub hostOps1 _ hostOps1_writes (by decide) : B5 m c (Proc.devRef .tc main_arg5) = B4 m c (Proc.devRef .tc main_arg5)).trans <|
    (B4_of_ne m c main_arg5 (by decide) : B4 m c (Proc.devRef .tc main_arg5) = B3 m c (Proc.devRef .tc main_arg5)).trans <|
    (StableHlo.after_of_writes_sub hostOps0_2 _ hostOps0_2_writes (by decide) : B3 m c (Proc.devRef .tc main_arg5) = B2 m c (Proc.devRef .tc main_arg5)).trans <|
    (StableHlo.after_of_writes_sub hostOps0_1 _ hostOps0_1_writes (by decide) : B2 m c (Proc.devRef .tc main_arg5) = B1 m c (Proc.devRef .tc main_arg5)).trans <|
    (StableHlo.after_of_writes_sub hostOps0 _ hostOps0_writes (by decide) : B1 m c (Proc.devRef .tc main_arg5) = B0 m c (Proc.devRef .tc main_arg5))
theorem keep_main_arg6_0_20 (c : Dev nD) : B20 m c (Proc.devRef .tc main_arg6) = B0 m c (Proc.devRef .tc main_arg6) :=
  (B20_of_ne m c main_arg6 (by decide) : B20 m c (Proc.devRef .tc main_arg6) = B19 m c (Proc.devRef .tc main_arg6)).trans <|
    (StableHlo.after_of_writes_sub hostOps8 _ hostOps8_writes (by decide) : B19 m c (Proc.devRef .tc main_arg6) = B18 m c (Proc.devRef .tc main_arg6)).trans <|
    (B18_of_ne m c main_arg6 (by decide) : B18 m c (Proc.devRef .tc main_arg6) = B17 m c (Proc.devRef .tc main_arg6)).trans <|
    (StableHlo.after_of_writes_sub hostOps7 _ hostOps7_writes (by decide) : B17 m c (Proc.devRef .tc main_arg6) = B16 m c (Proc.devRef .tc main_arg6)).trans <|
    (B16_of_ne m c main_arg6 (by decide) : B16 m c (Proc.devRef .tc main_arg6) = B15 m c (Proc.devRef .tc main_arg6)).trans <|
    (StableHlo.after_of_writes_sub hostOps6 _ hostOps6_writes (by decide) : B15 m c (Proc.devRef .tc main_arg6) = B14 m c (Proc.devRef .tc main_arg6)).trans <|
    (B14_of_ne m c main_arg6 (by decide) : B14 m c (Proc.devRef .tc main_arg6) = B13 m c (Proc.devRef .tc main_arg6)).trans <|
    (StableHlo.after_of_writes_sub hostOps5 _ hostOps5_writes (by decide) : B13 m c (Proc.devRef .tc main_arg6) = B12 m c (Proc.devRef .tc main_arg6)).trans <|
    ((B12_arr m c 1).trans (((dat4 (E11 m) c).arrAt_in 1 rfl _).trans (A_eq4 (E11 m) c 1)) : B12 m c (Proc.devRef .tc main_arg6) = B11 m c (Proc.devRef .tc main_arg6)).trans <|
    (StableHlo.after_of_writes_sub hostOps4 _ hostOps4_writes (by decide) : B11 m c (Proc.devRef .tc main_arg6) = B10 m c (Proc.devRef .tc main_arg6)).trans <|
    (B10_of_ne m c main_arg6 (by decide) : B10 m c (Proc.devRef .tc main_arg6) = B9 m c (Proc.devRef .tc main_arg6)).trans <|
    (StableHlo.after_of_writes_sub hostOps3 _ hostOps3_writes (by decide) : B9 m c (Proc.devRef .tc main_arg6) = B8 m c (Proc.devRef .tc main_arg6)).trans <|
    (B8_of_ne m c main_arg6 (by decide) : B8 m c (Proc.devRef .tc main_arg6) = B7 m c (Proc.devRef .tc main_arg6)).trans <|
    (StableHlo.after_of_writes_sub hostOps2 _ hostOps2_writes (by decide) : B7 m c (Proc.devRef .tc main_arg6) = B6 m c (Proc.devRef .tc main_arg6)).trans <|
    (B6_of_ne m c main_arg6 (by decide) : B6 m c (Proc.devRef .tc main_arg6) = B5 m c (Proc.devRef .tc main_arg6)).trans <|
    (StableHlo.after_of_writes_sub hostOps1 _ hostOps1_writes (by decide) : B5 m c (Proc.devRef .tc main_arg6) = B4 m c (Proc.devRef .tc main_arg6)).trans <|
    (B4_of_ne m c main_arg6 (by decide) : B4 m c (Proc.devRef .tc main_arg6) = B3 m c (Proc.devRef .tc main_arg6)).trans <|
    (StableHlo.after_of_writes_sub hostOps0_2 _ hostOps0_2_writes (by decide) : B3 m c (Proc.devRef .tc main_arg6) = B2 m c (Proc.devRef .tc main_arg6)).trans <|
    (StableHlo.after_of_writes_sub hostOps0_1 _ hostOps0_1_writes (by decide) : B2 m c (Proc.devRef .tc main_arg6) = B1 m c (Proc.devRef .tc main_arg6)).trans <|
    (StableHlo.after_of_writes_sub hostOps0 _ hostOps0_writes (by decide) : B1 m c (Proc.devRef .tc main_arg6) = B0 m c (Proc.devRef .tc main_arg6))
theorem keep_main_arg7_0_20 (c : Dev nD) : B20 m c (Proc.devRef .tc main_arg7) = B0 m c (Proc.devRef .tc main_arg7) :=
  (B20_of_ne m c main_arg7 (by decide) : B20 m c (Proc.devRef .tc main_arg7) = B19 m c (Proc.devRef .tc main_arg7)).trans <|
    (StableHlo.after_of_writes_sub hostOps8 _ hostOps8_writes (by decide) : B19 m c (Proc.devRef .tc main_arg7) = B18 m c (Proc.devRef .tc main_arg7)).trans <|
    (B18_of_ne m c main_arg7 (by decide) : B18 m c (Proc.devRef .tc main_arg7) = B17 m c (Proc.devRef .tc main_arg7)).trans <|
    (StableHlo.after_of_writes_sub hostOps7 _ hostOps7_writes (by decide) : B17 m c (Proc.devRef .tc main_arg7) = B16 m c (Proc.devRef .tc main_arg7)).trans <|
    (B16_of_ne m c main_arg7 (by decide) : B16 m c (Proc.devRef .tc main_arg7) = B15 m c (Proc.devRef .tc main_arg7)).trans <|
    (StableHlo.after_of_writes_sub hostOps6 _ hostOps6_writes (by decide) : B15 m c (Proc.devRef .tc main_arg7) = B14 m c (Proc.devRef .tc main_arg7)).trans <|
    (B14_of_ne m c main_arg7 (by decide) : B14 m c (Proc.devRef .tc main_arg7) = B13 m c (Proc.devRef .tc main_arg7)).trans <|
    (StableHlo.after_of_writes_sub hostOps5 _ hostOps5_writes (by decide) : B13 m c (Proc.devRef .tc main_arg7) = B12 m c (Proc.devRef .tc main_arg7)).trans <|
    (B12_of_ne m c main_arg7 (by decide) : B12 m c (Proc.devRef .tc main_arg7) = B11 m c (Proc.devRef .tc main_arg7)).trans <|
    (StableHlo.after_of_writes_sub hostOps4 _ hostOps4_writes (by decide) : B11 m c (Proc.devRef .tc main_arg7) = B10 m c (Proc.devRef .tc main_arg7)).trans <|
    (B10_of_ne m c main_arg7 (by decide) : B10 m c (Proc.devRef .tc main_arg7) = B9 m c (Proc.devRef .tc main_arg7)).trans <|
    (StableHlo.after_of_writes_sub hostOps3 _ hostOps3_writes (by decide) : B9 m c (Proc.devRef .tc main_arg7) = B8 m c (Proc.devRef .tc main_arg7)).trans <|
    (B8_of_ne m c main_arg7 (by decide) : B8 m c (Proc.devRef .tc main_arg7) = B7 m c (Proc.devRef .tc main_arg7)).trans <|
    (StableHlo.after_of_writes_sub hostOps2 _ hostOps2_writes (by decide) : B7 m c (Proc.devRef .tc main_arg7) = B6 m c (Proc.devRef .tc main_arg7)).trans <|
    (B6_of_ne m c main_arg7 (by decide) : B6 m c (Proc.devRef .tc main_arg7) = B5 m c (Proc.devRef .tc main_arg7)).trans <|
    (StableHlo.after_of_writes_sub hostOps1 _ hostOps1_writes (by decide) : B5 m c (Proc.devRef .tc main_arg7) = B4 m c (Proc.devRef .tc main_arg7)).trans <|
    (B4_of_ne m c main_arg7 (by decide) : B4 m c (Proc.devRef .tc main_arg7) = B3 m c (Proc.devRef .tc main_arg7)).trans <|
    (StableHlo.after_of_writes_sub hostOps0_2 _ hostOps0_2_writes (by decide) : B3 m c (Proc.devRef .tc main_arg7) = B2 m c (Proc.devRef .tc main_arg7)).trans <|
    (StableHlo.after_of_writes_sub hostOps0_1 _ hostOps0_1_writes (by decide) : B2 m c (Proc.devRef .tc main_arg7) = B1 m c (Proc.devRef .tc main_arg7)).trans <|
    (StableHlo.after_of_writes_sub hostOps0 _ hostOps0_writes (by decide) : B1 m c (Proc.devRef .tc main_arg7) = B0 m c (Proc.devRef .tc main_arg7))
theorem keep_main_arg8_0_20 (c : Dev nD) : B20 m c (Proc.devRef .tc main_arg8) = B0 m c (Proc.devRef .tc main_arg8) :=
  (B20_of_ne m c main_arg8 (by decide) : B20 m c (Proc.devRef .tc main_arg8) = B19 m c (Proc.devRef .tc main_arg8)).trans <|
    (StableHlo.after_of_writes_sub hostOps8 _ hostOps8_writes (by decide) : B19 m c (Proc.devRef .tc main_arg8) = B18 m c (Proc.devRef .tc main_arg8)).trans <|
    (B18_of_ne m c main_arg8 (by decide) : B18 m c (Proc.devRef .tc main_arg8) = B17 m c (Proc.devRef .tc main_arg8)).trans <|
    (StableHlo.after_of_writes_sub hostOps7 _ hostOps7_writes (by decide) : B17 m c (Proc.devRef .tc main_arg8) = B16 m c (Proc.devRef .tc main_arg8)).trans <|
    ((B16_arr m c 1).trans (((dat6 (E15 m) c).arrAt_in 1 rfl _).trans (A_eq6 (E15 m) c 1)) : B16 m c (Proc.devRef .tc main_arg8) = B15 m c (Proc.devRef .tc main_arg8)).trans <|
    (StableHlo.after_of_writes_sub hostOps6 _ hostOps6_writes (by decide) : B15 m c (Proc.devRef .tc main_arg8) = B14 m c (Proc.devRef .tc main_arg8)).trans <|
    (B14_of_ne m c main_arg8 (by decide) : B14 m c (Proc.devRef .tc main_arg8) = B13 m c (Proc.devRef .tc main_arg8)).trans <|
    (StableHlo.after_of_writes_sub hostOps5 _ hostOps5_writes (by decide) : B13 m c (Proc.devRef .tc main_arg8) = B12 m c (Proc.devRef .tc main_arg8)).trans <|
    (B12_of_ne m c main_arg8 (by decide) : B12 m c (Proc.devRef .tc main_arg8) = B11 m c (Proc.devRef .tc main_arg8)).trans <|
    (StableHlo.after_of_writes_sub hostOps4 _ hostOps4_writes (by decide) : B11 m c (Proc.devRef .tc main_arg8) = B10 m c (Proc.devRef .tc main_arg8)).trans <|
    (B10_of_ne m c main_arg8 (by decide) : B10 m c (Proc.devRef .tc main_arg8) = B9 m c (Proc.devRef .tc main_arg8)).trans <|
    (StableHlo.after_of_writes_sub hostOps3 _ hostOps3_writes (by decide) : B9 m c (Proc.devRef .tc main_arg8) = B8 m c (Proc.devRef .tc main_arg8)).trans <|
    (B8_of_ne m c main_arg8 (by decide) : B8 m c (Proc.devRef .tc main_arg8) = B7 m c (Proc.devRef .tc main_arg8)).trans <|
    (StableHlo.after_of_writes_sub hostOps2 _ hostOps2_writes (by decide) : B7 m c (Proc.devRef .tc main_arg8) = B6 m c (Proc.devRef .tc main_arg8)).trans <|
    (B6_of_ne m c main_arg8 (by decide) : B6 m c (Proc.devRef .tc main_arg8) = B5 m c (Proc.devRef .tc main_arg8)).trans <|
    (StableHlo.after_of_writes_sub hostOps1 _ hostOps1_writes (by decide) : B5 m c (Proc.devRef .tc main_arg8) = B4 m c (Proc.devRef .tc main_arg8)).trans <|
    (B4_of_ne m c main_arg8 (by decide) : B4 m c (Proc.devRef .tc main_arg8) = B3 m c (Proc.devRef .tc main_arg8)).trans <|
    (StableHlo.after_of_writes_sub hostOps0_2 _ hostOps0_2_writes (by decide) : B3 m c (Proc.devRef .tc main_arg8) = B2 m c (Proc.devRef .tc main_arg8)).trans <|
    (StableHlo.after_of_writes_sub hostOps0_1 _ hostOps0_1_writes (by decide) : B2 m c (Proc.devRef .tc main_arg8) = B1 m c (Proc.devRef .tc main_arg8)).trans <|
    (StableHlo.after_of_writes_sub hostOps0 _ hostOps0_writes (by decide) : B1 m c (Proc.devRef .tc main_arg8) = B0 m c (Proc.devRef .tc main_arg8))
theorem keep_main_arg9_0_20 (c : Dev nD) : B20 m c (Proc.devRef .tc main_arg9) = B0 m c (Proc.devRef .tc main_arg9) :=
  (B20_of_ne m c main_arg9 (by decide) : B20 m c (Proc.devRef .tc main_arg9) = B19 m c (Proc.devRef .tc main_arg9)).trans <|
    (StableHlo.after_of_writes_sub hostOps8 _ hostOps8_writes (by decide) : B19 m c (Proc.devRef .tc main_arg9) = B18 m c (Proc.devRef .tc main_arg9)).trans <|
    (B18_of_ne m c main_arg9 (by decide) : B18 m c (Proc.devRef .tc main_arg9) = B17 m c (Proc.devRef .tc main_arg9)).trans <|
    (StableHlo.after_of_writes_sub hostOps7 _ hostOps7_writes (by decide) : B17 m c (Proc.devRef .tc main_arg9) = B16 m c (Proc.devRef .tc main_arg9)).trans <|
    (B16_of_ne m c main_arg9 (by decide) : B16 m c (Proc.devRef .tc main_arg9) = B15 m c (Proc.devRef .tc main_arg9)).trans <|
    (StableHlo.after_of_writes_sub hostOps6 _ hostOps6_writes (by decide) : B15 m c (Proc.devRef .tc main_arg9) = B14 m c (Proc.devRef .tc main_arg9)).trans <|
    (B14_of_ne m c main_arg9 (by decide) : B14 m c (Proc.devRef .tc main_arg9) = B13 m c (Proc.devRef .tc main_arg9)).trans <|
    (StableHlo.after_of_writes_sub hostOps5 _ hostOps5_writes (by decide) : B13 m c (Proc.devRef .tc main_arg9) = B12 m c (Proc.devRef .tc main_arg9)).trans <|
    (B12_of_ne m c main_arg9 (by decide) : B12 m c (Proc.devRef .tc main_arg9) = B11 m c (Proc.devRef .tc main_arg9)).trans <|
    (StableHlo.after_of_writes_sub hostOps4 _ hostOps4_writes (by decide) : B11 m c (Proc.devRef .tc main_arg9) = B10 m c (Proc.devRef .tc main_arg9)).trans <|
    (B10_of_ne m c main_arg9 (by decide) : B10 m c (Proc.devRef .tc main_arg9) = B9 m c (Proc.devRef .tc main_arg9)).trans <|
    (StableHlo.after_of_writes_sub hostOps3 _ hostOps3_writes (by decide) : B9 m c (Proc.devRef .tc main_arg9) = B8 m c (Proc.devRef .tc main_arg9)).trans <|
    (B8_of_ne m c main_arg9 (by decide) : B8 m c (Proc.devRef .tc main_arg9) = B7 m c (Proc.devRef .tc main_arg9)).trans <|
    (StableHlo.after_of_writes_sub hostOps2 _ hostOps2_writes (by decide) : B7 m c (Proc.devRef .tc main_arg9) = B6 m c (Proc.devRef .tc main_arg9)).trans <|
    (B6_of_ne m c main_arg9 (by decide) : B6 m c (Proc.devRef .tc main_arg9) = B5 m c (Proc.devRef .tc main_arg9)).trans <|
    (StableHlo.after_of_writes_sub hostOps1 _ hostOps1_writes (by decide) : B5 m c (Proc.devRef .tc main_arg9) = B4 m c (Proc.devRef .tc main_arg9)).trans <|
    (B4_of_ne m c main_arg9 (by decide) : B4 m c (Proc.devRef .tc main_arg9) = B3 m c (Proc.devRef .tc main_arg9)).trans <|
    (StableHlo.after_of_writes_sub hostOps0_2 _ hostOps0_2_writes (by decide) : B3 m c (Proc.devRef .tc main_arg9) = B2 m c (Proc.devRef .tc main_arg9)).trans <|
    (StableHlo.after_of_writes_sub hostOps0_1 _ hostOps0_1_writes (by decide) : B2 m c (Proc.devRef .tc main_arg9) = B1 m c (Proc.devRef .tc main_arg9)).trans <|
    (StableHlo.after_of_writes_sub hostOps0 _ hostOps0_writes (by decide) : B1 m c (Proc.devRef .tc main_arg9) = B0 m c (Proc.devRef .tc main_arg9))
theorem keep_main_arg10_0_20 (c : Dev nD) : B20 m c (Proc.devRef .tc main_arg10) = B0 m c (Proc.devRef .tc main_arg10) :=
  ((B20_arr m c 1).trans (((dat8 (E19 m) c).arrAt_in 1 rfl _).trans (A_eq8 (E19 m) c 1)) : B20 m c (Proc.devRef .tc main_arg10) = B19 m c (Proc.devRef .tc main_arg10)).trans <|
    (StableHlo.after_of_writes_sub hostOps8 _ hostOps8_writes (by decide) : B19 m c (Proc.devRef .tc main_arg10) = B18 m c (Proc.devRef .tc main_arg10)).trans <|
    (B18_of_ne m c main_arg10 (by decide) : B18 m c (Proc.devRef .tc main_arg10) = B17 m c (Proc.devRef .tc main_arg10)).trans <|
    (StableHlo.after_of_writes_sub hostOps7 _ hostOps7_writes (by decide) : B17 m c (Proc.devRef .tc main_arg10) = B16 m c (Proc.devRef .tc main_arg10)).trans <|
    (B16_of_ne m c main_arg10 (by decide) : B16 m c (Proc.devRef .tc main_arg10) = B15 m c (Proc.devRef .tc main_arg10)).trans <|
    (StableHlo.after_of_writes_sub hostOps6 _ hostOps6_writes (by decide) : B15 m c (Proc.devRef .tc main_arg10) = B14 m c (Proc.devRef .tc main_arg10)).trans <|
    (B14_of_ne m c main_arg10 (by decide) : B14 m c (Proc.devRef .tc main_arg10) = B13 m c (Proc.devRef .tc main_arg10)).trans <|
    (StableHlo.after_of_writes_sub hostOps5 _ hostOps5_writes (by decide) : B13 m c (Proc.devRef .tc main_arg10) = B12 m c (Proc.devRef .tc main_arg10)).trans <|
    (B12_of_ne m c main_arg10 (by decide) : B12 m c (Proc.devRef .tc main_arg10) = B11 m c (Proc.devRef .tc main_arg10)).trans <|
    (StableHlo.after_of_writes_sub hostOps4 _ hostOps4_writes (by decide) : B11 m c (Proc.devRef .tc main_arg10) = B10 m c (Proc.devRef .tc main_arg10)).trans <|
    (B10_of_ne m c main_arg10 (by decide) : B10 m c (Proc.devRef .tc main_arg10) = B9 m c (Proc.devRef .tc main_arg10)).trans <|
    (StableHlo.after_of_writes_sub hostOps3 _ hostOps3_writes (by decide) : B9 m c (Proc.devRef .tc main_arg10) = B8 m c (Proc.devRef .tc main_arg10)).trans <|
    (B8_of_ne m c main_arg10 (by decide) : B8 m c (Proc.devRef .tc main_arg10) = B7 m c (Proc.devRef .tc main_arg10)).trans <|
    (StableHlo.after_of_writes_sub hostOps2 _ hostOps2_writes (by decide) : B7 m c (Proc.devRef .tc main_arg10) = B6 m c (Proc.devRef .tc main_arg10)).trans <|
    (B6_of_ne m c main_arg10 (by decide) : B6 m c (Proc.devRef .tc main_arg10) = B5 m c (Proc.devRef .tc main_arg10)).trans <|
    (StableHlo.after_of_writes_sub hostOps1 _ hostOps1_writes (by decide) : B5 m c (Proc.devRef .tc main_arg10) = B4 m c (Proc.devRef .tc main_arg10)).trans <|
    (B4_of_ne m c main_arg10 (by decide) : B4 m c (Proc.devRef .tc main_arg10) = B3 m c (Proc.devRef .tc main_arg10)).trans <|
    (StableHlo.after_of_writes_sub hostOps0_2 _ hostOps0_2_writes (by decide) : B3 m c (Proc.devRef .tc main_arg10) = B2 m c (Proc.devRef .tc main_arg10)).trans <|
    (StableHlo.after_of_writes_sub hostOps0_1 _ hostOps0_1_writes (by decide) : B2 m c (Proc.devRef .tc main_arg10) = B1 m c (Proc.devRef .tc main_arg10)).trans <|
    (StableHlo.after_of_writes_sub hostOps0 _ hostOps0_writes (by decide) : B1 m c (Proc.devRef .tc main_arg10) = B0 m c (Proc.devRef .tc main_arg10))
theorem keep_main_arg11_0_20 (c : Dev nD) : B20 m c (Proc.devRef .tc main_arg11) = B0 m c (Proc.devRef .tc main_arg11) :=
  (B20_of_ne m c main_arg11 (by decide) : B20 m c (Proc.devRef .tc main_arg11) = B19 m c (Proc.devRef .tc main_arg11)).trans <|
    (StableHlo.after_of_writes_sub hostOps8 _ hostOps8_writes (by decide) : B19 m c (Proc.devRef .tc main_arg11) = B18 m c (Proc.devRef .tc main_arg11)).trans <|
    (B18_of_ne m c main_arg11 (by decide) : B18 m c (Proc.devRef .tc main_arg11) = B17 m c (Proc.devRef .tc main_arg11)).trans <|
    (StableHlo.after_of_writes_sub hostOps7 _ hostOps7_writes (by decide) : B17 m c (Proc.devRef .tc main_arg11) = B16 m c (Proc.devRef .tc main_arg11)).trans <|
    (B16_of_ne m c main_arg11 (by decide) : B16 m c (Proc.devRef .tc main_arg11) = B15 m c (Proc.devRef .tc main_arg11)).trans <|
    (StableHlo.after_of_writes_sub hostOps6 _ hostOps6_writes (by decide) : B15 m c (Proc.devRef .tc main_arg11) = B14 m c (Proc.devRef .tc main_arg11)).trans <|
    (B14_of_ne m c main_arg11 (by decide) : B14 m c (Proc.devRef .tc main_arg11) = B13 m c (Proc.devRef .tc main_arg11)).trans <|
    (StableHlo.after_of_writes_sub hostOps5 _ hostOps5_writes (by decide) : B13 m c (Proc.devRef .tc main_arg11) = B12 m c (Proc.devRef .tc main_arg11)).trans <|
    (B12_of_ne m c main_arg11 (by decide) : B12 m c (Proc.devRef .tc main_arg11) = B11 m c (Proc.devRef .tc main_arg11)).trans <|
    (StableHlo.after_of_writes_sub hostOps4 _ hostOps4_writes (by decide) : B11 m c (Proc.devRef .tc main_arg11) = B10 m c (Proc.devRef .tc main_arg11)).trans <|
    (B10_of_ne m c main_arg11 (by decide) : B10 m c (Proc.devRef .tc main_arg11) = B9 m c (Proc.devRef .tc main_arg11)).trans <|
    (StableHlo.after_of_writes_sub hostOps3 _ hostOps3_writes (by decide) : B9 m c (Proc.devRef .tc main_arg11) = B8 m c (Proc.devRef .tc main_arg11)).trans <|
    (B8_of_ne m c main_arg11 (by decide) : B8 m c (Proc.devRef .tc main_arg11) = B7 m c (Proc.devRef .tc main_arg11)).trans <|
    (StableHlo.after_of_writes_sub hostOps2 _ hostOps2_writes (by decide) : B7 m c (Proc.devRef .tc main_arg11) = B6 m c (Proc.devRef .tc main_arg11)).trans <|
    (B6_of_ne m c main_arg11 (by decide) : B6 m c (Proc.devRef .tc main_arg11) = B5 m c (Proc.devRef .tc main_arg11)).trans <|
    (StableHlo.after_of_writes_sub hostOps1 _ hostOps1_writes (by decide) : B5 m c (Proc.devRef .tc main_arg11) = B4 m c (Proc.devRef .tc main_arg11)).trans <|
    (B4_of_ne m c main_arg11 (by decide) : B4 m c (Proc.devRef .tc main_arg11) = B3 m c (Proc.devRef .tc main_arg11)).trans <|
    (StableHlo.after_of_writes_sub hostOps0_2 _ hostOps0_2_writes (by decide) : B3 m c (Proc.devRef .tc main_arg11) = B2 m c (Proc.devRef .tc main_arg11)).trans <|
    (StableHlo.after_of_writes_sub hostOps0_1 _ hostOps0_1_writes (by decide) : B2 m c (Proc.devRef .tc main_arg11) = B1 m c (Proc.devRef .tc main_arg11)).trans <|
    (StableHlo.after_of_writes_sub hostOps0 _ hostOps0_writes (by decide) : B1 m c (Proc.devRef .tc main_arg11) = B0 m c (Proc.devRef .tc main_arg11))

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (keep_main_arg0_0_20 m c),
      (h c _ (mem_uc main_arg1 (by decide))).trans (keep_main_arg1_0_20 m c),
      (h c _ (mem_uc main_arg2 (by decide))).trans (keep_main_arg2_0_20 m c),
      (h c _ (mem_uc main_arg3 (by decide))).trans (keep_main_arg3_0_20 m c),
      (h c _ (mem_uc main_arg4 (by decide))).trans (keep_main_arg4_0_20 m c),
      (h c _ (mem_uc main_arg5 (by decide))).trans (keep_main_arg5_0_20 m c),
      (h c _ (mem_uc main_arg6 (by decide))).trans (keep_main_arg6_0_20 m c),
      (h c _ (mem_uc main_arg7 (by decide))).trans (keep_main_arg7_0_20 m c),
      (h c _ (mem_uc main_arg8 (by decide))).trans (keep_main_arg8_0_20 m c),
      (h c _ (mem_uc main_arg9 (by decide))).trans (keep_main_arg9_0_20 m c),
      (h c _ (mem_uc main_arg10 (by decide))).trans (keep_main_arg10_0_20 m c),
      (h c _ (mem_uc main_arg11 (by decide))).trans (keep_main_arg11_0_20 m c)⟩)
    (run_all m ρ)

end Cert.Kernel.Fr

end
-- ==== Proof.KI.Body0.lean ====
/-
  Region 0 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point's block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's block index has not moved since the last fetch, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's block index has not moved since the last fetch, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its whole block. -/
abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output's staging buffer after the body: the one whole-block store of the body's value of the input blocks. -/
def out0_3 (x0 : Vec F S5000x256 .f32) (x1 : Vec F S256x128 .f32) (x2 : Vec F S1x128 .f32) : Vec F S5000x128 .f32 :=
  View.canon [⟨r0_3, k0_pay1 (View.ld x0 r0_0) (View.ld x1 r0_1) (View.ld x2 r0_2)⟩]

/-- The one store covers the whole block. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' holding `x` and the output's anything, ends with the inputs' unchanged
    and the output's holding the stored value. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point's block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its whole block. -/
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output's staging buffer after the body: the one whole-block store of the body's value of the input blocks. -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the whole block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging buffers, the inputs' holding `x` and the output's anything, ends with the inputs' unchanged
    and the output's holding the stored value. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input's
    buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point's block index has not moved since the last fetch, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point's block index has not moved since the last fetch, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point's block index has not moved since the last fetch, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its whole block. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-- The output's staging buffer after the body: the one whole-block store of the body's value of the input blocks. -/
def out2_3 (x0 : Vec F S5000x128 .f32) (x1 : Vec F S128x128 .f32) (x2 : Vec F S1x128 .f32) : Vec F S5000x128 .f32 :=
  View.canon [⟨r2_3, k2_pay1 (View.ld x0 r2_0) (View.ld x1 r2_1) (View.ld x2 r2_2)⟩]

/-- The one store covers the whole block. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

set_option maxHeartbeats 1000000 in
/-- The body on whole staging buffers, the inputs' holding `x` and the output's anything, ends with the inputs' unchanged
    and the output's holding the stored value. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_kernel i arg1 harg1 arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched
    point's block index has not moved since the last fetch, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched
    point's block index has not moved since the last fetch, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each is its whole block. -/
abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

/-- The output's staging buffer after the body: the one whole-block store of the body's value of the input blocks. -/
def out3_2 (x0 : Vec F S5000x128 .f32) (x1 : Vec F S1x128 .f32) : Vec F S5000x128 .f32 :=
  View.canon [⟨r3_2, k3_pay1 (View.ld x0 r3_0) (View.ld x1 r3_1)⟩]

/-- The one store covers the whole block. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging buffers, the inputs' holding `x` and the output's anything, ends with the inputs' unchanged
    and the output's holding the stored value. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Body4.lean ====
/-
  Region 4 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    point's block index has not moved since the last fetch, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    point's block index has not moved since the last fetch, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    point's block index has not moved since the last fetch, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each is its whole block. -/
abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0
abbrev r4_3 : Rect S5000x128 := Rect.unit (s := S5000x128) ![0, 0] S5000x128.size inb_S5000x128_S5000x128_0_0

/-- The output's staging buffer after the body: the one whole-block store of the body's value of the input blocks. -/
def out4_3 (x0 : Vec F S5000x128 .f32) (x1 : Vec F S128x128 .f32) (x2 : Vec F S1x128 .f32) : Vec F S5000x128 .f32 :=
  View.canon [⟨r4_3, k4_pay1 (View.ld x0 r4_0) (View.ld x1 r4_1) (View.ld x2 r4_2)⟩]

/-- The one store covers the whole block. -/
theorem cover4_3 (p0 : Vec F S5000x128 .f32) (y : S5000x128.Idx) :
    ∃ pc ∈ ([⟨r4_3, p0⟩] : List (View.Piece (Elt F) S5000x128 .f32)), y ∈ pc.1.set :=
  View.cover_of_tiled [⟨r4_3, p0⟩] S5000x128.size (by rfl) y

set_option maxHeartbeats 1000000 in
/-- The body on whole staging buffers, the inputs' holding `x` and the output's anything, ends with the inputs' unchanged
    and the output's holding the stored value. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_kernel i arg1 harg1 arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's
    buffer at its block and the output's at the body's value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Body5.lean ====
/-
  Region 5 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched
    point's block index has not moved since the last fetch, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched
    point's block index has not moved since the last fetch, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each is its whole block. -/
abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S5000x128 := Rect.unit (s := S5000x128) ![0, 0] S5000x128.size inb_S5000x128_S5000x128_0_0

/-- The output's staging buffer after the body: the one whole-block store of the body's value of the input blocks. -/
def out5_2 (x0 : Vec F S5000x128 .f32) (x1 : Vec F S1x128 .f32) : Vec F S5000x128 .f32 :=
  View.canon [⟨r5_2, k5_pay1 (View.ld x0 r5_0) (View.ld x1 r5_1)⟩]

/-- The one store covers the whole block. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

set_option maxHeartbeats 1000000 in
/-- The body on whole staging buffers, the inputs' holding `x` and the output's anything, ends with the inputs' unchanged
    and the output's holding the stored value. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each input's
    buffer at its block and the output's at the body's value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Body6.lean ====
/-
  Region 6 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: an unfetched
    point's block index has not moved since the last fetch, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: an unfetched
    point's block index has not moved since the last fetch, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: an unfetched
    point's block index has not moved since the last fetch, and the body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each is its whole block. -/
abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S5000x128 := Rect.unit (s := S5000x128) ![0, 0] S5000x128.size inb_S5000x128_S5000x128_0_0

/-- The output's staging buffer after the body: the one whole-block store of the body's value of the input blocks. -/
def out6_3 (x0 : Vec F S5000x128 .f32) (x1 : Vec F S128x128 .f32) (x2 : Vec F S1x128 .f32) : Vec F S5000x128 .f32 :=
  View.canon [⟨r6_3, k6_pay1 (View.ld x0 r6_0) (View.ld x1 r6_1) (View.ld x2 r6_2)⟩]

/-- The one store covers the whole block. -/
theorem cover6_3 (p0 : Vec F S5000x128 .f32) (y : S5000x128.Idx) :
    ∃ pc ∈ ([⟨r6_3, p0⟩] : List (View.Piece (Elt F) S5000x128 .f32)), y ∈ pc.1.set :=
  View.cover_of_tiled [⟨r6_3, p0⟩] S5000x128.size (by rfl) y

set_option maxHeartbeats 1000000 in
/-- The body on whole staging buffers, the inputs' holding `x` and the output's anything, ends with the inputs' unchanged
    and the output's holding the stored value. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_kernel i arg1 harg1 arg2 harg2 arg3 harg3 arg4 harg4) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each input's
    buffer at its block and the output's at the body's value of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Body7.lean ====
/-
  Region 7 of the program's @main (a row-blocked bias add followed by a maximum with zero),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: an unfetched
    point's block index has not moved since the last fetch, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: an unfetched
    point's block index has not moved since the last fetch, and the body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each is its whole block. -/
abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S5000x128 := Rect.unit (s := S5000x128) ![0, 0] S5000x128.size inb_S5000x128_S5000x128_0_0

/-- The output's staging buffer after the body: the one whole-block store of the body's value of the input blocks. -/
def out7_2 (x0 : Vec F S5000x128 .f32) (x1 : Vec F S1x128 .f32) : Vec F S5000x128 .f32 :=
  View.canon [⟨r7_2, k7_pay1 (View.ld x0 r7_0) (View.ld x1 r7_1)⟩]

/-- The one store covers the whole block. -/
theorem cover7_2 (p0 : Vec F S5000x128 .f32) (y : S5000x128.Idx) :
    ∃ pc ∈ ([⟨r7_2, p0⟩] : List (View.Piece (Elt F) S5000x128 .f32)), y ∈ pc.1.set :=
  View.cover_of_tiled [⟨r7_2, p0⟩] S5000x128.size (by rfl) y

set_option maxHeartbeats 1000000 in
/-- The body on whole staging buffers, the inputs' holding `x` and the output's anything, ends with the inputs' unchanged
    and the output's holding the stored value. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_relu_kernel i arg1 harg1 arg2 harg2 arg3 harg3) K := by
  simp only [cc7__bias_relu_kernel_eq_skeleton]; unfold cc7__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each input's
    buffer at its block and the output's at the body's value of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Body8.lean ====
/-
  Region 8 of the program's @main (a row-blocked matrix product plus a bias row),
  stated at a parameter `V`: the TensorCore's buffer contents when the region is entered.
  Each window's block at a grid point is its array read through the block's view; the body loads every input block
  whole, computes one value from them and stores it over the whole output block, so after the body the output's
  staging buffer holds that value of the input blocks and every input buffer is as it was.  From this follow the
  proof data of the pipeline (arrays, what each buffer holds after the body, nothing owed, full shares) and the
  body's obligation at every grid point.  Everything here holds at any float instance.
-/
import proofs.«152695_j35802847379839_1_alg».proof.Proof.Gen.KernelIdeal.Launch
import proofs.«152695_j35802847379839_1_alg».proof.Proof.Gen.KernelIdeal.Skeleton
import proofs.«152695_j35802847379839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: an unfetched
    point's block index has not moved since the last fetch, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: an unfetched
    point's block index has not moved since the last fetch, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: an unfetched
    point's block index has not moved since the last fetch, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body reads and writes: each is its whole block. -/
abbrev r8_0 : Rect S4000x512 := Rect.unit (s := S4000x512) ![0, 0] S4000x512.size inb_S4000x512_S4000x512_0_0
abbrev r8_1 : Rect S512x40 := Rect.unit (s := S512x40) ![0, 0] S512x40.size inb_S512x40_S512x40_0_0
abbrev r8_2 : Rect S1x40 := Rect.unit (s := S1x40) ![0, 0] S1x40.size inb_S1x40_S1x40_0_0
abbrev r8_3 : Rect S4000x40 := Rect.unit (s := S4000x40) ![0, 0] S4000x40.size inb_S4000x40_S4000x40_0_0

/-- The output's staging buffer after the body: the one whole-block store of the body's value of the input blocks. -/
def out8_3 (x0 : Vec F S4000x512 .f32) (x1 : Vec F S512x40 .f32) (x2 : Vec F S1x40 .f32) : Vec F S4000x40 .f32 :=
  View.canon [⟨r8_3, k8_pay1 (View.ld x0 r8_0) (View.ld x1 r8_1) (View.ld x2 r8_2)⟩]

/-- The one store covers the whole block. -/
theorem cover8_3 (p0 : Vec F S4000x40 .f32) (y : S4000x40.Idx) :
    ∃ pc ∈ ([⟨r8_3, p0⟩] : List (View.Piece (Elt F) S4000x40 .f32)), y ∈ pc.1.set :=
  View.cover_of_tiled [⟨r8_3, p0⟩] S4000x40.size (by rfl) y

set_option maxHeartbeats 1000000 in
/-- The body on whole staging buffers, the inputs' holding `x` and the output's anything, ends with the inputs' unchanged
    and the output's holding the stored value. -/
theorem sound_kernel8 (c : Dev nD) (E : Set ℕ) (i : grid8.Coords) (arg1 : Memref sig .tc .vmem S4000x512 .f32) (harg1 : arg1.IsWhole) (arg2 : Memref sig .tc .vmem S512x40 .f32) (harg2 : arg2.IsWhole) (arg3 : Memref sig .tc .vmem S1x40 .f32) (harg3 : arg3.IsWhole) (arg4 : Memref sig .tc .vmem S4000x40 .f32) (harg4 : arg4.IsWhole)
    (x0 : Vec F S4000x512 .f32) (x1 : Vec F S512x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_kernel i arg1 harg1 arg2 harg2 arg3 harg3 arg4 harg4) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's
    buffer at its block and the output's at the body's value of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the body's triple applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.Run.lean ====
/-
  The run of the whole program: @main is twenty items in a row — eleven stretches of host operations and nine
  kernel regions.  The buffer contents at each boundary between items are a fold from the launch memory: a host
  stretch applies its operations; a region leaves each of its arrays at what its pipeline's write-backs leave
  (an input array as entered, the output array at the blocks the grid points wrote) and every other buffer as entered.
  Each region is entered from "every unscoped buffer at the boundary's contents, the generator register at some
  state, nothing owed" and left in the same form at the next boundary, so the items chain, and every weakly fair
  execution terminates with every unscoped buffer at the last boundary's contents.  Holds at any float instance.
-/
import proofs.«152695_j35802847379839_1_alg».proof.Proof.KI.Body0
import proofs.«152695_j35802847379839_1_alg».proof.Proof.KI.Body1
import proofs.«152695_j35802847379839_1_alg».proof.Proof.KI.Body2
import proofs.«152695_j35802847379839_1_alg».proof.Proof.KI.Body3
import proofs.«152695_j35802847379839_1_alg».proof.Proof.KI.Body4
import proofs.«152695_j35802847379839_1_alg».proof.Proof.KI.Body5
import proofs.«152695_j35802847379839_1_alg».proof.Proof.KI.Body6
import proofs.«152695_j35802847379839_1_alg».proof.Proof.KI.Body7
import proofs.«152695_j35802847379839_1_alg».proof.Proof.KI.Body8

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- The same read at the TensorCore's references. -/
abbrev E0 : (c : Dev nD) → (b : Ref sig .tc) → Buf (Elt F) ((c : Thread nD τ).loc b) := fun c b => B0 m c b
/-- After `hostOps0`. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After `hostOps0_1`. -/
abbrev B2 : Dev nD → Valuation τ sig (Elt F) := fun c => StableHlo.after hostOps0_1 (B1 m c)
abbrev E2 : (c : Dev nD) → (b : Ref sig .tc) → Buf (Elt F) ((c : Thread nD τ).loc b) := fun c b => B2 m c b
/-- After `hostOps0_2`. -/
abbrev B3 : Dev nD → Valuation τ sig (Elt F) := fun c => StableHlo.after hostOps0_2 (B2 m c)
abbrev E3 : (c : Dev nD) → (b : Ref sig .tc) → Buf (Elt F) ((c : Thread nD τ).loc b) := fun c b => B3 m c b
/-- At region 0's exit: its arrays at what the pipeline leaves, every other buffer as entered. -/
def B4 (c : Dev nD) : Valuation τ sig (Elt F) :=
  Pipeline.withArrays spec0 c (B3 m c) fun w => (dat0 (E3 m) c).arrAt w cfg0.N
theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem hF0 (c : Dev nD) (w : Fin cfg0.W) : (dat0 (E3 m) c).arrAt w cfg0.N = E4 m c (Pipeline.arrRef spec0 w) :=
  (B4_arr m c w).symm
theorem hrest0 (c : Dev nD) : ∀ b, b ∉ Finset.univ.image (Pipeline.arrRef spec0) → E4 m c b = E3 m c b :=
  fun b hb => B4_of_ne m c b fun w e => hb (Finset.mem_image.mpr ⟨w, Finset.mem_univ _, e⟩)
/-- After `hostOps1`. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b
/-- At region 1's exit: its arrays at what the pipeline leaves, every other buffer as entered. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem hF1 (c : Dev nD) (w : Fin cfg1.W) : (dat1 (E5 m) c).arrAt w cfg1.N = E6 m c (Pipeline.arrRef spec1 w) :=
  (B6_arr m c w).symm
theorem hrest1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After `hostOps2`. -/
abbrev B7 : Dev nD → Valuation τ sig (Elt F) := fun c => StableHlo.after hostOps2 (B6 m c)
abbrev E7 : (c : Dev nD) → (b : Ref sig .tc) → Buf (Elt F) ((c : Thread nD τ).loc b) := fun c b => B7 m c b
/-- At region 2's exit: its arrays at what the pipeline leaves, every other buffer as entered. -/
def B8 (c : Dev nD) : Valuation τ sig (Elt F) :=
  Pipeline.withArrays spec2 c (B7 m c) fun w => (dat2 (E7 m) c).arrAt w cfg2.N
theorem B8_arr (c : Dev nD) (w : Fin cfg2.W) :
    B8 m c (Proc.devRef .tc (Pipeline.arrRef spec2 w)) = (dat2 (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem hF2 (c : Dev nD) (w : Fin cfg2.W) : (dat2 (E7 m) c).arrAt w cfg2.N = E8 m c (Pipeline.arrRef spec2 w) :=
  (B8_arr m c w).symm
theorem hrest2 (c : Dev nD) : ∀ b, b ∉ Finset.univ.image (Pipeline.arrRef spec2) → E8 m c b = E7 m c b :=
  fun b hb => B8_of_ne m c b fun w e => hb (Finset.mem_image.mpr ⟨w, Finset.mem_univ _, e⟩)
/-- After `hostOps3`. -/
abbrev B9 : Dev nD → Valuation τ sig (Elt F) := fun c => StableHlo.after hostOps3 (B8 m c)
abbrev E9 : (c : Dev nD) → (b : Ref sig .tc) → Buf (Elt F) ((c : Thread nD τ).loc b) := fun c b => B9 m c b
/-- At region 3's exit: its arrays at what the pipeline leaves, every other buffer as entered. -/
def B10 (c : Dev nD) : Valuation τ sig (Elt F) :=
  Pipeline.withArrays spec3 c (B9 m c) fun w => (dat3 (E9 m) c).arrAt w cfg3.N
theorem B10_arr (c : Dev nD) (w : Fin cfg3.W) :
    B10 m c (Proc.devRef .tc (Pipeline.arrRef spec3 w)) = (dat3 (E9 m) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m c (Proc.devRef .tc b) = B9 m c (Proc.devRef .tc b) := by
  unfold B10; exact Pipeline.withArrays_of_ne spec3 c _ _ b hb
abbrev E10 : (c : Dev nD) → (b : Ref sig .tc) → Buf (Elt F) ((c : Thread nD τ).loc b) := fun c b => B10 m c b
theorem hF3 (c : Dev nD) (w : Fin cfg3.W) : (dat3 (E9 m) c).arrAt w cfg3.N = E10 m c (Pipeline.arrRef spec3 w) :=
  (B10_arr m c w).symm
theorem hrest3 (c : Dev nD) : ∀ b, b ∉ Finset.univ.image (Pipeline.arrRef spec3) → E10 m c b = E9 m c b :=
  fun b hb => B10_of_ne m c b fun w e => hb (Finset.mem_image.mpr ⟨w, Finset.mem_univ _, e⟩)
/-- After `hostOps4`. -/
abbrev B11 : Dev nD → Valuation τ sig (Elt F) := fun c => StableHlo.after hostOps4 (B10 m c)
abbrev E11 : (c : Dev nD) → (b : Ref sig .tc) → Buf (Elt F) ((c : Thread nD τ).loc b) := fun c b => B11 m c b
/-- At region 4's exit: its arrays at what the pipeline leaves, every other buffer as entered. -/
def B12 (c : Dev nD) : Valuation τ sig (Elt F) :=
  Pipeline.withArrays spec4 c (B11 m c) fun w => (dat4 (E11 m) c).arrAt w cfg4.N
theorem B12_arr (c : Dev nD) (w : Fin cfg4.W) :
    B12 m c (Proc.devRef .tc (Pipeline.arrRef spec4 w)) = (dat4 (E11 m) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m c (Proc.devRef .tc b) = B11 m c (Proc.devRef .tc b) := by
  unfold B12; exact Pipeline.withArrays_of_ne spec4 c _ _ b hb
abbrev E12 : (c : Dev nD) → (b : Ref sig .tc) → Buf (Elt F) ((c : Thread nD τ).loc b) := fun c b => B12 m c b
theorem hF4 (c : Dev nD) (w : Fin cfg4.W) : (dat4 (E11 m) c).arrAt w cfg4.N = E12 m c (Pipeline.arrRef spec4 w) :=
  (B12_arr m c w).symm
theorem hrest4 (c : Dev nD) : ∀ b, b ∉ Finset.univ.image (Pipeline.arrRef spec4) → E12 m c b = E11 m c b :=
  fun b hb => B12_of_ne m c b fun w e => hb (Finset.mem_image.mpr ⟨w, Finset.mem_univ _, e⟩)
/-- After `hostOps5`. -/
abbrev B13 : Dev nD → Valuation τ sig (Elt F) := fun c => StableHlo.after hostOps5 (B12 m c)
abbrev E13 : (c : Dev nD) → (b : Ref sig .tc) → Buf (Elt F) ((c : Thread nD τ).loc b) := fun c b => B13 m c b
/-- At region 5's exit: its arrays at what the pipeline leaves, every other buffer as entered. -/
def B14 (c : Dev nD) : Valuation τ sig (Elt F) :=
  Pipeline.withArrays spec5 c (B13 m c) fun w => (dat5 (E13 m) c).arrAt w cfg5.N
theorem B14_arr (c : Dev nD) (w : Fin cfg5.W) :
    B14 m c (Proc.devRef .tc (Pipeline.arrRef spec5 w)) = (dat5 (E13 m) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m c (Proc.devRef .tc b) = B13 m c (Proc.devRef .tc b) := by
  unfold B14; exact Pipeline.withArrays_of_ne spec5 c _ _ b hb
abbrev E14 : (c : Dev nD) → (b : Ref sig .tc) → Buf (Elt F) ((c : Thread nD τ).loc b) := fun c b => B14 m c b
theorem hF5 (c : Dev nD) (w : Fin cfg5.W) : (dat5 (E13 m) c).arrAt w cfg5.N = E14 m c (Pipeline.arrRef spec5 w) :=
  (B14_arr m c w).symm
theorem hrest5 (c : Dev nD) : ∀ b, b ∉ Finset.univ.image (Pipeline.arrRef spec5) → E14 m c b = E13 m c b :=
  fun b hb => B14_of_ne m c b fun w e => hb (Finset.mem_image.mpr ⟨w, Finset.mem_univ _, e⟩)
/-- After `hostOps6`. -/
abbrev B15 : Dev nD → Valuation τ sig (Elt F) := fun c => StableHlo.after hostOps6 (B14 m c)
abbrev E15 : (c : Dev nD) → (b : Ref sig .tc) → Buf (Elt F) ((c : Thread nD τ).loc b) := fun c b => B15 m c b
/-- At region 6's exit: its arrays at what the pipeline leaves, every other buffer as entered. -/
def B16 (c : Dev nD) : Valuation τ sig (Elt F) :=
  Pipeline.withArrays spec6 c (B15 m c) fun w => (dat6 (E15 m) c).arrAt w cfg6.N
theorem B16_arr (c : Dev nD) (w : Fin cfg6.W) :
    B16 m c (Proc.devRef .tc (Pipeline.arrRef spec6 w)) = (dat6 (E15 m) c).arrAt w cfg6.N := by
  unfold B16; exact Pipeline.withArrays_arr spec6 launch6.win.arr_inj c _ _ w
theorem B16_of_ne (c : Dev nD) (b : Ref sig .tc) (hb : ∀ w, Pipeline.arrRef spec6 w ≠ b) :
    B16 m c (Proc.devRef .tc b) = B15 m c (Proc.devRef .tc b) := by
  unfold B16; exact Pipeline.withArrays_of_ne spec6 c _ _ b hb
abbrev E16 : (c : Dev nD) → (b : Ref sig .tc) → Buf (Elt F) ((c : Thread nD τ).loc b) := fun c b => B16 m c b
theorem hF6 (c : Dev nD) (w : Fin cfg6.W) : (dat6 (E15 m) c).arrAt w cfg6.N = E16 m c (Pipeline.arrRef spec6 w) :=
  (B16_arr m c w).symm
theorem hrest6 (c : Dev nD) : ∀ b, b ∉ Finset.univ.image (Pipeline.arrRef spec6) → E16 m c b = E15 m c b :=
  fun b hb => B16_of_ne m c b fun w e => hb (Finset.mem_image.mpr ⟨w, Finset.mem_univ _, e⟩)
/-- After `hostOps7`. -/
abbrev B17 : Dev nD → Valuation τ sig (Elt F) := fun c => StableHlo.after hostOps7 (B16 m c)
abbrev E17 : (c : Dev nD) → (b : Ref sig .tc) → Buf (Elt F) ((c : Thread nD τ).loc b) := fun c b => B17 m c b
/-- At region 7's exit: its arrays at what the pipeline leaves, every other buffer as entered. -/
def B18 (c : Dev nD) : Valuation τ sig (Elt F) :=
  Pipeline.withArrays spec7 c (B17 m c) fun w => (dat7 (E17 m) c).arrAt w cfg7.N
theorem B18_arr (c : Dev nD) (w : Fin cfg7.W) :
    B18 m c (Proc.devRef .tc (Pipeline.arrRef spec7 w)) = (dat7 (E17 m) c).arrAt w cfg7.N := by
  unfold B18; exact Pipeline.withArrays_arr spec7 launch7.win.arr_inj c _ _ w
theorem B18_of_ne (c : Dev nD) (b : Ref sig .tc) (hb : ∀ w, Pipeline.arrRef spec7 w ≠ b) :
    B18 m c (Proc.devRef .tc b) = B17 m c (Proc.devRef .tc b) := by
  unfold B18; exact Pipeline.withArrays_of_ne spec7 c _ _ b hb
abbrev E18 : (c : Dev nD) → (b : Ref sig .tc) → Buf (Elt F) ((c : Thread nD τ).loc b) := fun c b => B18 m c b
theorem hF7 (c : Dev nD) (w : Fin cfg7.W) : (dat7 (E17 m) c).arrAt w cfg7.N = E18 m c (Pipeline.arrRef spec7 w) :=
  (B18_arr m c w).symm
theorem hrest7 (c : Dev nD) : ∀ b, b ∉ Finset.univ.image (Pipeline.arrRef spec7) → E18 m c b = E17 m c b :=
  fun b hb => B18_of_ne m c b fun w e => hb (Finset.mem_image.mpr ⟨w, Finset.mem_univ _, e⟩)
/-- After `hostOps8`. -/
abbrev B19 : Dev nD → Valuation τ sig (Elt F) := fun c => StableHlo.after hostOps8 (B18 m c)
abbrev E19 : (c : Dev nD) → (b : Ref sig .tc) → Buf (Elt F) ((c : Thread nD τ).loc b) := fun c b => B19 m c b
/-- At region 8's exit: its arrays at what the pipeline leaves, every other buffer as entered. -/
def B20 (c : Dev nD) : Valuation τ sig (Elt F) :=
  Pipeline.withArrays spec8 c (B19 m c) fun w => (dat8 (E19 m) c).arrAt w cfg8.N
theorem B20_arr (c : Dev nD) (w : Fin cfg8.W) :
    B20 m c (Proc.devRef .tc (Pipeline.arrRef spec8 w)) = (dat8 (E19 m) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m c (Proc.devRef .tc b) = B19 m c (Proc.devRef .tc b) := by
  unfold B20; exact Pipeline.withArrays_of_ne spec8 c _ _ b hb
abbrev E20 : (c : Dev nD) → (b : Ref sig .tc) → Buf (Elt F) ((c : Thread nD τ).loc b) := fun c b => B20 m c b
theorem hF8 (c : Dev nD) (w : Fin cfg8.W) : (dat8 (E19 m) c).arrAt w cfg8.N = E20 m c (Pipeline.arrRef spec8 w) :=
  (B20_arr m c w).symm
theorem hrest8 (c : Dev nD) : ∀ b, b ∉ Finset.univ.image (Pipeline.arrRef spec8) → E20 m c b = E19 m c b :=
  fun b hb => B20_of_ne m c b fun w e => hb (Finset.mem_image.mpr ⟨w, Finset.mem_univ _, e⟩)

/-! ## The proof data family and the thread state -/

/-- No pipeline has a prefetched table. -/
abbrev admF : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) admF p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c
  | ⟨7, _⟩ => fun c => dat7 (E17 m) c
  | ⟨8, _⟩ => fun c => dat8 (E19 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_nofresh : (hostOps0 : List (HloOp τ sig (Elt F))).Forall fun op => op.fresh = ∅ := by
  simp only [List.Forall]; repeat' constructor
/-- No operation of `hostOps0_1` allocates a buffer. -/
theorem hostOps0_1_nofresh : (hostOps0_1 : List (HloOp τ sig (Elt F))).Forall fun op => op.fresh = ∅ := by
  simp only [List.Forall]; repeat' constructor
/-- No operation of `hostOps0_2` allocates a buffer. -/
theorem hostOps0_2_nofresh : (hostOps0_2 : List (HloOp τ sig (Elt F))).Forall fun op => op.fresh = ∅ := by
  simp only [List.Forall]; repeat' constructor
/-- No operation of `hostOps1` allocates a buffer. -/
theorem hostOps1_nofresh : (hostOps1 : List (HloOp τ sig (Elt F))).Forall fun op => op.fresh = ∅ := by
  simp only [List.Forall]; repeat' constructor
/-- No operation of `hostOps2` allocates a buffer. -/
theorem hostOps2_nofresh : (hostOps2 : List (HloOp τ sig (Elt F))).Forall fun op => op.fresh = ∅ := by
  simp only [List.Forall]; repeat' constructor
/-- No operation of `hostOps3` allocates a buffer. -/
theorem hostOps3_nofresh : (hostOps3 : List (HloOp τ sig (Elt F))).Forall fun op => op.fresh = ∅ := by
  simp only [List.Forall]; repeat' constructor
/-- No operation of `hostOps4` allocates a buffer. -/
theorem hostOps4_nofresh : (hostOps4 : List (HloOp τ sig (Elt F))).Forall fun op => op.fresh = ∅ := by
  simp only [List.Forall]; repeat' constructor
/-- No operation of `hostOps5` allocates a buffer. -/
theorem hostOps5_nofresh : (hostOps5 : List (HloOp τ sig (Elt F))).Forall fun op => op.fresh = ∅ := by
  simp only [List.Forall]; repeat' constructor
/-- No operation of `hostOps6` allocates a buffer. -/
theorem hostOps6_nofresh : (hostOps6 : List (HloOp τ sig (Elt F))).Forall fun op => op.fresh = ∅ := by
  simp only [List.Forall]; repeat' constructor
/-- No operation of `hostOps7` allocates a buffer. -/
theorem hostOps7_nofresh : (hostOps7 : List (HloOp τ sig (Elt F))).Forall fun op => op.fresh = ∅ := by
  simp only [List.Forall]; repeat' constructor
/-- No operation of `hostOps8` allocates a buffer. -/
theorem hostOps8_nofresh : (hostOps8 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (B20 m c) ∗ ∃ r, prngReg c r)

/-! ## The regions as segments -/

set_option backward.isDefEq.respectTransparency.types false in
/-- Region 0: entered from every unscoped buffer at boundary 3's contents, left at boundary 4's. Its arrays are
    split out of the unscoped buffers and put back at the exit contents; the generator register goes into the
    pipeline's invariant and comes out; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at boundary 5's contents, left at boundary 6's. Its arrays are
    split out of the unscoped buffers and put back at the exit contents; the generator register goes into the
    pipeline's invariant and comes out; nothing is owed; the kernel has no semaphore of its own. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at boundary 7's contents, left at boundary 8's. Its arrays are
    split out of the unscoped buffers and put back at the exit contents; the generator register goes into the
    pipeline's invariant and comes out; nothing is owed; the kernel has no semaphore of its own. -/
def reg2 : Pipeline.RegionSeg (pcfgs (F := F)) admF (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) admF (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at boundary 9's contents, left at boundary 10's. Its arrays are
    split out of the unscoped buffers and put back at the exit contents; the generator register goes into the
    pipeline's invariant and comes out; nothing is owed; the kernel has no semaphore of its own. -/
def reg3 : Pipeline.RegionSeg (pcfgs (F := F)) admF (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) admF (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at boundary 11's contents, left at boundary 12's. Its arrays are
    split out of the unscoped buffers and put back at the exit contents; the generator register goes into the
    pipeline's invariant and comes out; nothing is owed; the kernel has no semaphore of its own. -/
def reg4 : Pipeline.RegionSeg (pcfgs (F := F)) admF (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E11 m) c).loose
  hwaits := Pipeline.hwaits_of_owed_zero _ _ _ _ L lv 4 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec4 c (E11 m c)
  hentry c := by
    rw [Pipeline.ownSems0_none]
    have hsplit := Pipeline.arrays_of_unscopedBufs (p := 4) (pcfgs (F := F)) admF (pdats m) launch4.win launch4.arr_whole c
      ((pdats m 4 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdats m) ((pdats m 4 c).share_full fun _ => rfl)
      (E11 m c) (E12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at boundary 13's contents, left at boundary 14's. Its arrays are
    split out of the unscoped buffers and put back at the exit contents; the generator register goes into the
    pipeline's invariant and comes out; nothing is owed; the kernel has no semaphore of its own. -/
def reg5 : Pipeline.RegionSeg (pcfgs (F := F)) admF (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E13 m) c).loose
  hwaits := Pipeline.hwaits_of_owed_zero _ _ _ _ L lv 5 fun _ _ => rfl
  pre c := iprop(StableHlo.held (c : Thread nD τ) (Pipeline.ucRefs τ sig) (B13 m c) ∗ R c)
  post c := iprop(StableHlo.held (c : Thread nD τ) (Pipeline.ucRefs τ sig) (B14 m c) ∗ R c)
  X c := iprop(∃ r, prngReg c r)
  Y c := iprop(∃ r, prngReg c r)
  Z c := Pipeline.unscopedRest (Ix := Unit) (Name := ℕ) (U := UR sig nD τ) (Lvl := ℕ) spec5 c (E13 m c)
  hentry c := by
    rw [Pipeline.ownSems0_none]
    have hsplit := Pipeline.arrays_of_unscopedBufs (p := 5) (pcfgs (F := F)) admF (pdats m) launch5.win launch5.arr_whole c
      ((pdats m 5 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdats m) ((pdats m 5 c).share_full fun _ => rfl)
      (E13 m c) (E14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at boundary 15's contents, left at boundary 16's. Its arrays are
    split out of the unscoped buffers and put back at the exit contents; the generator register goes into the
    pipeline's invariant and comes out; nothing is owed; the kernel has no semaphore of its own. -/
def reg6 : Pipeline.RegionSeg (pcfgs (F := F)) admF (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E15 m) c).loose
  hwaits := Pipeline.hwaits_of_owed_zero _ _ _ _ L lv 6 fun _ _ => rfl
  pre c := iprop(StableHlo.held (c : Thread nD τ) (Pipeline.ucRefs τ sig) (B15 m c) ∗ R c)
  post c := iprop(StableHlo.held (c : Thread nD τ) (Pipeline.ucRefs τ sig) (B16 m c) ∗ R c)
  X c := iprop(∃ r, prngReg c r)
  Y c := iprop(∃ r, prngReg c r)
  Z c := Pipeline.unscopedRest (Ix := Unit) (Name := ℕ) (U := UR sig nD τ) (Lvl := ℕ) spec6 c (E15 m c)
  hentry c := by
    rw [Pipeline.ownSems0_none]
    have hsplit := Pipeline.arrays_of_unscopedBufs (p := 6) (pcfgs (F := F)) admF (pdats m) launch6.win launch6.arr_whole c
      ((pdats m 6 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdats m) ((pdats m 6 c).share_full fun _ => rfl)
      (E15 m c) (E16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at boundary 17's contents, left at boundary 18's. Its arrays are
    split out of the unscoped buffers and put back at the exit contents; the generator register goes into the
    pipeline's invariant and comes out; nothing is owed; the kernel has no semaphore of its own. -/
def reg7 : Pipeline.RegionSeg (pcfgs (F := F)) admF (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E17 m) c).loose
  hwaits := Pipeline.hwaits_of_owed_zero _ _ _ _ L lv 7 fun _ _ => rfl
  pre c := iprop(StableHlo.held (c : Thread nD τ) (Pipeline.ucRefs τ sig) (B17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec7 c (E17 m c)
  hentry c := by
    rw [Pipeline.ownSems0_none]
    have hsplit := Pipeline.arrays_of_unscopedBufs (p := 7) (pcfgs (F := F)) admF (pdats m) launch7.win launch7.arr_whole c
      ((pdats m 7 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdats m) ((pdats m 7 c).share_full fun _ => rfl)
      (E17 m c) (E18 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at boundary 19's contents, left at boundary 20's. Its arrays are
    split out of the unscoped buffers and put back at the exit contents; the generator register goes into the
    pipeline's invariant and comes out; nothing is owed; the kernel has no semaphore of its own. -/
def reg8 : Pipeline.RegionSeg (pcfgs (F := F)) admF (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E19 m) c).loose
  hwaits := Pipeline.hwaits_of_owed_zero _ _ _ _ L lv 8 fun _ _ => rfl
  pre c := iprop(StableHlo.held (c : Thread nD τ) (Pipeline.ucRefs τ sig) (B19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E19 m c)
  hentry c := by
    rw [Pipeline.ownSems0_none]
    have hsplit := Pipeline.arrays_of_unscopedBufs (p := 8) (pcfgs (F := F)) admF (pdats m) launch8.win launch8.arr_whole c
      ((pdats m 8 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admF (Ix := Unit) (Name := ℕ) (U := UR sig nD τ) (Lvl := ℕ)
      launch8.win launch8.arr_whole c (pdats m) ((pdats m 8 c).share_full fun _ => rfl)
      (E19 m c) (E20 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twenty segments in order. -/
abbrev segsF : List (Pipeline.Seg (pcfgs (F := F)) admF (pdats m) () defs₀ 𝒱₀ L lv) :=
  [
    .host (hseg hostOps0 hostOps0_sub hostOps0_nofresh (B0 m)),
    .host (hseg hostOps0_1 hostOps0_1_sub hostOps0_1_nofresh (B1 m)),
    .host (hseg hostOps0_2 hostOps0_2_sub hostOps0_2_nofresh (B2 m)),
    .region (reg0 m),
    .host (hseg hostOps1 hostOps1_sub hostOps1_nofresh (B4 m)),
    .region (reg1 m),
    .host (hseg hostOps2 hostOps2_sub hostOps2_nofresh (B6 m)),
    .region (reg2 m),
    .host (hseg hostOps3 hostOps3_sub hostOps3_nofresh (B8 m)),
    .region (reg3 m),
    .host (hseg hostOps4 hostOps4_sub hostOps4_nofresh (B10 m)),
    .region (reg4 m),
    .host (hseg hostOps5 hostOps5_sub hostOps5_nofresh (B12 m)),
    .region (reg5 m),
    .host (hseg hostOps6 hostOps6_sub hostOps6_nofresh (B14 m)),
    .region (reg6 m),
    .host (hseg hostOps7 hostOps7_sub hostOps7_nofresh (B16 m)),
    .region (reg7 m),
    .host (hseg hostOps8 hostOps8_sub hostOps8_nofresh (B18 m)),
    .region (reg8 m) ]

set_option backward.isDefEq.respectTransparency.types false in
/-- Every weakly fair execution of @main from memory `m` with zero counters terminates, nothing faulting, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B20 m c b) :=
  Pipeline.θ_run_regions_kit (pcfgs (F := F)) admF (pdats m) () cellOf_inj emb₁ defs₀ 𝒱₀ L lv m ρ main (segsF m)
    (fun c Q => by
      rewrite [main_chain c, Pipeline.Seg.run_eq_chain,
        show (segsF m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B20 m c b)
    (hfin := fun c s' => by
      iintro ⟨⟨Hh, -⟩, HSI⟩
      unfold StableHlo.held
      imodintro
      iapply (pointsTo_read_all (Pipeline.ucRefs τ sig) (fun b => (((c : Thread nD τ)).1, b)) (B20 m c) s')
      isplitl [Hh] <;> iassumption)
    (hQ := fun s h c => h c)

end Cert.KernelIdeal.Fr

end
-- ==== Proof.KI.Frame.lean ====
/-
  Which buffers the items of @main leave alone, and the frame.  A host stretch changes only the buffers its
  operations write; a region changes only its output array (an input array ends as it was entered, every buffer that
  is no array of the region is untouched).  Followed item by item, an argument array is never changed, so the last
  boundary holds it as launched: that is the frame.  The same walk, over shorter ranges, carries the
  edge lists, the edge weights, the layer outputs and the weights from where they are made to where they are read.
-/
import proofs.«152695_j35802847379839_1_alg».proof.Proof.KI.Run
import proofs.«152695_j35802847379839_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem keep_main_arg0_0_20 (c : Dev nD) : B20 m c (Proc.devRef .tc main_arg0) = B0 m c (Proc.devRef .tc main_arg0) :=
  (B20_of_ne m c main_arg0 (by decide) : B20 m c (Proc.devRef .tc main_arg0) = B19 m c (Proc.devRef .tc main_arg0)).trans <|
    (StableHlo.after_of_writes_sub hostOps8 _ hostOps8_writes (by decide) : B19 m c (Proc.devRef .tc main_arg0) = B18 m c (Proc.devRef .tc main_arg0)).trans <|
    (B18_of_ne m c main_arg0 (by decide) : B18 m c (Proc.devRef .tc main_arg0) = B17 m c (Proc.devRef .tc main_arg0)).trans <|
    (StableHlo.after_of_writes_sub hostOps7 _ hostOps7_writes (by decide) : B17 m c (Proc.devRef .tc main_arg0) = B16 m c (Proc.devRef .tc main_arg0)).trans <|
    (B16_of_ne m c main_arg0 (by decide) : B16 m c (Proc.devRef .tc main_arg0) = B15 m c (Proc.devRef .tc main_arg0)).trans <|
    (StableHlo.after_of_writes_sub hostOps6 _ hostOps6_writes (by decide) : B15 m c (Proc.devRef .tc main_arg0) = B14 m c (Proc.devRef .tc main_arg0)).trans <|
    (B14_of_ne m c main_arg0 (by decide) : B14 m c (Proc.devRef .tc main_arg0) = B13 m c (Proc.devRef .tc main_arg0)).trans <|
    (StableHlo.after_of_writes_sub hostOps5 _ hostOps5_writes (by decide) : B13 m c (Proc.devRef .tc main_arg0) = B12 m c (Proc.devRef .tc main_arg0)).trans <|
    (B12_of_ne m c main_arg0 (by decide) : B12 m c (Proc.devRef .tc main_arg0) = B11 m c (Proc.devRef .tc main_arg0)).trans <|
    (StableHlo.after_of_writes_sub hostOps4 _ hostOps4_writes (by decide) : B11 m c (Proc.devRef .tc main_arg0) = B10 m c (Proc.devRef .tc main_arg0)).trans <|
    (B10_of_ne m c main_arg0 (by decide) : B10 m c (Proc.devRef .tc main_arg0) = B9 m c (Proc.devRef .tc main_arg0)).trans <|
    (StableHlo.after_of_writes_sub hostOps3 _ hostOps3_writes (by decide) : B9 m c (Proc.devRef .tc main_arg0) = B8 m c (Proc.devRef .tc main_arg0)).trans <|
    (B8_of_ne m c main_arg0 (by decide) : B8 m c (Proc.devRef .tc main_arg0) = B7 m c (Proc.devRef .tc main_arg0)).trans <|
    (StableHlo.after_of_writes_sub hostOps2 _ hostOps2_writes (by decide) : B7 m c (Proc.devRef .tc main_arg0) = B6 m c (Proc.devRef .tc main_arg0)).trans <|
    (B6_of_ne m c main_arg0 (by decide) : B6 m c (Proc.devRef .tc main_arg0) = B5 m c (Proc.devRef .tc main_arg0)).trans <|
    (StableHlo.after_of_writes_sub hostOps1 _ hostOps1_writes (by decide) : B5 m c (Proc.devRef .tc main_arg0) = B4 m c (Proc.devRef .tc main_arg0)).trans <|
    ((B4_arr m c 0).trans (((dat0 (E3 m) c).arrAt_in 0 rfl _).trans (A_eq0 (E3 m) c 0)) : B4 m c (Proc.devRef .tc main_arg0) = B3 m c (Proc.devRef .tc main_arg0)).trans <|
    (StableHlo.after_of_writes_sub hostOps0_2 _ hostOps0_2_writes (by decide) : B3 m c (Proc.devRef .tc main_arg0) = B2 m c (Proc.devRef .tc main_arg0)).trans <|
    (StableHlo.after_of_writes_sub hostOps0_1 _ hostOps0_1_writes (by decide) : B2 m c (Proc.devRef .tc main_arg0) = B1 m c (Proc.devRef .tc main_arg0)).trans <|
    (StableHlo.after_of_writes_sub hostOps0 _ hostOps0_writes (by decide) : B1 m c (Proc.devRef .tc main_arg0) = B0 m c (Proc.devRef .tc main_arg0))
theorem keep_main_arg1_0_20 (c : Dev nD) : B20 m c (Proc.devRef .tc main_arg1) = B0 m c (Proc.devRef .tc main_arg1) :=
  (B20_of_ne m c main_arg1 (by decide) : B20 m c (Proc.devRef .tc main_arg1) = B19 m c (Proc.devRef .tc main_arg1)).trans <|
    (StableHlo.after_of_writes_sub hostOps8 _ hostOps8_writes (by decide) : B19 m c (Proc.devRef .tc main_arg1) = B18 m c (Proc.devRef .tc main_arg1)).trans <|
    (B18_of_ne m c main_arg1 (by decide) : B18 m c (Proc.devRef .tc main_arg1) = B17 m c (Proc.devRef .tc main_arg1)).trans <|
    (StableHlo.after_of_writes_sub hostOps7 _ hostOps7_writes (by decide) : B17 m c (Proc.devRef .tc main_arg1) = B16 m c (Proc.devRef .tc main_arg1)).trans <|
    (B16_of_ne m c main_arg1 (by decide) : B16 m c (Proc.devRef .tc main_arg1) = B15 m c (Proc.devRef .tc main_arg1)).trans <|
    (StableHlo.after_of_writes_sub hostOps6 _ hostOps6_writes (by decide) : B15 m c (Proc.devRef .tc main_arg1) = B14 m c (Proc.devRef .tc main_arg1)).trans <|
    (B14_of_ne m c main_arg1 (by decide) : B14 m c (Proc.devRef .tc main_arg1) = B13 m c (Proc.devRef .tc main_arg1)).trans <|
    (StableHlo.after_of_writes_sub hostOps5 _ hostOps5_writes (by decide) : B13 m c (Proc.devRef .tc main_arg1) = B12 m c (Proc.devRef .tc main_arg1)).trans <|
    (B12_of_ne m c main_arg1 (by decide) : B12 m c (Proc.devRef .tc main_arg1) = B11 m c (Proc.devRef .tc main_arg1)).trans <|
    (StableHlo.after_of_writes_sub hostOps4 _ hostOps4_writes (by decide) : B11 m c (Proc.devRef .tc main_arg1) = B10 m c (Proc.devRef .tc main_arg1)).trans <|
    (B10_of_ne m c main_arg1 (by decide) : B10 m c (Proc.devRef .tc main_arg1) = B9 m c (Proc.devRef .tc main_arg1)).trans <|
    (StableHlo.after_of_writes_sub hostOps3 _ hostOps3_writes (by decide) : B9 m c (Proc.devRef .tc main_arg1) = B8 m c (Proc.devRef .tc main_arg1)).trans <|
    (B8_of_ne m c main_arg1 (by decide) : B8 m c (Proc.devRef .tc main_arg1) = B7 m c (Proc.devRef .tc main_arg1)).trans <|
    (StableHlo.after_of_writes_sub hostOps2 _ hostOps2_writes (by decide) : B7 m c (Proc.devRef .tc main_arg1) = B6 m c (Proc.devRef .tc main_arg1)).trans <|
    (B6_of_ne m c main_arg1 (by decide) : B6 m c (Proc.devRef .tc main_arg1) = B5 m c (Proc.devRef .tc main_arg1)).trans <|
    (StableHlo.after_of_writes_sub hostOps1 _ hostOps1_writes (by decide) : B5 m c (Proc.devRef .tc main_arg1) = B4 m c (Proc.devRef .tc main_arg1)).trans <|
    (B4_of_ne m c main_arg1 (by decide) : B4 m c (Proc.devRef .tc main_arg1) = B3 m c (Proc.devRef .tc main_arg1)).trans <|
    (StableHlo.after_of_writes_sub hostOps0_2 _ hostOps0_2_writes (by decide) : B3 m c (Proc.devRef .tc main_arg1) = B2 m c (Proc.devRef .tc main_arg1)).trans <|
    (StableHlo.after_of_writes_sub hostOps0_1 _ hostOps0_1_writes (by decide) : B2 m c (Proc.devRef .tc main_arg1) = B1 m c (Proc.devRef .tc main_arg1)).trans <|
    (StableHlo.after_of_writes_sub hostOps0 _ hostOps0_writes (by decide) : B1 m c (Proc.devRef .tc main_arg1) = B0 m c (Proc.devRef .tc main_arg1))
theorem keep_main_arg2_0_20 (c : Dev nD) : B20 m c (Proc.devRef .tc main_arg2) = B0 m c (Proc.devRef .tc main_arg2) :=
  (B20_of_ne m c main_arg2 (by decide) : B20 m c (Proc.devRef .tc main_arg2) = B19 m c (Proc.devRef .tc main_arg2)).trans <|
    (StableHlo.after_of_writes_sub hostOps8 _ hostOps8_writes (by decide) : B19 m c (Proc.devRef .tc main_arg2) = B18 m c (Proc.devRef .tc main_arg2)).trans <|
    (B18_of_ne m c main_arg2 (by decide) : B18 m c (Proc.devRef .tc main_arg2) = B17 m c (Proc.devRef .tc main_arg2)).trans <|
    (StableHlo.after_of_writes_sub hostOps7 _ hostOps7_writes (by decide) : B17 m c (Proc.devRef .tc main_arg2) = B16 m c (Proc.devRef .tc main_arg2)).trans <|
    (B16_of_ne m c main_arg2 (by decide) : B16 m c (Proc.devRef .tc main_arg2) = B15 m c (Proc.devRef .tc main_arg2)).trans <|
    (StableHlo.after_of_writes_sub hostOps6 _ hostOps6_writes (by decide) : B15 m c (Proc.devRef .tc main_arg2) = B14 m c (Proc.devRef .tc main_arg2)).trans <|
    (B14_of_ne m c main_arg2 (by decide) : B14 m c (Proc.devRef .tc main_arg2) = B13 m c (Proc.devRef .tc main_arg2)).trans <|
    (StableHlo.after_of_writes_sub hostOps5 _ hostOps5_writes (by decide) : B13 m c (Proc.devRef .tc main_arg2) = B12 m c (Proc.devRef .tc main_arg2)).trans <|
    (B12_of_ne m c main_arg2 (by decide) : B12 m c (Proc.devRef .tc main_arg2) = B11 m c (Proc.devRef .tc main_arg2)).trans <|
    (StableHlo.after_of_writes_sub hostOps4 _ hostOps4_writes (by decide) : B11 m c (Proc.devRef .tc main_arg2) = B10 m c (Proc.devRef .tc main_arg2)).trans <|
    (B10_of_ne m c main_arg2 (by decide) : B10 m c (Proc.devRef .tc main_arg2) = B9 m c (Proc.devRef .tc main_arg2)).trans <|
    (StableHlo.after_of_writes_sub hostOps3 _ hostOps3_writes (by decide) : B9 m c (Proc.devRef .tc main_arg2) = B8 m c (Proc.devRef .tc main_arg2)).trans <|
    (B8_of_ne m c main_arg2 (by decide) : B8 m c (Proc.devRef .tc main_arg2) = B7 m c (Proc.devRef .tc main_arg2)).trans <|
    (StableHlo.after_of_writes_sub hostOps2 _ hostOps2_writes (by decide) : B7 m c (Proc.devRef .tc main_arg2) = B6 m c (Proc.devRef .tc main_arg2)).trans <|
    (B6_of_ne m c main_arg2 (by decide) : B6 m c (Proc.devRef .tc main_arg2) = B5 m c (Proc.devRef .tc main_arg2)).trans <|
    (StableHlo.after_of_writes_sub hostOps1 _ hostOps1_writes (by decide) : B5 m c (Proc.devRef .tc main_arg2) = B4 m c (Proc.devRef .tc main_arg2)).trans <|
    ((B4_arr m c 1).trans (((dat0 (E3 m) c).arrAt_in 1 rfl _).trans (A_eq0 (E3 m) c 1)) : B4 m c (Proc.devRef .tc main_arg2) = B3 m c (Proc.devRef .tc main_arg2)).trans <|
    (StableHlo.after_of_writes_sub hostOps0_2 _ hostOps0_2_writes (by decide) : B3 m c (Proc.devRef .tc main_arg2) = B2 m c (Proc.devRef .tc main_arg2)).trans <|
    (StableHlo.after_of_writes_sub hostOps0_1 _ hostOps0_1_writes (by decide) : B2 m c (Proc.devRef .tc main_arg2) = B1 m c (Proc.devRef .tc main_arg2)).trans <|
    (StableHlo.after_of_writes_sub hostOps0 _ hostOps0_writes (by decide) : B1 m c (Proc.devRef .tc main_arg2) = B0 m c (Proc.devRef .tc main_arg2))
theorem keep_main_arg3_0_20 (c : Dev nD) : B20 m c (Proc.devRef .tc main_arg3) = B0 m c (Proc.devRef .tc main_arg3) :=
  (B20_of_ne m c main_arg3 (by decide) : B20 m c (Proc.devRef .tc main_arg3) = B19 m c (Proc.devRef .tc main_arg3)).trans <|
    (StableHlo.after_of_writes_sub hostOps8 _ hostOps8_writes (by decide) : B19 m c (Proc.devRef .tc main_arg3) = B18 m c (Proc.devRef .tc main_arg3)).trans <|
    (B18_of_ne m c main_arg3 (by decide) : B18 m c (Proc.devRef .tc main_arg3) = B17 m c (Proc.devRef .tc main_arg3)).trans <|
    (StableHlo.after_of_writes_sub hostOps7 _ hostOps7_writes (by decide) : B17 m c (Proc.devRef .tc main_arg3) = B16 m c (Proc.devRef .tc main_arg3)).trans <|
    (B16_of_ne m c main_arg3 (by decide) : B16 m c (Proc.devRef .tc main_arg3) = B15 m c (Proc.devRef .tc main_arg3)).trans <|
    (StableHlo.after_of_writes_sub hostOps6 _ hostOps6_writes (by decide) : B15 m c (Proc.devRef .tc main_arg3) = B14 m c (Proc.devRef .tc main_arg3)).trans <|
    (B14_of_ne m c main_arg3 (by decide) : B14 m c (Proc.devRef .tc main_arg3) = B13 m c (Proc.devRef .tc main_arg3)).trans <|
    (StableHlo.after_of_writes_sub hostOps5 _ hostOps5_writes (by decide) : B13 m c (Proc.devRef .tc main_arg3) = B12 m c (Proc.devRef .tc main_arg3)).trans <|
    (B12_of_ne m c main_arg3 (by decide) : B12 m c (Proc.devRef .tc main_arg3) = B11 m c (Proc.devRef .tc main_arg3)).trans <|
    (StableHlo.after_of_writes_sub hostOps4 _ hostOps4_writes (by decide) : B11 m c (Proc.devRef .tc main_arg3) = B10 m c (Proc.devRef .tc main_arg3)).trans <|
    (B10_of_ne m c main_arg3 (by decide) : B10 m c (Proc.devRef .tc main_arg3) = B9 m c (Proc.devRef .tc main_arg3)).trans <|
    (StableHlo.after_of_writes_sub hostOps3 _ hostOps3_writes (by decide) : B9 m c (Proc.devRef .tc main_arg3) = B8 m c (Proc.devRef .tc main_arg3)).trans <|
    (B8_of_ne m c main_arg3 (by decide) : B8 m c (Proc.devRef .tc main_arg3) = B7 m c (Proc.devRef .tc main_arg3)).trans <|
    (StableHlo.after_of_writes_sub hostOps2 _ hostOps2_writes (by decide) : B7 m c (Proc.devRef .tc main_arg3) = B6 m c (Proc.devRef .tc main_arg3)).trans <|
    (B6_of_ne m c main_arg3 (by decide) : B6 m c (Proc.devRef .tc main_arg3) = B5 m c (Proc.devRef .tc main_arg3)).trans <|
    (StableHlo.after_of_writes_sub hostOps1 _ hostOps1_writes (by decide) : B5 m c (Proc.devRef .tc main_arg3) = B4 m c (Proc.devRef .tc main_arg3)).trans <|
    (B4_of_ne m c main_arg3 (by decide) : B4 m c (Proc.devRef .tc main_arg3) = B3 m c (Proc.devRef .tc main_arg3)).trans <|
    (StableHlo.after_of_writes_sub hostOps0_2 _ hostOps0_2_writes (by decide) : B3 m c (Proc.devRef .tc main_arg3) = B2 m c (Proc.devRef .tc main_arg3)).trans <|
    (StableHlo.after_of_writes_sub hostOps0_1 _ hostOps0_1_writes (by decide) : B2 m c (Proc.devRef .tc main_arg3) = B1 m c (Proc.devRef .tc main_arg3)).trans <|
    (StableHlo.after_of_writes_sub hostOps0 _ hostOps0_writes (by decide) : B1 m c (Proc.devRef .tc main_arg3) = B0 m c (Proc.devRef .tc main_arg3))
theorem keep_main_arg4_0_20 (c : Dev nD) : B20 m c (Proc.devRef .tc main_arg4) = B0 m c (Proc.devRef .tc main_arg4) :=
  (B20_of_ne m c main_arg4 (by decide) : B20 m c (Proc.devRef .tc main_arg4) = B19 m c (Proc.devRef .tc main_arg4)).trans <|
    (StableHlo.after_of_writes_sub hostOps8 _ hostOps8_writes (by decide) : B19 m c (Proc.devRef .tc main_arg4) = B18 m c (Proc.devRef .tc main_arg4)).trans <|
    (B18_of_ne m c main_arg4 (by decide) : B18 m c (Proc.devRef .tc main_arg4) = B17 m c (Proc.devRef .tc main_arg4)).trans <|
    (StableHlo.after_of_writes_sub hostOps7 _ hostOps7_writes (by decide) : B17 m c (Proc.devRef .tc main_arg4) = B16 m c (Proc.devRef .tc main_arg4)).trans <|
    (B16_of_ne m c main_arg4 (by decide) : B16 m c (Proc.devRef .tc main_arg4) = B15 m c (Proc.devRef .tc main_arg4)).trans <|
    (StableHlo.after_of_writes_sub hostOps6 _ hostOps6_writes (by decide) : B15 m c (Proc.devRef .tc main_arg4) = B14 m c (Proc.devRef .tc main_arg4)).trans <|
    (B14_of_ne m c main_arg4 (by decide) : B14 m c (Proc.devRef .tc main_arg4) = B13 m c (Proc.devRef .tc main_arg4)).trans <|
    (StableHlo.after_of_writes_sub hostOps5 _ hostOps5_writes (by decide) : B13 m c (Proc.devRef .tc main_arg4) = B12 m c (Proc.devRef .tc main_arg4)).trans <|
    (B12_of_ne m c main_arg4 (by decide) : B12 m c (Proc.devRef .tc main_arg4) = B11 m c (Proc.devRef .tc main_arg4)).trans <|
    (StableHlo.after_of_writes_sub hostOps4 _ hostOps4_writes (by decide) : B11 m c (Proc.devRef .tc main_arg4) = B10 m c (Proc.devRef .tc main_arg4)).trans <|
    (B10_of_ne m c main_arg4 (by decide) : B10 m c (Proc.devRef .tc main_arg4) = B9 m c (Proc.devRef .tc main_arg4)).trans <|
    (StableHlo.after_of_writes_sub hostOps3 _ hostOps3_writes (by decide) : B9 m c (Proc.devRef .tc main_arg4) = B8 m c (Proc.devRef .tc main_arg4)).trans <|
    ((B8_arr m c 1).trans (((dat2 (E7 m) c).arrAt_in 1 rfl _).trans (A_eq2 (E7 m) c 1)) : B8 m c (Proc.devRef .tc main_arg4) = B7 m c (Proc.devRef .tc main_arg4)).trans <|
    (StableHlo.after_of_writes_sub hostOps2 _ hostOps2_writes (by decide) : B7 m c (Proc.devRef .tc main_arg4) = B6 m c (Proc.devRef .tc main_arg4)).trans <|
    (B6_of_ne m c main_arg4 (by decide) : B6 m c (Proc.devRef .tc main_arg4) = B5 m c (Proc.devRef .tc main_arg4)).trans <|
    (StableHlo.after_of_writes_sub hostOps1 _ hostOps1_writes (by decide) : B5 m c (Proc.devRef .tc main_arg4) = B4 m c (Proc.devRef .tc main_arg4)).trans <|
    (B4_of_ne m c main_arg4 (by decide) : B4 m c (Proc.devRef .tc main_arg4) = B3 m c (Proc.devRef .tc main_arg4)).trans <|
    (StableHlo.after_of_writes_sub hostOps0_2 _ hostOps0_2_writes (by decide) : B3 m c (Proc.devRef .tc main_arg4) = B2 m c (Proc.devRef .tc main_arg4)).trans <|
    (StableHlo.after_of_writes_sub hostOps0_1 _ hostOps0_1_writes (by decide) : B2 m c (Proc.devRef .tc main_arg4) = B1 m c (Proc.devRef .tc main_arg4)).trans <|
    (StableHlo.after_of_writes_sub hostOps0 _ hostOps0_writes (by decide) : B1 m c (Proc.devRef .tc main_arg4) = B0 m c (Proc.devRef .tc main_arg4))
theorem keep_main_arg5_0_20 (c : Dev nD) : B20 m c (Proc.devRef .tc main_arg5) = B0 m c (Proc.devRef .tc main_arg5) :=
  (B20_of_ne m c main_arg5 (by decide) : B20 m c (Proc.devRef .tc main_arg5) = B19 m c (Proc.devRef .tc main_arg5)).trans <|
    (StableHlo.after_of_writes_sub hostOps8 _ hostOps8_writes (by decide) : B19 m c (Proc.devRef .tc main_arg5) = B18 m c (Proc.devRef .tc main_arg5)).trans <|
    (B18_of_ne m c main_arg5 (by decide) : B18 m c (Proc.devRef .tc main_arg5) = B17 m c (Proc.devRef .tc main_arg5)).trans <|
    (StableHlo.after_of_writes_sub hostOps7 _ hostOps7_writes (by decide) : B17 m c (Proc.devRef .tc main_arg5) = B16 m c (Proc.devRef .tc main_arg5)).trans <|
    (B16_of_ne m c main_arg5 (by decide) : B16 m c (Proc.devRef .tc main_arg5) = B15 m c (Proc.devRef .tc main_arg5)).trans <|
    (StableHlo.after_of_writes_sub hostOps6 _ hostOps6_writes (by decide) : B15 m c (Proc.devRef .tc main_arg5) = B14 m c (Proc.devRef .tc main_arg5)).trans <|
    (B14_of_ne m c main_arg5 (by decide) : B14 m c (Proc.devRef .tc main_arg5) = B13 m c (Proc.devRef .tc main_arg5)).trans <|
    (StableHlo.after_of_writes_sub hostOps5 _ hostOps5_writes (by decide) : B13 m c (Proc.devRef .tc main_arg5) = B12 m c (Proc.devRef .tc main_arg5)).trans <|
    (B12_of_ne m c main_arg5 (by decide) : B12 m c (Proc.devRef .tc main_arg5) = B11 m c (Proc.devRef .tc main_arg5)).trans <|
    (StableHlo.after_of_writes_sub hostOps4 _ hostOps4_writes (by decide) : B11 m c (Proc.devRef .tc main_arg5) = B10 m c (Proc.devRef .tc main_arg5)).trans <|
    (B10_of_ne m c main_arg5 (by decide) : B10 m c (Proc.devRef .tc main_arg5) = B9 m c (Proc.devRef .tc main_arg5)).trans <|
    (StableHlo.after_of_writes_sub hostOps3 _ hostOps3_writes (by decide) : B9 m c (Proc.devRef .tc main_arg5) = B8 m c (Proc.devRef .tc main_arg5)).trans <|
    (B8_of_ne m c main_arg5 (by decide) : B8 m c (Proc.devRef .tc main_arg5) = B7 m c (Proc.devRef .tc main_arg5)).trans <|
    (StableHlo.after_of_writes_sub hostOps2 _ hostOps2_writes (by decide) : B7 m c (Proc.devRef .tc main_arg5) = B6 m c (Proc.devRef .tc main_arg5)).trans <|
    (B6_of_ne m c main_arg5 (by decide) : B6 m c (Proc.devRef .tc main_arg5) = B5 m c (Proc.devRef .tc main_arg5)).trans <|
    (StableHlo.after_of_writes_sub hostOps1 _ hostOps1_writes (by decide) : B5 m c (Proc.devRef .tc main_arg5) = B4 m c (Proc.devRef .tc main_arg5)).trans <|
    (B4_of_ne m c main_arg5 (by decide) : B4 m c (Proc.devRef .tc main_arg5) = B3 m c (Proc.devRef .tc main_arg5)).trans <|
    (StableHlo.after_of_writes_sub hostOps0_2 _ hostOps0_2_writes (by decide) : B3 m c (Proc.devRef .tc main_arg5) = B2 m c (Proc.devRef .tc main_arg5)).trans <|
    (StableHlo.after_of_writes_sub hostOps0_1 _ hostOps0_1_writes (by decide) : B2 m c (Proc.devRef .tc main_arg5) = B1 m c (Proc.devRef .tc main_arg5)).trans <|
    (StableHlo.after_of_writes_sub hostOps0 _ hostOps0_writes (by decide) : B1 m c (Proc.devRef .tc main_arg5) = B0 m c (Proc.devRef .tc main_arg5))
theorem keep_main_arg6_0_20 (c : Dev nD) : B20 m c (Proc.devRef .tc main_arg6) = B0 m c (Proc.devRef .tc main_arg6) :=
  (B20_of_ne m c main_arg6 (by decide) : B20 m c (Proc.devRef .tc main_arg6) = B19 m c (Proc.devRef .tc main_arg6)).trans <|
    (StableHlo.after_of_writes_sub hostOps8 _ hostOps8_writes (by decide) : B19 m c (Proc.devRef .tc main_arg6) = B18 m c (Proc.devRef .tc main_arg6)).trans <|
    (B18_of_ne m c main_arg6 (by decide) : B18 m c (Proc.devRef .tc main_arg6) = B17 m c (Proc.devRef .tc main_arg6)).trans <|
    (StableHlo.after_of_writes_sub hostOps7 _ hostOps7_writes (by decide) : B17 m c (Proc.devRef .tc main_arg6) = B16 m c (Proc.devRef .tc main_arg6)).trans <|
    (B16_of_ne m c main_arg6 (by decide) : B16 m c (Proc.devRef .tc main_arg6) = B15 m c (Proc.devRef .tc main_arg6)).trans <|
    (StableHlo.after_of_writes_sub hostOps6 _ hostOps6_writes (by decide) : B15 m c (Proc.devRef .tc main_arg6) = B14 m c (Proc.devRef .tc main_arg6)).trans <|
    (B14_of_ne m c main_arg6 (by decide) : B14 m c (Proc.devRef .tc main_arg6) = B13 m c (Proc.devRef .tc main_arg6)).trans <|
    (StableHlo.after_of_writes_sub hostOps5 _ hostOps5_writes (by decide) : B13 m c (Proc.devRef .tc main_arg6) = B12 m c (Proc.devRef .tc main_arg6)).trans <|
    ((B12_arr m c 1).trans (((dat4 (E11 m) c).arrAt_in 1 rfl _).trans (A_eq4 (E11 m) c 1)) : B12 m c (Proc.devRef .tc main_arg6) = B11 m c (Proc.devRef .tc main_arg6)).trans <|
    (StableHlo.after_of_writes_sub hostOps4 _ hostOps4_writes (by decide) : B11 m c (Proc.devRef .tc main_arg6) = B10 m c (Proc.devRef .tc main_arg6)).trans <|
    (B10_of_ne m c main_arg6 (by decide) : B10 m c (Proc.devRef .tc main_arg6) = B9 m c (Proc.devRef .tc main_arg6)).trans <|
    (StableHlo.after_of_writes_sub hostOps3 _ hostOps3_writes (by decide) : B9 m c (Proc.devRef .tc main_arg6) = B8 m c (Proc.devRef .tc main_arg6)).trans <|
    (B8_of_ne m c main_arg6 (by decide) : B8 m c (Proc.devRef .tc main_arg6) = B7 m c (Proc.devRef .tc main_arg6)).trans <|
    (StableHlo.after_of_writes_sub hostOps2 _ hostOps2_writes (by decide) : B7 m c (Proc.devRef .tc main_arg6) = B6 m c (Proc.devRef .tc main_arg6)).trans <|
    (B6_of_ne m c main_arg6 (by decide) : B6 m c (Proc.devRef .tc main_arg6) = B5 m c (Proc.devRef .tc main_arg6)).trans <|
    (StableHlo.after_of_writes_sub hostOps1 _ hostOps1_writes (by decide) : B5 m c (Proc.devRef .tc main_arg6) = B4 m c (Proc.devRef .tc main_arg6)).trans <|
    (B4_of_ne m c main_arg6 (by decide) : B4 m c (Proc.devRef .tc main_arg6) = B3 m c (Proc.devRef .tc main_arg6)).trans <|
    (StableHlo.after_of_writes_sub hostOps0_2 _ hostOps0_2_writes (by decide) : B3 m c (Proc.devRef .tc main_arg6) = B2 m c (Proc.devRef .tc main_arg6)).trans <|
    (StableHlo.after_of_writes_sub hostOps0_1 _ hostOps0_1_writes (by decide) : B2 m c (Proc.devRef .tc main_arg6) = B1 m c (Proc.devRef .tc main_arg6)).trans <|
    (StableHlo.after_of_writes_sub hostOps0 _ hostOps0_writes (by decide) : B1 m c (Proc.devRef .tc main_arg6) = B0 m c (Proc.devRef .tc main_arg6))
theorem keep_main_arg7_0_20 (c : Dev nD) : B20 m c (Proc.devRef .tc main_arg7) = B0 m c (Proc.devRef .tc main_arg7) :=
  (B20_of_ne m c main_arg7 (by decide) : B20 m c (Proc.devRef .tc main_arg7) = B19 m c (Proc.devRef .tc main_arg7)).trans <|
    (StableHlo.after_of_writes_sub hostOps8 _ hostOps8_writes (by decide) : B19 m c (Proc.devRef .tc main_arg7) = B18 m c (Proc.devRef .tc main_arg7)).trans <|
    (B18_of_ne m c main_arg7 (by decide) : B18 m c (Proc.devRef .tc main_arg7) = B17 m c (Proc.devRef .tc main_arg7)).trans <|
    (StableHlo.after_of_writes_sub hostOps7 _ hostOps7_writes (by decide) : B17 m c (Proc.devRef .tc main_arg7) = B16 m c (Proc.devRef .tc main_arg7)).trans <|
    (B16_of_ne m c main_arg7 (by decide) : B16 m c (Proc.devRef .tc main_arg7) = B15 m c (Proc.devRef .tc main_arg7)).trans <|
    (StableHlo.after_of_writes_sub hostOps6 _ hostOps6_writes (by decide) : B15 m c (Proc.devRef .tc main_arg7) = B14 m c (Proc.devRef .tc main_arg7)).trans <|
    (B14_of_ne m c main_arg7 (by decide) : B14 m c (Proc.devRef .tc main_arg7) = B13 m c (Proc.devRef .tc main_arg7)).trans <|
    (StableHlo.after_of_writes_sub hostOps5 _ hostOps5_writes (by decide) : B13 m c (Proc.devRef .tc main_arg7) = B12 m c (Proc.devRef .tc main_arg7)).trans <|
    (B12_of_ne m c main_arg7 (by decide) : B12 m c (Proc.devRef .tc main_arg7) = B11 m c (Proc.devRef .tc main_arg7)).trans <|
    (StableHlo.after_of_writes_sub hostOps4 _ hostOps4_writes (by decide) : B11 m c (Proc.devRef .tc main_arg7) = B10 m c (Proc.devRef .tc main_arg7)).trans <|
    (B10_of_ne m c main_arg7 (by decide) : B10 m c (Proc.devRef .tc main_arg7) = B9 m c (Proc.devRef .tc main_arg7)).trans <|
    (StableHlo.after_of_writes_sub hostOps3 _ hostOps3_writes (by decide) : B9 m c (Proc.devRef .tc main_arg7) = B8 m c (Proc.devRef .tc main_arg7)).trans <|
    (B8_of_ne m c main_arg7 (by decide) : B8 m c (Proc.devRef .tc main_arg7) = B7 m c (Proc.devRef .tc main_arg7)).trans <|
    (StableHlo.after_of_writes_sub hostOps2 _ hostOps2_writes (by decide) : B7 m c (Proc.devRef .tc main_arg7) = B6 m c (Proc.devRef .tc main_arg7)).trans <|
    (B6_of_ne m c main_arg7 (by decide) : B6 m c (Proc.devRef .tc main_arg7) = B5 m c (Proc.devRef .tc main_arg7)).trans <|
    (StableHlo.after_of_writes_sub hostOps1 _ hostOps1_writes (by decide) : B5 m c (Proc.devRef .tc main_arg7) = B4 m c (Proc.devRef .tc main_arg7)).trans <|
    (B4_of_ne m c main_arg7 (by decide) : B4 m c (Proc.devRef .tc main_arg7) = B3 m c (Proc.devRef .tc main_arg7)).trans <|
    (StableHlo.after_of_writes_sub hostOps0_2 _ hostOps0_2_writes (by decide) : B3 m c (Proc.devRef .tc main_arg7) = B2 m c (Proc.devRef .tc main_arg7)).trans <|
    (StableHlo.after_of_writes_sub hostOps0_1 _ hostOps0_1_writes (by decide) : B2 m c (Proc.devRef .tc main_arg7) = B1 m c (Proc.devRef .tc main_arg7)).trans <|
    (StableHlo.after_of_writes_sub hostOps0 _ hostOps0_writes (by decide) : B1 m c (Proc.devRef .tc main_arg7) = B0 m c (Proc.devRef .tc main_arg7))
theorem keep_main_arg8_0_20 (c : Dev nD) : B20 m c (Proc.devRef .tc main_arg8) = B0 m c (Proc.devRef .tc main_arg8) :=
  (B20_of_ne m c main_arg8 (by decide) : B20 m c (Proc.devRef .tc main_arg8) = B19 m c (Proc.devRef .tc main_arg8)).trans <|
    (StableHlo.after_of_writes_sub hostOps8 _ hostOps8_writes (by decide) : B19 m c (Proc.devRef .tc main_arg8) = B18 m c (Proc.devRef .tc main_arg8)).trans <|
    (B18_of_ne m c main_arg8 (by decide) : B18 m c (Proc.devRef .tc main_arg8) = B17 m c (Proc.devRef .tc main_arg8)).trans <|
    (StableHlo.after_of_writes_sub hostOps7 _ hostOps7_writes (by decide) : B17 m c (Proc.devRef .tc main_arg8) = B16 m c (Proc.devRef .tc main_arg8)).trans <|
    ((B16_arr m c 1).trans (((dat6 (E15 m) c).arrAt_in 1 rfl _).trans (A_eq6 (E15 m) c 1)) : B16 m c (Proc.devRef .tc main_arg8) = B15 m c (Proc.devRef .tc main_arg8)).trans <|
    (StableHlo.after_of_writes_sub hostOps6 _ hostOps6_writes (by decide) : B15 m c (Proc.devRef .tc main_arg8) = B14 m c (Proc.devRef .tc main_arg8)).trans <|
    (B14_of_ne m c main_arg8 (by decide) : B14 m c (Proc.devRef .tc main_arg8) = B13 m c (Proc.devRef .tc main_arg8)).trans <|
    (StableHlo.after_of_writes_sub hostOps5 _ hostOps5_writes (by decide) : B13 m c (Proc.devRef .tc main_arg8) = B12 m c (Proc.devRef .tc main_arg8)).trans <|
    (B12_of_ne m c main_arg8 (by decide) : B12 m c (Proc.devRef .tc main_arg8) = B11 m c (Proc.devRef .tc main_arg8)).trans <|
    (StableHlo.after_of_writes_sub hostOps4 _ hostOps4_writes (by decide) : B11 m c (Proc.devRef .tc main_arg8) = B10 m c (Proc.devRef .tc main_arg8)).trans <|
    (B10_of_ne m c main_arg8 (by decide) : B10 m c (Proc.devRef .tc main_arg8) = B9 m c (Proc.devRef .tc main_arg8)).trans <|
    (StableHlo.after_of_writes_sub hostOps3 _ hostOps3_writes (by decide) : B9 m c (Proc.devRef .tc main_arg8) = B8 m c (Proc.devRef .tc main_arg8)).trans <|
    (B8_of_ne m c main_arg8 (by decide) : B8 m c (Proc.devRef .tc main_arg8) = B7 m c (Proc.devRef .tc main_arg8)).trans <|
    (StableHlo.after_of_writes_sub hostOps2 _ hostOps2_writes (by decide) : B7 m c (Proc.devRef .tc main_arg8) = B6 m c (Proc.devRef .tc main_arg8)).trans <|
    (B6_of_ne m c main_arg8 (by decide) : B6 m c (Proc.devRef .tc main_arg8) = B5 m c (Proc.devRef .tc main_arg8)).trans <|
    (StableHlo.after_of_writes_sub hostOps1 _ hostOps1_writes (by decide) : B5 m c (Proc.devRef .tc main_arg8) = B4 m c (Proc.devRef .tc main_arg8)).trans <|
    (B4_of_ne m c main_arg8 (by decide) : B4 m c (Proc.devRef .tc main_arg8) = B3 m c (Proc.devRef .tc main_arg8)).trans <|
    (StableHlo.after_of_writes_sub hostOps0_2 _ hostOps0_2_writes (by decide) : B3 m c (Proc.devRef .tc main_arg8) = B2 m c (Proc.devRef .tc main_arg8)).trans <|
    (StableHlo.after_of_writes_sub hostOps0_1 _ hostOps0_1_writes (by decide) : B2 m c (Proc.devRef .tc main_arg8) = B1 m c (Proc.devRef .tc main_arg8)).trans <|
    (StableHlo.after_of_writes_sub hostOps0 _ hostOps0_writes (by decide) : B1 m c (Proc.devRef .tc main_arg8) = B0 m c (Proc.devRef .tc main_arg8))
theorem keep_main_arg9_0_20 (c : Dev nD) : B20 m c (Proc.devRef .tc main_arg9) = B0 m c (Proc.devRef .tc main_arg9) :=
  (B20_of_ne m c main_arg9 (by decide) : B20 m c (Proc.devRef .tc main_arg9) = B19 m c (Proc.devRef .tc main_arg9)).trans <|
    (StableHlo.after_of_writes_sub hostOps8 _ hostOps8_writes (by decide) : B19 m c (Proc.devRef .tc main_arg9) = B18 m c (Proc.devRef .tc main_arg9)).trans <|
    (B18_of_ne m c main_arg9 (by decide) : B18 m c (Proc.devRef .tc main_arg9) = B17 m c (Proc.devRef .tc main_arg9)).trans <|
    (StableHlo.after_of_writes_sub hostOps7 _ hostOps7_writes (by decide) : B17 m c (Proc.devRef .tc main_arg9) = B16 m c (Proc.devRef .tc main_arg9)).trans <|
    (B16_of_ne m c main_arg9 (by decide) : B16 m c (Proc.devRef .tc main_arg9) = B15 m c (Proc.devRef .tc main_arg9)).trans <|
    (StableHlo.after_of_writes_sub hostOps6 _ hostOps6_writes (by decide) : B15 m c (Proc.devRef .tc main_arg9) = B14 m c (Proc.devRef .tc main_arg9)).trans <|
    (B14_of_ne m c main_arg9 (by decide) : B14 m c (Proc.devRef .tc main_arg9) = B13 m c (Proc.devRef .tc main_arg9)).trans <|
    (StableHlo.after_of_writes_sub hostOps5 _ hostOps5_writes (by decide) : B13 m c (Proc.devRef .tc main_arg9) = B12 m c (Proc.devRef .tc main_arg9)).trans <|
    (B12_of_ne m c main_arg9 (by decide) : B12 m c (Proc.devRef .tc main_arg9) = B11 m c (Proc.devRef .tc main_arg9)).trans <|
    (StableHlo.after_of_writes_sub hostOps4 _ hostOps4_writes (by decide) : B11 m c (Proc.devRef .tc main_arg9) = B10 m c (Proc.devRef .tc main_arg9)).trans <|
    (B10_of_ne m c main_arg9 (by decide) : B10 m c (Proc.devRef .tc main_arg9) = B9 m c (Proc.devRef .tc main_arg9)).trans <|
    (StableHlo.after_of_writes_sub hostOps3 _ hostOps3_writes (by decide) : B9 m c (Proc.devRef .tc main_arg9) = B8 m c (Proc.devRef .tc main_arg9)).trans <|
    (B8_of_ne m c main_arg9 (by decide) : B8 m c (Proc.devRef .tc main_arg9) = B7 m c (Proc.devRef .tc main_arg9)).trans <|
    (StableHlo.after_of_writes_sub hostOps2 _ hostOps2_writes (by decide) : B7 m c (Proc.devRef .tc main_arg9) = B6 m c (Proc.devRef .tc main_arg9)).trans <|
    (B6_of_ne m c main_arg9 (by decide) : B6 m c (Proc.devRef .tc main_arg9) = B5 m c (Proc.devRef .tc main_arg9)).trans <|
    (StableHlo.after_of_writes_sub hostOps1 _ hostOps1_writes (by decide) : B5 m c (Proc.devRef .tc main_arg9) = B4 m c (Proc.devRef .tc main_arg9)).trans <|
    (B4_of_ne m c main_arg9 (by decide) : B4 m c (Proc.devRef .tc main_arg9) = B3 m c (Proc.devRef .tc main_arg9)).trans <|
    (StableHlo.after_of_writes_sub hostOps0_2 _ hostOps0_2_writes (by decide) : B3 m c (Proc.devRef .tc main_arg9) = B2 m c (Proc.devRef .tc main_arg9)).trans <|
    (StableHlo.after_of_writes_sub hostOps0_1 _ hostOps0_1_writes (by decide) : B2 m c (Proc.devRef .tc main_arg9) = B1 m c (Proc.devRef .tc main_arg9)).trans <|
    (StableHlo.after_of_writes_sub hostOps0 _ hostOps0_writes (by decide) : B1 m c (Proc.devRef .tc main_arg9) = B0 m c (Proc.devRef .tc main_arg9))
theorem keep_main_arg10_0_20 (c : Dev nD) : B20 m c (Proc.devRef .tc main_arg10) = B0 m c (Proc.devRef .tc main_arg10) :=
  ((B20_arr m c 1).trans (((dat8 (E19 m) c).arrAt_in 1 rfl _).trans (A_eq8 (E19 m) c 1)) : B20 m c (Proc.devRef .tc main_arg10) = B19 m c (Proc.devRef .tc main_arg10)).trans <|
    (StableHlo.after_of_writes_sub hostOps8 _ hostOps8_writes (by decide) : B19 m c (Proc.devRef .tc main_arg10) = B18 m c (Proc.devRef .tc main_arg10)).trans <|
    (B18_of_ne m c main_arg10 (by decide) : B18 m c (Proc.devRef .tc main_arg10) = B17 m c (Proc.devRef .tc main_arg10)).trans <|
    (StableHlo.after_of_writes_sub hostOps7 _ hostOps7_writes (by decide) : B17 m c (Proc.devRef .tc main_arg10) = B16 m c (Proc.devRef .tc main_arg10)).trans <|
    (B16_of_ne m c main_arg10 (by decide) : B16 m c (Proc.devRef .tc main_arg10) = B15 m c (Proc.devRef .tc main_arg10)).trans <|
    (StableHlo.after_of_writes_sub hostOps6 _ hostOps6_writes (by decide) : B15 m c (Proc.devRef .tc main_arg10) = B14 m c (Proc.devRef .tc main_arg10)).trans <|
    (B14_of_ne m c main_arg10 (by decide) : B14 m c (Proc.devRef .tc main_arg10) = B13 m c (Proc.devRef .tc main_arg10)).trans <|
    (StableHlo.after_of_writes_sub hostOps5 _ hostOps5_writes (by decide) : B13 m c (Proc.devRef .tc main_arg10) = B12 m c (Proc.devRef .tc main_arg10)).trans <|
    (B12_of_ne m c main_arg10 (by decide) : B12 m c (Proc.devRef .tc main_arg10) = B11 m c (Proc.devRef .tc main_arg10)).trans <|
    (StableHlo.after_of_writes_sub hostOps4 _ hostOps4_writes (by decide) : B11 m c (Proc.devRef .tc main_arg10) = B10 m c (Proc.devRef .tc main_arg10)).trans <|
    (B10_of_ne m c main_arg10 (by decide) : B10 m c (Proc.devRef .tc main_arg10) = B9 m c (Proc.devRef .tc main_arg10)).trans <|
    (StableHlo.after_of_writes_sub hostOps3 _ hostOps3_writes (by decide) : B9 m c (Proc.devRef .tc main_arg10) = B8 m c (Proc.devRef .tc main_arg10)).trans <|
    (B8_of_ne m c main_arg10 (by decide) : B8 m c (Proc.devRef .tc main_arg10) = B7 m c (Proc.devRef .tc main_arg10)).trans <|
    (StableHlo.after_of_writes_sub hostOps2 _ hostOps2_writes (by decide) : B7 m c (Proc.devRef .tc main_arg10) = B6 m c (Proc.devRef .tc main_arg10)).trans <|
    (B6_of_ne m c main_arg10 (by decide) : B6 m c (Proc.devRef .tc main_arg10) = B5 m c (Proc.devRef .tc main_arg10)).trans <|
    (StableHlo.after_of_writes_sub hostOps1 _ hostOps1_writes (by decide) : B5 m c (Proc.devRef .tc main_arg10) = B4 m c (Proc.devRef .tc main_arg10)).trans <|
    (B4_of_ne m c main_arg10 (by decide) : B4 m c (Proc.devRef .tc main_arg10) = B3 m c (Proc.devRef .tc main_arg10)).trans <|
    (StableHlo.after_of_writes_sub hostOps0_2 _ hostOps0_2_writes (by decide) : B3 m c (Proc.devRef .tc main_arg10) = B2 m c (Proc.devRef .tc main_arg10)).trans <|
    (StableHlo.after_of_writes_sub hostOps0_1 _ hostOps0_1_writes (by decide) : B2 m c (Proc.devRef .tc main_arg10) = B1 m c (Proc.devRef .tc main_arg10)).trans <|
    (StableHlo.after_of_writes_sub hostOps0 _ hostOps0_writes (by decide) : B1 m c (Proc.devRef .tc main_arg10) = B0 m c (Proc.devRef .tc main_arg10))
theorem keep_main_arg11_0_20 (c : Dev nD) : B20 m c (Proc.devRef .tc main_arg11) = B0 m c (Proc.devRef .tc main_arg11) :=
  (B20_of_ne m c main_arg11 (by decide) : B20 m c (Proc.devRef .tc main_arg11) = B19 m c (Proc.devRef .tc main_arg11)).trans <|
    (StableHlo.after_of_writes_sub hostOps8 _ hostOps8_writes (by decide) : B19 m c (Proc.devRef .tc main_arg11) = B18 m c (Proc.devRef .tc main_arg11)).trans <|
    (B18_of_ne m c main_arg11 (by decide) : B18 m c (Proc.devRef .tc main_arg11) = B17 m c (Proc.devRef .tc main_arg11)).trans <|
    (StableHlo.after_of_writes_sub hostOps7 _ hostOps7_writes (by decide) : B17 m c (Proc.devRef .tc main_arg11) = B16 m c (Proc.devRef .tc main_arg11)).trans <|
    (B16_of_ne m c main_arg11 (by decide) : B16 m c (Proc.devRef .tc main_arg11) = B15 m c (Proc.devRef .tc main_arg11)).trans <|
    (StableHlo.after_of_writes_sub hostOps6 _ hostOps6_writes (by decide) : B15 m c (Proc.devRef .tc main_arg11) = B14 m c (Proc.devRef .tc main_arg11)).trans <|
    (B14_of_ne m c main_arg11 (by decide) : B14 m c (Proc.devRef .tc main_arg11) = B13 m c (Proc.devRef .tc main_arg11)).trans <|
    (StableHlo.after_of_writes_sub hostOps5 _ hostOps5_writes (by decide) : B13 m c (Proc.devRef .tc main_arg11) = B12 m c (Proc.devRef .tc main_arg11)).trans <|
    (B12_of_ne m c main_arg11 (by decide) : B12 m c (Proc.devRef .tc main_arg11) = B11 m c (Proc.devRef .tc main_arg11)).trans <|
    (StableHlo.after_of_writes_sub hostOps4 _ hostOps4_writes (by decide) : B11 m c (Proc.devRef .tc main_arg11) = B10 m c (Proc.devRef .tc main_arg11)).trans <|
    (B10_of_ne m c main_arg11 (by decide) : B10 m c (Proc.devRef .tc main_arg11) = B9 m c (Proc.devRef .tc main_arg11)).trans <|
    (StableHlo.after_of_writes_sub hostOps3 _ hostOps3_writes (by decide) : B9 m c (Proc.devRef .tc main_arg11) = B8 m c (Proc.devRef .tc main_arg11)).trans <|
    (B8_of_ne m c main_arg11 (by decide) : B8 m c (Proc.devRef .tc main_arg11) = B7 m c (Proc.devRef .tc main_arg11)).trans <|
    (StableHlo.after_of_writes_sub hostOps2 _ hostOps2_writes (by decide) : B7 m c (Proc.devRef .tc main_arg11) = B6 m c (Proc.devRef .tc main_arg11)).trans <|
    (B6_of_ne m c main_arg11 (by decide) : B6 m c (Proc.devRef .tc main_arg11) = B5 m c (Proc.devRef .tc main_arg11)).trans <|
    (StableHlo.after_of_writes_sub hostOps1 _ hostOps1_writes (by decide) : B5 m c (Proc.devRef .tc main_arg11) = B4 m c (Proc.devRef .tc main_arg11)).trans <|
    (B4_of_ne m c main_arg11 (by decide) : B4 m c (Proc.devRef .tc main_arg11) = B3 m c (Proc.devRef .tc main_arg11)).trans <|
    (StableHlo.after_of_writes_sub hostOps0_2 _ hostOps0_2_writes (by decide) : B3 m c (Proc.devRef .tc main_arg11) = B2 m c (Proc.devRef .tc main_arg11)).trans <|
    (StableHlo.after_of_writes_sub hostOps0_1 _ hostOps0_1_writes (by decide) : B2 m c (Proc.devRef .tc main_arg11) = B1 m c (Proc.devRef .tc main_arg11)).trans <|
    (StableHlo.after_of_writes_sub hostOps0 _ hostOps0_writes (by decide) : B1 m c (Proc.devRef .tc main_arg11) = B0 m c (Proc.devRef .tc main_arg11))
theorem keep_main_v3_1_2 (c : Dev nD) : B2 m c (Proc.devRef .tc main_v3) = B1 m c (Proc.devRef .tc main_v3) :=
  (StableHlo.after_of_writes_sub hostOps0_1 _ hostOps0_1_writes (by decide) : B2 m c (Proc.devRef .tc main_v3) = B1 m c (Proc.devRef .tc main_v3))
theorem keep_main_v3_2_3 (c : Dev nD) : B3 m c (Proc.devRef .tc main_v3) = B2 m c (Proc.devRef .tc main_v3) :=
  (StableHlo.after_of_writes_sub hostOps0_2 _ hostOps0_2_writes (by decide) : B3 m c (Proc.devRef .tc main_v3) = B2 m c (Proc.devRef .tc main_v3))
theorem keep_main_v6_1_2 (c : Dev nD) : B2 m c (Proc.devRef .tc main_v6) = B1 m c (Proc.devRef .tc main_v6) :=
  (StableHlo.after_of_writes_sub hostOps0_1 _ hostOps0_1_writes (by decide) : B2 m c (Proc.devRef .tc main_v6) = B1 m c (Proc.devRef .tc main_v6))
theorem keep_main_v6_2_3 (c : Dev nD) : B3 m c (Proc.devRef .tc main_v6) = B2 m c (Proc.devRef .tc main_v6) :=
  (StableHlo.after_of_writes_sub hostOps0_2 _ hostOps0_2_writes (by decide) : B3 m c (Proc.devRef .tc main_v6) = B2 m c (Proc.devRef .tc main_v6))
theorem keep_main_v3_3_4 (c : Dev nD) : B4 m c (Proc.devRef .tc main_v3) = B3 m c (Proc.devRef .tc main_v3) :=
  (B4_of_ne m c main_v3 (by decide) : B4 m c (Proc.devRef .tc main_v3) = B3 m c (Proc.devRef .tc main_v3))
theorem keep_main_v6_3_4 (c : Dev nD) : B4 m c (Proc.devRef .tc main_v6) = B3 m c (Proc.devRef .tc main_v6) :=
  (B4_of_ne m c main_v6 (by decide) : B4 m c (Proc.devRef .tc main_v6) = B3 m c (Proc.devRef .tc main_v6))
theorem keep_main_v31_3_4 (c : Dev nD) : B4 m c (Proc.devRef .tc main_v31) = B3 m c (Proc.devRef .tc main_v31) :=
  (B4_of_ne m c main_v31 (by decide) : B4 m c (Proc.devRef .tc main_v31) = B3 m c (Proc.devRef .tc main_v31))
theorem keep_main_v3_3_8 (c : Dev nD) : B8 m c (Proc.devRef .tc main_v3) = B3 m c (Proc.devRef .tc main_v3) :=
  (B8_of_ne m c main_v3 (by decide) : B8 m c (Proc.devRef .tc main_v3) = B7 m c (Proc.devRef .tc main_v3)).trans <|
    (StableHlo.after_of_writes_sub hostOps2 _ hostOps2_writes (by decide) : B7 m c (Proc.devRef .tc main_v3) = B6 m c (Proc.devRef .tc main_v3)).trans <|
    (B6_of_ne m c main_v3 (by decide) : B6 m c (Proc.devRef .tc main_v3) = B5 m c (Proc.devRef .tc main_v3)).trans <|
    (StableHlo.after_of_writes_sub hostOps1 _ hostOps1_writes (by decide) : B5 m c (Proc.devRef .tc main_v3) = B4 m c (Proc.devRef .tc main_v3)).trans <|
    (B4_of_ne m c main_v3 (by decide) : B4 m c (Proc.devRef .tc main_v3) = B3 m c (Proc.devRef .tc main_v3))
theorem keep_main_v6_3_8 (c : Dev nD) : B8 m c (Proc.devRef .tc main_v6) = B3 m c (Proc.devRef .tc main_v6) :=
  (B8_of_ne m c main_v6 (by decide) : B8 m c (Proc.devRef .tc main_v6) = B7 m c (Proc.devRef .tc main_v6)).trans <|
    (StableHlo.after_of_writes_sub hostOps2 _ hostOps2_writes (by decide) : B7 m c (Proc.devRef .tc main_v6) = B6 m c (Proc.devRef .tc main_v6)).trans <|
    (B6_of_ne m c main_v6 (by decide) : B6 m c (Proc.devRef .tc main_v6) = B5 m c (Proc.devRef .tc main_v6)).trans <|
    (StableHlo.after_of_writes_sub hostOps1 _ hostOps1_writes (by decide) : B5 m c (Proc.devRef .tc main_v6) = B4 m c (Proc.devRef .tc main_v6)).trans <|
    (B4_of_ne m c main_v6 (by decide) : B4 m c (Proc.devRef .tc main_v6) = B3 m c (Proc.devRef .tc main_v6))
theorem keep_main_v31_3_8 (c : Dev nD) : B8 m c (Proc.devRef .tc main_v31) = B3 m c (Proc.devRef .tc main_v31) :=
  (B8_of_ne m c main_v31 (by decide) : B8 m c (Proc.devRef .tc main_v31) = B7 m c (Proc.devRef .tc main_v31)).trans <|
    (StableHlo.after_of_writes_sub hostOps2 _ hostOps2_writes (by decide) : B7 m c (Proc.devRef .tc main_v31) = B6 m c (Proc.devRef .tc main_v31)).trans <|
    (B6_of_ne m c main_v31 (by decide) : B6 m c (Proc.devRef .tc main_v31) = B5 m c (Proc.devRef .tc main_v31)).trans <|
    (StableHlo.after_of_writes_sub hostOps1 _ hostOps1_writes (by decide) : B5 m c (Proc.devRef .tc main_v31) = B4 m c (Proc.devRef .tc main_v31)).trans <|
    (B4_of_ne m c main_v31 (by decide) : B4 m c (Proc.devRef .tc main_v31) = B3 m c (Proc.devRef .tc main_v31))
theorem keep_main_v3_3_12 (c : Dev nD) : B12 m c (Proc.devRef .tc main_v3) = B3 m c (Proc.devRef .tc main_v3) :=
  (B12_of_ne m c main_v3 (by decide) : B12 m c (Proc.devRef .tc main_v3) = B11 m c (Proc.devRef .tc main_v3)).trans <|
    (StableHlo.after_of_writes_sub hostOps4 _ hostOps4_writes (by decide) : B11 m c (Proc.devRef .tc main_v3) = B10 m c (Proc.devRef .tc main_v3)).trans <|
    (B10_of_ne m c main_v3 (by decide) : B10 m c (Proc.devRef .tc main_v3) = B9 m c (Proc.devRef .tc main_v3)).trans <|
    (StableHlo.after_of_writes_sub hostOps3 _ hostOps3_writes (by decide) : B9 m c (Proc.devRef .tc main_v3) = B8 m c (Proc.devRef .tc main_v3)).trans <|
    (B8_of_ne m c main_v3 (by decide) : B8 m c (Proc.devRef .tc main_v3) = B7 m c (Proc.devRef .tc main_v3)).trans <|
    (StableHlo.after_of_writes_sub hostOps2 _ hostOps2_writes (by decide) : B7 m c (Proc.devRef .tc main_v3) = B6 m c (Proc.devRef .tc main_v3)).trans <|
    (B6_of_ne m c main_v3 (by decide) : B6 m c (Proc.devRef .tc main_v3) = B5 m c (Proc.devRef .tc main_v3)).trans <|
    (StableHlo.after_of_writes_sub hostOps1 _ hostOps1_writes (by decide) : B5 m c (Proc.devRef .tc main_v3) = B4 m c (Proc.devRef .tc main_v3)).trans <|
    (B4_of_ne m c main_v3 (by decide) : B4 m c (Proc.devRef .tc main_v3) = B3 m c (Proc.devRef .tc main_v3))
theorem keep_main_v6_3_12 (c : Dev nD) : B12 m c (Proc.devRef .tc main_v6) = B3 m c (Proc.devRef .tc main_v6) :=
  (B12_of_ne m c main_v6 (by decide) : B12 m c (Proc.devRef .tc main_v6) = B11 m c (Proc.devRef .tc main_v6)).trans <|
    (StableHlo.after_of_writes_sub hostOps4 _ hostOps4_writes (by decide) : B11 m c (Proc.devRef .tc main_v6) = B10 m c (Proc.devRef .tc main_v6)).trans <|
    (B10_of_ne m c main_v6 (by decide) : B10 m c (Proc.devRef .tc main_v6) = B9 m c (Proc.devRef .tc main_v6)).trans <|
    (StableHlo.after_of_writes_sub hostOps3 _ hostOps3_writes (by decide) : B9 m c (Proc.devRef .tc main_v6) = B8 m c (Proc.devRef .tc main_v6)).trans <|
    (B8_of_ne m c main_v6 (by decide) : B8 m c (Proc.devRef .tc main_v6) = B7 m c (Proc.devRef .tc main_v6)).trans <|
    (StableHlo.after_of_writes_sub hostOps2 _ hostOps2_writes (by decide) : B7 m c (Proc.devRef .tc main_v6) = B6 m c (Proc.devRef .tc main_v6)).trans <|
    (B6_of_ne m c main_v6 (by decide) : B6 m c (Proc.devRef .tc main_v6) = B5 m c (Proc.devRef .tc main_v6)).trans <|
    (StableHlo.after_of_writes_sub hostOps1 _ hostOps1_writes (by decide) : B5 m c (Proc.devRef .tc main_v6) = B4 m c (Proc.devRef .tc main_v6)).trans <|
    (B4_of_ne m c main_v6 (by decide) : B4 m c (Proc.devRef .tc main_v6) = B3 m c (Proc.devRef .tc main_v6))
theorem keep_main_v31_3_12 (c : Dev nD) : B12 m c (Proc.devRef .tc main_v31) = B3 m c (Proc.devRef .tc main_v31) :=
  (B12_of_ne m c main_v31 (by decide) : B12 m c (Proc.devRef .tc main_v31) = B11 m c (Proc.devRef .tc main_v31)).trans <|
    (StableHlo.after_of_writes_sub hostOps4 _ hostOps4_writes (by decide) : B11 m c (Proc.devRef .tc main_v31) = B10 m c (Proc.devRef .tc main_v31)).trans <|
    (B10_of_ne m c main_v31 (by decide) : B10 m c (Proc.devRef .tc main_v31) = B9 m c (Proc.devRef .tc main_v31)).trans <|
    (StableHlo.after_of_writes_sub hostOps3 _ hostOps3_writes (by decide) : B9 m c (Proc.devRef .tc main_v31) = B8 m c (Proc.devRef .tc main_v31)).trans <|
    (B8_of_ne m c main_v31 (by decide) : B8 m c (Proc.devRef .tc main_v31) = B7 m c (Proc.devRef .tc main_v31)).trans <|
    (StableHlo.after_of_writes_sub hostOps2 _ hostOps2_writes (by decide) : B7 m c (Proc.devRef .tc main_v31) = B6 m c (Proc.devRef .tc main_v31)).trans <|
    (B6_of_ne m c main_v31 (by decide) : B6 m c (Proc.devRef .tc main_v31) = B5 m c (Proc.devRef .tc main_v31)).trans <|
    (StableHlo.after_of_writes_sub hostOps1 _ hostOps1_writes (by decide) : B5 m c (Proc.devRef .tc main_v31) = B4 m c (Proc.devRef .tc main_v31)).trans <|
    (B4_of_ne m c main_v31 (by decide) : B4 m c (Proc.devRef .tc main_v31) = B3 m c (Proc.devRef .tc main_v31))
theorem keep_main_v3_3_16 (c : Dev nD) : B16 m c (Proc.devRef .tc main_v3) = B3 m c (Proc.devRef .tc main_v3) :=
  (B16_of_ne m c main_v3 (by decide) : B16 m c (Proc.devRef .tc main_v3) = B15 m c (Proc.devRef .tc main_v3)).trans <|
    (StableHlo.after_of_writes_sub hostOps6 _ hostOps6_writes (by decide) : B15 m c (Proc.devRef .tc main_v3) = B14 m c (Proc.devRef .tc main_v3)).trans <|
    (B14_of_ne m c main_v3 (by decide) : B14 m c (Proc.devRef .tc main_v3) = B13 m c (Proc.devRef .tc main_v3)).trans <|
    (StableHlo.after_of_writes_sub hostOps5 _ hostOps5_writes (by decide) : B13 m c (Proc.devRef .tc main_v3) = B12 m c (Proc.devRef .tc main_v3)).trans <|
    (B12_of_ne m c main_v3 (by decide) : B12 m c (Proc.devRef .tc main_v3) = B11 m c (Proc.devRef .tc main_v3)).trans <|
    (StableHlo.after_of_writes_sub hostOps4 _ hostOps4_writes (by decide) : B11 m c (Proc.devRef .tc main_v3) = B10 m c (Proc.devRef .tc main_v3)).trans <|
    (B10_of_ne m c main_v3 (by decide) : B10 m c (Proc.devRef .tc main_v3) = B9 m c (Proc.devRef .tc main_v3)).trans <|
    (StableHlo.after_of_writes_sub hostOps3 _ hostOps3_writes (by decide) : B9 m c (Proc.devRef .tc main_v3) = B8 m c (Proc.devRef .tc main_v3)).trans <|
    (B8_of_ne m c main_v3 (by decide) : B8 m c (Proc.devRef .tc main_v3) = B7 m c (Proc.devRef .tc main_v3)).trans <|
    (StableHlo.after_of_writes_sub hostOps2 _ hostOps2_writes (by decide) : B7 m c (Proc.devRef .tc main_v3) = B6 m c (Proc.devRef .tc main_v3)).trans <|
    (B6_of_ne m c main_v3 (by decide) : B6 m c (Proc.devRef .tc main_v3) = B5 m c (Proc.devRef .tc main_v3)).trans <|
    (StableHlo.after_of_writes_sub hostOps1 _ hostOps1_writes (by decide) : B5 m c (Proc.devRef .tc main_v3) = B4 m c (Proc.devRef .tc main_v3)).trans <|
    (B4_of_ne m c main_v3 (by decide) : B4 m c (Proc.devRef .tc main_v3) = B3 m c (Proc.devRef .tc main_v3))
theorem keep_main_v6_3_16 (c : Dev nD) : B16 m c (Proc.devRef .tc main_v6) = B3 m c (Proc.devRef .tc main_v6) :=
  (B16_of_ne m c main_v6 (by decide) : B16 m c (Proc.devRef .tc main_v6) = B15 m c (Proc.devRef .tc main_v6)).trans <|
    (StableHlo.after_of_writes_sub hostOps6 _ hostOps6_writes (by decide) : B15 m c (Proc.devRef .tc main_v6) = B14 m c (Proc.devRef .tc main_v6)).trans <|
    (B14_of_ne m c main_v6 (by decide) : B14 m c (Proc.devRef .tc main_v6) = B13 m c (Proc.devRef .tc main_v6)).trans <|
    (StableHlo.after_of_writes_sub hostOps5 _ hostOps5_writes (by decide) : B13 m c (Proc.devRef .tc main_v6) = B12 m c (Proc.devRef .tc main_v6)).trans <|
    (B12_of_ne m c main_v6 (by decide) : B12 m c (Proc.devRef .tc main_v6) = B11 m c (Proc.devRef .tc main_v6)).trans <|
    (StableHlo.after_of_writes_sub hostOps4 _ hostOps4_writes (by decide) : B11 m c (Proc.devRef .tc main_v6) = B10 m c (Proc.devRef .tc main_v6)).trans <|
    (B10_of_ne m c main_v6 (by decide) : B10 m c (Proc.devRef .tc main_v6) = B9 m c (Proc.devRef .tc main_v6)).trans <|
    (StableHlo.after_of_writes_sub hostOps3 _ hostOps3_writes (by decide) : B9 m c (Proc.devRef .tc main_v6) = B8 m c (Proc.devRef .tc main_v6)).trans <|
    (B8_of_ne m c main_v6 (by decide) : B8 m c (Proc.devRef .tc main_v6) = B7 m c (Proc.devRef .tc main_v6)).trans <|
    (StableHlo.after_of_writes_sub hostOps2 _ hostOps2_writes (by decide) : B7 m c (Proc.devRef .tc main_v6) = B6 m c (Proc.devRef .tc main_v6)).trans <|
    (B6_of_ne m c main_v6 (by decide) : B6 m c (Proc.devRef .tc main_v6) = B5 m c (Proc.devRef .tc main_v6)).trans <|
    (StableHlo.after_of_writes_sub hostOps1 _ hostOps1_writes (by decide) : B5 m c (Proc.devRef .tc main_v6) = B4 m c (Proc.devRef .tc main_v6)).trans <|
    (B4_of_ne m c main_v6 (by decide) : B4 m c (Proc.devRef .tc main_v6) = B3 m c (Proc.devRef .tc main_v6))
theorem keep_main_v31_3_16 (c : Dev nD) : B16 m c (Proc.devRef .tc main_v31) = B3 m c (Proc.devRef .tc main_v31) :=
  (B16_of_ne m c main_v31 (by decide) : B16 m c (Proc.devRef .tc main_v31) = B15 m c (Proc.devRef .tc main_v31)).trans <|
    (StableHlo.after_of_writes_sub hostOps6 _ hostOps6_writes (by decide) : B15 m c (Proc.devRef .tc main_v31) = B14 m c (Proc.devRef .tc main_v31)).trans <|
    (B14_of_ne m c main_v31 (by decide) : B14 m c (Proc.devRef .tc main_v31) = B13 m c (Proc.devRef .tc main_v31)).trans <|
    (StableHlo.after_of_writes_sub hostOps5 _ hostOps5_writes (by decide) : B13 m c (Proc.devRef .tc main_v31) = B12 m c (Proc.devRef .tc main_v31)).trans <|
    (B12_of_ne m c main_v31 (by decide) : B12 m c (Proc.devRef .tc main_v31) = B11 m c (Proc.devRef .tc main_v31)).trans <|
    (StableHlo.after_of_writes_sub hostOps4 _ hostOps4_writes (by decide) : B11 m c (Proc.devRef .tc main_v31) = B10 m c (Proc.devRef .tc main_v31)).trans <|
    (B10_of_ne m c main_v31 (by decide) : B10 m c (Proc.devRef .tc main_v31) = B9 m c (Proc.devRef .tc main_v31)).trans <|
    (StableHlo.after_of_writes_sub hostOps3 _ hostOps3_writes (by decide) : B9 m c (Proc.devRef .tc main_v31) = B8 m c (Proc.devRef .tc main_v31)).trans <|
    (B8_of_ne m c main_v31 (by decide) : B8 m c (Proc.devRef .tc main_v31) = B7 m c (Proc.devRef .tc main_v31)).trans <|
    (StableHlo.after_of_writes_sub hostOps2 _ hostOps2_writes (by decide) : B7 m c (Proc.devRef .tc main_v31) = B6 m c (Proc.devRef .tc main_v31)).trans <|
    (B6_of_ne m c main_v31 (by decide) : B6 m c (Proc.devRef .tc main_v31) = B5 m c (Proc.devRef .tc main_v31)).trans <|
    (StableHlo.after_of_writes_sub hostOps1 _ hostOps1_writes (by decide) : B5 m c (Proc.devRef .tc main_v31) = B4 m c (Proc.devRef .tc main_v31)).trans <|
    (B4_of_ne m c main_v31 (by decide) : B4 m c (Proc.devRef .tc main_v31) = B3 m c (Proc.devRef .tc main_v31))
theorem keep_main_arg0_0_3 (c : Dev nD) : B3 m c (Proc.devRef .tc main_arg0) = B0 m c (Proc.devRef .tc main_arg0) :=
  (StableHlo.after_of_writes_sub hostOps0_2 _ hostOps0_2_writes (by decide) : B3 m c (Proc.devRef .tc main_arg0) = B2 m c (Proc.devRef .tc main_arg0)).trans <|
    (StableHlo.after_of_writes_sub hostOps0_1 _ hostOps0_1_writes (by decide) : B2 m c (Proc.devRef .tc main_arg0) = B1 m c (Proc.devRef .tc main_arg0)).trans <|
    (StableHlo.after_of_writes_sub hostOps0 _ hostOps0_writes (by decide) : B1 m c (Proc.devRef .tc main_arg0) = B0 m c (Proc.devRef .tc main_arg0))
theorem keep_main_arg2_0_3 (c : Dev nD) : B3 m c (Proc.devRef .tc main_arg2) = B0 m c (Proc.devRef .tc main_arg2) :=
  (StableHlo.after_of_writes_sub hostOps0_2 _ hostOps0_2_writes (by decide) : B3 m c (Proc.devRef .tc main_arg2) = B2 m c (Proc.devRef .tc main_arg2)).trans <|
    (StableHlo.after_of_writes_sub hostOps0_1 _ hostOps0_1_writes (by decide) : B2 m c (Proc.devRef .tc main_arg2) = B1 m c (Proc.devRef .tc main_arg2)).trans <|
    (StableHlo.after_of_writes_sub hostOps0 _ hostOps0_writes (by decide) : B1 m c (Proc.devRef .tc main_arg2) = B0 m c (Proc.devRef .tc main_arg2))
theorem keep_main_arg3_0_4 (c : Dev nD) : B4 m c (Proc.devRef .tc main_arg3) = B0 m c (Proc.devRef .tc main_arg3) :=
  (B4_of_ne m c main_arg3 (by decide) : B4 m c (Proc.devRef .tc main_arg3) = B3 m c (Proc.devRef .tc main_arg3)).trans <|
    (StableHlo.after_of_writes_sub hostOps0_2 _ hostOps0_2_writes (by decide) : B3 m c (Proc.devRef .tc main_arg3) = B2 m c (Proc.devRef .tc main_arg3)).trans <|
    (StableHlo.after_of_writes_sub hostOps0_1 _ hostOps0_1_writes (by decide) : B2 m c (Proc.devRef .tc main_arg3) = B1 m c (Proc.devRef .tc main_arg3)).trans <|
    (StableHlo.after_of_writes_sub hostOps0 _ hostOps0_writes (by decide) : B1 m c (Proc.devRef .tc main_arg3) = B0 m c (Proc.devRef .tc main_arg3))
theorem keep_main_arg4_0_7 (c : Dev nD) : B7 m c (Proc.devRef .tc main_arg4) = B0 m c (Proc.devRef .tc main_arg4) :=
  (StableHlo.after_of_writes_sub hostOps2 _ hostOps2_writes (by decide) : B7 m c (Proc.devRef .tc main_arg4) = B6 m c (Proc.devRef .tc main_arg4)).trans <|
    (B6_of_ne m c main_arg4 (by decide) : B6 m c (Proc.devRef .tc main_arg4) = B5 m c (Proc.devRef .tc main_arg4)).trans <|
    (StableHlo.after_of_writes_sub hostOps1 _ hostOps1_writes (by decide) : B5 m c (Proc.devRef .tc main_arg4) = B4 m c (Proc.devRef .tc main_arg4)).trans <|
    (B4_of_ne m c main_arg4 (by decide) : B4 m c (Proc.devRef .tc main_arg4) = B3 m c (Proc.devRef .tc main_arg4)).trans <|
    (StableHlo.after_of_writes_sub hostOps0_2 _ hostOps0_2_writes (by decide) : B3 m c (Proc.devRef .tc main_arg4) = B2 m c (Proc.devRef .tc main_arg4)).trans <|
    (StableHlo.after_of_writes_sub hostOps0_1 _ hostOps0_1_writes (by decide) : B2 m c (Proc.devRef .tc main_arg4) = B1 m c (Proc.devRef .tc main_arg4)).trans <|
    (StableHlo.after_of_writes_sub hostOps0 _ hostOps0_writes (by decide) : B1 m c (Proc.devRef .tc main_arg4) = B0 m c (Proc.devRef .tc main_arg4))
theorem keep_main_arg5_0_8 (c : Dev nD) : B8 m c (Proc.devRef .tc main_arg5) = B0 m c (Proc.devRef .tc main_arg5) :=
  (B8_of_ne m c main_arg5 (by decide) : B8 m c (Proc.devRef .tc main_arg5) = B7 m c (Proc.devRef .tc main_arg5)).trans <|
    (StableHlo.after_of_writes_sub hostOps2 _ hostOps2_writes (by decide) : B7 m c (Proc.devRef .tc main_arg5) = B6 m c (Proc.devRef .tc main_arg5)).trans <|
    (B6_of_ne m c main_arg5 (by decide) : B6 m c (Proc.devRef .tc main_arg5) = B5 m c (Proc.devRef .tc main_arg5)).trans <|
    (StableHlo.after_of_writes_sub hostOps1 _ hostOps1_writes (by decide) : B5 m c (Proc.devRef .tc main_arg5) = B4 m c (Proc.devRef .tc main_arg5)).trans <|
    (B4_of_ne m c main_arg5 (by decide) : B4 m c (Proc.devRef .tc main_arg5) = B3 m c (Proc.devRef .tc main_arg5)).trans <|
    (StableHlo.after_of_writes_sub hostOps0_2 _ hostOps0_2_writes (by decide) : B3 m c (Proc.devRef .tc main_arg5) = B2 m c (Proc.devRef .tc main_arg5)).trans <|
    (StableHlo.after_of_writes_sub hostOps0_1 _ hostOps0_1_writes (by decide) : B2 m c (Proc.devRef .tc main_arg5) = B1 m c (Proc.devRef .tc main_arg5)).trans <|
    (StableHlo.after_of_writes_sub hostOps0 _ hostOps0_writes (by decide) : B1 m c (Proc.devRef .tc main_arg5) = B0 m c (Proc.devRef .tc main_arg5))
theorem keep_main_arg6_0_11 (c : Dev nD) : B11 m c (Proc.devRef .tc main_arg6) = B0 m c (Proc.devRef .tc main_arg6) :=
  (StableHlo.after_of_writes_sub hostOps4 _ hostOps4_writes (by decide) : B11 m c (Proc.devRef .tc main_arg6) = B10 m c (Proc.devRef .tc main_arg6)).trans <|
    (B10_of_ne m c main_arg6 (by decide) : B10 m c (Proc.devRef .tc main_arg6) = B9 m c (Proc.devRef .tc main_arg6)).trans <|
    (StableHlo.after_of_writes_sub hostOps3 _ hostOps3_writes (by decide) : B9 m c (Proc.devRef .tc main_arg6) = B8 m c (Proc.devRef .tc main_arg6)).trans <|
    (B8_of_ne m c main_arg6 (by decide) : B8 m c (Proc.devRef .tc main_arg6) = B7 m c (Proc.devRef .tc main_arg6)).trans <|
    (StableHlo.after_of_writes_sub hostOps2 _ hostOps2_writes (by decide) : B7 m c (Proc.devRef .tc main_arg6) = B6 m c (Proc.devRef .tc main_arg6)).trans <|
    (B6_of_ne m c main_arg6 (by decide) : B6 m c (Proc.devRef .tc main_arg6) = B5 m c (Proc.devRef .tc main_arg6)).trans <|
    (StableHlo.after_of_writes_sub hostOps1 _ hostOps1_writes (by decide) : B5 m c (Proc.devRef .tc main_arg6) = B4 m c (Proc.devRef .tc main_arg6)).trans <|
    (B4_of_ne m c main_arg6 (by decide) : B4 m c (Proc.devRef .tc main_arg6) = B3 m c (Proc.devRef .tc main_arg6)).trans <|
    (StableHlo.after_of_writes_sub hostOps0_2 _ hostOps0_2_writes (by decide) : B3 m c (Proc.devRef .tc main_arg6) = B2 m c (Proc.devRef .tc main_arg6)).trans <|
    (StableHlo.after_of_writes_sub hostOps0_1 _ hostOps0_1_writes (by decide) : B2 m c (Proc.devRef .tc main_arg6) = B1 m c (Proc.devRef .tc main_arg6)).trans <|
    (StableHlo.after_of_writes_sub hostOps0 _ hostOps0_writes (by decide) : B1 m c (Proc.devRef .tc main_arg6) = B0 m c (Proc.devRef .tc main_arg6))
theorem keep_main_arg7_0_12 (c : Dev nD) : B12 m c (Proc.devRef .tc main_arg7) = B0 m c (Proc.devRef .tc main_arg7) :=
  (B12_of_ne m c main_arg7 (by decide) : B12 m c (Proc.devRef .tc main_arg7) = B11 m c (Proc.devRef .tc main_arg7)).trans <|
    (StableHlo.after_of_writes_sub hostOps4 _ hostOps4_writes (by decide) : B11 m c (Proc.devRef .tc main_arg7) = B10 m c (Proc.devRef .tc main_arg7)).trans <|
    (B10_of_ne m c main_arg7 (by decide) : B10 m c (Proc.devRef .tc main_arg7) = B9 m c (Proc.devRef .tc main_arg7)).trans <|
    (StableHlo.after_of_writes_sub hostOps3 _ hostOps3_writes (by decide) : B9 m c (Proc.devRef .tc main_arg7) = B8 m c (Proc.devRef .tc main_arg7)).trans <|
    (B8_of_ne m c main_arg7 (by decide) : B8 m c (Proc.devRef .tc main_arg7) = B7 m c (Proc.devRef .tc main_arg7)).trans <|
    (StableHlo.after_of_writes_sub hostOps2 _ hostOps2_writes (by decide) : B7 m c (Proc.devRef .tc main_arg7) = B6 m c (Proc.devRef .tc main_arg7)).trans <|
    (B6_of_ne m c main_arg7 (by decide) : B6 m c (Proc.devRef .tc main_arg7) = B5 m c (Proc.devRef .tc main_arg7)).trans <|
    (StableHlo.after_of_writes_sub hostOps1 _ hostOps1_writes (by decide) : B5 m c (Proc.devRef .tc main_arg7) = B4 m c (Proc.devRef .tc main_arg7)).trans <|
    (B4_of_ne m c main_arg7 (by decide) : B4 m c (Proc.devRef .tc main_arg7) = B3 m c (Proc.devRef .tc main_arg7)).trans <|
    (StableHlo.after_of_writes_sub hostOps0_2 _ hostOps0_2_writes (by decide) : B3 m c (Proc.devRef .tc main_arg7) = B2 m c (Proc.devRef .tc main_arg7)).trans <|
    (StableHlo.after_of_writes_sub hostOps0_1 _ hostOps0_1_writes (by decide) : B2 m c (Proc.devRef .tc main_arg7) = B1 m c (Proc.devRef .tc main_arg7)).trans <|
    (StableHlo.after_of_writes_sub hostOps0 _ hostOps0_writes (by decide) : B1 m c (Proc.devRef .tc main_arg7) = B0 m c (Proc.devRef .tc main_arg7))
theorem keep_main_arg8_0_15 (c : Dev nD) : B15 m c (Proc.devRef .tc main_arg8) = B0 m c (Proc.devRef .tc main_arg8) :=
  (StableHlo.after_of_writes_sub hostOps6 _ hostOps6_writes (by decide) : B15 m c (Proc.devRef .tc main_arg8) = B14 m c (Proc.devRef .tc main_arg8)).trans <|
    (B14_of_ne m c main_arg8 (by decide) : B14 m c (Proc.devRef .tc main_arg8) = B13 m c (Proc.devRef .tc main_arg8)).trans <|
    (StableHlo.after_of_writes_sub hostOps5 _ hostOps5_writes (by decide) : B13 m c (Proc.devRef .tc main_arg8) = B12 m c (Proc.devRef .tc main_arg8)).trans <|
    (B12_of_ne m c main_arg8 (by decide) : B12 m c (Proc.devRef .tc main_arg8) = B11 m c (Proc.devRef .tc main_arg8)).trans <|
    (StableHlo.after_of_writes_sub hostOps4 _ hostOps4_writes (by decide) : B11 m c (Proc.devRef .tc main_arg8) = B10 m c (Proc.devRef .tc main_arg8)).trans <|
    (B10_of_ne m c main_arg8 (by decide) : B10 m c (Proc.devRef .tc main_arg8) = B9 m c (Proc.devRef .tc main_arg8)).trans <|
    (StableHlo.after_of_writes_sub hostOps3 _ hostOps3_writes (by decide) : B9 m c (Proc.devRef .tc main_arg8) = B8 m c (Proc.devRef .tc main_arg8)).trans <|
    (B8_of_ne m c main_arg8 (by decide) : B8 m c (Proc.devRef .tc main_arg8) = B7 m c (Proc.devRef .tc main_arg8)).trans <|
    (StableHlo.after_of_writes_sub hostOps2 _ hostOps2_writes (by decide) : B7 m c (Proc.devRef .tc main_arg8) = B6 m c (Proc.devRef .tc main_arg8)).trans <|
    (B6_of_ne m c main_arg8 (by decide) : B6 m c (Proc.devRef .tc main_arg8) = B5 m c (Proc.devRef .tc main_arg8)).trans <|
    (StableHlo.after_of_writes_sub hostOps1 _ hostOps1_writes (by decide) : B5 m c (Proc.devRef .tc main_arg8) = B4 m c (Proc.devRef .tc main_arg8)).trans <|
    (B4_of_ne m c main_arg8 (by decide) : B4 m c (Proc.devRef .tc main_arg8) = B3 m c (Proc.devRef .tc main_arg8)).trans <|
    (StableHlo.after_of_writes_sub hostOps0_2 _ hostOps0_2_writes (by decide) : B3 m c (Proc.devRef .tc main_arg8) = B2 m c (Proc.devRef .tc main_arg8)).trans <|
    (StableHlo.after_of_writes_sub hostOps0_1 _ hostOps0_1_writes (by decide) : B2 m c (Proc.devRef .tc main_arg8) = B1 m c (Proc.devRef .tc main_arg8)).trans <|
    (StableHlo.after_of_writes_sub hostOps0 _ hostOps0_writes (by decide) : B1 m c (Proc.devRef .tc main_arg8) = B0 m c (Proc.devRef .tc main_arg8))
theorem keep_main_arg9_0_16 (c : Dev nD) : B16 m c (Proc.devRef .tc main_arg9) = B0 m c (Proc.devRef .tc main_arg9) :=
  (B16_of_ne m c main_arg9 (by decide) : B16 m c (Proc.devRef .tc main_arg9) = B15 m c (Proc.devRef .tc main_arg9)).trans <|
    (StableHlo.after_of_writes_sub hostOps6 _ hostOps6_writes (by decide) : B15 m c (Proc.devRef .tc main_arg9) = B14 m c (Proc.devRef .tc main_arg9)).trans <|
    (B14_of_ne m c main_arg9 (by decide) : B14 m c (Proc.devRef .tc main_arg9) = B13 m c (Proc.devRef .tc main_arg9)).trans <|
    (StableHlo.after_of_writes_sub hostOps5 _ hostOps5_writes (by decide) : B13 m c (Proc.devRef .tc main_arg9) = B12 m c (Proc.devRef .tc main_arg9)).trans <|
    (B12_of_ne m c main_arg9 (by decide) : B12 m c (Proc.devRef .tc main_arg9) = B11 m c (Proc.devRef .tc main_arg9)).trans <|
    (StableHlo.after_of_writes_sub hostOps4 _ hostOps4_writes (by decide) : B11 m c (Proc.devRef .tc main_arg9) = B10 m c (Proc.devRef .tc main_arg9)).trans <|
    (B10_of_ne m c main_arg9 (by decide) : B10 m c (Proc.devRef .tc main_arg9) = B9 m c (Proc.devRef .tc main_arg9)).trans <|
    (StableHlo.after_of_writes_sub hostOps3 _ hostOps3_writes (by decide) : B9 m c (Proc.devRef .tc main_arg9) = B8 m c (Proc.devRef .tc main_arg9)).trans <|
    (B8_of_ne m c main_arg9 (by decide) : B8 m c (Proc.devRef .tc main_arg9) = B7 m c (Proc.devRef .tc main_arg9)).trans <|
    (StableHlo.after_of_writes_sub hostOps2 _ hostOps2_writes (by decide) : B7 m c (Proc.devRef .tc main_arg9) = B6 m c (Proc.devRef .tc main_arg9)).trans <|
    (B6_of_ne m c main_arg9 (by decide) : B6 m c (Proc.devRef .tc main_arg9) = B5 m c (Proc.devRef .tc main_arg9)).trans <|
    (StableHlo.after_of_writes_sub hostOps1 _ hostOps1_writes (by decide) : B5 m c (Proc.devRef .tc main_arg9) = B4 m c (Proc.devRef .tc main_arg9)).trans <|
    (B4_of_ne m c main_arg9 (by decide) : B4 m c (Proc.devRef .tc main_arg9) = B3 m c (Proc.devRef .tc main_arg9)).trans <|
    (StableHlo.after_of_writes_sub hostOps0_2 _ hostOps0_2_writes (by decide) : B3 m c (Proc.devRef .tc main_arg9) = B2 m c (Proc.devRef .tc main_arg9)).trans <|
    (StableHlo.after_of_writes_sub hostOps0_1 _ hostOps0_1_writes (by decide) : B2 m c (Proc.devRef .tc main_arg9) = B1 m c (Proc.devRef .tc main_arg9)).trans <|
    (StableHlo.after_of_writes_sub hostOps0 _ hostOps0_writes (by decide) : B1 m c (Proc.devRef .tc main_arg9) = B0 m c (Proc.devRef .tc main_arg9))
theorem keep_main_arg10_0_19 (c : Dev nD) : B19 m c (Proc.devRef .tc main_arg10) = B0 m c (Proc.devRef .tc main_arg10) :=
  (StableHlo.after_of_writes_sub hostOps8 _ hostOps8_writes (by decide) : B19 m c (Proc.devRef .tc main_arg10) = B18 m c (Proc.devRef .tc main_arg10)).trans <|
    (B18_of_ne m c main_arg10 (by decide) : B18 m c (Proc.devRef .tc main_arg10) = B17 m c (Proc.devRef .tc main_arg10)).trans <|
    (StableHlo.after_of_writes_sub hostOps7 _ hostOps7_writes (by decide) : B17 m c (Proc.devRef .tc main_arg10) = B16 m c (Proc.devRef .tc main_arg10)).trans <|
    (B16_of_ne m c main_arg10 (by decide) : B16 m c (Proc.devRef .tc main_arg10) = B15 m c (Proc.devRef .tc main_arg10)).trans <|
    (StableHlo.after_of_writes_sub hostOps6 _ hostOps6_writes (by decide) : B15 m c (Proc.devRef .tc main_arg10) = B14 m c (Proc.devRef .tc main_arg10)).trans <|
    (B14_of_ne m c main_arg10 (by decide) : B14 m c (Proc.devRef .tc main_arg10) = B13 m c (Proc.devRef .tc main_arg10)).trans <|
    (StableHlo.after_of_writes_sub hostOps5 _ hostOps5_writes (by decide) : B13 m c (Proc.devRef .tc main_arg10) = B12 m c (Proc.devRef .tc main_arg10)).trans <|
    (B12_of_ne m c main_arg10 (by decide) : B12 m c (Proc.devRef .tc main_arg10) = B11 m c (Proc.devRef .tc main_arg10)).trans <|
    (StableHlo.after_of_writes_sub hostOps4 _ hostOps4_writes (by decide) : B11 m c (Proc.devRef .tc main_arg10) = B10 m c (Proc.devRef .tc main_arg10)).trans <|
    (B10_of_ne m c main_arg10 (by decide) : B10 m c (Proc.devRef .tc main_arg10) = B9 m c (Proc.devRef .tc main_arg10)).trans <|
    (StableHlo.after_of_writes_sub hostOps3 _ hostOps3_writes (by decide) : B9 m c (Proc.devRef .tc main_arg10) = B8 m c (Proc.devRef .tc main_arg10)).trans <|
    (B8_of_ne m c main_arg10 (by decide) : B8 m c (Proc.devRef .tc main_arg10) = B7 m c (Proc.devRef .tc main_arg10)).trans <|
    (StableHlo.after_of_writes_sub hostOps2 _ hostOps2_writes (by decide) : B7 m c (Proc.devRef .tc main_arg10) = B6 m c (Proc.devRef .tc main_arg10)).trans <|
    (B6_of_ne m c main_arg10 (by decide) : B6 m c (Proc.devRef .tc main_arg10) = B5 m c (Proc.devRef .tc main_arg10)).trans <|
    (StableHlo.after_of_writes_sub hostOps1 _ hostOps1_writes (by decide) : B5 m c (Proc.devRef .tc main_arg10) = B4 m c (Proc.devRef .tc main_arg10)).trans <|
    (B4_of_ne m c main_arg10 (by decide) : B4 m c (Proc.devRef .tc main_arg10) = B3 m c (Proc.devRef .tc main_arg10)).trans <|
    (StableHlo.after_of_writes_sub hostOps0_2 _ hostOps0_2_writes (by decide) : B3 m c (Proc.devRef .tc main_arg10) = B2 m c (Proc.devRef .tc main_arg10)).trans <|
    (StableHlo.after_of_writes_sub hostOps0_1 _ hostOps0_1_writes (by decide) : B2 m c (Proc.devRef .tc main_arg10) = B1 m c (Proc.devRef .tc main_arg10)).trans <|
    (StableHlo.after_of_writes_sub hostOps0 _ hostOps0_writes (by decide) : B1 m c (Proc.devRef .tc main_arg10) = B0 m c (Proc.devRef .tc main_arg10))
theorem keep_main_arg11_0_18 (c : Dev nD) : B18 m c (Proc.devRef .tc main_arg11) = B0 m c (Proc.devRef .tc main_arg11) :=
  (B18_of_ne m c main_arg11 (by decide) : B18 m c (Proc.devRef .tc main_arg11) = B17 m c (Proc.devRef .tc main_arg11)).trans <|
    (StableHlo.after_of_writes_sub hostOps7 _ hostOps7_writes (by decide) : B17 m c (Proc.devRef .tc main_arg11) = B16 m c (Proc.devRef .tc main_arg11)).trans <|
    (B16_of_ne m c main_arg11 (by decide) : B16 m c (Proc.devRef .tc main_arg11) = B15 m c (Proc.devRef .tc main_arg11)).trans <|
    (StableHlo.after_of_writes_sub hostOps6 _ hostOps6_writes (by decide) : B15 m c (Proc.devRef .tc main_arg11) = B14 m c (Proc.devRef .tc main_arg11)).trans <|
    (B14_of_ne m c main_arg11 (by decide) : B14 m c (Proc.devRef .tc main_arg11) = B13 m c (Proc.devRef .tc main_arg11)).trans <|
    (StableHlo.after_of_writes_sub hostOps5 _ hostOps5_writes (by decide) : B13 m c (Proc.devRef .tc main_arg11) = B12 m c (Proc.devRef .tc main_arg11)).trans <|
    (B12_of_ne m c main_arg11 (by decide) : B12 m c (Proc.devRef .tc main_arg11) = B11 m c (Proc.devRef .tc main_arg11)).trans <|
    (StableHlo.after_of_writes_sub hostOps4 _ hostOps4_writes (by decide) : B11 m c (Proc.devRef .tc main_arg11) = B10 m c (Proc.devRef .tc main_arg11)).trans <|
    (B10_of_ne m c main_arg11 (by decide) : B10 m c (Proc.devRef .tc main_arg11) = B9 m c (Proc.devRef .tc main_arg11)).trans <|
    (StableHlo.after_of_writes_sub hostOps3 _ hostOps3_writes (by decide) : B9 m c (Proc.devRef .tc main_arg11) = B8 m c (Proc.devRef .tc main_arg11)).trans <|
    (B8_of_ne m c main_arg11 (by decide) : B8 m c (Proc.devRef .tc main_arg11) = B7 m c (Proc.devRef .tc main_arg11)).trans <|
    (StableHlo.after_of_writes_sub hostOps2 _ hostOps2_writes (by decide) : B7 m c (Proc.devRef .tc main_arg11) = B6 m c (Proc.devRef .tc main_arg11)).trans <|
    (B6_of_ne m c main_arg11 (by decide) : B6 m c (Proc.devRef .tc main_arg11) = B5 m c (Proc.devRef .tc main_arg11)).trans <|
    (StableHlo.after_of_writes_sub hostOps1 _ hostOps1_writes (by decide) : B5 m c (Proc.devRef .tc main_arg11) = B4 m c (Proc.devRef .tc main_arg11)).trans <|
    (B4_of_ne m c main_arg11 (by decide) : B4 m c (Proc.devRef .tc main_arg11) = B3 m c (Proc.devRef .tc main_arg11)).trans <|
    (StableHlo.after_of_writes_sub hostOps0_2 _ hostOps0_2_writes (by decide) : B3 m c (Proc.devRef .tc main_arg11) = B2 m c (Proc.devRef .tc main_arg11)).trans <|
    (StableHlo.after_of_writes_sub hostOps0_1 _ hostOps0_1_writes (by decide) : B2 m c (Proc.devRef .tc main_arg11) = B1 m c (Proc.devRef .tc main_arg11)).trans <|
    (StableHlo.after_of_writes_sub hostOps0 _ hostOps0_writes (by decide) : B1 m c (Proc.devRef .tc main_arg11) = B0 m c (Proc.devRef .tc main_arg11))
theorem keep_main_v48_6_7 (c : Dev nD) : B7 m c (Proc.devRef .tc main_v48) = B6 m c (Proc.devRef .tc main_v48) :=
  (StableHlo.after_of_writes_sub hostOps2 _ hostOps2_writes (by decide) : B7 m c (Proc.devRef .tc main_v48) = B6 m c (Proc.devRef .tc main_v48))
theorem keep_main_v48_6_18 (c : Dev nD) : B18 m c (Proc.devRef .tc main_v48) = B6 m c (Proc.devRef .tc main_v48) :=
  (B18_of_ne m c main_v48 (by decide) : B18 m c (Proc.devRef .tc main_v48) = B17 m c (Proc.devRef .tc main_v48)).trans <|
    (StableHlo.after_of_writes_sub hostOps7 _ hostOps7_writes (by decide) : B17 m c (Proc.devRef .tc main_v48) = B16 m c (Proc.devRef .tc main_v48)).trans <|
    (B16_of_ne m c main_v48 (by decide) : B16 m c (Proc.devRef .tc main_v48) = B15 m c (Proc.devRef .tc main_v48)).trans <|
    (StableHlo.after_of_writes_sub hostOps6 _ hostOps6_writes (by decide) : B15 m c (Proc.devRef .tc main_v48) = B14 m c (Proc.devRef .tc main_v48)).trans <|
    (B14_of_ne m c main_v48 (by decide) : B14 m c (Proc.devRef .tc main_v48) = B13 m c (Proc.devRef .tc main_v48)).trans <|
    (StableHlo.after_of_writes_sub hostOps5 _ hostOps5_writes (by decide) : B13 m c (Proc.devRef .tc main_v48) = B12 m c (Proc.devRef .tc main_v48)).trans <|
    (B12_of_ne m c main_v48 (by decide) : B12 m c (Proc.devRef .tc main_v48) = B11 m c (Proc.devRef .tc main_v48)).trans <|
    (StableHlo.after_of_writes_sub hostOps4 _ hostOps4_writes (by decide) : B11 m c (Proc.devRef .tc main_v48) = B10 m c (Proc.devRef .tc main_v48)).trans <|
    (B10_of_ne m c main_v48 (by decide) : B10 m c (Proc.devRef .tc main_v48) = B9 m c (Proc.devRef .tc main_v48)).trans <|
    (StableHlo.after_of_writes_sub hostOps3 _ hostOps3_writes (by decide) : B9 m c (Proc.devRef .tc main_v48) = B8 m c (Proc.devRef .tc main_v48)).trans <|
    ((B8_arr m c 0).trans (((dat2 (E7 m) c).arrAt_in 0 rfl _).trans (A_eq2 (E7 m) c 0)) : B8 m c (Proc.devRef .tc main_v48) = B7 m c (Proc.devRef .tc main_v48)).trans <|
    (StableHlo.after_of_writes_sub hostOps2 _ hostOps2_writes (by decide) : B7 m c (Proc.devRef .tc main_v48) = B6 m c (Proc.devRef .tc main_v48))
theorem keep_main_v65_10_11 (c : Dev nD) : B11 m c (Proc.devRef .tc main_v65) = B10 m c (Proc.devRef .tc main_v65) :=
  (StableHlo.after_of_writes_sub hostOps4 _ hostOps4_writes (by decide) : B11 m c (Proc.devRef .tc main_v65) = B10 m c (Proc.devRef .tc main_v65))
theorem keep_main_v65_10_18 (c : Dev nD) : B18 m c (Proc.devRef .tc main_v65) = B10 m c (Proc.devRef .tc main_v65) :=
  (B18_of_ne m c main_v65 (by decide) : B18 m c (Proc.devRef .tc main_v65) = B17 m c (Proc.devRef .tc main_v65)).trans <|
    (StableHlo.after_of_writes_sub hostOps7 _ hostOps7_writes (by decide) : B17 m c (Proc.devRef .tc main_v65) = B16 m c (Proc.devRef .tc main_v65)).trans <|
    (B16_of_ne m c main_v65 (by decide) : B16 m c (Proc.devRef .tc main_v65) = B15 m c (Proc.devRef .tc main_v65)).trans <|
    (StableHlo.after_of_writes_sub hostOps6 _ hostOps6_writes (by decide) : B15 m c (Proc.devRef .tc main_v65) = B14 m c (Proc.devRef .tc main_v65)).trans <|
    (B14_of_ne m c main_v65 (by decide) : B14 m c (Proc.devRef .tc main_v65) = B13 m c (Proc.devRef .tc main_v65)).trans <|
    (StableHlo.after_of_writes_sub hostOps5 _ hostOps5_writes (by decide) : B13 m c (Proc.devRef .tc main_v65) = B12 m c (Proc.devRef .tc main_v65)).trans <|
    ((B12_arr m c 0).trans (((dat4 (E11 m) c).arrAt_in 0 rfl _).trans (A_eq4 (E11 m) c 0)) : B12 m c (Proc.devRef .tc main_v65) = B11 m c (Proc.devRef .tc main_v65)).trans <|
    (StableHlo.after_of_writes_sub hostOps4 _ hostOps4_writes (by decide) : B11 m c (Proc.devRef .tc main_v65) = B10 m c (Proc.devRef .tc main_v65))
theorem keep_main_v82_14_15 (c : Dev nD) : B15 m c (Proc.devRef .tc main_v82) = B14 m c (Proc.devRef .tc main_v82) :=
  (StableHlo.after_of_writes_sub hostOps6 _ hostOps6_writes (by decide) : B15 m c (Proc.devRef .tc main_v82) = B14 m c (Proc.devRef .tc main_v82))
theorem keep_main_v82_14_18 (c : Dev nD) : B18 m c (Proc.devRef .tc main_v82) = B14 m c (Proc.devRef .tc main_v82) :=
  (B18_of_ne m c main_v82 (by decide) : B18 m c (Proc.devRef .tc main_v82) = B17 m c (Proc.devRef .tc main_v82)).trans <|
    (StableHlo.after_of_writes_sub hostOps7 _ hostOps7_writes (by decide) : B17 m c (Proc.devRef .tc main_v82) = B16 m c (Proc.devRef .tc main_v82)).trans <|
    ((B16_arr m c 0).trans (((dat6 (E15 m) c).arrAt_in 0 rfl _).trans (A_eq6 (E15 m) c 0)) : B16 m c (Proc.devRef .tc main_v82) = B15 m c (Proc.devRef .tc main_v82)).trans <|
    (StableHlo.after_of_writes_sub hostOps6 _ hostOps6_writes (by decide) : B15 m c (Proc.devRef .tc main_v82) = B14 m c (Proc.devRef .tc main_v82))

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (keep_main_arg0_0_20 m c),
      (h c _ (mem_uc main_arg1 (by decide))).trans (keep_main_arg1_0_20 m c),
      (h c _ (mem_uc main_arg2 (by decide))).trans (keep_main_arg2_0_20 m c),
      (h c _ (mem_uc main_arg3 (by decide))).trans (keep_main_arg3_0_20 m c),
      (h c _ (mem_uc main_arg4 (by decide))).trans (keep_main_arg4_0_20 m c),
      (h c _ (mem_uc main_arg5 (by decide))).trans (keep_main_arg5_0_20 m c),
      (h c _ (mem_uc main_arg6 (by decide))).trans (keep_main_arg6_0_20 m c),
      (h c _ (mem_uc main_arg7 (by decide))).trans (keep_main_arg7_0_20 m c),
      (h c _ (mem_uc main_arg8 (by decide))).trans (keep_main_arg8_0_20 m c),
      (h c _ (mem_uc main_arg9 (by decide))).trans (keep_main_arg9_0_20 m c),
      (h c _ (mem_uc main_arg10 (by decide))).trans (keep_main_arg10_0_20 m c),
      (h c _ (mem_uc main_arg11 (by decide))).trans (keep_main_arg11_0_20 m c)⟩)
    (run_all m ρ)

end Cert.KernelIdeal.Fr

end
-- ==== Proof.Val.Host0.lean ====
/- The kernel's opening host stretches (the edge lists with the self-loops appended, the node degrees and
   their inverse square roots, the edge weights, a zero bias row), read against the reference's stages: each buffer a
   later stretch reads holds the reference's stage of the edge array. Generic in the float type: nothing here is
   evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-! ## The first stretch: edge lists, degree comparison, inverse square root -/

/-- The source list: row 0 of the edge array followed by the node numbers. -/
theorem h_v3 (W : Valuation τ sig (Elt F)) (x1 : (⟨S2x1600000, .i32⟩ : BufTy).Contents (Elt F))
    (h1 : W (Proc.devRef .tc main_arg1) = x1) :
    StableHlo.after hostOps0 W (Proc.devRef .tc main_v3) = Cert.ReferenceIdeal.ReadP.val_main_v3 x1 := by
  unfold hostOps0
  after_results
  rw [h1]
  rfl

/-- The destination list: row 1 of the edge array followed by the node numbers. -/
theorem h_v6 (W : Valuation τ sig (Elt F)) (x1 : (⟨S2x1600000, .i32⟩ : BufTy).Contents (Elt F))
    (h1 : W (Proc.devRef .tc main_arg1) = x1) :
    StableHlo.after hostOps0 W (Proc.devRef .tc main_v6) = Cert.ReferenceIdeal.ReadP.val_main_v6 x1 := by
  unfold hostOps0
  after_results
  rw [h1]
  rfl

/-- Which nodes have positive degree (the degree is the scatter-add of ones by destination). -/
theorem h_v12 (W : Valuation τ sig (Elt F)) (x1 : (⟨S2x1600000, .i32⟩ : BufTy).Contents (Elt F))
    (h1 : W (Proc.devRef .tc main_arg1) = x1) :
    StableHlo.after hostOps0 W (Proc.devRef .tc main_v12) = Cert.ReferenceIdeal.ReadP.val_main_v12 x1 := by
  unfold hostOps0
  after_results
  rw [h1]
  rfl

/-- The inverse square root of the degree clamped below by one. -/
theorem h_v15 (W : Valuation τ sig (Elt F)) (x1 : (⟨S2x1600000, .i32⟩ : BufTy).Contents (Elt F))
    (h1 : W (Proc.devRef .tc main_arg1) = x1) :
    StableHlo.after hostOps0 W (Proc.devRef .tc main_v15) = Cert.ReferenceIdeal.ReadP.val_main_v15 x1 := by
  unfold hostOps0
  after_results
  rw [h1]
  rfl

/-- The zero scalar the selection falls back to. -/
theorem h_cst_3 (W : Valuation τ sig (Elt F)) :
    StableHlo.after hostOps0 W (Proc.devRef .tc main_cst_3) = Cert.ReferenceIdeal.ReadP.val_main_cst_3 (F := F) := by
  unfold hostOps0
  after_results_simp <;> rfl

/-! ## The selection: inverse square root where the degree is positive, zero elsewhere -/

theorem h_v16 (W : Valuation τ sig (Elt F)) (x1 : (⟨S2x1600000, .i32⟩ : BufTy).Contents (Elt F))
    (h12 : W (Proc.devRef .tc main_v12) = Cert.ReferenceIdeal.ReadP.val_main_v12 x1)
    (h15 : W (Proc.devRef .tc main_v15) = Cert.ReferenceIdeal.ReadP.val_main_v15 x1)
    (hc3 : W (Proc.devRef .tc main_cst_3) = Cert.ReferenceIdeal.ReadP.val_main_cst_3 (F := F)) :
    StableHlo.after hostOps0_1 W (Proc.devRef .tc main_v16) = Cert.ReferenceIdeal.ReadP.val_main_v16 x1 := by
  unfold hostOps0_1
  after_results_simp
  rw [h12, h15, hc3]
  rfl

/-! ## The edge weights and the zero bias row -/

/-- The edge weight: the product of the two endpoints' normalisers, each gathered by the (normalised) node index. -/
theorem h_v31 (W : Valuation τ sig (Elt F)) (x1 : (⟨S2x1600000, .i32⟩ : BufTy).Contents (Elt F))
    (h3 : W (Proc.devRef .tc main_v3) = Cert.ReferenceIdeal.ReadP.val_main_v3 x1)
    (h6 : W (Proc.devRef .tc main_v6) = Cert.ReferenceIdeal.ReadP.val_main_v6 x1)
    (h16 : W (Proc.devRef .tc main_v16) = Cert.ReferenceIdeal.ReadP.val_main_v16 x1) :
    StableHlo.after hostOps0_2 W (Proc.devRef .tc main_v31) = Cert.ReferenceIdeal.ReadP.val_main_v31 x1 := by
  unfold hostOps0_2
  after_results_simp
  rw [h3, h6, h16]
  rfl

/-- The zero bias row the first product is given. -/
theorem h_v32 (W : Valuation τ sig (Elt F)) :
    StableHlo.after hostOps0_2 W (Proc.devRef .tc main_v32)
      = (broadcastInDim S1x128 ![] bcast_S_S1x128 (constant S_ .f32 0x00000000#32 : (⟨S_, .f32⟩ : BufTy).Contents (Elt F)) : (⟨S1x128, .f32⟩ : BufTy).Contents (Elt F)) := by
  unfold hostOps0_2
  after_results_simp <;> rfl

end Cert.HostVal

end
-- ==== Proof.Val.Host1.lean ====
/- The kernel's host stretch 1 (gather the rows of the layer's product by source node, scale each by the edge
   weight, scatter-add by destination node into zeros; and the reshape of the layer's bias row), read against the
   reference's stages: with the buffers the stretch reads holding the reference's stages, the buffers it writes hold
   the reference's next stages. Generic in the float type: nothing here is evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-- The scatter-add of stretch 1: the reference's stage `val_main_v45`. Both sides are the same nest of operations
    (index normalisation by compare / add / select, gather, two broadcasts of the edge weight, product, scatter-add
    into the zero array) over the same shape records, so after the reads are replaced by the stages the equation is
    closed by unfolding the stages. -/
theorem h_v46 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F))
    (hin : W (Proc.devRef .tc main_v33) = Cert.ReferenceIdeal.ReadP.val_main_v32 x0 x2)
    (h3 : W (Proc.devRef .tc main_v3) = Cert.ReferenceIdeal.ReadP.val_main_v3 x1)
    (h6 : W (Proc.devRef .tc main_v6) = Cert.ReferenceIdeal.ReadP.val_main_v6 x1)
    (h31 : W (Proc.devRef .tc main_v31) = Cert.ReferenceIdeal.ReadP.val_main_v31 x1) :
    StableHlo.after hostOps1 W (Proc.devRef .tc main_v46) = Cert.ReferenceIdeal.ReadP.val_main_v45 x0 x1 x2 := by
  unfold hostOps1
  after_results_simp
  rw [hin, h3, h6, h31]
  rfl

/-- The bias row of the layer after stretch 1: the 128-vector argument reshaped to one row. -/
theorem h_v47 (W : Valuation τ sig (Elt F)) :
    StableHlo.after hostOps1 W (Proc.devRef .tc main_v47)
      = shapeCast S1x128 (W (Proc.devRef .tc main_arg3)) shapeCasts_S128_S1x128 := by
  unfold hostOps1
  after_results_simp
  rfl

end Cert.HostVal

end
-- ==== Proof.Val.Host3.lean ====
/- The kernel's host stretch 3 (gather the rows of the layer's product by source node, scale each by the edge
   weight, scatter-add by destination node into zeros; and the reshape of the layer's bias row), read against the
   reference's stages: with the buffers the stretch reads holding the reference's stages, the buffers it writes hold
   the reference's next stages. Generic in the float type: nothing here is evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-- The scatter-add of stretch 3: the reference's stage `val_main_v63`. Both sides are the same nest of operations
    (index normalisation by compare / add / select, gather, two broadcasts of the edge weight, product, scatter-add
    into the zero array) over the same shape records, so after the reads are replaced by the stages the equation is
    closed by unfolding the stages. -/
theorem h_v63 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F))
    (hin : W (Proc.devRef .tc main_v50) = Cert.ReferenceIdeal.ReadP.val_main_v50 x0 x1 x2 x3 x4)
    (h3 : W (Proc.devRef .tc main_v3) = Cert.ReferenceIdeal.ReadP.val_main_v3 x1)
    (h6 : W (Proc.devRef .tc main_v6) = Cert.ReferenceIdeal.ReadP.val_main_v6 x1)
    (h31 : W (Proc.devRef .tc main_v31) = Cert.ReferenceIdeal.ReadP.val_main_v31 x1) :
    StableHlo.after hostOps3 W (Proc.devRef .tc main_v63) = Cert.ReferenceIdeal.ReadP.val_main_v63 x0 x1 x2 x3 x4 := by
  unfold hostOps3
  after_results_simp
  rw [hin, h3, h6, h31]
  rfl

/-- The bias row of the layer after stretch 3: the 128-vector argument reshaped to one row. -/
theorem h_v64 (W : Valuation τ sig (Elt F)) :
    StableHlo.after hostOps3 W (Proc.devRef .tc main_v64)
      = shapeCast S1x128 (W (Proc.devRef .tc main_arg5)) shapeCasts_S128_S1x128 := by
  unfold hostOps3
  after_results_simp
  rfl

end Cert.HostVal

end
-- ==== Proof.Val.Host5.lean ====
/- The kernel's host stretch 5 (gather the rows of the layer's product by source node, scale each by the edge
   weight, scatter-add by destination node into zeros; and the reshape of the layer's bias row), read against the
   reference's stages: with the buffers the stretch reads holding the reference's stages, the buffers it writes hold
   the reference's next stages. Generic in the float type: nothing here is evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-- The scatter-add of stretch 5: the reference's stage `val_main_v81`. Both sides are the same nest of operations
    (index normalisation by compare / add / select, gather, two broadcasts of the edge weight, product, scatter-add
    into the zero array) over the same shape records, so after the reads are replaced by the stages the equation is
    closed by unfolding the stages. -/
theorem h_v80 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F))
    (hin : W (Proc.devRef .tc main_v67) = Cert.ReferenceIdeal.ReadP.val_main_v68 x0 x1 x2 x3 x4 x5 x6)
    (h3 : W (Proc.devRef .tc main_v3) = Cert.ReferenceIdeal.ReadP.val_main_v3 x1)
    (h6 : W (Proc.devRef .tc main_v6) = Cert.ReferenceIdeal.ReadP.val_main_v6 x1)
    (h31 : W (Proc.devRef .tc main_v31) = Cert.ReferenceIdeal.ReadP.val_main_v31 x1) :
    StableHlo.after hostOps5 W (Proc.devRef .tc main_v80) = Cert.ReferenceIdeal.ReadP.val_main_v81 x0 x1 x2 x3 x4 x5 x6 := by
  unfold hostOps5
  after_results_simp
  rw [hin, h3, h6, h31]
  rfl

/-- The bias row of the layer after stretch 5: the 128-vector argument reshaped to one row. -/
theorem h_v81 (W : Valuation τ sig (Elt F)) :
    StableHlo.after hostOps5 W (Proc.devRef .tc main_v81)
      = shapeCast S1x128 (W (Proc.devRef .tc main_arg7)) shapeCasts_S128_S1x128 := by
  unfold hostOps5
  after_results_simp
  rfl

end Cert.HostVal

end
-- ==== Proof.Val.Host7.lean ====
/- The kernel's host stretch 7 (gather the rows of the layer's product by source node, scale each by the edge
   weight, scatter-add by destination node into zeros; and the reshape of the layer's bias row), read against the
   reference's stages: with the buffers the stretch reads holding the reference's stages, the buffers it writes hold
   the reference's next stages. Generic in the float type: nothing here is evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-- The scatter-add of stretch 7: the reference's stage `val_main_v99`. Both sides are the same nest of operations
    (index normalisation by compare / add / select, gather, two broadcasts of the edge weight, product, scatter-add
    into the zero array) over the same shape records, so after the reads are replaced by the stages the equation is
    closed by unfolding the stages. -/
theorem h_v97 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (hin : W (Proc.devRef .tc main_v84) = Cert.ReferenceIdeal.ReadP.val_main_v86 x0 x1 x2 x3 x4 x5 x6 x7 x8)
    (h3 : W (Proc.devRef .tc main_v3) = Cert.ReferenceIdeal.ReadP.val_main_v3 x1)
    (h6 : W (Proc.devRef .tc main_v6) = Cert.ReferenceIdeal.ReadP.val_main_v6 x1)
    (h31 : W (Proc.devRef .tc main_v31) = Cert.ReferenceIdeal.ReadP.val_main_v31 x1) :
    StableHlo.after hostOps7 W (Proc.devRef .tc main_v97) = Cert.ReferenceIdeal.ReadP.val_main_v99 x0 x1 x2 x3 x4 x5 x6 x7 x8 := by
  unfold hostOps7
  after_results_simp
  rw [hin, h3, h6, h31]
  rfl

/-- The bias row of the layer after stretch 7: the 128-vector argument reshaped to one row. -/
theorem h_v98 (W : Valuation τ sig (Elt F)) :
    StableHlo.after hostOps7 W (Proc.devRef .tc main_v98)
      = shapeCast S1x128 (W (Proc.devRef .tc main_arg9)) shapeCasts_S128_S1x128 := by
  unfold hostOps7
  after_results_simp
  rfl

end Cert.HostVal

end
-- ==== Proof.Val.HostS.lean ====
/- The kernel's small host stretches (a zero bias row before each later product; the concatenation of the four
   layers' outputs and the reshape of the last bias), read against the reference's stages. Generic in the float type:
   nothing here is evaluated. -/
import proofs.«152695_j35802847379839_1_alg».proof.Proof.Gen.KernelIdeal.Launch
import proofs.«152695_j35802847379839_1_alg».proof.Proof.RefReadP

noncomputable section

namespace Cert.HostVal

open Cert.KernelIdeal Cert.KernelIdeal.Gen
open Idealize.ShloMosaic Idealize.ShloMosaic.TcCoe Idealize.SL.Sem

variable {F : FTy → Type} [FloatOps F]

/-- The zero bias row written by stretch 2. -/
theorem h_v49 (W : Valuation τ sig (Elt F)) :
    StableHlo.after hostOps2 W (Proc.devRef .tc main_v49)
      = (broadcastInDim S1x128 ![] bcast_S_S1x128 (constant S_ .f32 0x00000000#32 : (⟨S_, .f32⟩ : BufTy).Contents (Elt F)) : (⟨S1x128, .f32⟩ : BufTy).Contents (Elt F)) := by
  unfold hostOps2
  after_results_simp

/-- The zero bias row written by stretch 4. -/
theorem h_v66 (W : Valuation τ sig (Elt F)) :
    StableHlo.after hostOps4 W (Proc.devRef .tc main_v66)
      = (broadcastInDim S1x128 ![] bcast_S_S1x128 (constant S_ .f32 0x00000000#32 : (⟨S_, .f32⟩ : BufTy).Contents (Elt F)) : (⟨S1x128, .f32⟩ : BufTy).Contents (Elt F)) := by
  unfold hostOps4
  after_results_simp

/-- The zero bias row written by stretch 6. -/
theorem h_v83 (W : Valuation τ sig (Elt F)) :
    StableHlo.after hostOps6 W (Proc.devRef .tc main_v83)
      = (broadcastInDim S1x128 ![] bcast_S_S1x128 (constant S_ .f32 0x00000000#32 : (⟨S_, .f32⟩ : BufTy).Contents (Elt F)) : (⟨S1x128, .f32⟩ : BufTy).Contents (Elt F)) := by
  unfold hostOps6
  after_results_simp

/-- The four layers' outputs side by side: the reference's concatenation stage. -/
theorem h_v100 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F))
    (h48 : W (Proc.devRef .tc main_v48) = Cert.ReferenceIdeal.ReadP.val_main_v49 x0 x1 x2 x3)
    (h65 : W (Proc.devRef .tc main_v65) = Cert.ReferenceIdeal.ReadP.val_main_v67 x0 x1 x2 x3 x4 x5)
    (h82 : W (Proc.devRef .tc main_v82) = Cert.ReferenceIdeal.ReadP.val_main_v85 x0 x1 x2 x3 x4 x5 x6 x7)
    (h99 : W (Proc.devRef .tc main_v99) = Cert.ReferenceIdeal.ReadP.val_main_v103 x0 x1 x2 x3 x4 x5 x6 x7 x8 x9) :
    StableHlo.after hostOps8 W (Proc.devRef .tc main_v100) = Cert.ReferenceIdeal.ReadP.val_main_v104 x0 x1 x2 x3 x4 x5 x6 x7 x8 x9 := by
  unfold hostOps8
  after_results_simp
  change concatenate S100000x512 1
      [⟨S100000x128, W (Proc.devRef .tc main_v48)⟩, ⟨S100000x128, W (Proc.devRef .tc main_v65)⟩,
        ⟨S100000x128, W (Proc.devRef .tc main_v82)⟩, ⟨S100000x128, W (Proc.devRef .tc main_v99)⟩]
      concatenates_S100000x128_S100000x128_S100000x128_S100000x128_S100000x512_d1 = _
  rw [h48, h65, h82, h99]
  rfl

/-- The last bias row: the 40-vector argument reshaped to one row. -/
theorem h_v101 (W : Valuation τ sig (Elt F)) :
    StableHlo.after hostOps8 W (Proc.devRef .tc main_v101)
      = shapeCast S1x40 (W (Proc.devRef .tc main_arg11)) shapeCasts_S40_S1x40 := by
  unfold hostOps8
  after_results_simp
  rfl

end Cert.HostVal

end
-- ==== Proof.Val.Pay.lean ====
/-
  The arithmetic of each region's body at one element, at the ideal values.  A matrix-product body leaves, at row p
  and column q of its output block, the sum over the contraction coordinate k of (left block at (p, k)) times
  (right block at (k, q)), plus the bias row at column q: the narrowing of the operands is the identity on the
  extended reals, the accumulator is the zero splat, the shape casts are to the same shape, and the broadcast of
  the one-row bias reads row 0.  A bias-and-rectify body leaves max (block at (p, q) + bias row at q, 0).
  The one-axis contraction of the dimension numbers is re-indexed through its single coordinate.
-/
import proofs.«152695_j35802847379839_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.RegVal

open Cert.KernelIdeal Cert.KernelIdeal.Gen
open Idealize.ShloMosaic Idealize.ShloMosaic.ValueIdx
open scoped BigOperators

/-- The bias row's one row broadcast over the rows of a block reads row 0 at the same column. -/
theorem q_bcast_row128 (v : S1x128.Idx → EReal) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => rfl
    | ⟨1, _⟩ => rfl)

theorem q_bcast_row40 (v : S1x40.Idx → EReal) (p : Fin 4000) (q : Fin 40) :
    broadcastTo S4000x40 v broadcasts_S1x40_S4000x40 (ix2 p q) = v (ix2 0 q) :=
  broadcastTo_apply v broadcasts_S1x40_S4000x40 (ix2 p q) (ix2 0 q) (fun a => by
    match a with
    | ⟨0, _⟩ => rfl
    | ⟨1, _⟩ => rfl)

/-- The contraction of a 5000×256 by 256×128 product at (p, q), over its one coordinate. -/
theorem q_sum_5000x256 (x : S5000x256.Idx → EReal) (w : S256x128.Idx → EReal) (p : Fin 5000) (q : Fin 128) :
    ∑ k : dot_S5000x256_S256x128_S5000x128_1_0_0_1_n_n.contr.Idx, x (dot_S5000x256_S256x128_S5000x128_1_0_0_1_n_n.lhsIdx (ix2 p q) k) * w (dot_S5000x256_S256x128_S5000x128_1_0_0_1_n_n.rhsIdx (ix2 p q) k)
      = ∑ k : Fin 256, x (ix2 p k) * w (ix2 k q) := by
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ =>
      show (dot_S5000x256_S256x128_S5000x128_1_0_0_1_n_n.lhsIdx (ix2 p q) ((contrEquiv1 dot_S5000x256_S256x128_S5000x128_1_0_0_1_n_n 256 rfl rfl).symm k) 0).val = p.val
      unfold DotDims.lhsIdx
      rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
      rfl
    | ⟨1, _⟩ => exact (dot_S5000x256_S256x128_S5000x128_1_0_0_1_n_n.lhsIdx_val_of_single rfl (ix2 p q) _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (dot_S5000x256_S256x128_S5000x128_1_0_0_1_n_n.rhsIdx_val_of_single rfl (ix2 p q) _).trans hk
    | ⟨1, _⟩ =>
      show (dot_S5000x256_S256x128_S5000x128_1_0_0_1_n_n.rhsIdx (ix2 p q) ((contrEquiv1 dot_S5000x256_S256x128_S5000x128_1_0_0_1_n_n 256 rfl rfl).symm k) 1).val = q.val
      unfold DotDims.rhsIdx
      rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
      rfl)
  rw [el, er]

/-- The contraction of a 5000×128 by 128×128 product at (p, q), over its one coordinate. -/
theorem q_sum_5000x128 (x : S5000x128.Idx → EReal) (w : S128x128.Idx → EReal) (p : Fin 5000) (q : Fin 128) :
    ∑ k : dot_S5000x128_S128x128_S5000x128_1_0_0_1_n_n.contr.Idx, x (dot_S5000x128_S128x128_S5000x128_1_0_0_1_n_n.lhsIdx (ix2 p q) k) * w (dot_S5000x128_S128x128_S5000x128_1_0_0_1_n_n.rhsIdx (ix2 p q) k)
      = ∑ k : Fin 128, x (ix2 p k) * w (ix2 k q) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) ((contrEquiv1 dot_S5000x128_S128x128_S5000x128_1_0_0_1_n_n 128 rfl rfl).symm k) 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) ((contrEquiv1 dot_S5000x128_S128x128_S5000x128_1_0_0_1_n_n 128 rfl rfl).symm k) 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The contraction of a 4000×512 by 512×40 product at (p, q), over its one coordinate. -/
theorem q_sum_4000x512 (x : S4000x512.Idx → EReal) (w : S512x40.Idx → EReal) (p : Fin 4000) (q : Fin 40) :
    ∑ k : dot_S4000x512_S512x40_S4000x40_1_0_0_1_n_n.contr.Idx, x (dot_S4000x512_S512x40_S4000x40_1_0_0_1_n_n.lhsIdx (ix2 p q) k) * w (dot_S4000x512_S512x40_S4000x40_1_0_0_1_n_n.rhsIdx (ix2 p q) k)
      = ∑ k : Fin 512, x (ix2 p k) * w (ix2 k q) := by
  rw [← Equiv.sum_comp (contrEquiv1 dot_S4000x512_S512x40_S4000x40_1_0_0_1_n_n 512 rfl rfl).symm]
  refine Finset.sum_congr rfl fun k _ => ?_
  have hk := contrEquiv1_symm_val dot_S4000x512_S512x40_S4000x40_1_0_0_1_n_n 512 rfl rfl k
  have el : dot_S4000x512_S512x40_S4000x40_1_0_0_1_n_n.lhsIdx (ix2 p q) ((contrEquiv1 dot_S4000x512_S512x40_S4000x40_1_0_0_1_n_n 512 rfl rfl).symm k) = ix2 p k := funext fun a => Fin.ext (by
    match a with
    | ⟨0, _⟩ =>
      show (dot_S4000x512_S512x40_S4000x40_1_0_0_1_n_n.lhsIdx (ix2 p q) ((contrEquiv1 dot_S4000x512_S512x40_S4000x40_1_0_0_1_n_n 512 rfl rfl).symm k) 0).val = p.val
      unfold DotDims.lhsIdx
      rw [dif_neg (show ¬(0 : Fin S4000x512.rank) ∈ dot_S4000x512_S512x40_S4000x40_1_0_0_1_n_n.lhsBatch by decide), dif_pos (show (0 : Fin S4000x512.rank) ∈ dot_S4000x512_S512x40_S4000x40_1_0_0_1_n_n.lhsNonContracting by decide)]
      rfl
    | ⟨1, _⟩ => exact (dot_S4000x512_S512x40_S4000x40_1_0_0_1_n_n.lhsIdx_val_of_single rfl (ix2 p q) _).trans hk)
  have er : dot_S4000x512_S512x40_S4000x40_1_0_0_1_n_n.rhsIdx (ix2 p q) ((contrEquiv1 dot_S4000x512_S512x40_S4000x40_1_0_0_1_n_n 512 rfl rfl).symm k) = ix2 k q := funext fun a => Fin.ext (by
    match a with
    | ⟨0, _⟩ => exact (dot_S4000x512_S512x40_S4000x40_1_0_0_1_n_n.rhsIdx_val_of_single rfl (ix2 p q) _).trans hk
    | ⟨1, _⟩ =>
      show (dot_S4000x512_S512x40_S4000x40_1_0_0_1_n_n.rhsIdx (ix2 p q) ((contrEquiv1 dot_S4000x512_S512x40_S4000x40_1_0_0_1_n_n 512 rfl rfl).symm k) 1).val = q.val
      unfold DotDims.rhsIdx
      rw [dif_neg (show ¬(1 : Fin S512x40.rank) ∈ dot_S4000x512_S512x40_S4000x40_1_0_0_1_n_n.rhsBatch by decide), dif_pos (show (1 : Fin S512x40.rank) ∈ dot_S4000x512_S512x40_S4000x40_1_0_0_1_n_n.rhsNonContracting by decide)]
      rfl)
  rw [el, er]

/-- Region 0's body at (p, q): the row of the left block times the column of the right, plus the bias row. -/
theorem q_pay0_apply (v0 : Vec Ideal S5000x256 .f32) (v2 : Vec Ideal S256x128 .f32) (v5 : Vec Ideal S1x128 .f32) (p : Fin 5000) (q : Fin 128) :
    k0_pay1 (F := Ideal) v0 v2 v5 (ix2 p q) = (∑ k : Fin 256, v0 (ix2 p k) * v2 (ix2 k q)) + v5 (ix2 0 q) := by
  unfold k0_pay1
  simp only [shapeCast_self, matmul]
  rw [addf_apply, Ideal.matmul_constant_zero_apply, q_bcast_row128]
  rw [q_sum_5000x256 (truncf (F := Ideal) .bf16 v0 bitsLt_bf16_f32) (truncf (F := Ideal) .bf16 v2 bitsLt_bf16_f32) p q]
  rfl

/-- Regions 2, 4, 6: the same with a 128-column left block (its shape cast is to the same shape). -/
theorem q_pay2_apply (v0 : Vec Ideal S5000x128 .f32) (v3 : Vec Ideal S128x128 .f32) (v6 : Vec Ideal S1x128 .f32) (p : Fin 5000) (q : Fin 128) :
    k2_pay1 (F := Ideal) v0 v3 v6 (ix2 p q) = (∑ k : Fin 128, v0 (ix2 p k) * v3 (ix2 k q)) + v6 (ix2 0 q) := by
  unfold k2_pay1
  simp only [shapeCast_self, matmul]
  rw [addf_apply, Ideal.matmul_constant_zero_apply, q_bcast_row128]
  rw [q_sum_5000x128 (truncf (F := Ideal) .bf16 v0 bitsLt_bf16_f32) (truncf (F := Ideal) .bf16 v3 bitsLt_bf16_f32) p q]
  rfl

theorem q_pay4_apply (v0 : Vec Ideal S5000x128 .f32) (v3 : Vec Ideal S128x128 .f32) (v6 : Vec Ideal S1x128 .f32) (p : Fin 5000) (q : Fin 128) :
    k4_pay1 (F := Ideal) v0 v3 v6 (ix2 p q) = (∑ k : Fin 128, v0 (ix2 p k) * v3 (ix2 k q)) + v6 (ix2 0 q) := by
  unfold k4_pay1
  simp only [shapeCast_self, matmul]
  rw [addf_apply, Ideal.matmul_constant_zero_apply, q_bcast_row128]
  rw [q_sum_5000x128 (truncf (F := Ideal) .bf16 v0 bitsLt_bf16_f32) (truncf (F := Ideal) .bf16 v3 bitsLt_bf16_f32) p q]
  rfl

theorem q_pay6_apply (v0 : Vec Ideal S5000x128 .f32) (v3 : Vec Ideal S128x128 .f32) (v6 : Vec Ideal S1x128 .f32) (p : Fin 5000) (q : Fin 128) :
    k6_pay1 (F := Ideal) v0 v3 v6 (ix2 p q) = (∑ k : Fin 128, v0 (ix2 p k) * v3 (ix2 k q)) + v6 (ix2 0 q) := by
  unfold k6_pay1
  simp only [shapeCast_self, matmul]
  rw [addf_apply, Ideal.matmul_constant_zero_apply, q_bcast_row128]
  rw [q_sum_5000x128 (truncf (F := Ideal) .bf16 v0 bitsLt_bf16_f32) (truncf (F := Ideal) .bf16 v3 bitsLt_bf16_f32) p q]
  rfl

/-- Region 8: a 4000×512 block times the 512×40 matrix, plus the 40-wide bias row. -/
theorem q_pay8_apply (v0 : Vec Ideal S4000x512 .f32) (v3 : Vec Ideal S512x40 .f32) (v6 : Vec Ideal S1x40 .f32) (p : Fin 4000) (q : Fin 40) :
    k8_pay1 (F := Ideal) v0 v3 v6 (ix2 p q) = (∑ k : Fin 512, v0 (ix2 p k) * v3 (ix2 k q)) + v6 (ix2 0 q) := by
  unfold k8_pay1
  simp only [shapeCast_self, matmul]
  rw [addf_apply, Ideal.matmul_constant_zero_apply, q_bcast_row40]
  rw [q_sum_4000x512 (truncf (F := Ideal) .bf16 v0 bitsLt_bf16_f32) (truncf (F := Ideal) .bf16 v3 bitsLt_bf16_f32) p q]
  rfl

/-- Region 1's body at (p, q): the block plus the bias row, rectified at zero. -/
theorem q_pay1_apply (v0 : Vec Ideal S5000x128 .f32) (v2 : Vec Ideal S1x128 .f32) (p : Fin 5000) (q : Fin 128) :
    k1_pay1 (F := Ideal) v0 v2 (ix2 p q) = max (v0 (ix2 p q) + v2 (ix2 0 q)) 0 := by
  unfold k1_pay1
  simp only [shapeCast_self]
  rw [maximumf_apply, addf_apply, q_bcast_row128, broadcast_apply]
  show max _ (Ideal.ofBits .f32 0x00000000#32) = _
  rw [Ideal.ofBits_zero_f32]

/-- Region 3's body at (p, q): the block plus the bias row, rectified at zero. -/
theorem q_pay3_apply (v0 : Vec Ideal S5000x128 .f32) (v2 : Vec Ideal S1x128 .f32) (p : Fin 5000) (q : Fin 128) :
    k3_pay1 (F := Ideal) v0 v2 (ix2 p q) = max (v0 (ix2 p q) + v2 (ix2 0 q)) 0 := by
  unfold k3_pay1
  simp only [shapeCast_self]
  rw [maximumf_apply, addf_apply, q_bcast_row128, broadcast_apply]
  show max _ (Ideal.ofBits .f32 0x00000000#32) = _
  rw [Ideal.ofBits_zero_f32]

/-- Region 5's body at (p, q): the block plus the bias row, rectified at zero. -/
theorem q_pay5_apply (v0 : Vec Ideal S5000x128 .f32) (v2 : Vec Ideal S1x128 .f32) (p : Fin 5000) (q : Fin 128) :
    k5_pay1 (F := Ideal) v0 v2 (ix2 p q) = max (v0 (ix2 p q) + v2 (ix2 0 q)) 0 := by
  unfold k5_pay1
  simp only [shapeCast_self]
  rw [maximumf_apply, addf_apply, q_bcast_row128, broadcast_apply]
  show max _ (Ideal.ofBits .f32 0x00000000#32) = _
  rw [Ideal.ofBits_zero_f32]

/-- Region 7's body at (p, q): the block plus the bias row, rectified at zero. -/
theorem q_pay7_apply (v0 : Vec Ideal S5000x128 .f32) (v2 : Vec Ideal S1x128 .f32) (p : Fin 5000) (q : Fin 128) :
    k7_pay1 (F := Ideal) v0 v2 (ix2 p q) = max (v0 (ix2 p q) + v2 (ix2 0 q)) 0 := by
  unfold k7_pay1
  simp only [shapeCast_self]
  rw [maximumf_apply, addf_apply, q_bcast_row128, broadcast_apply]
  show max _ (Ideal.ofBits .f32 0x00000000#32) = _
  rw [Ideal.ofBits_zero_f32]

end Cert.RegVal

end
-- ==== Proof.Val.Ref.lean ====
/-
  The reference's host operations read at one element, at the ideal values: a dot_general of two matrices is the
  matrix product (the sum over the one contraction coordinate), an add of a row vector broadcast over the rows
  adds that vector's column entry, and a maximum with the broadcast zero constant rectifies at zero.
-/
import proofs.«152695_j35802847379839_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.RegVal

open Idealize.ShloMosaic Idealize.ShloMosaic.ValueIdx
open scoped BigOperators

/-- The product of an M×K and a K×N matrix of extended reals, element by element. -/
def q_mm {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The same plus a row vector added on every row. -/
def q_mmb {M K N : Nat} (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, X (ix2 (i 0) k) * W (ix2 k (i 1))) + b (ix1 (i 1))

/-- A matrix plus a row vector on every row, rectified at zero. -/
def q_br {M N : Nat} (A : (⟨2, ![M, N]⟩ : Shape).Idx → EReal) (b : (⟨1, ![N]⟩ : Shape).Idx → EReal) :
    (⟨2, ![M, N]⟩ : Shape).Idx → EReal :=
  fun i => max (A i + b (ix1 (i 1))) 0

/-- The contraction of the reference's 100000×256 by 256×128 product at (p, q), over its one coordinate. -/
theorem q_sumR_256 (x : Cert.ReferenceIdeal.S100000x256.Idx → EReal) (w : Cert.ReferenceIdeal.S256x128.Idx → EReal) (p : Fin 100000) (q : Fin 128) :
    ∑ k : Cert.ReferenceIdeal.dot_S100000x256_S256x128_S100000x128_1_0_0_1_n_n.contr.Idx, x (Cert.ReferenceIdeal.dot_S100000x256_S256x128_S100000x128_1_0_0_1_n_n.lhsIdx (ix2 p q) k) * w (Cert.ReferenceIdeal.dot_S100000x256_S256x128_S100000x128_1_0_0_1_n_n.rhsIdx (ix2 p q) k)
      = ∑ k : Fin 256, x (ix2 p k) * w (ix2 k q) := by
  rw [← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 p q) ((contrEquiv1 Cert.ReferenceIdeal.dot_S100000x256_S256x128_S100000x128_1_0_0_1_n_n 256 rfl rfl).symm k) = ix2 p k := funext fun a => Fin.ext (by
    match a with
    | ⟨0, _⟩ =>
      show (Cert.ReferenceIdeal.dot_S100000x256_S256x128_S100000x128_1_0_0_1_n_n.lhsIdx (ix2 p q) ((contrEquiv1 Cert.ReferenceIdeal.dot_S100000x256_S256x128_S100000x128_1_0_0_1_n_n 256 rfl rfl).symm k) 0).val = p.val
      unfold DotDims.lhsIdx
      rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
      rfl
    | ⟨1, _⟩ => exact (Cert.ReferenceIdeal.dot_S100000x256_S256x128_S100000x128_1_0_0_1_n_n.lhsIdx_val_of_single rfl (ix2 p q) _).trans hk)
  have er : Cert.ReferenceIdeal.dot_S100000x256_S256x128_S100000x128_1_0_0_1_n_n.rhsIdx (ix2 p q) ((contrEquiv1 Cert.ReferenceIdeal.dot_S100000x256_S256x128_S100000x128_1_0_0_1_n_n 256 rfl rfl).symm k) = ix2 k q := funext fun a => Fin.ext (by
    match a with
    | ⟨0, _⟩ => exact (Cert.ReferenceIdeal.dot_S100000x256_S256x128_S100000x128_1_0_0_1_n_n.rhsIdx_val_of_single rfl (ix2 p q) _).trans hk
    | ⟨1, _⟩ =>
      show (Cert.ReferenceIdeal.dot_S100000x256_S256x128_S100000x128_1_0_0_1_n_n.rhsIdx (ix2 p q) ((contrEquiv1 Cert.ReferenceIdeal.dot_S100000x256_S256x128_S100000x128_1_0_0_1_n_n 256 rfl rfl).symm k) 1).val = q.val
      unfold DotDims.rhsIdx
      rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
      rfl)
  rw [el, er]

/-- The contraction of the reference's 100000×128 by 128×128 product at (p, q), over its one coordinate. -/
theorem q_sumR_128 (x : Cert.ReferenceIdeal.S100000x128.Idx → EReal) (w : Cert.ReferenceIdeal.S128x128.Idx → EReal) (p : Fin 100000) (q : Fin 128) :
    ∑ k : Cert.ReferenceIdeal.dot_S100000x128_S128x128_S100000x128_1_0_0_1_n_n.contr.Idx, x (Cert.ReferenceIdeal.dot_S100000x128_S128x128_S100000x128_1_0_0_1_n_n.lhsIdx (ix2 p q) k) * w (Cert.ReferenceIdeal.dot_S100000x128_S128x128_S100000x128_1_0_0_1_n_n.rhsIdx (ix2 p q) k)
      = ∑ k : Fin 128, x (ix2 p k) * w (ix2 k q) := by
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ =>
      show (Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) 0).val = p.val
      unfold DotDims.lhsIdx
      rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
      rfl
    | ⟨1, _⟩ => exact (Cert.ReferenceIdeal.dot_S100000x128_S128x128_S100000x128_1_0_0_1_n_n.lhsIdx_val_of_single rfl (ix2 p q) _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (Cert.ReferenceIdeal.dot_S100000x128_S128x128_S100000x128_1_0_0_1_n_n.rhsIdx_val_of_single rfl (ix2 p q) _).trans hk
    | ⟨1, _⟩ =>
      show (Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) 1).val = q.val
      unfold DotDims.rhsIdx
      rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
      rfl)
  rw [el, er]

/-- The contraction of the reference's 100000×512 by 512×40 product at (p, q), over its one coordinate. -/
theorem q_sumR_512 (x : Cert.ReferenceIdeal.S100000x512.Idx → EReal) (w : Cert.ReferenceIdeal.S512x40.Idx → EReal) (p : Fin 100000) (q : Fin 40) :
    ∑ k : Cert.ReferenceIdeal.dot_S100000x512_S512x40_S100000x40_1_0_0_1_n_n.contr.Idx, x (Cert.ReferenceIdeal.dot_S100000x512_S512x40_S100000x40_1_0_0_1_n_n.lhsIdx (ix2 p q) k) * w (Cert.ReferenceIdeal.dot_S100000x512_S512x40_S100000x40_1_0_0_1_n_n.rhsIdx (ix2 p q) k)
      = ∑ k : Fin 512, x (ix2 p k) * w (ix2 k q) := by
  rw [← Equiv.sum_comp (contrEquiv1 Cert.ReferenceIdeal.dot_S100000x512_S512x40_S100000x40_1_0_0_1_n_n 512 rfl rfl).symm]
  refine Finset.sum_congr rfl fun k _ => ?_
  have hk := contrEquiv1_symm_val Cert.ReferenceIdeal.dot_S100000x512_S512x40_S100000x40_1_0_0_1_n_n 512 rfl rfl k
  have el : Cert.ReferenceIdeal.dot_S100000x512_S512x40_S100000x40_1_0_0_1_n_n.lhsIdx (ix2 p q) ((contrEquiv1 Cert.ReferenceIdeal.dot_S100000x512_S512x40_S100000x40_1_0_0_1_n_n 512 rfl rfl).symm k) = ix2 p k := funext fun a => Fin.ext (by
    match a with
    | ⟨0, _⟩ =>
      show (Cert.ReferenceIdeal.dot_S100000x512_S512x40_S100000x40_1_0_0_1_n_n.lhsIdx (ix2 p q) ((contrEquiv1 Cert.ReferenceIdeal.dot_S100000x512_S512x40_S100000x40_1_0_0_1_n_n 512 rfl rfl).symm k) 0).val = p.val
      unfold DotDims.lhsIdx
      rw [dif_neg (show ¬(0 : Fin Cert.ReferenceIdeal.S100000x512.rank) ∈ Cert.ReferenceIdeal.dot_S100000x512_S512x40_S100000x40_1_0_0_1_n_n.lhsBatch by decide), dif_pos (show (0 : Fin Cert.ReferenceIdeal.S100000x512.rank) ∈ Cert.ReferenceIdeal.dot_S100000x512_S512x40_S100000x40_1_0_0_1_n_n.lhsNonContracting by decide)]
      rfl
    | ⟨1, _⟩ => exact (Cert.ReferenceIdeal.dot_S100000x512_S512x40_S100000x40_1_0_0_1_n_n.lhsIdx_val_of_single rfl (ix2 p q) _).trans hk)
  have er : Cert.ReferenceIdeal.dot_S100000x512_S512x40_S100000x40_1_0_0_1_n_n.rhsIdx (ix2 p q) ((contrEquiv1 Cert.ReferenceIdeal.dot_S100000x512_S512x40_S100000x40_1_0_0_1_n_n 512 rfl rfl).symm k) = ix2 k q := funext fun a => Fin.ext (by
    match a with
    | ⟨0, _⟩ => exact (Cert.ReferenceIdeal.dot_S100000x512_S512x40_S100000x40_1_0_0_1_n_n.rhsIdx_val_of_single rfl (ix2 p q) _).trans hk
    | ⟨1, _⟩ =>
      show (Cert.ReferenceIdeal.dot_S100000x512_S512x40_S100000x40_1_0_0_1_n_n.rhsIdx (ix2 p q) ((contrEquiv1 Cert.ReferenceIdeal.dot_S100000x512_S512x40_S100000x40_1_0_0_1_n_n 512 rfl rfl).symm k) 1).val = q.val
      unfold DotDims.rhsIdx
      rw [dif_neg (show ¬(1 : Fin Cert.ReferenceIdeal.S512x40.rank) ∈ Cert.ReferenceIdeal.dot_S100000x512_S512x40_S100000x40_1_0_0_1_n_n.rhsBatch by decide), dif_pos (show (1 : Fin Cert.ReferenceIdeal.S512x40.rank) ∈ Cert.ReferenceIdeal.dot_S100000x512_S512x40_S100000x40_1_0_0_1_n_n.rhsNonContracting by decide)]
      rfl)
  rw [el, er]

/-- The reference's dot_general of these shapes is the matrix product. -/
theorem q_ref_mm256 (X : FVec Ideal Cert.ReferenceIdeal.S100000x256 .f32) (W : FVec Ideal Cert.ReferenceIdeal.S256x128 .f32) :
    Host.dotGeneral (F := Ideal) Cert.ReferenceIdeal.dot_S100000x256_S256x128_S100000x128_1_0_0_1_n_n none X W = q_mm X W := by
  funext i
  obtain ⟨p, q, rfl⟩ : ∃ (p : Fin 100000) (q : Fin 128), i = ix2 p q := ⟨i 0, i 1, eq_ix2 i⟩
  simp only [Host.dotGeneral]
  rw [Ideal.dotGeneral_apply, q_sumR_256]
  rfl

/-- The reference's dot_general of these shapes is the matrix product. -/
theorem q_ref_mm128 (X : FVec Ideal Cert.ReferenceIdeal.S100000x128 .f32) (W : FVec Ideal Cert.ReferenceIdeal.S128x128 .f32) :
    Host.dotGeneral (F := Ideal) Cert.ReferenceIdeal.dot_S100000x128_S128x128_S100000x128_1_0_0_1_n_n none X W = q_mm X W := by
  funext i
  obtain ⟨p, q, rfl⟩ : ∃ (p : Fin 100000) (q : Fin 128), i = ix2 p q := ⟨i 0, i 1, eq_ix2 i⟩
  simp only [Host.dotGeneral]
  rw [Ideal.dotGeneral_apply, q_sumR_128]
  rfl

/-- The reference's dot_general of these shapes is the matrix product. -/
theorem q_ref_mm512 (X : FVec Ideal Cert.ReferenceIdeal.S100000x512 .f32) (W : FVec Ideal Cert.ReferenceIdeal.S512x40 .f32) :
    Host.dotGeneral (F := Ideal) Cert.ReferenceIdeal.dot_S100000x512_S512x40_S100000x40_1_0_0_1_n_n none X W = q_mm X W := by
  funext i
  obtain ⟨p, q, rfl⟩ : ∃ (p : Fin 100000) (q : Fin 40), i = ix2 p q := ⟨i 0, i 1, eq_ix2 i⟩
  simp only [Host.dotGeneral]
  rw [Ideal.dotGeneral_apply, q_sumR_512]
  rfl

/-- A 128-vector broadcast to one row and then over 100000 rows reads the vector at the column. -/
theorem q_ref_row128 (bv : FVec Ideal Cert.ReferenceIdeal.S128 .f32) (i : Cert.ReferenceIdeal.S100000x128.Idx) :
    broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 bv) i
      = bv (ix1 (i 1)) := by
  rw [broadcastInDim_apply _ Cert.ReferenceIdeal.Facts₀.bcast_S1x128_S100000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ Cert.ReferenceIdeal.Facts₀.bcast_S128_S1x128_1 bv (ix2 0 (i 1)) (ix1 (i 1)) (fun a => match a with
    | ⟨0, _⟩ => by show (i 1).val = if (128 : Nat) = 1 then 0 else (i 1).val; rw [if_neg (by decide)])

/-- A 40-vector broadcast to one row and then over 100000 rows reads the vector at the column. -/
theorem q_ref_row40 (bv : FVec Ideal Cert.ReferenceIdeal.S40 .f32) (i : Cert.ReferenceIdeal.S100000x40.Idx) :
    broadcastInDim Cert.ReferenceIdeal.S100000x40 ![0, 1] Cert.ReferenceIdeal.Facts₀.bcast_S1x40_S100000x40_0_1 (broadcastInDim Cert.ReferenceIdeal.S1x40 ![1] Cert.ReferenceIdeal.Facts₀.bcast_S40_S1x40_1 bv) i
      = bv (ix1 (i 1)) := by
  rw [broadcastInDim_apply _ Cert.ReferenceIdeal.Facts₀.bcast_S1x40_S100000x40_0_1 _ i (ix2 0 (i 1)) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])]
  exact broadcastInDim_apply _ Cert.ReferenceIdeal.Facts₀.bcast_S40_S1x40_1 bv (ix2 0 (i 1)) (ix1 (i 1)) (fun a => match a with
    | ⟨0, _⟩ => by show (i 1).val = if (40 : Nat) = 1 then 0 else (i 1).val; rw [if_neg (by decide)])

/-- The reference's add of the broadcast bias followed by its rectifier is the matrix plus the bias on every row, rectified. -/
theorem q_ref_br (A : FVec Ideal Cert.ReferenceIdeal.S100000x128 .f32) (bv : FVec Ideal Cert.ReferenceIdeal.S128 .f32) :
    maximumf (F := Ideal) (φ := .f32)
        (addf (F := Ideal) (φ := .f32) A (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 bv)))
        (broadcastInDim Cert.ReferenceIdeal.S100000x128 ![] Cert.ReferenceIdeal.Facts₀.bcast_S_S100000x128 (constant (F := Ideal) Cert.ReferenceIdeal.S_ .f32 0x00000000#32))
      = q_br A bv := by
  funext i
  rw [maximumf_apply, addf_apply, q_ref_row128,
    broadcastInDim_apply _ Cert.ReferenceIdeal.Facts₀.bcast_S_S100000x128 _ i ix0 (fun a => a.elim0)]
  show max _ (Ideal.ofBits .f32 0x00000000#32) = _
  rw [Ideal.ofBits_zero_f32]
  rfl

/-- The reference's last dot_general plus the broadcast bias is the matrix product plus the bias on every row. -/
theorem q_ref_mmb512 (X : FVec Ideal Cert.ReferenceIdeal.S100000x512 .f32) (W : FVec Ideal Cert.ReferenceIdeal.S512x40 .f32) (bv : FVec Ideal Cert.ReferenceIdeal.S40 .f32) :
    addf (F := Ideal) (φ := .f32) (Host.dotGeneral (F := Ideal) Cert.ReferenceIdeal.dot_S100000x512_S512x40_S100000x40_1_0_0_1_n_n none X W)
        (broadcastInDim Cert.ReferenceIdeal.S100000x40 ![0, 1] Cert.ReferenceIdeal.Facts₀.bcast_S1x40_S100000x40_0_1 (broadcastInDim Cert.ReferenceIdeal.S1x40 ![1] Cert.ReferenceIdeal.Facts₀.bcast_S40_S1x40_1 bv))
      = q_mmb X W bv := by
  funext i
  rw [addf_apply, q_ref_row40, q_ref_mm512]
  rfl

end Cert.RegVal

end
-- ==== Proof.Val.Reg0.lean ====
/-
  Region 0 (a row-blocked matrix product whose bias row is the zero row), read as one function of the arrays the
  region finds: the output array ends holding the matrix product of the left array and the right matrix, which is
  the reference's dot_general of them.  Each grid point writes back rows 5000 t … 5000 t + 4999 of that product
  (the body's arithmetic at one element, the left block's rows being those rows of the left array, the right
  block the whole right matrix, the bias block zero); the twenty blocks cover the hundred thousand rows.
-/
import proofs.«152695_j35802847379839_1_alg».proof.Proof.KI.Body0
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz0 : (![0, 0] : Fin 2 → Nat) = fun _ => 0 := funext fun a => by fin_cases a <;> rfl

/-- The windows' block indices, decided over the grid: the left and output blocks move down with the point, the
    right matrix and the bias row stay. -/
theorem q_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value at one element of the output block is the matrix product at the array element the block
    element sits at, when the left block is the array's rows from 5000 T, the right block the matrix and the bias
    block zero. -/
theorem q_point0 (X : S100000x256.Idx → EReal) (W : S256x128.Idx → EReal)
    (x0 : Vec Ideal S5000x256 .f32) (x1 : Vec Ideal S256x128 .f32) (x2 : Vec Ideal S1x128 .f32)
    (T : Nat) (y : S5000x128.Idx) (i : S100000x128.Idx)
    (h0 : ∀ (p : Fin 5000) (k : Fin 256) (r : Fin 100000), r.val = 5000 * T + p.val → x0 (ix2 p k) = X (ix2 r k))
    (h1 : ∀ (k : Fin 256) (q : Fin 128), x1 (ix2 k q) = W (ix2 k q))
    (h2 : ∀ q : Fin 128, x2 (ix2 0 q) = 0)
    (hi0 : (i 0).val = 5000 * T + (y 0).val) (hi1 : (i 1).val = (y 1).val) :
    k0_pay1 (F := Ideal) x0 x1 x2 y = q_mm X W i := by
  obtain ⟨p, q, rfl⟩ : ∃ (p : Fin 5000) (q : Fin 128), y = ix2 p q := ⟨y 0, y 1, eq_ix2 y⟩
  rw [q_pay0_apply, h2, add_zero]
  show ∑ k : Fin 256, x0 (ix2 p k) * x1 (ix2 k q) = ∑ k : Fin 256, X (ix2 (i 0) k) * W (ix2 k (i 1))
  refine Finset.sum_congr rfl fun k _ => ?_
  have e : (i 1) = q := Fin.ext hi1
  rw [h0 p k (i 0) hi0, h1, e]

/-- What grid point t writes back is block t of the matrix product of the arrays the region finds. -/
theorem q_flushed0 (c : Dev nD)
    (hb : V c (Pipeline.arrRef spec0 2) = broadcastInDim S1x128 ![] bcast_S_S1x128 (constant (F := Ideal) S_ .f32 0x00000000#32))
    (t : Fin cfg0.N) :
    (dat0 V c).flushed 3 t = ((cfg0.win 3).blk t).view.read (Elt Ideal)
      (q_mm (V c (Pipeline.arrRef spec0 0)) (V c (Pipeline.arrRef spec0 1))) := by
  show (cfg0.win 3).cut (grid0.coords t) ((dat0 V c).after 3 t) = _
  rw [after0_3]
  unfold out0_3
  rw [View.canon_unit_zero q_hz0]
  simp only [View.ld_unit_zero (S := S5000x256) q_hz0, View.ld_unit_zero (S := S256x128) q_hz0, View.ld_unit_zero (S := S1x128) q_hz0]
  obtain ⟨e00, e01, e10, e11, e20, e21, e30, e31⟩ := q_idx0 t
  funext j
  refine q_point0 (V c (Pipeline.arrRef spec0 0)) (V c (Pipeline.arrRef spec0 1))
    (iblk0 V c 0 t) (iblk0 V c 1 t) (iblk0 V c 2 t) t.val _ (((cfg0.win 3).blk t).view.emb j) ?_ ?_ ?_ ?_ ?_
  · intro p k r hr
    show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 256 + 1 * k.val = k.val; omega
  · intro k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · intro q
    show (V c (Pipeline.arrRef spec0 2) : S1x128.Idx → EReal) (((cfg0.win 2).blk t).view.emb (ix2 0 q)) = (0 : EReal)
    rw [hb]
    exact Ideal.ofBits_zero_f32
  · show win0_3.index t (0 : Fin 2) * 5000 + 1 * (j 0).val = 5000 * t.val + (j 0).val; omega
  · show win0_3.index t (1 : Fin 2) * 128 + 1 * (j 1).val = (j 1).val; omega

/-- An element of the output array is in point t's block iff each coordinate is in the block's range. -/
theorem q_mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Row r of the output array is in the block of point r / 5000. -/
theorem q_cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [q_mem_blk0]
  obtain ⟨e00, e01, e10, e11, e20, e21, e30, e31⟩ := q_idx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- THE OUTPUT ARRAY after the region: the matrix product of the left array and the right matrix it finds. -/
theorem q_reg0_mm (c : Dev nD)
    (hb : V c (Pipeline.arrRef spec0 2) = broadcastInDim S1x128 ![] bcast_S_S1x128 (constant (F := Ideal) S_ .f32 0x00000000#32)) :
    (dat0 V c).arrAt 3 cfg0.N = q_mm (V c (Pipeline.arrRef spec0 0)) (V c (Pipeline.arrRef spec0 1)) :=
  (dat0 V c).arrAt_eq_of_cover 3 (q_mm (V c (Pipeline.arrRef spec0 0)) (V c (Pipeline.arrRef spec0 1)))
    (fun t _ => q_flushed0 V c hb t) (q_cover0)

/-- The same against the reference's operation: its dot_general of the two arrays. -/
theorem q_reg0 (c : Dev nD)
    (hb : V c (Pipeline.arrRef spec0 2) = broadcastInDim S1x128 ![] bcast_S_S1x128 (constant (F := Ideal) S_ .f32 0x00000000#32)) :
    (dat0 V c).arrAt 3 cfg0.N
      = Host.dotGeneral (F := Ideal) (φ₁ := .f32) (φ₂ := .f32) Cert.ReferenceIdeal.dot_S100000x256_S256x128_S100000x128_1_0_0_1_n_n none
          (V c (Pipeline.arrRef spec0 0)) (V c (Pipeline.arrRef spec0 1)) :=
  (q_reg0_mm V c hb).trans (q_ref_mm256 _ _).symm

end Cert.RegVal

end
-- ==== Proof.Val.Reg1.lean ====
/-
  Region 1 (add the bias row to every row of a row-blocked array and rectify at zero), read as one function of the
  arrays the region finds: the output array ends holding max (array + bias on every row, 0), which is the
  reference's add of the broadcast bias followed by its maximum with the broadcast zero.  Each grid point writes
  back rows 5000 t … 5000 t + 4999 of it; the twenty blocks cover the hundred thousand rows.  The bias row the
  region finds is the bias vector reshaped to one row.
-/
import proofs.«152695_j35802847379839_1_alg».proof.Proof.KI.Body1
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz1 : (![0, 0] : Fin 2 → Nat) = fun _ => 0 := funext fun a => by fin_cases a <;> rfl

/-- The windows' block indices, decided over the grid: the input and output blocks move down with the point, the
    bias row stays. -/
theorem q_idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias vector reshaped to one row reads the vector at the column. -/
theorem q_cast_row1 (bv : S128.Idx → EReal) (q : Fin 128) :
    shapeCast S1x128 bv shapeCasts_S128_S1x128 (ix2 (0 : Fin 1) q) = bv (ix1 q) :=
  shapeCast_apply bv shapeCasts_S128_S1x128 (ix2 (0 : Fin 1) q) (ix1 q) (by
    rw [Shape.rowMajor_val_one, Shape.rowMajor_val_two]
    show q.val = (0 : Fin 1).val * 128 + q.val
    show q.val = 0 * 128 + q.val
    omega)

/-- The body's value at one element of the output block is the rectified sum at the array element the block
    element sits at, when the input block is the array's rows from 5000 T and the bias block the bias vector. -/
theorem q_point1 (A : S100000x128.Idx → EReal) (bv : S128.Idx → EReal)
    (x0 : Vec Ideal S5000x128 .f32) (x1 : Vec Ideal S1x128 .f32)
    (T : Nat) (y : S5000x128.Idx) (i : S100000x128.Idx)
    (h0 : ∀ (p : Fin 5000) (q : Fin 128) (r : Fin 100000), r.val = 5000 * T + p.val → x0 (ix2 p q) = A (ix2 r q))
    (h1 : ∀ q : Fin 128, x1 (ix2 0 q) = bv (ix1 q))
    (hi0 : (i 0).val = 5000 * T + (y 0).val) (hi1 : (i 1).val = (y 1).val) :
    k1_pay1 (F := Ideal) x0 x1 y = q_br A bv i := by
  obtain ⟨p, q, rfl⟩ : ∃ (p : Fin 5000) (q : Fin 128), y = ix2 p q := ⟨y 0, y 1, eq_ix2 y⟩
  rw [q_pay1_apply, h0 p q (i 0) hi0, h1]
  have e : (i 1) = q := Fin.ext hi1
  have hA : A (ix2 (i 0) q) = A i := congrArg A (by rw [← e]; exact (eq_ix2 i).symm)
  show max (A (ix2 (i 0) q) + bv (ix1 q)) 0 = max (A i + bv (ix1 (i 1))) 0
  rw [hA, e]

/-- What grid point t writes back is block t of the rectified sum of the arrays the region finds. -/
theorem q_flushed1 (c : Dev nD) (bv : S128.Idx → EReal)
    (hb : V c (Pipeline.arrRef spec1 1) = shapeCast S1x128 bv shapeCasts_S128_S1x128)
    (t : Fin cfg1.N) :
    (dat1 V c).flushed 2 t = ((cfg1.win 2).blk t).view.read (Elt Ideal)
      (q_br (V c (Pipeline.arrRef spec1 0)) bv) := by
  show (cfg1.win 2).cut (grid1.coords t) ((dat1 V c).after 2 t) = _
  rw [after1_2]
  unfold out1_2
  rw [View.canon_unit_zero q_hz1]
  simp only [View.ld_unit_zero (S := S5000x128) q_hz1, View.ld_unit_zero (S := S1x128) q_hz1]
  obtain ⟨e00, e01, e10, e11, e20, e21⟩ := q_idx1 t
  funext j
  refine q_point1 (V c (Pipeline.arrRef spec1 0)) bv
    (iblk1 V c 0 t) (iblk1 V c 1 t) t.val _ (((cfg1.win 2).blk t).view.emb j) ?_ ?_ ?_ ?_
  · intro p q r hr
    show V c (Pipeline.arrRef spec1 0) (((cfg1.win 0).blk t).view.emb (ix2 p q)) = V c (Pipeline.arrRef spec1 0) (ix2 r q)
    refine congrArg _ (funext fun a => Fin.ext ?_)
    match a with
    | ⟨0, _⟩ => show win1_0.index t (0 : Fin 2) * 5000 + 1 * p.val = r.val; omega
    | ⟨1, _⟩ => show win1_0.index t (1 : Fin 2) * 128 + 1 * q.val = q.val; omega
  · intro q
    show V c (Pipeline.arrRef spec1 1) (((cfg1.win 1).blk t).view.emb (ix2 0 q)) = bv (ix1 q)
    rw [hb]
    refine Eq.trans (congrArg _ (funext fun a => Fin.ext ?_)) (q_cast_row1 bv q)
    match a with
    | ⟨0, _⟩ => show win1_1.index t (0 : Fin 2) * 1 + 1 * (0 : Fin 1).val = (0 : Fin 1).val; omega
    | ⟨1, _⟩ => show win1_1.index t (1 : Fin 2) * 128 + 1 * q.val = q.val; omega
  · show win1_2.index t (0 : Fin 2) * 5000 + 1 * (j 0).val = 5000 * t.val + (j 0).val; omega
  · show win1_2.index t (1 : Fin 2) * 128 + 1 * (j 1).val = (j 1).val; omega

/-- An element of the output array is in point t's block iff each coordinate is in the block's range. -/
theorem q_mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Row r of the output array is in the block of point r / 5000. -/
theorem q_cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [q_mem_blk1]
  obtain ⟨e00, e01, e10, e11, e20, e21⟩ := q_idx1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e21]; omega

/-- THE OUTPUT ARRAY after the region: the array it finds plus the bias on every row, rectified at zero. -/
theorem q_reg1_br (c : Dev nD) (bv : S128.Idx → EReal)
    (hb : V c (Pipeline.arrRef spec1 1) = shapeCast S1x128 bv shapeCasts_S128_S1x128) :
    (dat1 V c).arrAt 2 cfg1.N = q_br (V c (Pipeline.arrRef spec1 0)) bv :=
  (dat1 V c).arrAt_eq_of_cover 2 (q_br (V c (Pipeline.arrRef spec1 0)) bv)
    (fun t _ => q_flushed1 V c bv hb t) (q_cover1)

/-- The same against the reference's operations: its add of the broadcast bias and its maximum with the broadcast zero. -/
theorem q_reg1 (c : Dev nD) (bv : S128.Idx → EReal)
    (hb : V c (Pipeline.arrRef spec1 1) = shapeCast S1x128 bv shapeCasts_S128_S1x128) :
    (dat1 V c).arrAt 2 cfg1.N
      = maximumf (F := Ideal) (φ := .f32)
          (addf (F := Ideal) (φ := .f32) (V c (Pipeline.arrRef spec1 0))
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 bv)))
          (broadcastInDim Cert.ReferenceIdeal.S100000x128 ![] Cert.ReferenceIdeal.Facts₀.bcast_S_S100000x128
            (constant (F := Ideal) Cert.ReferenceIdeal.S_ .f32 0x00000000#32)) :=
  (q_reg1_br V c bv hb).trans (q_ref_br _ _).symm

end Cert.RegVal

end
-- ==== Proof.Val.Reg2.lean ====
/-
  Region 2 (a row-blocked matrix product whose bias row is the zero row), read as one function of the arrays the
  region finds: the output array ends holding the matrix product of the left array and the right matrix, which is
  the reference's dot_general of them.  Each grid point writes back rows 5000 t … 5000 t + 4999 of that product
  (the body's arithmetic at one element, the left block's rows being those rows of the left array, the right
  block the whole right matrix, the bias block zero); the twenty blocks cover the hundred thousand rows.
-/
import proofs.«152695_j35802847379839_1_alg».proof.Proof.KI.Body2
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz2 : (![0, 0] : Fin 2 → Nat) = fun _ => 0 := funext fun a => by fin_cases a <;> rfl

/-- The windows' block indices, decided over the grid: the left and output blocks move down with the point, the
    right matrix and the bias row stay. -/
theorem q_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's value at one element of the output block is the matrix product at the array element the block
    element sits at, when the left block is the array's rows from 5000 T, the right block the matrix and the bias
    block zero. -/
theorem q_point2 (X : S100000x128.Idx → EReal) (W : S128x128.Idx → EReal)
    (x0 : Vec Ideal S5000x128 .f32) (x1 : Vec Ideal S128x128 .f32) (x2 : Vec Ideal S1x128 .f32)
    (T : Nat) (y : S5000x128.Idx) (i : S100000x128.Idx)
    (h0 : ∀ (p : Fin 5000) (k : Fin 128) (r : Fin 100000), r.val = 5000 * T + p.val → x0 (ix2 p k) = X (ix2 r k))
    (h1 : ∀ (k : Fin 128) (q : Fin 128), x1 (ix2 k q) = W (ix2 k q))
    (h2 : ∀ q : Fin 128, x2 (ix2 0 q) = 0)
    (hi0 : (i 0).val = 5000 * T + (y 0).val) (hi1 : (i 1).val = (y 1).val) :
    k2_pay1 (F := Ideal) x0 x1 x2 y = q_mm X W i := by
  obtain ⟨p, q, rfl⟩ : ∃ (p : Fin 5000) (q : Fin 128), y = ix2 p q := ⟨y 0, y 1, eq_ix2 y⟩
  rw [q_pay2_apply, h2, add_zero]
  show ∑ k : Fin 128, x0 (ix2 p k) * x1 (ix2 k q) = ∑ k : Fin 128, X (ix2 (i 0) k) * W (ix2 k (i 1))
  refine Finset.sum_congr rfl fun k _ => ?_
  have e : (i 1) = q := Fin.ext hi1
  rw [h0 p k (i 0) hi0, h1, e]

/-- What grid point t writes back is block t of the matrix product of the arrays the region finds. -/
theorem q_flushed2 (c : Dev nD)
    (hb : V c (Pipeline.arrRef spec2 2) = broadcastInDim S1x128 ![] bcast_S_S1x128 (constant (F := Ideal) S_ .f32 0x00000000#32))
    (t : Fin cfg2.N) :
    (dat2 V c).flushed 3 t = ((cfg2.win 3).blk t).view.read (Elt Ideal)
      (q_mm (V c (Pipeline.arrRef spec2 0)) (V c (Pipeline.arrRef spec2 1))) := by
  show (cfg2.win 3).cut (grid2.coords t) ((dat2 V c).after 3 t) = _
  rw [after2_3]
  unfold out2_3
  rw [View.canon_unit_zero q_hz2]
  simp only [View.ld_unit_zero (S := S5000x128) q_hz2, View.ld_unit_zero (S := S128x128) q_hz2, View.ld_unit_zero (S := S1x128) q_hz2]
  obtain ⟨e00, e01, e10, e11, e20, e21, e30, e31⟩ := q_idx2 t
  funext j
  refine q_point2 (V c (Pipeline.arrRef spec2 0)) (V c (Pipeline.arrRef spec2 1))
    (iblk2 V c 0 t) (iblk2 V c 1 t) (iblk2 V c 2 t) t.val _ (((cfg2.win 3).blk t).view.emb j) ?_ ?_ ?_ ?_ ?_
  · intro p k r hr
    show V c (Pipeline.arrRef spec2 0) (((cfg2.win 0).blk t).view.emb (ix2 p k)) = V c (Pipeline.arrRef spec2 0) (ix2 r k)
    refine congrArg _ (funext fun a => Fin.ext ?_)
    match a with
    | ⟨0, _⟩ => show win2_0.index t (0 : Fin 2) * 5000 + 1 * p.val = r.val; omega
    | ⟨1, _⟩ => show win2_0.index t (1 : Fin 2) * 128 + 1 * k.val = k.val; omega
  · intro k q
    show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · intro q
    show (V c (Pipeline.arrRef spec2 2) : S1x128.Idx → EReal) (((cfg2.win 2).blk t).view.emb (ix2 0 q)) = (0 : EReal)
    rw [hb]
    exact Ideal.ofBits_zero_f32
  · show win2_3.index t (0 : Fin 2) * 5000 + 1 * (j 0).val = 5000 * t.val + (j 0).val; omega
  · show win2_3.index t (1 : Fin 2) * 128 + 1 * (j 1).val = (j 1).val; omega

/-- An element of the output array is in point t's block iff each coordinate is in the block's range. -/
theorem q_mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Row r of the output array is in the block of point r / 5000. -/
theorem q_cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [q_mem_blk2]
  obtain ⟨e00, e01, e10, e11, e20, e21, e30, e31⟩ := q_idx2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e31]; omega

/-- THE OUTPUT ARRAY after the region: the matrix product of the left array and the right matrix it finds. -/
theorem q_reg2_mm (c : Dev nD)
    (hb : V c (Pipeline.arrRef spec2 2) = broadcastInDim S1x128 ![] bcast_S_S1x128 (constant (F := Ideal) S_ .f32 0x00000000#32)) :
    (dat2 V c).arrAt 3 cfg2.N = q_mm (V c (Pipeline.arrRef spec2 0)) (V c (Pipeline.arrRef spec2 1)) :=
  (dat2 V c).arrAt_eq_of_cover 3 (q_mm (V c (Pipeline.arrRef spec2 0)) (V c (Pipeline.arrRef spec2 1)))
    (fun t _ => q_flushed2 V c hb t) (q_cover2)

/-- The same against the reference's operation: its dot_general of the two arrays. -/
theorem q_reg2 (c : Dev nD)
    (hb : V c (Pipeline.arrRef spec2 2) = broadcastInDim S1x128 ![] bcast_S_S1x128 (constant (F := Ideal) S_ .f32 0x00000000#32)) :
    (dat2 V c).arrAt 3 cfg2.N
      = Host.dotGeneral (F := Ideal) (φ₁ := .f32) (φ₂ := .f32) Cert.ReferenceIdeal.dot_S100000x128_S128x128_S100000x128_1_0_0_1_n_n none
          (V c (Pipeline.arrRef spec2 0)) (V c (Pipeline.arrRef spec2 1)) :=
  (q_reg2_mm V c hb).trans (q_ref_mm128 _ _).symm

end Cert.RegVal

end
-- ==== Proof.Val.Reg3.lean ====
/-
  Region 3 (add the bias row to every row of a row-blocked array and rectify at zero), read as one function of the
  arrays the region finds: the output array ends holding max (array + bias on every row, 0), which is the
  reference's add of the broadcast bias followed by its maximum with the broadcast zero.  Each grid point writes
  back rows 5000 t … 5000 t + 4999 of it; the twenty blocks cover the hundred thousand rows.  The bias row the
  region finds is the bias vector reshaped to one row.
-/
import proofs.«152695_j35802847379839_1_alg».proof.Proof.KI.Body3
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz3 : (![0, 0] : Fin 2 → Nat) = fun _ => 0 := funext fun a => by fin_cases a <;> rfl

/-- The windows' block indices, decided over the grid: the input and output blocks move down with the point, the
    bias row stays. -/
theorem q_idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The bias vector reshaped to one row reads the vector at the column. -/
theorem q_cast_row3 (bv : S128.Idx → EReal) (q : Fin 128) :
    shapeCast S1x128 bv shapeCasts_S128_S1x128 (ix2 (0 : Fin 1) q) = bv (ix1 q) :=
  shapeCast_apply bv shapeCasts_S128_S1x128 (ix2 (0 : Fin 1) q) (ix1 q) (by
    rw [Shape.rowMajor_val_one, Shape.rowMajor_val_two]
    show q.val = (0 : Fin 1).val * 128 + q.val
    show q.val = 0 * 128 + q.val
    omega)

/-- The body's value at one element of the output block is the rectified sum at the array element the block
    element sits at, when the input block is the array's rows from 5000 T and the bias block the bias vector. -/
theorem q_point3 (A : S100000x128.Idx → EReal) (bv : S128.Idx → EReal)
    (x0 : Vec Ideal S5000x128 .f32) (x1 : Vec Ideal S1x128 .f32)
    (T : Nat) (y : S5000x128.Idx) (i : S100000x128.Idx)
    (h0 : ∀ (p : Fin 5000) (q : Fin 128) (r : Fin 100000), r.val = 5000 * T + p.val → x0 (ix2 p q) = A (ix2 r q))
    (h1 : ∀ q : Fin 128, x1 (ix2 0 q) = bv (ix1 q))
    (hi0 : (i 0).val = 5000 * T + (y 0).val) (hi1 : (i 1).val = (y 1).val) :
    k3_pay1 (F := Ideal) x0 x1 y = q_br A bv i := by
  obtain ⟨p, q, rfl⟩ : ∃ (p : Fin 5000) (q : Fin 128), y = ix2 p q := ⟨y 0, y 1, eq_ix2 y⟩
  rw [q_pay3_apply, h0 p q (i 0) hi0, h1]
  have e : (i 1) = q := Fin.ext hi1
  have hA : A (ix2 (i 0) q) = A i := congrArg A (by rw [← e]; exact (eq_ix2 i).symm)
  show max (A (ix2 (i 0) q) + bv (ix1 q)) 0 = max (A i + bv (ix1 (i 1))) 0
  rw [hA, e]

/-- What grid point t writes back is block t of the rectified sum of the arrays the region finds. -/
theorem q_flushed3 (c : Dev nD) (bv : S128.Idx → EReal)
    (hb : V c (Pipeline.arrRef spec3 1) = shapeCast S1x128 bv shapeCasts_S128_S1x128)
    (t : Fin cfg3.N) :
    (dat3 V c).flushed 2 t = ((cfg3.win 2).blk t).view.read (Elt Ideal)
      (q_br (V c (Pipeline.arrRef spec3 0)) bv) := by
  show (cfg3.win 2).cut (grid3.coords t) ((dat3 V c).after 2 t) = _
  rw [after3_2]
  unfold out3_2
  rw [View.canon_unit_zero q_hz3]
  simp only [View.ld_unit_zero (S := S5000x128) q_hz3, View.ld_unit_zero (S := S1x128) q_hz3]
  obtain ⟨e00, e01, e10, e11, e20, e21⟩ := q_idx3 t
  funext j
  refine q_point3 (V c (Pipeline.arrRef spec3 0)) bv
    (iblk3 V c 0 t) (iblk3 V c 1 t) t.val _ (((cfg3.win 2).blk t).view.emb j) ?_ ?_ ?_ ?_
  · intro p q r hr
    show V c (Pipeline.arrRef spec3 0) (((cfg3.win 0).blk t).view.emb (ix2 p q)) = V c (Pipeline.arrRef spec3 0) (ix2 r q)
    refine congrArg _ (funext fun a => Fin.ext ?_)
    match a with
    | ⟨0, _⟩ => show win3_0.index t (0 : Fin 2) * 5000 + 1 * p.val = r.val; omega
    | ⟨1, _⟩ => show win3_0.index t (1 : Fin 2) * 128 + 1 * q.val = q.val; omega
  · intro q
    show V c (Pipeline.arrRef spec3 1) (((cfg3.win 1).blk t).view.emb (ix2 0 q)) = bv (ix1 q)
    rw [hb]
    refine Eq.trans (congrArg _ (funext fun a => Fin.ext ?_)) (q_cast_row3 bv q)
    match a with
    | ⟨0, _⟩ => show win3_1.index t (0 : Fin 2) * 1 + 1 * (0 : Fin 1).val = (0 : Fin 1).val; omega
    | ⟨1, _⟩ => show win3_1.index t (1 : Fin 2) * 128 + 1 * q.val = q.val; omega
  · show win3_2.index t (0 : Fin 2) * 5000 + 1 * (j 0).val = 5000 * t.val + (j 0).val; omega
  · show win3_2.index t (1 : Fin 2) * 128 + 1 * (j 1).val = (j 1).val; omega

/-- An element of the output array is in point t's block iff each coordinate is in the block's range. -/
theorem q_mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Row r of the output array is in the block of point r / 5000. -/
theorem q_cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  rw [q_mem_blk3]
  obtain ⟨e00, e01, e10, e11, e20, e21⟩ := q_idx3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e20]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e21]; omega

/-- THE OUTPUT ARRAY after the region: the array it finds plus the bias on every row, rectified at zero. -/
theorem q_reg3_br (c : Dev nD) (bv : S128.Idx → EReal)
    (hb : V c (Pipeline.arrRef spec3 1) = shapeCast S1x128 bv shapeCasts_S128_S1x128) :
    (dat3 V c).arrAt 2 cfg3.N = q_br (V c (Pipeline.arrRef spec3 0)) bv :=
  (dat3 V c).arrAt_eq_of_cover 2 (q_br (V c (Pipeline.arrRef spec3 0)) bv)
    (fun t _ => q_flushed3 V c bv hb t) (q_cover3)

/-- The same against the reference's operations: its add of the broadcast bias and its maximum with the broadcast zero. -/
theorem q_reg3 (c : Dev nD) (bv : S128.Idx → EReal)
    (hb : V c (Pipeline.arrRef spec3 1) = shapeCast S1x128 bv shapeCasts_S128_S1x128) :
    (dat3 V c).arrAt 2 cfg3.N
      = maximumf (F := Ideal) (φ := .f32)
          (addf (F := Ideal) (φ := .f32) (V c (Pipeline.arrRef spec3 0))
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 bv)))
          (broadcastInDim Cert.ReferenceIdeal.S100000x128 ![] Cert.ReferenceIdeal.Facts₀.bcast_S_S100000x128
            (constant (F := Ideal) Cert.ReferenceIdeal.S_ .f32 0x00000000#32)) :=
  (q_reg3_br V c bv hb).trans (q_ref_br _ _).symm

end Cert.RegVal

end
-- ==== Proof.Val.Reg4.lean ====
/-
  Region 4 (a row-blocked matrix product whose bias row is the zero row), read as one function of the arrays the
  region finds: the output array ends holding the matrix product of the left array and the right matrix, which is
  the reference's dot_general of them.  Each grid point writes back rows 5000 t … 5000 t + 4999 of that product
  (the body's arithmetic at one element, the left block's rows being those rows of the left array, the right
  block the whole right matrix, the bias block zero); the twenty blocks cover the hundred thousand rows.
-/
import proofs.«152695_j35802847379839_1_alg».proof.Proof.KI.Body4
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz4 : (![0, 0] : Fin 2 → Nat) = fun _ => 0 := funext fun a => by fin_cases a <;> rfl

/-- The windows' block indices, decided over the grid: the left and output blocks move down with the point, the
    right matrix and the bias row stay. -/
theorem q_idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's value at one element of the output block is the matrix product at the array element the block
    element sits at, when the left block is the array's rows from 5000 T, the right block the matrix and the bias
    block zero. -/
theorem q_point4 (X : S100000x128.Idx → EReal) (W : S128x128.Idx → EReal)
    (x0 : Vec Ideal S5000x128 .f32) (x1 : Vec Ideal S128x128 .f32) (x2 : Vec Ideal S1x128 .f32)
    (T : Nat) (y : S5000x128.Idx) (i : S100000x128.Idx)
    (h0 : ∀ (p : Fin 5000) (k : Fin 128) (r : Fin 100000), r.val = 5000 * T + p.val → x0 (ix2 p k) = X (ix2 r k))
    (h1 : ∀ (k : Fin 128) (q : Fin 128), x1 (ix2 k q) = W (ix2 k q))
    (h2 : ∀ q : Fin 128, x2 (ix2 0 q) = 0)
    (hi0 : (i 0).val = 5000 * T + (y 0).val) (hi1 : (i 1).val = (y 1).val) :
    k4_pay1 (F := Ideal) x0 x1 x2 y = q_mm X W i := by
  obtain ⟨p, q, rfl⟩ : ∃ (p : Fin 5000) (q : Fin 128), y = ix2 p q := ⟨y 0, y 1, eq_ix2 y⟩
  rw [q_pay4_apply, h2, add_zero]
  show ∑ k : Fin 128, x0 (ix2 p k) * x1 (ix2 k q) = ∑ k : Fin 128, X (ix2 (i 0) k) * W (ix2 k (i 1))
  refine Finset.sum_congr rfl fun k _ => ?_
  have e : (i 1) = q := Fin.ext hi1
  rw [h0 p k (i 0) hi0, h1, e]

/-- What grid point t writes back is block t of the matrix product of the arrays the region finds. -/
theorem q_flushed4 (c : Dev nD)
    (hb : V c (Pipeline.arrRef spec4 2) = broadcastInDim S1x128 ![] bcast_S_S1x128 (constant (F := Ideal) S_ .f32 0x00000000#32))
    (t : Fin cfg4.N) :
    (dat4 V c).flushed 3 t = ((cfg4.win 3).blk t).view.read (Elt Ideal)
      (q_mm (V c (Pipeline.arrRef spec4 0)) (V c (Pipeline.arrRef spec4 1))) := by
  show (cfg4.win 3).cut (grid4.coords t) ((dat4 V c).after 3 t) = _
  rw [after4_3]
  unfold out4_3
  rw [View.canon_unit_zero q_hz4]
  simp only [View.ld_unit_zero (S := S5000x128) q_hz4, View.ld_unit_zero (S := S128x128) q_hz4, View.ld_unit_zero (S := S1x128) q_hz4]
  obtain ⟨e00, e01, e10, e11, e20, e21, e30, e31⟩ := q_idx4 t
  funext j
  refine q_point4 (V c (Pipeline.arrRef spec4 0)) (V c (Pipeline.arrRef spec4 1))
    (iblk4 V c 0 t) (iblk4 V c 1 t) (iblk4 V c 2 t) t.val _ (((cfg4.win 3).blk t).view.emb j) ?_ ?_ ?_ ?_ ?_
  · intro p k r hr
    show V c (Pipeline.arrRef spec4 0) (((cfg4.win 0).blk t).view.emb (ix2 p k)) = V c (Pipeline.arrRef spec4 0) (ix2 r k)
    refine congrArg _ (funext fun a => Fin.ext ?_)
    match a with
    | ⟨0, _⟩ => show win4_0.index t (0 : Fin 2) * 5000 + 1 * p.val = r.val; omega
    | ⟨1, _⟩ => show win4_0.index t (1 : Fin 2) * 128 + 1 * k.val = k.val; omega
  · intro k q
    show V c (Pipeline.arrRef spec4 1) (((cfg4.win 1).blk t).view.emb (ix2 k q)) = V c (Pipeline.arrRef spec4 1) (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · intro q
    show (V c (Pipeline.arrRef spec4 2) : S1x128.Idx → EReal) (((cfg4.win 2).blk t).view.emb (ix2 0 q)) = (0 : EReal)
    rw [hb]
    exact Ideal.ofBits_zero_f32
  · show win4_3.index t (0 : Fin 2) * 5000 + 1 * (j 0).val = 5000 * t.val + (j 0).val; omega
  · show win4_3.index t (1 : Fin 2) * 128 + 1 * (j 1).val = (j 1).val; omega

/-- An element of the output array is in point t's block iff each coordinate is in the block's range. -/
theorem q_mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole (Pipeline.arrRef spec4 3)).slice (win4_3.rect t)).set ↔ _
  rw [View.set_slice_whole, Rect.mem_set_unit]
  exact Iff.rfl

/-- Row r of the output array is in the block of point r / 5000. -/
theorem q_cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_3 _, ?_⟩
  rw [q_mem_blk4]
  obtain ⟨e00, e01, e10, e11, e20, e21, e30, e31⟩ := q_idx4 ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 128 ≤ (i 1).val ∧ (i 1).val < win4_3.index _ (1 : Fin 2) * 128 + 128
    rw [e31]; omega

/-- THE OUTPUT ARRAY after the region: the matrix product of the left array and the right matrix it finds. -/
theorem q_reg4_mm (c : Dev nD)
    (hb : V c (Pipeline.arrRef spec4 2) = broadcastInDim S1x128 ![] bcast_S_S1x128 (constant (F := Ideal) S_ .f32 0x00000000#32)) :
    (dat4 V c).arrAt 3 cfg4.N = q_mm (V c (Pipeline.arrRef spec4 0)) (V c (Pipeline.arrRef spec4 1)) :=
  (dat4 V c).arrAt_eq_of_cover 3 (q_mm (V c (Pipeline.arrRef spec4 0)) (V c (Pipeline.arrRef spec4 1)))
    (fun t _ => q_flushed4 V c hb t) (q_cover4)

/-- The same against the reference's operation: its dot_general of the two arrays. -/
theorem q_reg4 (c : Dev nD)
    (hb : V c (Pipeline.arrRef spec4 2) = broadcastInDim S1x128 ![] bcast_S_S1x128 (constant (F := Ideal) S_ .f32 0x00000000#32)) :
    (dat4 V c).arrAt 3 cfg4.N
      = Host.dotGeneral (F := Ideal) (φ₁ := .f32) (φ₂ := .f32) Cert.ReferenceIdeal.dot_S100000x128_S128x128_S100000x128_1_0_0_1_n_n none
          (V c (Pipeline.arrRef spec4 0)) (V c (Pipeline.arrRef spec4 1)) :=
  (q_reg4_mm V c hb).trans (q_ref_mm128 _ _).symm

end Cert.RegVal

end
-- ==== Proof.Val.Reg5.lean ====
/-
  Region 5 (add the bias row to every row of a row-blocked array and rectify at zero), read as one function of the
  arrays the region finds: the output array ends holding max (array + bias on every row, 0), which is the
  reference's add of the broadcast bias followed by its maximum with the broadcast zero.  Each grid point writes
  back rows 5000 t … 5000 t + 4999 of it; the twenty blocks cover the hundred thousand rows.  The bias row the
  region finds is the bias vector reshaped to one row.
-/
import proofs.«152695_j35802847379839_1_alg».proof.Proof.KI.Body5
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz5 : (![0, 0] : Fin 2 → Nat) = fun _ => 0 := funext fun a => by fin_cases a <;> rfl

/-- The windows' block indices, decided over the grid: the input and output blocks move down with the point, the
    bias row stays. -/
theorem q_idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The bias vector reshaped to one row reads the vector at the column. -/
theorem q_cast_row5 (bv : S128.Idx → EReal) (q : Fin 128) :
    shapeCast S1x128 bv shapeCasts_S128_S1x128 (ix2 (0 : Fin 1) q) = bv (ix1 q) :=
  shapeCast_apply bv shapeCasts_S128_S1x128 (ix2 (0 : Fin 1) q) (ix1 q) (by
    rw [Shape.rowMajor_val_one, Shape.rowMajor_val_two]
    show q.val = (0 : Fin 1).val * 128 + q.val
    show q.val = 0 * 128 + q.val
    omega)

/-- The body's value at one element of the output block is the rectified sum at the array element the block
    element sits at, when the input block is the array's rows from 5000 T and the bias block the bias vector. -/
theorem q_point5 (A : S100000x128.Idx → EReal) (bv : S128.Idx → EReal)
    (x0 : Vec Ideal S5000x128 .f32) (x1 : Vec Ideal S1x128 .f32)
    (T : Nat) (y : S5000x128.Idx) (i : S100000x128.Idx)
    (h0 : ∀ (p : Fin 5000) (q : Fin 128) (r : Fin 100000), r.val = 5000 * T + p.val → x0 (ix2 p q) = A (ix2 r q))
    (h1 : ∀ q : Fin 128, x1 (ix2 0 q) = bv (ix1 q))
    (hi0 : (i 0).val = 5000 * T + (y 0).val) (hi1 : (i 1).val = (y 1).val) :
    k5_pay1 (F := Ideal) x0 x1 y = q_br A bv i := by
  obtain ⟨p, q, rfl⟩ : ∃ (p : Fin 5000) (q : Fin 128), y = ix2 p q := ⟨y 0, y 1, eq_ix2 y⟩
  rw [q_pay5_apply, h0 p q (i 0) hi0, h1]
  have e : (i 1) = q := Fin.ext hi1
  have hA : A (ix2 (i 0) q) = A i := congrArg A (by rw [← e]; exact (eq_ix2 i).symm)
  show max (A (ix2 (i 0) q) + bv (ix1 q)) 0 = max (A i + bv (ix1 (i 1))) 0
  rw [hA, e]

/-- What grid point t writes back is block t of the rectified sum of the arrays the region finds. -/
theorem q_flushed5 (c : Dev nD) (bv : S128.Idx → EReal)
    (hb : V c (Pipeline.arrRef spec5 1) = shapeCast S1x128 bv shapeCasts_S128_S1x128)
    (t : Fin cfg5.N) :
    (dat5 V c).flushed 2 t = ((cfg5.win 2).blk t).view.read (Elt Ideal)
      (q_br (V c (Pipeline.arrRef spec5 0)) bv) := by
  show (cfg5.win 2).cut (grid5.coords t) ((dat5 V c).after 2 t) = _
  rw [after5_2]
  unfold out5_2
  rw [View.canon_unit_zero q_hz5]
  simp only [View.ld_unit_zero (S := S5000x128) q_hz5, View.ld_unit_zero (S := S1x128) q_hz5]
  obtain ⟨e00, e01, e10, e11, e20, e21⟩ := q_idx5 t
  funext j
  refine q_point5 (V c (Pipeline.arrRef spec5 0)) bv
    (iblk5 V c 0 t) (iblk5 V c 1 t) t.val _ (((cfg5.win 2).blk t).view.emb j) ?_ ?_ ?_ ?_
  · intro p q r hr
    show V c (Pipeline.arrRef spec5 0) (((cfg5.win 0).blk t).view.emb (ix2 p q)) = V c (Pipeline.arrRef spec5 0) (ix2 r q)
    refine congrArg _ (funext fun a => Fin.ext ?_)
    match a with
    | ⟨0, _⟩ => show win5_0.index t (0 : Fin 2) * 5000 + 1 * p.val = r.val; omega
    | ⟨1, _⟩ => show win5_0.index t (1 : Fin 2) * 128 + 1 * q.val = q.val; omega
  · intro q
    show V c (Pipeline.arrRef spec5 1) (((cfg5.win 1).blk t).view.emb (ix2 0 q)) = bv (ix1 q)
    rw [hb]
    refine Eq.trans (congrArg _ (funext fun a => Fin.ext ?_)) (q_cast_row5 bv q)
    match a with
    | ⟨0, _⟩ => show win5_1.index t (0 : Fin 2) * 1 + 1 * (0 : Fin 1).val = (0 : Fin 1).val; omega
    | ⟨1, _⟩ => show win5_1.index t (1 : Fin 2) * 128 + 1 * q.val = q.val; omega
  · show win5_2.index t (0 : Fin 2) * 5000 + 1 * (j 0).val = 5000 * t.val + (j 0).val; omega
  · show win5_2.index t (1 : Fin 2) * 128 + 1 * (j 1).val = (j 1).val; omega

/-- An element of the output array is in point t's block iff each coordinate is in the block's range. -/
theorem q_mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole (Pipeline.arrRef spec5 2)).slice (win5_2.rect t)).set ↔ _
  rw [View.set_slice_whole, Rect.mem_set_unit]
  exact Iff.rfl

/-- Row r of the output array is in the block of point r / 5000. -/
theorem q_cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_2 _, ?_⟩
  rw [q_mem_blk5]
  obtain ⟨e00, e01, e10, e11, e20, e21⟩ := q_idx5 ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e20]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e21]; omega

/-- THE OUTPUT ARRAY after the region: the array it finds plus the bias on every row, rectified at zero. -/
theorem q_reg5_br (c : Dev nD) (bv : S128.Idx → EReal)
    (hb : V c (Pipeline.arrRef spec5 1) = shapeCast S1x128 bv shapeCasts_S128_S1x128) :
    (dat5 V c).arrAt 2 cfg5.N = q_br (V c (Pipeline.arrRef spec5 0)) bv :=
  (dat5 V c).arrAt_eq_of_cover 2 (q_br (V c (Pipeline.arrRef spec5 0)) bv)
    (fun t _ => q_flushed5 V c bv hb t) (q_cover5)

/-- The same against the reference's operations: its add of the broadcast bias and its maximum with the broadcast zero. -/
theorem q_reg5 (c : Dev nD) (bv : S128.Idx → EReal)
    (hb : V c (Pipeline.arrRef spec5 1) = shapeCast S1x128 bv shapeCasts_S128_S1x128) :
    (dat5 V c).arrAt 2 cfg5.N
      = maximumf (F := Ideal) (φ := .f32)
          (addf (F := Ideal) (φ := .f32) (V c (Pipeline.arrRef spec5 0))
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 bv)))
          (broadcastInDim Cert.ReferenceIdeal.S100000x128 ![] Cert.ReferenceIdeal.Facts₀.bcast_S_S100000x128
            (constant (F := Ideal) Cert.ReferenceIdeal.S_ .f32 0x00000000#32)) :=
  (q_reg5_br V c bv hb).trans (q_ref_br _ _).symm

end Cert.RegVal

end
-- ==== Proof.Val.Reg6.lean ====
/-
  Region 6 (a row-blocked matrix product whose bias row is the zero row), read as one function of the arrays the
  region finds: the output array ends holding the matrix product of the left array and the right matrix, which is
  the reference's dot_general of them.  Each grid point writes back rows 5000 t … 5000 t + 4999 of that product
  (the body's arithmetic at one element, the left block's rows being those rows of the left array, the right
  block the whole right matrix, the bias block zero); the twenty blocks cover the hundred thousand rows.
-/
import proofs.«152695_j35802847379839_1_alg».proof.Proof.KI.Body6
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz6 : (![0, 0] : Fin 2 → Nat) = fun _ => 0 := funext fun a => by fin_cases a <;> rfl

/-- The windows' block indices, decided over the grid: the left and output blocks move down with the point, the
    right matrix and the bias row stay. -/
theorem q_idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The body's value at one element of the output block is the matrix product at the array element the block
    element sits at, when the left block is the array's rows from 5000 T, the right block the matrix and the bias
    block zero. -/
theorem q_point6 (X : S100000x128.Idx → EReal) (W : S128x128.Idx → EReal)
    (x0 : Vec Ideal S5000x128 .f32) (x1 : Vec Ideal S128x128 .f32) (x2 : Vec Ideal S1x128 .f32)
    (T : Nat) (y : S5000x128.Idx) (i : S100000x128.Idx)
    (h0 : ∀ (p : Fin 5000) (k : Fin 128) (r : Fin 100000), r.val = 5000 * T + p.val → x0 (ix2 p k) = X (ix2 r k))
    (h1 : ∀ (k : Fin 128) (q : Fin 128), x1 (ix2 k q) = W (ix2 k q))
    (h2 : ∀ q : Fin 128, x2 (ix2 0 q) = 0)
    (hi0 : (i 0).val = 5000 * T + (y 0).val) (hi1 : (i 1).val = (y 1).val) :
    k6_pay1 (F := Ideal) x0 x1 x2 y = q_mm X W i := by
  obtain ⟨p, q, rfl⟩ : ∃ (p : Fin 5000) (q : Fin 128), y = ix2 p q := ⟨y 0, y 1, eq_ix2 y⟩
  rw [q_pay6_apply, h2, add_zero]
  show ∑ k : Fin 128, x0 (ix2 p k) * x1 (ix2 k q) = ∑ k : Fin 128, X (ix2 (i 0) k) * W (ix2 k (i 1))
  refine Finset.sum_congr rfl fun k _ => ?_
  have e : (i 1) = q := Fin.ext hi1
  rw [h0 p k (i 0) hi0, h1, e]

set_option maxHeartbeats 1000000 in
/-- What grid point t writes back is block t of the matrix product of the arrays the region finds. -/
theorem q_flushed6 (c : Dev nD)
    (hb : V c (Pipeline.arrRef spec6 2) = broadcastInDim S1x128 ![] bcast_S_S1x128 (constant (F := Ideal) S_ .f32 0x00000000#32))
    (t : Fin cfg6.N) :
    (dat6 V c).flushed 3 t = ((cfg6.win 3).blk t).view.read (Elt Ideal)
      (q_mm (V c (Pipeline.arrRef spec6 0)) (V c (Pipeline.arrRef spec6 1))) := by
  show (cfg6.win 3).cut (grid6.coords t) ((dat6 V c).after 3 t) = _
  rw [after6_3]
  unfold out6_3
  rw [View.canon_unit_zero q_hz6]
  simp only [View.ld_unit_zero (S := S5000x128) q_hz6, View.ld_unit_zero (S := S128x128) q_hz6, View.ld_unit_zero (S := S1x128) q_hz6]
  obtain ⟨e00, e01, e10, e11, e20, e21, e30, e31⟩ := q_idx6 t
  funext j
  refine q_point6 (V c (Pipeline.arrRef spec6 0)) (V c (Pipeline.arrRef spec6 1))
    (iblk6 V c 0 t) (iblk6 V c 1 t) (iblk6 V c 2 t) t.val _ (((cfg6.win 3).blk t).view.emb j) ?_ ?_ ?_ ?_ ?_
  · intro p k r hr
    show V c (Pipeline.arrRef spec6 0) (((cfg6.win 0).blk t).view.emb (ix2 p k)) = V c (Pipeline.arrRef spec6 0) (ix2 r k)
    refine congrArg _ (funext fun a => Fin.ext ?_)
    match a with
    | ⟨0, _⟩ => show win6_0.index t (0 : Fin 2) * 5000 + 1 * p.val = r.val; omega
    | ⟨1, _⟩ => show win6_0.index t (1 : Fin 2) * 128 + 1 * k.val = k.val; omega
  · intro k q
    show V c (Pipeline.arrRef spec6 1) (((cfg6.win 1).blk t).view.emb (ix2 k q)) = V c (Pipeline.arrRef spec6 1) (ix2 k q)
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  · intro q
    show (V c (Pipeline.arrRef spec6 2) : S1x128.Idx → EReal) (((cfg6.win 2).blk t).view.emb (ix2 0 q)) = (0 : EReal)
    rw [hb]
    exact Ideal.ofBits_zero_f32
  · show win6_3.index t (0 : Fin 2) * 5000 + 1 * (j 0).val = 5000 * t.val + (j 0).val; omega
  · show win6_3.index t (1 : Fin 2) * 128 + 1 * (j 1).val = (j 1).val; omega

/-- An element of the output array is in point t's block iff each coordinate is in the block's range. -/
theorem q_mem_blk6 (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole (Pipeline.arrRef spec6 3)).slice (win6_3.rect t)).set ↔ _
  rw [View.set_slice_whole, Rect.mem_set_unit]
  exact Iff.rfl

/-- Row r of the output array is in the block of point r / 5000. -/
theorem q_cover6 (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_3 _, ?_⟩
  rw [q_mem_blk6]
  obtain ⟨e00, e01, e10, e11, e20, e21, e30, e31⟩ := q_idx6 ⟨(i 0).val / 5000, by rw [hN]; omega⟩
  intro a
  match a with
  | ⟨0, _⟩ =>
    show win6_3.index _ (0 : Fin 2) * 5000 ≤ (i 0).val ∧ (i 0).val < win6_3.index _ (0 : Fin 2) * 5000 + 5000
    rw [e30]; show (i 0).val / 5000 * 5000 ≤ (i 0).val ∧ (i 0).val < (i 0).val / 5000 * 5000 + 5000; omega
  | ⟨1, _⟩ =>
    show win6_3.index _ (1 : Fin 2) * 128 ≤ (i 1).val ∧ (i 1).val < win6_3.index _ (1 : Fin 2) * 128 + 128
    rw [e31]; omega

/-- THE OUTPUT ARRAY after the region: the matrix product of the left array and the right matrix it finds. -/
theorem q_reg6_mm (c : Dev nD)
    (hb : V c (Pipeline.arrRef spec6 2) = broadcastInDim S1x128 ![] bcast_S_S1x128 (constant (F := Ideal) S_ .f32 0x00000000#32)) :
    (dat6 V c).arrAt 3 cfg6.N = q_mm (V c (Pipeline.arrRef spec6 0)) (V c (Pipeline.arrRef spec6 1)) :=
  (dat6 V c).arrAt_eq_of_cover 3 (q_mm (V c (Pipeline.arrRef spec6 0)) (V c (Pipeline.arrRef spec6 1)))
    (fun t _ => q_flushed6 V c hb t) (q_cover6)

/-- The same against the reference's operation: its dot_general of the two arrays. -/
theorem q_reg6 (c : Dev nD)
    (hb : V c (Pipeline.arrRef spec6 2) = broadcastInDim S1x128 ![] bcast_S_S1x128 (constant (F := Ideal) S_ .f32 0x00000000#32)) :
    (dat6 V c).arrAt 3 cfg6.N
      = Host.dotGeneral (F := Ideal) (φ₁ := .f32) (φ₂ := .f32) Cert.ReferenceIdeal.dot_S100000x128_S128x128_S100000x128_1_0_0_1_n_n none
          (V c (Pipeline.arrRef spec6 0)) (V c (Pipeline.arrRef spec6 1)) :=
  (q_reg6_mm V c hb).trans (q_ref_mm128 _ _).symm

end Cert.RegVal

end
-- ==== Proof.Val.Reg7.lean ====
/-
  Region 7 (add the bias row to every row of a row-blocked array and rectify at zero), read as one function of the
  arrays the region finds: the output array ends holding max (array + bias on every row, 0), which is the
  reference's add of the broadcast bias followed by its maximum with the broadcast zero.  Each grid point writes
  back rows 5000 t … 5000 t + 4999 of it; the twenty blocks cover the hundred thousand rows.  The bias row the
  region finds is the bias vector reshaped to one row.
-/
import proofs.«152695_j35802847379839_1_alg».proof.Proof.KI.Body7
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz7 : (![0, 0] : Fin 2 → Nat) = fun _ => 0 := funext fun a => by fin_cases a <;> rfl

/-- The windows' block indices, decided over the grid: the input and output blocks move down with the point, the
    bias row stays. -/
theorem q_idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The bias vector reshaped to one row reads the vector at the column. -/
theorem q_cast_row7 (bv : S128.Idx → EReal) (q : Fin 128) :
    shapeCast S1x128 bv shapeCasts_S128_S1x128 (ix2 (0 : Fin 1) q) = bv (ix1 q) :=
  shapeCast_apply bv shapeCasts_S128_S1x128 (ix2 (0 : Fin 1) q) (ix1 q) (by
    rw [Shape.rowMajor_val_one, Shape.rowMajor_val_two]
    show q.val = (0 : Fin 1).val * 128 + q.val
    show q.val = 0 * 128 + q.val
    omega)

/-- The body's value at one element of the output block is the rectified sum at the array element the block
    element sits at, when the input block is the array's rows from 5000 T and the bias block the bias vector. -/
theorem q_point7 (A : S100000x128.Idx → EReal) (bv : S128.Idx → EReal)
    (x0 : Vec Ideal S5000x128 .f32) (x1 : Vec Ideal S1x128 .f32)
    (T : Nat) (y : S5000x128.Idx) (i : S100000x128.Idx)
    (h0 : ∀ (p : Fin 5000) (q : Fin 128) (r : Fin 100000), r.val = 5000 * T + p.val → x0 (ix2 p q) = A (ix2 r q))
    (h1 : ∀ q : Fin 128, x1 (ix2 0 q) = bv (ix1 q))
    (hi0 : (i 0).val = 5000 * T + (y 0).val) (hi1 : (i 1).val = (y 1).val) :
    k7_pay1 (F := Ideal) x0 x1 y = q_br A bv i := by
  obtain ⟨p, q, rfl⟩ : ∃ (p : Fin 5000) (q : Fin 128), y = ix2 p q := ⟨y 0, y 1, eq_ix2 y⟩
  rw [q_pay7_apply, h0 p q (i 0) hi0, h1]
  have e : (i 1) = q := Fin.ext hi1
  have hA : A (ix2 (i 0) q) = A i := congrArg A (by rw [← e]; exact (eq_ix2 i).symm)
  show max (A (ix2 (i 0) q) + bv (ix1 q)) 0 = max (A i + bv (ix1 (i 1))) 0
  rw [hA, e]

/-- What grid point t writes back is block t of the rectified sum of the arrays the region finds. -/
theorem q_flushed7 (c : Dev nD) (bv : S128.Idx → EReal)
    (hb : V c (Pipeline.arrRef spec7 1) = shapeCast S1x128 bv shapeCasts_S128_S1x128)
    (t : Fin cfg7.N) :
    (dat7 V c).flushed 2 t = ((cfg7.win 2).blk t).view.read (Elt Ideal)
      (q_br (V c (Pipeline.arrRef spec7 0)) bv) := by
  show (cfg7.win 2).cut (grid7.coords t) ((dat7 V c).after 2 t) = _
  rw [after7_2]
  unfold out7_2
  rw [View.canon_unit_zero q_hz7]
  simp only [View.ld_unit_zero (S := S5000x128) q_hz7, View.ld_unit_zero (S := S1x128) q_hz7]
  obtain ⟨e00, e01, e10, e11, e20, e21⟩ := q_idx7 t
  funext j
  refine q_point7 (V c (Pipeline.arrRef spec7 0)) bv
    (iblk7 V c 0 t) (iblk7 V c 1 t) t.val _ (((cfg7.win 2).blk t).view.emb j) ?_ ?_ ?_ ?_
  · intro p q r hr
    show V c (Pipeline.arrRef spec7 0) (((cfg7.win 0).blk t).view.emb (ix2 p q)) = V c (Pipeline.arrRef spec7 0) (ix2 r q)
    refine congrArg _ (funext fun a => Fin.ext ?_)
    match a with
    | ⟨0, _⟩ => show win7_0.index t (0 : Fin 2) * 5000 + 1 * p.val = r.val; omega
    | ⟨1, _⟩ => show win7_0.index t (1 : Fin 2) * 128 + 1 * q.val = q.val; omega
  · intro q
    show V c (Pipeline.arrRef spec7 1) (((cfg7.win 1).blk t).view.emb (ix2 0 q)) = bv (ix1 q)
    rw [hb]
    refine Eq.trans (congrArg _ (funext fun a => Fin.ext ?_)) (q_cast_row7 bv q)
    match a with
    | ⟨0, _⟩ => show win7_1.index t (0 : Fin 2) * 1 + 1 * (0 : Fin 1).val = (0 : Fin 1).val; omega
    | ⟨1, _⟩ => show win7_1.index t (1 : Fin 2) * 128 + 1 * q.val = q.val; omega
  · show win7_2.index t (0 : Fin 2) * 5000 + 1 * (j 0).val = 5000 * t.val + (j 0).val; omega
  · show win7_2.index t (1 : Fin 2) * 128 + 1 * (j 1).val = (j 1).val; omega

/-- An element of the output array is in point t's block iff each coordinate is in the block's range. -/
theorem q_mem_blk7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole (Pipeline.arrRef spec7 2)).slice (win7_2.rect t)).set ↔ _
  rw [View.set_slice_whole, Rect.mem_set_unit]
  exact Iff.rfl

/-- Row r of the output array is in the block of point r / 5000. -/
theorem q_cover7 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  refine ⟨⟨(i 0).val / 5000, by rw [hN]; omega⟩, flush7_2 _, ?_⟩
  rw [q_mem_blk7]
  obtain ⟨e00, e01, e10, e11, e20, e21⟩ := q_idx7 ⟨(i 0).val / 5000, by rw [hN]; omega⟩
  intro a
  match a with
  | ⟨0, _⟩ =>
    show win7_2.index _ (0 : Fin 2) * 5000 ≤ (i 0).val ∧ (i 0).val < win7_2.index _ (0 : Fin 2) * 5000 + 5000
    rw [e20]; show (i 0).val / 5000 * 5000 ≤ (i 0).val ∧ (i 0).val < (i 0).val / 5000 * 5000 + 5000; omega
  | ⟨1, _⟩ =>
    show win7_2.index _ (1 : Fin 2) * 128 ≤ (i 1).val ∧ (i 1).val < win7_2.index _ (1 : Fin 2) * 128 + 128
    rw [e21]; omega

/-- THE OUTPUT ARRAY after the region: the array it finds plus the bias on every row, rectified at zero. -/
theorem q_reg7_br (c : Dev nD) (bv : S128.Idx → EReal)
    (hb : V c (Pipeline.arrRef spec7 1) = shapeCast S1x128 bv shapeCasts_S128_S1x128) :
    (dat7 V c).arrAt 2 cfg7.N = q_br (V c (Pipeline.arrRef spec7 0)) bv :=
  (dat7 V c).arrAt_eq_of_cover 2 (q_br (V c (Pipeline.arrRef spec7 0)) bv)
    (fun t _ => q_flushed7 V c bv hb t) (q_cover7)

/-- The same against the reference's operations: its add of the broadcast bias and its maximum with the broadcast zero. -/
theorem q_reg7 (c : Dev nD) (bv : S128.Idx → EReal)
    (hb : V c (Pipeline.arrRef spec7 1) = shapeCast S1x128 bv shapeCasts_S128_S1x128) :
    (dat7 V c).arrAt 2 cfg7.N
      = maximumf (F := Ideal) (φ := .f32)
          (addf (F := Ideal) (φ := .f32) (V c (Pipeline.arrRef spec7 0))
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 bv)))
          (broadcastInDim Cert.ReferenceIdeal.S100000x128 ![] Cert.ReferenceIdeal.Facts₀.bcast_S_S100000x128
            (constant (F := Ideal) Cert.ReferenceIdeal.S_ .f32 0x00000000#32)) :=
  (q_reg7_br V c bv hb).trans (q_ref_br _ _).symm

end Cert.RegVal

end
-- ==== Proof.Val.Reg8.lean ====
/-
  Region 8 (the last row-blocked matrix product, with a bias row), read as one function of the arrays the region
  finds: the output array ends holding the matrix product of the left array and the right matrix plus the bias on
  every row, which is the reference's dot_general plus its broadcast bias.  Each grid point writes back rows
  4000 t … 4000 t + 3999 of it; the twenty-five blocks cover the hundred thousand rows.  The bias row the region
  finds is the bias vector reshaped to one row.
-/
import proofs.«152695_j35802847379839_1_alg».proof.Proof.KI.Body8
import proofs.«152695_j35802847379839_1_alg».proof.Proof.Val.Pay
import proofs.«152695_j35802847379839_1_alg».proof.Proof.Val.Ref
import Idealize.ShloMosaic.Lib.Pipeline.Value

set_option maxRecDepth 16384

noncomputable section

namespace Cert.RegVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem q_hz8 : (![0, 0] : Fin 2 → Nat) = fun _ => 0 := funext fun a => by fin_cases a <;> rfl

/-- The windows' block indices, decided over the grid: the left and output blocks move down with the point, the
    right matrix and the bias row stay. -/
theorem q_idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The bias vector reshaped to one row reads the vector at the column. -/
theorem q_cast_row8 (bv : S40.Idx → EReal) (q : Fin 40) :
    shapeCast S1x40 bv shapeCasts_S40_S1x40 (ix2 (0 : Fin 1) q) = bv (ix1 q) :=
  shapeCast_apply bv shapeCasts_S40_S1x40 (ix2 (0 : Fin 1) q) (ix1 q) (by
    rw [Shape.rowMajor_val_one, Shape.rowMajor_val_two]
    show q.val = 0 * 40 + q.val
    omega)

/-- The body's value at one element of the output block is the product plus bias at the array element the block
    element sits at, when the left block is the array's rows from 4000 T, the right block the matrix and the bias
    block the bias vector. -/
theorem q_point8 (X : S100000x512.Idx → EReal) (W : S512x40.Idx → EReal) (bv : S40.Idx → EReal)
    (x0 : Vec Ideal S4000x512 .f32) (x1 : Vec Ideal S512x40 .f32) (x2 : Vec Ideal S1x40 .f32)
    (T : Nat) (y : S4000x40.Idx) (i : S100000x40.Idx)
    (h0 : ∀ (p : Fin 4000) (k : Fin 512) (r : Fin 100000), r.val = 4000 * T + p.val → x0 (ix2 p k) = X (ix2 r k))
    (h1 : ∀ (k : Fin 512) (q : Fin 40), x1 (ix2 k q) = W (ix2 k q))
    (h2 : ∀ q : Fin 40, x2 (ix2 0 q) = bv (ix1 q))
    (hi0 : (i 0).val = 4000 * T + (y 0).val) (hi1 : (i 1).val = (y 1).val) :
    k8_pay1 (F := Ideal) x0 x1 x2 y = q_mmb X W bv i := by
  obtain ⟨p, q, rfl⟩ : ∃ (p : Fin 4000) (q : Fin 40), y = ix2 p q := ⟨y 0, y 1, eq_ix2 y⟩
  rw [q_pay8_apply, h2]
  have e : (i 1) = q := Fin.ext hi1
  show (∑ k : Fin 512, x0 (ix2 p k) * x1 (ix2 k q)) + bv (ix1 q) = (∑ k : Fin 512, X (ix2 (i 0) k) * W (ix2 k (i 1))) + bv (ix1 (i 1))
  rw [e]
  refine congrArg (· + bv (ix1 q)) (Finset.sum_congr rfl fun k _ => ?_)
  rw [h0 p k (i 0) hi0, h1]

/-- What grid point t writes back is block t of the product plus bias of the arrays the region finds. -/
theorem q_flushed8 (c : Dev nD) (bv : S40.Idx → EReal)
    (hb : V c (Pipeline.arrRef spec8 2) = shapeCast S1x40 bv shapeCasts_S40_S1x40)
    (t : Fin cfg8.N) :
    (dat8 V c).flushed 3 t = ((cfg8.win 3).blk t).view.read (Elt Ideal)
      (q_mmb (V c (Pipeline.arrRef spec8 0)) (V c (Pipeline.arrRef spec8 1)) bv) := by
  show (cfg8.win 3).cut (grid8.coords t) ((dat8 V c).after 3 t) = _
  rw [after8_3]
  unfold out8_3
  rw [View.canon_unit_zero q_hz8]
  simp only [View.ld_unit_zero (S := S4000x512) q_hz8, View.ld_unit_zero (S := S512x40) q_hz8, View.ld_unit_zero (S := S1x40) q_hz8]
  obtain ⟨e00, e01, e10, e11, e20, e21, e30, e31⟩ := q_idx8 t
  funext j
  refine q_point8 (V c (Pipeline.arrRef spec8 0)) (V c (Pipeline.arrRef spec8 1)) bv
    (iblk8 V c 0 t) (iblk8 V c 1 t) (iblk8 V c 2 t) t.val _ (((cfg8.win 3).blk t).view.emb j) ?_ ?_ ?_ ?_ ?_
  · intro p k r hr
    show V c (Pipeline.arrRef spec8 0) (((cfg8.win 0).blk t).view.emb (ix2 p k)) = V c (Pipeline.arrRef spec8 0) (ix2 r k)
    refine congrArg _ (funext fun a => Fin.ext ?_)
    match a with
    | ⟨0, _⟩ => show win8_0.index t (0 : Fin 2) * 4000 + 1 * p.val = r.val; omega
    | ⟨1, _⟩ => show win8_0.index t (1 : Fin 2) * 512 + 1 * k.val = k.val; omega
  · intro k q
    show V c (Pipeline.arrRef spec8 1) (((cfg8.win 1).blk t).view.emb (ix2 k q)) = V c (Pipeline.arrRef spec8 1) (ix2 k q)
    refine congrArg _ (funext fun a => Fin.ext ?_)
    match a with
    | ⟨0, _⟩ => show win8_1.index t (0 : Fin 2) * 512 + 1 * k.val = k.val; omega
    | ⟨1, _⟩ => show win8_1.index t (1 : Fin 2) * 40 + 1 * q.val = q.val; omega
  · intro q
    show V c (Pipeline.arrRef spec8 2) (((cfg8.win 2).blk t).view.emb (ix2 0 q)) = bv (ix1 q)
    rw [hb]
    refine Eq.trans (congrArg _ (funext fun a => Fin.ext ?_)) (q_cast_row8 bv q)
    match a with
    | ⟨0, _⟩ => show win8_2.index t (0 : Fin 2) * 1 + 1 * (0 : Fin 1).val = (0 : Fin 1).val; omega
    | ⟨1, _⟩ => show win8_2.index t (1 : Fin 2) * 40 + 1 * q.val = q.val; omega
  · show win8_3.index t (0 : Fin 2) * 4000 + 1 * (j 0).val = 4000 * t.val + (j 0).val; omega
  · show win8_3.index t (1 : Fin 2) * 40 + 1 * (j 1).val = (j 1).val; omega

/-- An element of the output array is in point t's block iff each coordinate is in the block's range. -/
theorem q_mem_blk8 (t : Fin cfg8.N) (i : S100000x40.Idx) :
    i ∈ ((cfg8.win 3).blk t).view.set ↔ ∀ a : Fin 2, win8_3.index t a * S4000x40.size a ≤ (i a).val ∧ (i a).val < win8_3.index t a * S4000x40.size a + S4000x40.size a := by
  show i ∈ ((View.whole (Pipeline.arrRef spec8 3)).slice (win8_3.rect t)).set ↔ _
  rw [View.set_slice_whole, Rect.mem_set_unit]
  exact Iff.rfl

/-- Row r of the output array is in the block of point r / 4000. -/
theorem q_cover8 (i : S100000x40.Idx) : ∃ t : Fin cfg8.N, (cfg8.win 3).flush t = true ∧ i ∈ ((cfg8.win 3).blk t).view.set := by
  have hi0 : (i 0).val < 100000 := (i 0).isLt
  have hi1 : (i 1).val < 40 := (i 1).isLt
  have hN : cfg8.N = 25 := N_8
  refine ⟨⟨(i 0).val / 4000, by rw [hN]; omega⟩, flush8_3 _, ?_⟩
  rw [q_mem_blk8]
  obtain ⟨e00, e01, e10, e11, e20, e21, e30, e31⟩ := q_idx8 ⟨(i 0).val / 4000, by rw [hN]; omega⟩
  intro a
  match a with
  | ⟨0, _⟩ =>
    show win8_3.index _ (0 : Fin 2) * 4000 ≤ (i 0).val ∧ (i 0).val < win8_3.index _ (0 : Fin 2) * 4000 + 4000
    rw [e30]; show (i 0).val / 4000 * 4000 ≤ (i 0).val ∧ (i 0).val < (i 0).val / 4000 * 4000 + 4000; omega
  | ⟨1, _⟩ =>
    show win8_3.index _ (1 : Fin 2) * 40 ≤ (i 1).val ∧ (i 1).val < win8_3.index _ (1 : Fin 2) * 40 + 40
    rw [e31]; omega

/-- THE OUTPUT ARRAY after the region: the matrix product of the arrays it finds plus the bias on every row. -/
theorem q_reg8_mmb (c : Dev nD) (bv : S40.Idx → EReal)
    (hb : V c (Pipeline.arrRef spec8 2) = shapeCast S1x40 bv shapeCasts_S40_S1x40) :
    (dat8 V c).arrAt 3 cfg8.N = q_mmb (V c (Pipeline.arrRef spec8 0)) (V c (Pipeline.arrRef spec8 1)) bv :=
  (dat8 V c).arrAt_eq_of_cover 3 (q_mmb (V c (Pipeline.arrRef spec8 0)) (V c (Pipeline.arrRef spec8 1)) bv)
    (fun t _ => q_flushed8 V c bv hb t) (q_cover8)

/-- The same against the reference's operations: its dot_general of the two arrays plus its broadcast bias. -/
theorem q_reg8 (c : Dev nD) (bv : S40.Idx → EReal)
    (hb : V c (Pipeline.arrRef spec8 2) = shapeCast S1x40 bv shapeCasts_S40_S1x40) :
    (dat8 V c).arrAt 3 cfg8.N
      = addf (F := Ideal) (φ := .f32)
          (Host.dotGeneral (F := Ideal) (φ₁ := .f32) (φ₂ := .f32) Cert.ReferenceIdeal.dot_S100000x512_S512x40_S100000x40_1_0_0_1_n_n none
            (V c (Pipeline.arrRef spec8 0)) (V c (Pipeline.arrRef spec8 1)))
          (broadcastInDim Cert.ReferenceIdeal.S100000x40 ![0, 1] Cert.ReferenceIdeal.Facts₀.bcast_S1x40_S100000x40_0_1
            (broadcastInDim Cert.ReferenceIdeal.S1x40 ![1] Cert.ReferenceIdeal.Facts₀.bcast_S40_S1x40_1 bv)) :=
  (q_reg8_mmb V c bv hb).trans (q_ref_mmb512 _ _ _).symm

end Cert.RegVal

end
-- ==== Proof.KI.Chain.lean ====
/-
  The value of the kernel's result, boundary by boundary, at the ideal instance.  Write a0 … a11 for the argument
  arrays as launched.  The prefix of host operations makes the edge lists (sources, destinations, each with a self
  loop per node) and the edge weights from a1 alone, exactly as the reference's first operations do.  Then, four times:
  a matrix-product region leaves the product of the previous layer's output (a0 for the first) with the layer's weight
  matrix — the bias row it adds is zero; the host stretch gathers rows by source, scales them by the edge weight and
  sums them by destination; the second region adds the layer's bias row and takes the maximum with zero.  The four
  layer outputs are joined side by side and the last region multiplies by a10 and adds a11 on every row.  Each of these
  values is the reference's own stage of a0 … a11, so the result array is the reference's result.
-/
import proofs.«152695_j35802847379839_1_alg».proof.Proof.KI.Frame
import proofs.«152695_j35802847379839_1_alg».proof.Proof.RefReadP
import proofs.«152695_j35802847379839_1_alg».proof.Proof.Val.Host0
import proofs.«152695_j35802847379839_1_alg».proof.Proof.Val.Host1
import proofs.«152695_j35802847379839_1_alg».proof.Proof.Val.Host3
import proofs.«152695_j35802847379839_1_alg».proof.Proof.Val.Host5
import proofs.«152695_j35802847379839_1_alg».proof.Proof.Val.Host7
import proofs.«152695_j35802847379839_1_alg».proof.Proof.Val.HostS
import proofs.«152695_j35802847379839_1_alg».proof.Proof.Val.Reg0
import proofs.«152695_j35802847379839_1_alg».proof.Proof.Val.Reg1
import proofs.«152695_j35802847379839_1_alg».proof.Proof.Val.Reg2
import proofs.«152695_j35802847379839_1_alg».proof.Proof.Val.Reg3
import proofs.«152695_j35802847379839_1_alg».proof.Proof.Val.Reg4
import proofs.«152695_j35802847379839_1_alg».proof.Proof.Val.Reg5
import proofs.«152695_j35802847379839_1_alg».proof.Proof.Val.Reg6
import proofs.«152695_j35802847379839_1_alg».proof.Proof.Val.Reg7
import proofs.«152695_j35802847379839_1_alg».proof.Proof.Val.Reg8

set_option maxRecDepth 16384

noncomputable section

namespace Cert.KernelIdeal.Fr

open Cert.KernelIdeal Cert.KernelIdeal.Gen Cert.HostVal Cert.RegVal
open Idealize.ShloMosaic Idealize.ShloMosaic.TcCoe
open Idealize.SL Idealize.SL.Sem
open Idealize.ShloMosaic.Pipeline (Dat)

variable (m : (ℓ : Loc nD τ sig) → Buf (Elt Ideal) ℓ) (c : Dev nD)

/-- The argument arrays as launched. -/
abbrev a0 := B0 m c (Proc.devRef .tc main_arg0)
abbrev a1 := B0 m c (Proc.devRef .tc main_arg1)
abbrev a2 := B0 m c (Proc.devRef .tc main_arg2)
abbrev a3 := B0 m c (Proc.devRef .tc main_arg3)
abbrev a4 := B0 m c (Proc.devRef .tc main_arg4)
abbrev a5 := B0 m c (Proc.devRef .tc main_arg5)
abbrev a6 := B0 m c (Proc.devRef .tc main_arg6)
abbrev a7 := B0 m c (Proc.devRef .tc main_arg7)
abbrev a8 := B0 m c (Proc.devRef .tc main_arg8)
abbrev a9 := B0 m c (Proc.devRef .tc main_arg9)
abbrev a10 := B0 m c (Proc.devRef .tc main_arg10)
abbrev a11 := B0 m c (Proc.devRef .tc main_arg11)

/-! ## The edge lists and the edge weights -/

theorem c1_v3 : B1 m c (Proc.devRef .tc main_v3) = Cert.ReferenceIdeal.ReadP.val_main_v3 (a1 m c) := h_v3 (B0 m c) _ rfl
theorem c1_v6 : B1 m c (Proc.devRef .tc main_v6) = Cert.ReferenceIdeal.ReadP.val_main_v6 (a1 m c) := h_v6 (B0 m c) _ rfl
theorem c1_v12 : B1 m c (Proc.devRef .tc main_v12) = Cert.ReferenceIdeal.ReadP.val_main_v12 (a1 m c) := h_v12 (B0 m c) _ rfl
theorem c1_v15 : B1 m c (Proc.devRef .tc main_v15) = Cert.ReferenceIdeal.ReadP.val_main_v15 (a1 m c) := h_v15 (B0 m c) _ rfl
theorem c1_cst_3 : B1 m c (Proc.devRef .tc main_cst_3) = Cert.ReferenceIdeal.ReadP.val_main_cst_3 (F := Ideal) := h_cst_3 (B0 m c)
theorem c2_v16 : B2 m c (Proc.devRef .tc main_v16) = Cert.ReferenceIdeal.ReadP.val_main_v16 (a1 m c) := h_v16 (B1 m c) _ (c1_v12 m c) (c1_v15 m c) (c1_cst_3 m c)
theorem c2_v3 : B2 m c (Proc.devRef .tc main_v3) = Cert.ReferenceIdeal.ReadP.val_main_v3 (a1 m c) := (keep_main_v3_1_2 m c).trans (c1_v3 m c)
theorem c2_v6 : B2 m c (Proc.devRef .tc main_v6) = Cert.ReferenceIdeal.ReadP.val_main_v6 (a1 m c) := (keep_main_v6_1_2 m c).trans (c1_v6 m c)
theorem c3_v31 : B3 m c (Proc.devRef .tc main_v31) = Cert.ReferenceIdeal.ReadP.val_main_v31 (a1 m c) := h_v31 (B2 m c) _ (c2_v3 m c) (c2_v6 m c) (c2_v16 m c)
theorem c3_v3 : B3 m c (Proc.devRef .tc main_v3) = Cert.ReferenceIdeal.ReadP.val_main_v3 (a1 m c) := (keep_main_v3_2_3 m c).trans (c2_v3 m c)
theorem c3_v6 : B3 m c (Proc.devRef .tc main_v6) = Cert.ReferenceIdeal.ReadP.val_main_v6 (a1 m c) := (keep_main_v6_2_3 m c).trans (c2_v6 m c)
theorem c4_v3 : B4 m c (Proc.devRef .tc main_v3) = Cert.ReferenceIdeal.ReadP.val_main_v3 (a1 m c) := (keep_main_v3_3_4 m c).trans (c3_v3 m c)
theorem c4_v6 : B4 m c (Proc.devRef .tc main_v6) = Cert.ReferenceIdeal.ReadP.val_main_v6 (a1 m c) := (keep_main_v6_3_4 m c).trans (c3_v6 m c)
theorem c4_v31 : B4 m c (Proc.devRef .tc main_v31) = Cert.ReferenceIdeal.ReadP.val_main_v31 (a1 m c) := (keep_main_v31_3_4 m c).trans (c3_v31 m c)
theorem c8_v3 : B8 m c (Proc.devRef .tc main_v3) = Cert.ReferenceIdeal.ReadP.val_main_v3 (a1 m c) := (keep_main_v3_3_8 m c).trans (c3_v3 m c)
theorem c8_v6 : B8 m c (Proc.devRef .tc main_v6) = Cert.ReferenceIdeal.ReadP.val_main_v6 (a1 m c) := (keep_main_v6_3_8 m c).trans (c3_v6 m c)
theorem c8_v31 : B8 m c (Proc.devRef .tc main_v31) = Cert.ReferenceIdeal.ReadP.val_main_v31 (a1 m c) := (keep_main_v31_3_8 m c).trans (c3_v31 m c)
theorem c12_v3 : B12 m c (Proc.devRef .tc main_v3) = Cert.ReferenceIdeal.ReadP.val_main_v3 (a1 m c) := (keep_main_v3_3_12 m c).trans (c3_v3 m c)
theorem c12_v6 : B12 m c (Proc.devRef .tc main_v6) = Cert.ReferenceIdeal.ReadP.val_main_v6 (a1 m c) := (keep_main_v6_3_12 m c).trans (c3_v6 m c)
theorem c12_v31 : B12 m c (Proc.devRef .tc main_v31) = Cert.ReferenceIdeal.ReadP.val_main_v31 (a1 m c) := (keep_main_v31_3_12 m c).trans (c3_v31 m c)
theorem c16_v3 : B16 m c (Proc.devRef .tc main_v3) = Cert.ReferenceIdeal.ReadP.val_main_v3 (a1 m c) := (keep_main_v3_3_16 m c).trans (c3_v3 m c)
theorem c16_v6 : B16 m c (Proc.devRef .tc main_v6) = Cert.ReferenceIdeal.ReadP.val_main_v6 (a1 m c) := (keep_main_v6_3_16 m c).trans (c3_v6 m c)
theorem c16_v31 : B16 m c (Proc.devRef .tc main_v31) = Cert.ReferenceIdeal.ReadP.val_main_v31 (a1 m c) := (keep_main_v31_3_16 m c).trans (c3_v31 m c)

/-! ## Layer 1 -/

/-- The bias row the matrix-product region finds is zero. -/
theorem c3_main_v32 : B3 m c (Proc.devRef .tc main_v32) = broadcastInDim S1x128 ![] bcast_S_S1x128 (constant (F := Ideal) S_ .f32 0x00000000#32) :=
  h_v32 (B2 m c)
/-- The region leaves the product of what it finds. -/
theorem c4_main_v33 : B4 m c (Proc.devRef .tc main_v33) = Cert.ReferenceIdeal.ReadP.val_main_v32 (a0 m c) (a2 m c) := by
  have h := q_reg0 (E3 m) c (c3_main_v32 m c)
  rw [show E3 m c (Pipeline.arrRef spec0 0) = a0 m c from keep_main_arg0_0_3 m c,
    show E3 m c (Pipeline.arrRef spec0 1) = a2 m c from keep_main_arg2_0_3 m c] at h
  exact (B4_arr m c 3).trans h
/-- Gathered by source, scaled by the edge weight, summed by destination. -/
theorem c5_main_v46 : B5 m c (Proc.devRef .tc main_v46) = Cert.ReferenceIdeal.ReadP.val_main_v45 (a0 m c) (a1 m c) (a2 m c) :=
  h_v46 (B4 m c) _ _ _ (c4_main_v33 m c) (c4_v3 m c) (c4_v6 m c) (c4_v31 m c)
/-- The layer's bias as one row. -/
theorem c5_main_v47 : B5 m c (Proc.devRef .tc main_v47) = shapeCast S1x128 (a3 m c) shapeCasts_S128_S1x128 :=
  (h_v47 (B4 m c)).trans (by rw [keep_main_arg3_0_4 m c])
/-- The second region adds the bias row and takes the maximum with zero. -/
theorem c6_main_v48 : B6 m c (Proc.devRef .tc main_v48) = Cert.ReferenceIdeal.ReadP.val_main_v49 (a0 m c) (a1 m c) (a2 m c) (a3 m c) := by
  have h := q_reg1 (E5 m) c (a3 m c) (c5_main_v47 m c)
  rw [show E5 m c (Pipeline.arrRef spec1 0) = Cert.ReferenceIdeal.ReadP.val_main_v45 (a0 m c) (a1 m c) (a2 m c) from c5_main_v46 m c] at h
  exact (B6_arr m c 2).trans h

/-! ## Layer 2 -/

/-- The bias row the matrix-product region finds is zero. -/
theorem c7_main_v49 : B7 m c (Proc.devRef .tc main_v49) = broadcastInDim S1x128 ![] bcast_S_S1x128 (constant (F := Ideal) S_ .f32 0x00000000#32) :=
  h_v49 (B6 m c)
theorem c7_main_v48 : B7 m c (Proc.devRef .tc main_v48) = Cert.ReferenceIdeal.ReadP.val_main_v49 (a0 m c) (a1 m c) (a2 m c) (a3 m c) := (keep_main_v48_6_7 m c).trans (c6_main_v48 m c)
/-- The region leaves the product of what it finds. -/
theorem c8_main_v50 : B8 m c (Proc.devRef .tc main_v50) = Cert.ReferenceIdeal.ReadP.val_main_v50 (a0 m c) (a1 m c) (a2 m c) (a3 m c) (a4 m c) := by
  have h := q_reg2 (E7 m) c (c7_main_v49 m c)
  rw [show E7 m c (Pipeline.arrRef spec2 0) = Cert.ReferenceIdeal.ReadP.val_main_v49 (a0 m c) (a1 m c) (a2 m c) (a3 m c) from c7_main_v48 m c,
    show E7 m c (Pipeline.arrRef spec2 1) = a4 m c from keep_main_arg4_0_7 m c] at h
  exact (B8_arr m c 3).trans h
/-- Gathered by source, scaled by the edge weight, summed by destination. -/
theorem c9_main_v63 : B9 m c (Proc.devRef .tc main_v63) = Cert.ReferenceIdeal.ReadP.val_main_v63 (a0 m c) (a1 m c) (a2 m c) (a3 m c) (a4 m c) :=
  h_v63 (B8 m c) _ _ _ _ _ (c8_main_v50 m c) (c8_v3 m c) (c8_v6 m c) (c8_v31 m c)
/-- The layer's bias as one row. -/
theorem c9_main_v64 : B9 m c (Proc.devRef .tc main_v64) = shapeCast S1x128 (a5 m c) shapeCasts_S128_S1x128 :=
  (h_v64 (B8 m c)).trans (by rw [keep_main_arg5_0_8 m c])
/-- The second region adds the bias row and takes the maximum with zero. -/
theorem c10_main_v65 : B10 m c (Proc.devRef .tc main_v65) = Cert.ReferenceIdeal.ReadP.val_main_v67 (a0 m c) (a1 m c) (a2 m c) (a3 m c) (a4 m c) (a5 m c) := by
  have h := q_reg3 (E9 m) c (a5 m c) (c9_main_v64 m c)
  rw [show E9 m c (Pipeline.arrRef spec3 0) = Cert.ReferenceIdeal.ReadP.val_main_v63 (a0 m c) (a1 m c) (a2 m c) (a3 m c) (a4 m c) from c9_main_v63 m c] at h
  exact (B10_arr m c 2).trans h

/-! ## Layer 3 -/

/-- The bias row the matrix-product region finds is zero. -/
theorem c11_main_v66 : B11 m c (Proc.devRef .tc main_v66) = broadcastInDim S1x128 ![] bcast_S_S1x128 (constant (F := Ideal) S_ .f32 0x00000000#32) :=
  h_v66 (B10 m c)
theorem c11_main_v65 : B11 m c (Proc.devRef .tc main_v65) = Cert.ReferenceIdeal.ReadP.val_main_v67 (a0 m c) (a1 m c) (a2 m c) (a3 m c) (a4 m c) (a5 m c) := (keep_main_v65_10_11 m c).trans (c10_main_v65 m c)
/-- The region leaves the product of what it finds. -/
theorem c12_main_v67 : B12 m c (Proc.devRef .tc main_v67) = Cert.ReferenceIdeal.ReadP.val_main_v68 (a0 m c) (a1 m c) (a2 m c) (a3 m c) (a4 m c) (a5 m c) (a6 m c) := by
  have h := q_reg4 (E11 m) c (c11_main_v66 m c)
  rw [show E11 m c (Pipeline.arrRef spec4 0) = Cert.ReferenceIdeal.ReadP.val_main_v67 (a0 m c) (a1 m c) (a2 m c) (a3 m c) (a4 m c) (a5 m c) from c11_main_v65 m c,
    show E11 m c (Pipeline.arrRef spec4 1) = a6 m c from keep_main_arg6_0_11 m c] at h
  exact (B12_arr m c 3).trans h
/-- Gathered by source, scaled by the edge weight, summed by destination. -/
theorem c13_main_v80 : B13 m c (Proc.devRef .tc main_v80) = Cert.ReferenceIdeal.ReadP.val_main_v81 (a0 m c) (a1 m c) (a2 m c) (a3 m c) (a4 m c) (a5 m c) (a6 m c) :=
  h_v80 (B12 m c) _ _ _ _ _ _ _ (c12_main_v67 m c) (c12_v3 m c) (c12_v6 m c) (c12_v31 m c)
/-- The layer's bias as one row. -/
theorem c13_main_v81 : B13 m c (Proc.devRef .tc main_v81) = shapeCast S1x128 (a7 m c) shapeCasts_S128_S1x128 :=
  (h_v81 (B12 m c)).trans (by rw [keep_main_arg7_0_12 m c])
/-- The second region adds the bias row and takes the maximum with zero. -/
theorem c14_main_v82 : B14 m c (Proc.devRef .tc main_v82) = Cert.ReferenceIdeal.ReadP.val_main_v85 (a0 m c) (a1 m c) (a2 m c) (a3 m c) (a4 m c) (a5 m c) (a6 m c) (a7 m c) := by
  have h := q_reg5 (E13 m) c (a7 m c) (c13_main_v81 m c)
  rw [show E13 m c (Pipeline.arrRef spec5 0) = Cert.ReferenceIdeal.ReadP.val_main_v81 (a0 m c) (a1 m c) (a2 m c) (a3 m c) (a4 m c) (a5 m c) (a6 m c) from c13_main_v80 m c] at h
  exact (B14_arr m c 2).trans h

/-! ## Layer 4 -/

/-- The bias row the matrix-product region finds is zero. -/
theorem c15_main_v83 : B15 m c (Proc.devRef .tc main_v83) = broadcastInDim S1x128 ![] bcast_S_S1x128 (constant (F := Ideal) S_ .f32 0x00000000#32) :=
  h_v83 (B14 m c)
theorem c15_main_v82 : B15 m c (Proc.devRef .tc main_v82) = Cert.ReferenceIdeal.ReadP.val_main_v85 (a0 m c) (a1 m c) (a2 m c) (a3 m c) (a4 m c) (a5 m c) (a6 m c) (a7 m c) := (keep_main_v82_14_15 m c).trans (c14_main_v82 m c)
/-- The region leaves the product of what it finds. -/
theorem c16_main_v84 : B16 m c (Proc.devRef .tc main_v84) = Cert.ReferenceIdeal.ReadP.val_main_v86 (a0 m c) (a1 m c) (a2 m c) (a3 m c) (a4 m c) (a5 m c) (a6 m c) (a7 m c) (a8 m c) := by
  have h := q_reg6 (E15 m) c (c15_main_v83 m c)
  rw [show E15 m c (Pipeline.arrRef spec6 0) = Cert.ReferenceIdeal.ReadP.val_main_v85 (a0 m c) (a1 m c) (a2 m c) (a3 m c) (a4 m c) (a5 m c) (a6 m c) (a7 m c) from c15_main_v82 m c,
    show E15 m c (Pipeline.arrRef spec6 1) = a8 m c from keep_main_arg8_0_15 m c] at h
  exact (B16_arr m c 3).trans h
/-- Gathered by source, scaled by the edge weight, summed by destination. -/
theorem c17_main_v97 : B17 m c (Proc.devRef .tc main_v97) = Cert.ReferenceIdeal.ReadP.val_main_v99 (a0 m c) (a1 m c) (a2 m c) (a3 m c) (a4 m c) (a5 m c) (a6 m c) (a7 m c) (a8 m c) :=
  h_v97 (B16 m c) _ _ _ _ _ _ _ _ _ (c16_main_v84 m c) (c16_v3 m c) (c16_v6 m c) (c16_v31 m c)
/-- The layer's bias as one row. -/
theorem c17_main_v98 : B17 m c (Proc.devRef .tc main_v98) = shapeCast S1x128 (a9 m c) shapeCasts_S128_S1x128 :=
  (h_v98 (B16 m c)).trans (by rw [keep_main_arg9_0_16 m c])
/-- The second region adds the bias row and takes the maximum with zero. -/
theorem c18_main_v99 : B18 m c (Proc.devRef .tc main_v99) = Cert.ReferenceIdeal.ReadP.val_main_v103 (a0 m c) (a1 m c) (a2 m c) (a3 m c) (a4 m c) (a5 m c) (a6 m c) (a7 m c) (a8 m c) (a9 m c) := by
  have h := q_reg7 (E17 m) c (a9 m c) (c17_main_v98 m c)
  rw [show E17 m c (Pipeline.arrRef spec7 0) = Cert.ReferenceIdeal.ReadP.val_main_v99 (a0 m c) (a1 m c) (a2 m c) (a3 m c) (a4 m c) (a5 m c) (a6 m c) (a7 m c) (a8 m c) from c17_main_v97 m c] at h
  exact (B18_arr m c 2).trans h

/-! ## The four layer outputs joined, and the last product -/

theorem c18_main_v48 : B18 m c (Proc.devRef .tc main_v48) = Cert.ReferenceIdeal.ReadP.val_main_v49 (a0 m c) (a1 m c) (a2 m c) (a3 m c) := (keep_main_v48_6_18 m c).trans (c6_main_v48 m c)
theorem c18_main_v65 : B18 m c (Proc.devRef .tc main_v65) = Cert.ReferenceIdeal.ReadP.val_main_v67 (a0 m c) (a1 m c) (a2 m c) (a3 m c) (a4 m c) (a5 m c) := (keep_main_v65_10_18 m c).trans (c10_main_v65 m c)
theorem c18_main_v82 : B18 m c (Proc.devRef .tc main_v82) = Cert.ReferenceIdeal.ReadP.val_main_v85 (a0 m c) (a1 m c) (a2 m c) (a3 m c) (a4 m c) (a5 m c) (a6 m c) (a7 m c) := (keep_main_v82_14_18 m c).trans (c14_main_v82 m c)
theorem c19_main_v100 : B19 m c (Proc.devRef .tc main_v100) = Cert.ReferenceIdeal.ReadP.val_main_v104 (a0 m c) (a1 m c) (a2 m c) (a3 m c) (a4 m c) (a5 m c) (a6 m c) (a7 m c) (a8 m c) (a9 m c) :=
  h_v100 (B18 m c) _ _ _ _ _ _ _ _ _ _ (c18_main_v48 m c) (c18_main_v65 m c) (c18_main_v82 m c) (c18_main_v99 m c)
theorem c19_main_v101 : B19 m c (Proc.devRef .tc main_v101) = shapeCast S1x40 (a11 m c) shapeCasts_S40_S1x40 :=
  (h_v101 (B18 m c)).trans (by rw [keep_main_arg11_0_18 m c])
/-- The result array is the reference's result stage of the arguments. -/
theorem c20_main_v102 : B20 m c (Proc.devRef .tc main_v102) = Cert.ReferenceIdeal.ReadP.val_main_v108 (a0 m c) (a1 m c) (a2 m c) (a3 m c) (a4 m c) (a5 m c) (a6 m c) (a7 m c) (a8 m c) (a9 m c) (a10 m c) (a11 m c) := by
  have h := q_reg8 (E19 m) c (a11 m c) (c19_main_v101 m c)
  rw [show E19 m c (Pipeline.arrRef spec8 0) = Cert.ReferenceIdeal.ReadP.val_main_v104 (a0 m c) (a1 m c) (a2 m c) (a3 m c) (a4 m c) (a5 m c) (a6 m c) (a7 m c) (a8 m c) (a9 m c) from c19_main_v100 m c,
    show E19 m c (Pipeline.arrRef spec8 1) = a10 m c from keep_main_arg10_0_19 m c] at h
  exact (B20_arr m c 3).trans h

end Cert.KernelIdeal.Fr

end
-- ==== Proof.KI.Value.lean ====
/-
  The kernel's run with its result named: every weakly fair execution of the idealized kernel terminates with the
  result array at the reference's result stage of the argument arrays as launched, and the arguments unchanged.
-/
import proofs.«152695_j35802847379839_1_alg».proof.Proof.KI.Chain

set_option maxRecDepth 16384

noncomputable section

namespace Cert.KernelIdeal.Fr

open Cert.KernelIdeal Cert.KernelIdeal.Gen
open Idealize.ShloMosaic Idealize.ShloMosaic.TcCoe
open Idealize.SL Idealize.SL.Sem

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v102) = Cert.ReferenceIdeal.ReadP.val_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v102 (by decide))).trans (c20_main_v102 m c),
      (h c _ (mem_uc main_arg0 (by decide))).trans (keep_main_arg0_0_20 m c),
      (h c _ (mem_uc main_arg1 (by decide))).trans (keep_main_arg1_0_20 m c),
      (h c _ (mem_uc main_arg2 (by decide))).trans (keep_main_arg2_0_20 m c),
      (h c _ (mem_uc main_arg3 (by decide))).trans (keep_main_arg3_0_20 m c),
      (h c _ (mem_uc main_arg4 (by decide))).trans (keep_main_arg4_0_20 m c),
      (h c _ (mem_uc main_arg5 (by decide))).trans (keep_main_arg5_0_20 m c),
      (h c _ (mem_uc main_arg6 (by decide))).trans (keep_main_arg6_0_20 m c),
      (h c _ (mem_uc main_arg7 (by decide))).trans (keep_main_arg7_0_20 m c),
      (h c _ (mem_uc main_arg8 (by decide))).trans (keep_main_arg8_0_20 m c),
      (h c _ (mem_uc main_arg9 (by decide))).trans (keep_main_arg9_0_20 m c),
      (h c _ (mem_uc main_arg10 (by decide))).trans (keep_main_arg10_0_20 m c),
      (h c _ (mem_uc main_arg11 (by decide))).trans (keep_main_arg11_0_20 m c)⟩)
    (run_all m ρ)

end Cert.KernelIdeal.Fr

end
-- ==== Proof.RefVal.lean ====
/- The value of the reference program: after its 140 host operations, from any buffer contents, the result buffer
   holds the last stage `val_main_v108` of the contents of the twelve argument arrays, and no argument array is written.
   The operations are cut into seven consecutive runs. For each run a lemma states what it writes into the buffers that
   later runs read, given what it reads: the argument arrays as variables, and earlier runs' outputs as the stages
   `val_main_vN` of those variables. A buffer outside a run's list of written buffers keeps its contents through the run.
   Chaining the seven runs gives the result. Everything is stated for an arbitrary float type `F`: no array is ever
   evaluated, each lemma is closed by unfolding the stages, which mirror the operations one for one. -/
import proofs.«152695_j35802847379839_1_alg».proof.Proof.RefRunP
import proofs.«152695_j35802847379839_1_alg».proof.Proof.RefReadP

noncomputable section

namespace Cert.RefVal

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

/-- The contents after two runs of operations in a row are those after the second run from the contents after the first. -/
theorem r_after_append : ∀ (l₁ l₂ : List (HloOp τ sig (Elt F))) (W : Valuation τ sig (Elt F)), after (l₁ ++ l₂) W = after l₂ (after l₁ W)
  | [], _, _ => rfl
  | op :: l₁, l₂, W => by rw [List.cons_append, after_cons, after_cons, r_after_append l₁ l₂]

/-- Operations 0–23: the source and destination index lists (each edge list joined with the self loops), the in-degree by a scatter-add of ones, and its inverse square root where the degree is positive. -/
def r_s0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The buffers the operations of `r_s0` write. -/
abbrev r_s0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16]
set_option maxRecDepth 8192 in
theorem r_s0_writes : (r_s0 : List (HloOp τ sig (Elt F))).Forall fun op => op.writes ⊆ (r_s0_W.map (Proc.devRef (τ := τ) .tc)).toFinset := by
  unfold r_s0; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_s0` does not write keeps its contents through it. -/
theorem r_s0_keep (W : Valuation τ sig (Elt F)) (r : Ref sig .tc) (h : r ∉ r_s0_W := by decide) :
    after r_s0 W (Proc.devRef .tc r) = W (Proc.devRef .tc r) :=
  after_of_writes_sub r_s0 W r_s0_writes h

/-- Operations 24–42: the edge weights, the product of the scaled degrees gathered at the two ends of each edge. -/
def r_s1 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The buffers the operations of `r_s1` write. -/
abbrev r_s1_W : List (Ref sig .tc) := [main_c, main_v17, main_v18, main_c_4, main_v19, main_v20, main_v21, main_v22, main_v23, main_c_5, main_v24, main_v25, main_c_6, main_v26, main_v27, main_v28, main_v29, main_v30, main_v31]
set_option maxRecDepth 8192 in
theorem r_s1_writes : (r_s1 : List (HloOp τ sig (Elt F))).Forall fun op => op.writes ⊆ (r_s1_W.map (Proc.devRef (τ := τ) .tc)).toFinset := by
  unfold r_s1; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_s1` does not write keeps its contents through it. -/
theorem r_s1_keep (W : Valuation τ sig (Elt F)) (r : Ref sig .tc) (h : r ∉ r_s1_W := by decide) :
    after r_s1 W (Proc.devRef .tc r) = W (Proc.devRef .tc r) :=
  after_of_writes_sub r_s1 W r_s1_writes h

/-- Operations 43–65, layer 1: the product with the weights, rows gathered by source, scaled by the edge weight, summed by destination, plus the bias row, then the maximum with zero. -/
def r_l1 : List (HloOp τ sig (Elt F)) :=
  [ binary main_arg0 main_arg2 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- The buffers the operations of `r_l1` write. -/
abbrev r_l1_W : List (Ref sig .tc) := [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49]
set_option maxRecDepth 8192 in
theorem r_l1_writes : (r_l1 : List (HloOp τ sig (Elt F))).Forall fun op => op.writes ⊆ (r_l1_W.map (Proc.devRef (τ := τ) .tc)).toFinset := by
  unfold r_l1; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_l1` does not write keeps its contents through it. -/
theorem r_l1_keep (W : Valuation τ sig (Elt F)) (r : Ref sig .tc) (h : r ∉ r_l1_W := by decide) :
    after r_l1 W (Proc.devRef .tc r) = W (Proc.devRef .tc r) :=
  after_of_writes_sub r_l1 W r_l1_writes h

/-- Operations 66–88, layer 2, of the same form. -/
def r_l2 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

/-- The buffers the operations of `r_l2` write. -/
abbrev r_l2_W : List (Ref sig .tc) := [main_v50, main_c_10, main_v51, main_v52, main_c_11, main_v53, main_v54, main_v55, main_v56, main_v57, main_v58, main_v59, main_v60, main_cst_12, main_v61, main_v62, main_v63, main_v64, main_v65, main_v66, main_call2_cst, main_call2_v0, main_v67]
set_option maxRecDepth 8192 in
theorem r_l2_writes : (r_l2 : List (HloOp τ sig (Elt F))).Forall fun op => op.writes ⊆ (r_l2_W.map (Proc.devRef (τ := τ) .tc)).toFinset := by
  unfold r_l2; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_l2` does not write keeps its contents through it. -/
theorem r_l2_keep (W : Valuation τ sig (Elt F)) (r : Ref sig .tc) (h : r ∉ r_l2_W := by decide) :
    after r_l2 W (Proc.devRef .tc r) = W (Proc.devRef .tc r) :=
  after_of_writes_sub r_l2 W r_l2_writes h

/-- Operations 89–111, layer 3, of the same form. -/
def r_l3 : List (HloOp τ sig (Elt F)) :=
  [ binary main_v67 main_arg6 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x128 ![0, 1] bcast_S1700000x1_S1700000x128_0_1 : (⟨S1700000x1, .f32⟩ : BufTy).Contents (Elt F) → (⟨S1700000x128, .f32⟩ : BufTy).Contents (Elt F)),
    binary main_v75 main_v77 main_v78 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v79 (broadcastInDim S100000x128 ![] bcast_S_S100000x128 : (⟨S_, .f32⟩ : BufTy).Contents (Elt F) → (⟨S100000x128, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v84) (TRef.of (T := ⟨S100000x128, .f32⟩) main_call3_v0) (TRef.of (T := ⟨S100000x128, .f32⟩) main_v85) maximumf ]

/-- The buffers the operations of `r_l3` write. -/
abbrev r_l3_W : List (Ref sig .tc) := [main_v68, main_c_13, main_v69, main_v70, main_c_14, main_v71, main_v72, main_v73, main_v74, main_v75, main_v76, main_v77, main_v78, main_cst_15, main_v79, main_v80, main_v81, main_v82, main_v83, main_v84, main_call3_cst, main_call3_v0, main_v85]
set_option maxRecDepth 8192 in
theorem r_l3_writes : (r_l3 : List (HloOp τ sig (Elt F))).Forall fun op => op.writes ⊆ (r_l3_W.map (Proc.devRef (τ := τ) .tc)).toFinset := by
  unfold r_l3; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_l3` does not write keeps its contents through it. -/
theorem r_l3_keep (W : Valuation τ sig (Elt F)) (r : Ref sig .tc) (h : r ∉ r_l3_W := by decide) :
    after r_l3 W (Proc.devRef .tc r) = W (Proc.devRef .tc r) :=
  after_of_writes_sub r_l3 W r_l3_writes h

/-- Operations 112–134, layer 4, of the same form. -/
def r_l4 : List (HloOp τ sig (Elt F)) :=
  [ binary main_v85 main_arg8 main_v86 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v87 (broadcastInDim S1700000 ![] bcast_S_S1700000 : (⟨S_, .i32⟩ : BufTy).Contents (Elt F) → (⟨S1700000, .i32⟩ : BufTy).Contents (Elt F)),
    binary main_v3 main_v87 main_v88 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v89 (broadcastInDim S1700000 ![] bcast_S_S1700000 : (⟨S_, .i32⟩ : BufTy).Contents (Elt F) → (⟨S1700000, .i32⟩ : BufTy).Contents (Elt F)),
    binary main_v3 main_v89 main_v90 (addi : (⟨S1700000, .i32⟩ : BufTy).Contents (Elt F) → (⟨S1700000, .i32⟩ : BufTy).Contents (Elt F) → (⟨S1700000, .i32⟩ : BufTy).Contents (Elt F)),
    ternary main_v88 main_v90 main_v3 main_v91 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v91 main_v92 (broadcastInDim S1700000x1 ![0] bcast_S1700000_S1700000x1_0 : (⟨S1700000, .i32⟩ : BufTy).Contents (Elt F) → (⟨S1700000x1, .i32⟩ : BufTy).Contents (Elt F)),
    binary main_v86 main_v92 main_v93 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v94 (broadcastInDim S1700000x1 ![0] bcast_S1700000_S1700000x1_0 : (⟨S1700000, .f32⟩ : BufTy).Contents (Elt F) → (⟨S1700000x1, .f32⟩ : BufTy).Contents (Elt F)),
    unary main_v94 main_v95 (broadcastInDim S1700000x128 ![0, 1] bcast_S1700000x1_S1700000x128_0_1 : (⟨S1700000x1, .f32⟩ : BufTy).Contents (Elt F) → (⟨S1700000x128, .f32⟩ : BufTy).Contents (Elt F)),
    binary main_v93 main_v95 main_v96 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v97 (broadcastInDim S100000x128 ![] bcast_S_S100000x128 : (⟨S_, .f32⟩ : BufTy).Contents (Elt F) → (⟨S100000x128, .f32⟩ : BufTy).Contents (Elt F)),
    unary main_v6 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg9 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v102) (TRef.of (T := ⟨S100000x128, .f32⟩) main_call4_v0) (TRef.of (T := ⟨S100000x128, .f32⟩) main_v103) maximumf ]

/-- The buffers the operations of `r_l4` write. -/
abbrev r_l4_W : List (Ref sig .tc) := [main_v86, main_c_16, main_v87, main_v88, main_c_17, main_v89, main_v90, main_v91, main_v92, main_v93, main_v94, main_v95, main_v96, main_cst_18, main_v97, main_v98, main_v99, main_v100, main_v101, main_v102, main_call4_cst, main_call4_v0, main_v103]
set_option maxRecDepth 8192 in
theorem r_l4_writes : (r_l4 : List (HloOp τ sig (Elt F))).Forall fun op => op.writes ⊆ (r_l4_W.map (Proc.devRef (τ := τ) .tc)).toFinset := by
  unfold r_l4; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_l4` does not write keeps its contents through it. -/
theorem r_l4_keep (W : Valuation τ sig (Elt F)) (r : Ref sig .tc) (h : r ∉ r_l4_W := by decide) :
    after r_l4 W (Proc.devRef .tc r) = W (Proc.devRef .tc r) :=
  after_of_writes_sub r_l4 W r_l4_writes h

/-- Operations 135–139: the four layer outputs joined along the columns, the product with the last weights, plus the broadcast bias row. -/
def r_t : List (HloOp τ sig (Elt F)) :=
  [ nary ![main_v49, main_v67, main_v85, main_v103] main_v104 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v104 main_arg10 main_v105 ((fun l r => Host.dotGeneral dot_S100000x512_S512x40_S100000x40_1_0_0_1_n_n none l r) : (⟨S100000x512, .f32⟩ : BufTy).Contents (Elt F) → (⟨S512x40, .f32⟩ : BufTy).Contents (Elt F) → (⟨S100000x40, .f32⟩ : BufTy).Contents (Elt F)),
    unary main_arg11 main_v106 (broadcastInDim S1x40 ![1] bcast_S40_S1x40_1 : (⟨S40, .f32⟩ : BufTy).Contents (Elt F) → (⟨S1x40, .f32⟩ : BufTy).Contents (Elt F)),
    unary main_v106 main_v107 (broadcastInDim S100000x40 ![0, 1] bcast_S1x40_S100000x40_0_1 : (⟨S1x40, .f32⟩ : BufTy).Contents (Elt F) → (⟨S100000x40, .f32⟩ : BufTy).Contents (Elt F)),
    binary main_v105 main_v107 main_v108 (addf : (⟨S100000x40, .f32⟩ : BufTy).Contents (Elt F) → (⟨S100000x40, .f32⟩ : BufTy).Contents (Elt F) → (⟨S100000x40, .f32⟩ : BufTy).Contents (Elt F)) ]

/-- The buffers the operations of `r_t` write. -/
abbrev r_t_W : List (Ref sig .tc) := [main_v104, main_v105, main_v106, main_v107, main_v108]
set_option maxRecDepth 8192 in
theorem r_t_writes : (r_t : List (HloOp τ sig (Elt F))).Forall fun op => op.writes ⊆ (r_t_W.map (Proc.devRef (τ := τ) .tc)).toFinset := by
  unfold r_t; simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that `r_t` does not write keeps its contents through it. -/
theorem r_t_keep (W : Valuation τ sig (Elt F)) (r : Ref sig .tc) (h : r ∉ r_t_W := by decide) :
    after r_t W (Proc.devRef .tc r) = W (Proc.devRef .tc r) :=
  after_of_writes_sub r_t W r_t_writes h

/-! ## What each run of operations writes, given what it reads -/

set_option maxRecDepth 8192 in
theorem r_s0_v3 (W : Valuation τ sig (Elt F)) (x1 : (⟨S2x1600000, .i32⟩ : BufTy).Contents (Elt F))
    (h1 : W (Proc.devRef .tc main_arg1) = x1) :
    after r_s0 W (Proc.devRef .tc main_v3) = val_main_v3 x1 := by
  unfold r_s0
  after_results_simp
  subst h1
  rfl

set_option maxRecDepth 8192 in
theorem r_s0_v6 (W : Valuation τ sig (Elt F)) (x1 : (⟨S2x1600000, .i32⟩ : BufTy).Contents (Elt F))
    (h1 : W (Proc.devRef .tc main_arg1) = x1) :
    after r_s0 W (Proc.devRef .tc main_v6) = val_main_v6 x1 := by
  unfold r_s0
  after_results_simp
  subst h1
  rfl

set_option maxRecDepth 8192 in
theorem r_s0_v16 (W : Valuation τ sig (Elt F)) (x1 : (⟨S2x1600000, .i32⟩ : BufTy).Contents (Elt F))
    (h1 : W (Proc.devRef .tc main_arg1) = x1) :
    after r_s0 W (Proc.devRef .tc main_v16) = val_main_v16 x1 := by
  unfold r_s0
  after_results_simp
  subst h1
  rfl

set_option maxRecDepth 8192 in
theorem r_s1_v31 (W : Valuation τ sig (Elt F)) (x1 : (⟨S2x1600000, .i32⟩ : BufTy).Contents (Elt F))
    (h3 : W (Proc.devRef .tc main_v3) = val_main_v3 x1)
    (h6 : W (Proc.devRef .tc main_v6) = val_main_v6 x1)
    (h16 : W (Proc.devRef .tc main_v16) = val_main_v16 x1) :
    after r_s1 W (Proc.devRef .tc main_v31) = val_main_v31 x1 := by
  unfold r_s1
  after_results_simp
  simp only [h3, h6, h16]
  rfl

set_option maxRecDepth 8192 in
theorem r_l1_v49 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F))
    (h0 : W (Proc.devRef .tc main_arg0) = x0)
    (hw : W (Proc.devRef .tc main_arg2) = x2)
    (hb : W (Proc.devRef .tc main_arg3) = x3)
    (h3 : W (Proc.devRef .tc main_v3) = val_main_v3 x1)
    (h6 : W (Proc.devRef .tc main_v6) = val_main_v6 x1)
    (h31 : W (Proc.devRef .tc main_v31) = val_main_v31 x1) :
    after r_l1 W (Proc.devRef .tc main_v49) = val_main_v49 x0 x1 x2 x3 := by
  unfold r_l1
  after_results_simp
  simp only [h0, hw, hb, h3, h6, h31]
  rfl

set_option maxRecDepth 8192 in
theorem r_l2_v67 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (hin : W (Proc.devRef .tc main_v49) = val_main_v49 x0 x1 x2 x3)
    (hw : W (Proc.devRef .tc main_arg4) = x4)
    (hb : W (Proc.devRef .tc main_arg5) = x5)
    (h3 : W (Proc.devRef .tc main_v3) = val_main_v3 x1)
    (h6 : W (Proc.devRef .tc main_v6) = val_main_v6 x1)
    (h31 : W (Proc.devRef .tc main_v31) = val_main_v31 x1) :
    after r_l2 W (Proc.devRef .tc main_v67) = val_main_v67 x0 x1 x2 x3 x4 x5 := by
  unfold r_l2
  after_results_simp
  simp only [hin, hw, hb, h3, h6, h31]
  rfl

set_option maxRecDepth 8192 in
theorem r_l3_v85 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (hin : W (Proc.devRef .tc main_v67) = val_main_v67 x0 x1 x2 x3 x4 x5)
    (hw : W (Proc.devRef .tc main_arg6) = x6)
    (hb : W (Proc.devRef .tc main_arg7) = x7)
    (h3 : W (Proc.devRef .tc main_v3) = val_main_v3 x1)
    (h6 : W (Proc.devRef .tc main_v6) = val_main_v6 x1)
    (h31 : W (Proc.devRef .tc main_v31) = val_main_v31 x1) :
    after r_l3 W (Proc.devRef .tc main_v85) = val_main_v85 x0 x1 x2 x3 x4 x5 x6 x7 := by
  unfold r_l3
  after_results_simp
  simp only [hin, hw, hb, h3, h6, h31]
  rfl

set_option maxRecDepth 8192 in
theorem r_l4_v103 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F))
    (hin : W (Proc.devRef .tc main_v85) = val_main_v85 x0 x1 x2 x3 x4 x5 x6 x7)
    (hw : W (Proc.devRef .tc main_arg8) = x8)
    (hb : W (Proc.devRef .tc main_arg9) = x9)
    (h3 : W (Proc.devRef .tc main_v3) = val_main_v3 x1)
    (h6 : W (Proc.devRef .tc main_v6) = val_main_v6 x1)
    (h31 : W (Proc.devRef .tc main_v31) = val_main_v31 x1) :
    after r_l4 W (Proc.devRef .tc main_v103) = val_main_v103 x0 x1 x2 x3 x4 x5 x6 x7 x8 x9 := by
  unfold r_l4
  after_results_simp
  simp only [hin, hw, hb, h3, h6, h31]
  rfl

set_option maxRecDepth 8192 in
/-- The last run read back: the result from the four layer outputs and the last two arguments. -/
theorem r_t_read (W : Valuation τ sig (Elt F)) :
    after r_t W (Proc.devRef .tc main_v108) =
      addf (Host.dotGeneral dot_S100000x512_S512x40_S100000x40_1_0_0_1_n_n none
          (concatenate S100000x512 1 [⟨S100000x128, W (Proc.devRef .tc main_v49)⟩, ⟨S100000x128, W (Proc.devRef .tc main_v67)⟩, ⟨S100000x128, W (Proc.devRef .tc main_v85)⟩, ⟨S100000x128, W (Proc.devRef .tc main_v103)⟩] concatenates_S100000x128_S100000x128_S100000x128_S100000x128_S100000x512_d1)
          (W (Proc.devRef .tc main_arg10)))
        (broadcastInDim S100000x40 ![0, 1] bcast_S1x40_S100000x40_0_1 (broadcastInDim S1x40 ![1] bcast_S40_S1x40_1 (W (Proc.devRef .tc main_arg11)))) := by
  unfold r_t
  after_results
  rfl

set_option maxRecDepth 8192 in
theorem r_t_v108 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S512x40, .f32⟩ : BufTy).Contents (Elt F)) (x11 : (⟨S40, .f32⟩ : BufTy).Contents (Elt F))
    (h49 : W (Proc.devRef .tc main_v49) = val_main_v49 x0 x1 x2 x3)
    (h67 : W (Proc.devRef .tc main_v67) = val_main_v67 x0 x1 x2 x3 x4 x5)
    (h85 : W (Proc.devRef .tc main_v85) = val_main_v85 x0 x1 x2 x3 x4 x5 x6 x7)
    (h103 : W (Proc.devRef .tc main_v103) = val_main_v103 x0 x1 x2 x3 x4 x5 x6 x7 x8 x9)
    (h10 : W (Proc.devRef .tc main_arg10) = x10)
    (h11 : W (Proc.devRef .tc main_arg11) = x11) :
    after r_t W (Proc.devRef .tc main_v108) = val_main_v108 x0 x1 x2 x3 x4 x5 x6 x7 x8 x9 x10 x11 := by
  rw [r_t_read, h49, h67, h85, h103, h10, h11]
  rfl

/-! ## The seven runs in a row -/

set_option maxRecDepth 8192 in
/-- @main's operations are the seven runs of operations, in order. -/
theorem r_ops_eq : (ValueP.ops : List (HloOp τ sig (Elt F))) = r_s0 ++ (r_s1 ++ (r_l1 ++ (r_l2 ++ (r_l3 ++ (r_l4 ++ r_t))))) := rfl

/-- The contents after all of @main's operations, one run of operations after the other. -/
theorem r_after_ops (W : Valuation τ sig (Elt F)) : after (ValueP.ops (F := F)) W = (after r_t (after r_l4 (after r_l3 (after r_l2 (after r_l1 (after r_s1 (after r_s0 W))))))) := by
  rw [r_ops_eq]; simp only [r_after_append]

/-! ### Buffers that the first k runs do not write -/

theorem r_keep1 (W : Valuation τ sig (Elt F)) (r : Ref sig .tc) (h0 : r ∉ r_s0_W := by decide) :
    (after r_s0 W) (Proc.devRef .tc r) = W (Proc.devRef .tc r) :=
  (r_s0_keep W r h0)
theorem r_keep2 (W : Valuation τ sig (Elt F)) (r : Ref sig .tc) (h0 : r ∉ r_s0_W := by decide) (h1 : r ∉ r_s1_W := by decide) :
    (after r_s1 (after r_s0 W)) (Proc.devRef .tc r) = W (Proc.devRef .tc r) :=
  (r_s1_keep (after r_s0 W) r h1).trans (r_keep1 W r h0)
theorem r_keep3 (W : Valuation τ sig (Elt F)) (r : Ref sig .tc) (h0 : r ∉ r_s0_W := by decide) (h1 : r ∉ r_s1_W := by decide) (h2 : r ∉ r_l1_W := by decide) :
    (after r_l1 (after r_s1 (after r_s0 W))) (Proc.devRef .tc r) = W (Proc.devRef .tc r) :=
  (r_l1_keep (after r_s1 (after r_s0 W)) r h2).trans (r_keep2 W r h0 h1)
theorem r_keep4 (W : Valuation τ sig (Elt F)) (r : Ref sig .tc) (h0 : r ∉ r_s0_W := by decide) (h1 : r ∉ r_s1_W := by decide) (h2 : r ∉ r_l1_W := by decide) (h3 : r ∉ r_l2_W := by decide) :
    (after r_l2 (after r_l1 (after r_s1 (after r_s0 W)))) (Proc.devRef .tc r) = W (Proc.devRef .tc r) :=
  (r_l2_keep (after r_l1 (after r_s1 (after r_s0 W))) r h3).trans (r_keep3 W r h0 h1 h2)
theorem r_keep5 (W : Valuation τ sig (Elt F)) (r : Ref sig .tc) (h0 : r ∉ r_s0_W := by decide) (h1 : r ∉ r_s1_W := by decide) (h2 : r ∉ r_l1_W := by decide) (h3 : r ∉ r_l2_W := by decide) (h4 : r ∉ r_l3_W := by decide) :
    (after r_l3 (after r_l2 (after r_l1 (after r_s1 (after r_s0 W))))) (Proc.devRef .tc r) = W (Proc.devRef .tc r) :=
  (r_l3_keep (after r_l2 (after r_l1 (after r_s1 (after r_s0 W)))) r h4).trans (r_keep4 W r h0 h1 h2 h3)
theorem r_keep6 (W : Valuation τ sig (Elt F)) (r : Ref sig .tc) (h0 : r ∉ r_s0_W := by decide) (h1 : r ∉ r_s1_W := by decide) (h2 : r ∉ r_l1_W := by decide) (h3 : r ∉ r_l2_W := by decide) (h4 : r ∉ r_l3_W := by decide) (h5 : r ∉ r_l4_W := by decide) :
    (after r_l4 (after r_l3 (after r_l2 (after r_l1 (after r_s1 (after r_s0 W)))))) (Proc.devRef .tc r) = W (Proc.devRef .tc r) :=
  (r_l4_keep (after r_l3 (after r_l2 (after r_l1 (after r_s1 (after r_s0 W))))) r h5).trans (r_keep5 W r h0 h1 h2 h3 h4)
theorem r_keep7 (W : Valuation τ sig (Elt F)) (r : Ref sig .tc) (h0 : r ∉ r_s0_W := by decide) (h1 : r ∉ r_s1_W := by decide) (h2 : r ∉ r_l1_W := by decide) (h3 : r ∉ r_l2_W := by decide) (h4 : r ∉ r_l3_W := by decide) (h5 : r ∉ r_l4_W := by decide) (h6 : r ∉ r_t_W := by decide) :
    (after r_t (after r_l4 (after r_l3 (after r_l2 (after r_l1 (after r_s1 (after r_s0 W))))))) (Proc.devRef .tc r) = W (Proc.devRef .tc r) :=
  (r_t_keep (after r_l4 (after r_l3 (after r_l2 (after r_l1 (after r_s1 (after r_s0 W)))))) r h6).trans (r_keep6 W r h0 h1 h2 h3 h4 h5)

/-! ### The live buffers after each run, as stages of the argument arrays -/

theorem r_v3_1 (W : Valuation τ sig (Elt F)) :
    (after r_s0 W) (Proc.devRef .tc main_v3) = val_main_v3 (W (Proc.devRef .tc main_arg1)) :=
  r_s0_v3 W (W (Proc.devRef .tc main_arg1)) rfl
theorem r_v6_1 (W : Valuation τ sig (Elt F)) :
    (after r_s0 W) (Proc.devRef .tc main_v6) = val_main_v6 (W (Proc.devRef .tc main_arg1)) :=
  r_s0_v6 W (W (Proc.devRef .tc main_arg1)) rfl
theorem r_v16_1 (W : Valuation τ sig (Elt F)) :
    (after r_s0 W) (Proc.devRef .tc main_v16) = val_main_v16 (W (Proc.devRef .tc main_arg1)) :=
  r_s0_v16 W (W (Proc.devRef .tc main_arg1)) rfl
theorem r_v3_2 (W : Valuation τ sig (Elt F)) :
    (after r_s1 (after r_s0 W)) (Proc.devRef .tc main_v3) = val_main_v3 (W (Proc.devRef .tc main_arg1)) :=
  (r_s1_keep (after r_s0 W) main_v3).trans (r_v3_1 W)
theorem r_v3_3 (W : Valuation τ sig (Elt F)) :
    (after r_l1 (after r_s1 (after r_s0 W))) (Proc.devRef .tc main_v3) = val_main_v3 (W (Proc.devRef .tc main_arg1)) :=
  (r_l1_keep (after r_s1 (after r_s0 W)) main_v3).trans (r_v3_2 W)
theorem r_v3_4 (W : Valuation τ sig (Elt F)) :
    (after r_l2 (after r_l1 (after r_s1 (after r_s0 W)))) (Proc.devRef .tc main_v3) = val_main_v3 (W (Proc.devRef .tc main_arg1)) :=
  (r_l2_keep (after r_l1 (after r_s1 (after r_s0 W))) main_v3).trans (r_v3_3 W)
theorem r_v3_5 (W : Valuation τ sig (Elt F)) :
    (after r_l3 (after r_l2 (after r_l1 (after r_s1 (after r_s0 W))))) (Proc.devRef .tc main_v3) = val_main_v3 (W (Proc.devRef .tc main_arg1)) :=
  (r_l3_keep (after r_l2 (after r_l1 (after r_s1 (after r_s0 W)))) main_v3).trans (r_v3_4 W)
theorem r_v3_6 (W : Valuation τ sig (Elt F)) :
    (after r_l4 (after r_l3 (after r_l2 (after r_l1 (after r_s1 (after r_s0 W)))))) (Proc.devRef .tc main_v3) = val_main_v3 (W (Proc.devRef .tc main_arg1)) :=
  (r_l4_keep (after r_l3 (after r_l2 (after r_l1 (after r_s1 (after r_s0 W))))) main_v3).trans (r_v3_5 W)
theorem r_v6_2 (W : Valuation τ sig (Elt F)) :
    (after r_s1 (after r_s0 W)) (Proc.devRef .tc main_v6) = val_main_v6 (W (Proc.devRef .tc main_arg1)) :=
  (r_s1_keep (after r_s0 W) main_v6).trans (r_v6_1 W)
theorem r_v6_3 (W : Valuation τ sig (Elt F)) :
    (after r_l1 (after r_s1 (after r_s0 W))) (Proc.devRef .tc main_v6) = val_main_v6 (W (Proc.devRef .tc main_arg1)) :=
  (r_l1_keep (after r_s1 (after r_s0 W)) main_v6).trans (r_v6_2 W)
theorem r_v6_4 (W : Valuation τ sig (Elt F)) :
    (after r_l2 (after r_l1 (after r_s1 (after r_s0 W)))) (Proc.devRef .tc main_v6) = val_main_v6 (W (Proc.devRef .tc main_arg1)) :=
  (r_l2_keep (after r_l1 (after r_s1 (after r_s0 W))) main_v6).trans (r_v6_3 W)
theorem r_v6_5 (W : Valuation τ sig (Elt F)) :
    (after r_l3 (after r_l2 (after r_l1 (after r_s1 (after r_s0 W))))) (Proc.devRef .tc main_v6) = val_main_v6 (W (Proc.devRef .tc main_arg1)) :=
  (r_l3_keep (after r_l2 (after r_l1 (after r_s1 (after r_s0 W)))) main_v6).trans (r_v6_4 W)
theorem r_v6_6 (W : Valuation τ sig (Elt F)) :
    (after r_l4 (after r_l3 (after r_l2 (after r_l1 (after r_s1 (after r_s0 W)))))) (Proc.devRef .tc main_v6) = val_main_v6 (W (Proc.devRef .tc main_arg1)) :=
  (r_l4_keep (after r_l3 (after r_l2 (after r_l1 (after r_s1 (after r_s0 W))))) main_v6).trans (r_v6_5 W)
theorem r_v31_2 (W : Valuation τ sig (Elt F)) :
    (after r_s1 (after r_s0 W)) (Proc.devRef .tc main_v31) = val_main_v31 (W (Proc.devRef .tc main_arg1)) :=
  r_s1_v31 (after r_s0 W) (W (Proc.devRef .tc main_arg1)) (r_v3_1 W) (r_v6_1 W) (r_v16_1 W)
theorem r_v31_3 (W : Valuation τ sig (Elt F)) :
    (after r_l1 (after r_s1 (after r_s0 W))) (Proc.devRef .tc main_v31) = val_main_v31 (W (Proc.devRef .tc main_arg1)) :=
  (r_l1_keep (after r_s1 (after r_s0 W)) main_v31).trans (r_v31_2 W)
theorem r_v31_4 (W : Valuation τ sig (Elt F)) :
    (after r_l2 (after r_l1 (after r_s1 (after r_s0 W)))) (Proc.devRef .tc main_v31) = val_main_v31 (W (Proc.devRef .tc main_arg1)) :=
  (r_l2_keep (after r_l1 (after r_s1 (after r_s0 W))) main_v31).trans (r_v31_3 W)
theorem r_v31_5 (W : Valuation τ sig (Elt F)) :
    (after r_l3 (after r_l2 (after r_l1 (after r_s1 (after r_s0 W))))) (Proc.devRef .tc main_v31) = val_main_v31 (W (Proc.devRef .tc main_arg1)) :=
  (r_l3_keep (after r_l2 (after r_l1 (after r_s1 (after r_s0 W)))) main_v31).trans (r_v31_4 W)
theorem r_v31_6 (W : Valuation τ sig (Elt F)) :
    (after r_l4 (after r_l3 (after r_l2 (after r_l1 (after r_s1 (after r_s0 W)))))) (Proc.devRef .tc main_v31) = val_main_v31 (W (Proc.devRef .tc main_arg1)) :=
  (r_l4_keep (after r_l3 (after r_l2 (after r_l1 (after r_s1 (after r_s0 W))))) main_v31).trans (r_v31_5 W)
theorem r_v49_3 (W : Valuation τ sig (Elt F)) :
    (after r_l1 (after r_s1 (after r_s0 W))) (Proc.devRef .tc main_v49) = val_main_v49 (W (Proc.devRef .tc main_arg0)) (W (Proc.devRef .tc main_arg1)) (W (Proc.devRef .tc main_arg2)) (W (Proc.devRef .tc main_arg3)) :=
  r_l1_v49 (after r_s1 (after r_s0 W)) (W (Proc.devRef .tc main_arg0)) (W (Proc.devRef .tc main_arg1)) (W (Proc.devRef .tc main_arg2)) (W (Proc.devRef .tc main_arg3)) (r_keep2 W main_arg0) (r_keep2 W main_arg2) (r_keep2 W main_arg3) (r_v3_2 W) (r_v6_2 W) (r_v31_2 W)
theorem r_v49_4 (W : Valuation τ sig (Elt F)) :
    (after r_l2 (after r_l1 (after r_s1 (after r_s0 W)))) (Proc.devRef .tc main_v49) = val_main_v49 (W (Proc.devRef .tc main_arg0)) (W (Proc.devRef .tc main_arg1)) (W (Proc.devRef .tc main_arg2)) (W (Proc.devRef .tc main_arg3)) :=
  (r_l2_keep (after r_l1 (after r_s1 (after r_s0 W))) main_v49).trans (r_v49_3 W)
theorem r_v49_5 (W : Valuation τ sig (Elt F)) :
    (after r_l3 (after r_l2 (after r_l1 (after r_s1 (after r_s0 W))))) (Proc.devRef .tc main_v49) = val_main_v49 (W (Proc.devRef .tc main_arg0)) (W (Proc.devRef .tc main_arg1)) (W (Proc.devRef .tc main_arg2)) (W (Proc.devRef .tc main_arg3)) :=
  (r_l3_keep (after r_l2 (after r_l1 (after r_s1 (after r_s0 W)))) main_v49).trans (r_v49_4 W)
theorem r_v49_6 (W : Valuation τ sig (Elt F)) :
    (after r_l4 (after r_l3 (after r_l2 (after r_l1 (after r_s1 (after r_s0 W)))))) (Proc.devRef .tc main_v49) = val_main_v49 (W (Proc.devRef .tc main_arg0)) (W (Proc.devRef .tc main_arg1)) (W (Proc.devRef .tc main_arg2)) (W (Proc.devRef .tc main_arg3)) :=
  (r_l4_keep (after r_l3 (after r_l2 (after r_l1 (after r_s1 (after r_s0 W))))) main_v49).trans (r_v49_5 W)
theorem r_v67_4 (W : Valuation τ sig (Elt F)) :
    (after r_l2 (after r_l1 (after r_s1 (after r_s0 W)))) (Proc.devRef .tc main_v67) = val_main_v67 (W (Proc.devRef .tc main_arg0)) (W (Proc.devRef .tc main_arg1)) (W (Proc.devRef .tc main_arg2)) (W (Proc.devRef .tc main_arg3)) (W (Proc.devRef .tc main_arg4)) (W (Proc.devRef .tc main_arg5)) :=
  r_l2_v67 (after r_l1 (after r_s1 (after r_s0 W))) (W (Proc.devRef .tc main_arg0)) (W (Proc.devRef .tc main_arg1)) (W (Proc.devRef .tc main_arg2)) (W (Proc.devRef .tc main_arg3)) (W (Proc.devRef .tc main_arg4)) (W (Proc.devRef .tc main_arg5)) (r_v49_3 W) (r_keep3 W main_arg4) (r_keep3 W main_arg5) (r_v3_3 W) (r_v6_3 W) (r_v31_3 W)
theorem r_v67_5 (W : Valuation τ sig (Elt F)) :
    (after r_l3 (after r_l2 (after r_l1 (after r_s1 (after r_s0 W))))) (Proc.devRef .tc main_v67) = val_main_v67 (W (Proc.devRef .tc main_arg0)) (W (Proc.devRef .tc main_arg1)) (W (Proc.devRef .tc main_arg2)) (W (Proc.devRef .tc main_arg3)) (W (Proc.devRef .tc main_arg4)) (W (Proc.devRef .tc main_arg5)) :=
  (r_l3_keep (after r_l2 (after r_l1 (after r_s1 (after r_s0 W)))) main_v67).trans (r_v67_4 W)
theorem r_v67_6 (W : Valuation τ sig (Elt F)) :
    (after r_l4 (after r_l3 (after r_l2 (after r_l1 (after r_s1 (after r_s0 W)))))) (Proc.devRef .tc main_v67) = val_main_v67 (W (Proc.devRef .tc main_arg0)) (W (Proc.devRef .tc main_arg1)) (W (Proc.devRef .tc main_arg2)) (W (Proc.devRef .tc main_arg3)) (W (Proc.devRef .tc main_arg4)) (W (Proc.devRef .tc main_arg5)) :=
  (r_l4_keep (after r_l3 (after r_l2 (after r_l1 (after r_s1 (after r_s0 W))))) main_v67).trans (r_v67_5 W)
theorem r_v85_5 (W : Valuation τ sig (Elt F)) :
    (after r_l3 (after r_l2 (after r_l1 (after r_s1 (after r_s0 W))))) (Proc.devRef .tc main_v85) = val_main_v85 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  r_l3_v85 (after r_l2 (after r_l1 (after r_s1 (after r_s0 W)))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (r_v67_4 W) (r_keep4 W main_arg6) (r_keep4 W main_arg7) (r_v3_4 W) (r_v6_4 W) (r_v31_4 W)
theorem r_v85_6 (W : Valuation τ sig (Elt F)) :
    (after r_l4 (after r_l3 (after r_l2 (after r_l1 (after r_s1 (after r_s0 W)))))) (Proc.devRef .tc main_v85) = val_main_v85 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  (r_l4_keep (after r_l3 (after r_l2 (after r_l1 (after r_s1 (after r_s0 W))))) main_v85).trans (r_v85_5 W)
theorem r_v103_6 (W : Valuation τ sig (Elt F)) :
    (after r_l4 (after r_l3 (after r_l2 (after r_l1 (after r_s1 (after r_s0 W)))))) (Proc.devRef .tc main_v103) = val_main_v103 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) :=
  r_l4_v103 (after r_l3 (after r_l2 (after r_l1 (after r_s1 (after r_s0 W))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (r_v85_5 W) (r_keep5 W main_arg8) (r_keep5 W main_arg9) (r_v3_5 W) (r_v6_5 W) (r_v31_5 W)
theorem r_v108_7 (W : Valuation τ sig (Elt F)) :
    (after r_t (after r_l4 (after r_l3 (after r_l2 (after r_l1 (after r_s1 (after r_s0 W))))))) (Proc.devRef .tc main_v108) = val_main_v108 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  r_t_v108 (after r_l4 (after r_l3 (after r_l2 (after r_l1 (after r_s1 (after r_s0 W)))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (r_v49_6 W) (r_v67_6 W) (r_v85_6 W) (r_v103_6 W) (r_keep6 W main_arg10) (r_keep6 W main_arg11)

/-! ## The reference's result and its arguments after all of @main's operations -/

/-- After @main's 140 operations from any contents `W`, the result buffer holds the last stage of the contents of the
    twelve argument arrays. For any float values `F`. -/
theorem r_after_v108 (W : Valuation τ sig (Elt F)) :
    after (ValueP.ops (F := F)) W (Proc.devRef .tc main_v108) = val_main_v108 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [r_after_ops]; exact r_v108_7 W

/-- No operation writes argument 0. -/
theorem r_after_arg0 (W : Valuation τ sig (Elt F)) :
    after (ValueP.ops (F := F)) W (Proc.devRef .tc main_arg0) = W (Proc.devRef .tc main_arg0) := by
  rw [r_after_ops]; exact r_keep7 W main_arg0
/-- No operation writes argument 1. -/
theorem r_after_arg1 (W : Valuation τ sig (Elt F)) :
    after (ValueP.ops (F := F)) W (Proc.devRef .tc main_arg1) = W (Proc.devRef .tc main_arg1) := by
  rw [r_after_ops]; exact r_keep7 W main_arg1
/-- No operation writes argument 2. -/
theorem r_after_arg2 (W : Valuation τ sig (Elt F)) :
    after (ValueP.ops (F := F)) W (Proc.devRef .tc main_arg2) = W (Proc.devRef .tc main_arg2) := by
  rw [r_after_ops]; exact r_keep7 W main_arg2
/-- No operation writes argument 3. -/
theorem r_after_arg3 (W : Valuation τ sig (Elt F)) :
    after (ValueP.ops (F := F)) W (Proc.devRef .tc main_arg3) = W (Proc.devRef .tc main_arg3) := by
  rw [r_after_ops]; exact r_keep7 W main_arg3
/-- No operation writes argument 4. -/
theorem r_after_arg4 (W : Valuation τ sig (Elt F)) :
    after (ValueP.ops (F := F)) W (Proc.devRef .tc main_arg4) = W (Proc.devRef .tc main_arg4) := by
  rw [r_after_ops]; exact r_keep7 W main_arg4
/-- No operation writes argument 5. -/
theorem r_after_arg5 (W : Valuation τ sig (Elt F)) :
    after (ValueP.ops (F := F)) W (Proc.devRef .tc main_arg5) = W (Proc.devRef .tc main_arg5) := by
  rw [r_after_ops]; exact r_keep7 W main_arg5
/-- No operation writes argument 6. -/
theorem r_after_arg6 (W : Valuation τ sig (Elt F)) :
    after (ValueP.ops (F := F)) W (Proc.devRef .tc main_arg6) = W (Proc.devRef .tc main_arg6) := by
  rw [r_after_ops]; exact r_keep7 W main_arg6
/-- No operation writes argument 7. -/
theorem r_after_arg7 (W : Valuation τ sig (Elt F)) :
    after (ValueP.ops (F := F)) W (Proc.devRef .tc main_arg7) = W (Proc.devRef .tc main_arg7) := by
  rw [r_after_ops]; exact r_keep7 W main_arg7
/-- No operation writes argument 8. -/
theorem r_after_arg8 (W : Valuation τ sig (Elt F)) :
    after (ValueP.ops (F := F)) W (Proc.devRef .tc main_arg8) = W (Proc.devRef .tc main_arg8) := by
  rw [r_after_ops]; exact r_keep7 W main_arg8
/-- No operation writes argument 9. -/
theorem r_after_arg9 (W : Valuation τ sig (Elt F)) :
    after (ValueP.ops (F := F)) W (Proc.devRef .tc main_arg9) = W (Proc.devRef .tc main_arg9) := by
  rw [r_after_ops]; exact r_keep7 W main_arg9
/-- No operation writes argument 10. -/
theorem r_after_arg10 (W : Valuation τ sig (Elt F)) :
    after (ValueP.ops (F := F)) W (Proc.devRef .tc main_arg10) = W (Proc.devRef .tc main_arg10) := by
  rw [r_after_ops]; exact r_keep7 W main_arg10
/-- No operation writes argument 11. -/
theorem r_after_arg11 (W : Valuation τ sig (Elt F)) :
    after (ValueP.ops (F := F)) W (Proc.devRef .tc main_arg11) = W (Proc.devRef .tc main_arg11) := by
  rw [r_after_ops]; exact r_keep7 W main_arg11

end Cert.RefVal

end
-- ==== Proof.RefClaims.lean ====
/- The reference program's run: it terminates with its result buffer at the last stage of the launch contents of its twelve
   argument arrays, the arguments unchanged. From the run of the 140 operations as a fold of their results (`run_raw`)
   and the fold read at the result buffer and at each argument (`r_after_v108`, `r_after_argJ`). -/
import proofs.«152695_j35802847379839_1_alg».proof.Proof.RefVal

noncomputable section

namespace Cert.RefVal

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    reference's @main terminates with the result buffer at the last stage of the launch contents of the twelve
    argument arrays, and the argument arrays unchanged. -/
theorem r_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = ReadP.val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v108).trans (r_after_v108 (launchContents m c)),
      (h c main_arg0).trans (r_after_arg0 (launchContents m c)),
      (h c main_arg1).trans (r_after_arg1 (launchContents m c)),
      (h c main_arg2).trans (r_after_arg2 (launchContents m c)),
      (h c main_arg3).trans (r_after_arg3 (launchContents m c)),
      (h c main_arg4).trans (r_after_arg4 (launchContents m c)),
      (h c main_arg5).trans (r_after_arg5 (launchContents m c)),
      (h c main_arg6).trans (r_after_arg6 (launchContents m c)),
      (h c main_arg7).trans (r_after_arg7 (launchContents m c)),
      (h c main_arg8).trans (r_after_arg8 (launchContents m c)),
      (h c main_arg9).trans (r_after_arg9 (launchContents m c)),
      (h c main_arg10).trans (r_after_arg10 (launchContents m c)),
      (h c main_arg11).trans (r_after_arg11 (launchContents m c))⟩)
    (ValueP.run_raw m ρ)

end Cert.RefVal

end
-- ==== Proof.lean ====
/-
  The certificate's claim.  The kernel is a four-layer graph network: per layer a row-blocked matrix product on the
  device, a gather / scale / scatter-add over the edges on the host, and a row-blocked bias add with a maximum at zero
  on the device; then the four layer outputs side by side times a last matrix, plus a bias.  The reference computes the
  same with host matrix products and host adds.
  Frames: @main is twenty items (host stretches and nine regions); each region's body loads whole blocks and stores
  one whole block, so each item runs from "every buffer at the boundary's contents" to the next boundary's, and no
  item changes an argument array.  The reference is one line of host operations.
  Values, at the ideal instance: a change of float format is the identity, a matrix product into a zero accumulator is
  the plain sum over the contracted axis, adding a zero bias row changes nothing, and a block's rows are the array's
  rows at the block's offset, so each region's output array is the reference's matrix product, or its add and maximum,
  of the arrays the region finds; the host stretches are the reference's own operations.  Hence the kernel's result is
  the reference's result stage of the arguments, which is what the reference's run ends with.
-/
import proofs.«152695_j35802847379839_1_alg».proof.Defs
import proofs.«152695_j35802847379839_1_alg».proof.Proof.Gen.Kernel
import proofs.«152695_j35802847379839_1_alg».proof.Proof.Gen.KernelIdeal
import proofs.«152695_j35802847379839_1_alg».proof.Proof.Gen.ReferenceIdeal
import proofs.«152695_j35802847379839_1_alg».proof.Proof.Gen.Pre_finite_inputs
import proofs.«152695_j35802847379839_1_alg».proof.Proof.KB.Frame
import proofs.«152695_j35802847379839_1_alg».proof.Proof.KI.Value
import proofs.«152695_j35802847379839_1_alg».proof.Proof.RefClaims

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefVal.r_run (F := Ideal) m ρ)

/-- Both idealized programs end with the result at one function of the arguments: the reference's result stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v108 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Fr.value_run m ρ, ?_⟩
  refine (θ_run Cert.ReferenceIdeal.defs _ _).mono (fun _ h c => ⟨(h c).1.trans ?_, (h c).2⟩)
    (Cert.RefVal.r_run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
